-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S3x128 .f32) (main_arg14 : FVec F S3x128 .f32) (main_arg15 : FVec F S128x128 .f32) (main_arg16 : FVec F S128 .f32) (main_arg17 : FVec F S128x1 .f32) (main_arg18 : FVec F S1 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg14
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S3x128x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x128 .f32 := Host.absf main_arg11
  let main_cst_16 : FVec F S_ .f32 := constant S_ .f32 0x7F800000#32
  let main_v45 : FVec F S3x128x128 .f32 := broadcastInDim S3x128x128 ![] bcast_S_S3x128x128 main_cst_16
  let main_v46 : IVec S3x128x128 1 := cmpf .olt main_v44 main_v45
  let main_c_17 : IVec S_ 1 := constantI S_ 1 1#1
  let main_v47 : IVec S_ 1 := (fun x v => Host.reduce IntOp.andi x v reducesTo_S3x128x128_S_d0_1_2 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_arg15 main_arg16 main_arg17 main_arg18 main_v48 main_v49 main_v50

def fn_part1 {F : FTy → Type} [FloatOps F] (main_arg6 : FVec F S3x128 .f32) (main_arg7 : FVec F S3x128 .f32) (main_arg8 : FVec F S3x128 .f32) (main_arg9 : FVec F S3x128x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S128x128 .f32) (main_arg16 : FVec F S128 .f32) (main_arg17 : FVec F S128x1 .f32) (main_arg18 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S40000x128 .f32) (main_arg1 : IVec S2x640000 32) (main_arg2 : IVec S40000 32) (main_arg3 : FVec F S128x128 .f32) (main_arg4 : FVec F S128 .f32) (main_arg5 : FVec F S3x128x128 .f32) (main_arg6 : FVec F S3x128 .f32) (main_arg7 : FVec F S3x128 .f32) (main_arg8 : FVec F S3x128 .f32) (main_arg9 : FVec F S3x128x128 .f32) (main_arg10 : FVec F S3x128 .f32) (main_arg11 : FVec F S3x128x128 .f32) (main_arg12 : FVec F S3x128 .f32) (main_arg13 : FVec F S3x128 .f32) (main_arg14 : FVec F S3x128 .f32) (main_arg15 : FVec F S128x128 .f32) (main_arg16 : FVec F S128 .f32) (main_arg17 : FVec F S128x1 .f32) (main_arg18 : FVec F S1 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S2000x128 : Shape := ⟨2, ![2000, 128]⟩
abbrev S1x128 : Shape := ⟨2, ![1, 128]⟩
abbrev S1x128x128 : Shape := ⟨3, ![1, 128, 128]⟩
abbrev S640000x128 : Shape := ⟨2, ![640000, 128]⟩
abbrev S40000x1 : Shape := ⟨2, ![40000, 1]⟩
abbrev S2000 : Shape := ⟨1, ![2000]⟩
abbrev S2000x1 : Shape := ⟨2, ![2000, 1]⟩
abbrev S64 : Shape := ⟨1, ![64]⟩
abbrev S64x128 : Shape := ⟨2, ![64, 128]⟩
abbrev S64x1 : Shape := ⟨2, ![64, 1]⟩
abbrev S1x1 : Shape := ⟨2, ![1, 1]⟩

abbrev nBuf : Space → Nat
  | .hbm => 201
  | .vmem => 52
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S3x128x128, .f32⟩
  | 12 => ⟨S3x128, .f32⟩
  | 13 => ⟨S3x128, .f32⟩
  | 14 => ⟨S3x128, .f32⟩
  | 15 => ⟨S128x128, .f32⟩
  | 16 => ⟨S128, .f32⟩
  | 17 => ⟨S128x1, .f32⟩
  | 18 => ⟨S1, .f32⟩
  | 19 => ⟨S1x640000, .i32⟩
  | 20 => ⟨S640000, .i32⟩
  | 21 => ⟨S1x640000, .i32⟩
  | 22 => ⟨S640000, .i32⟩
  | 23 => ⟨S_, .f32⟩
  | 24 => ⟨S640000, .f32⟩
  | 25 => ⟨S_, .f32⟩
  | 26 => ⟨S40000, .f32⟩
  | 27 => ⟨S640000x1, .i32⟩
  | 28 => ⟨S40000, .f32⟩
  | 29 => ⟨S_, .f32⟩
  | 30 => ⟨S40000, .f32⟩
  | 31 => ⟨S40000, .f32⟩
  | 32 => ⟨S40000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000, .f32⟩
  | 51 => ⟨S640000, .f32⟩
  | 52 => ⟨S40000, .f32⟩
  | 53 => ⟨S40000x128, .f32⟩
  | 54 => ⟨S_, .f32⟩
  | 55 => ⟨S128, .f32⟩
  | 56 => ⟨S1x128x128, .f32⟩
  | 57 => ⟨S128x128, .f32⟩
  | 58 => ⟨S40000x128, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S640000x128, .f32⟩
  | 68 => ⟨S640000x1, .f32⟩
  | 69 => ⟨S640000x128, .f32⟩
  | 70 => ⟨S640000x128, .f32⟩
  | 71 => ⟨S_, .f32⟩
  | 72 => ⟨S40000x128, .f32⟩
  | 73 => ⟨S640000x1, .i32⟩
  | 74 => ⟨S40000x128, .f32⟩
  | 75 => ⟨S40000x1, .f32⟩
  | 76 => ⟨S40000x128, .f32⟩
  | 77 => ⟨S40000x128, .f32⟩
  | 78 => ⟨S40000x128, .f32⟩
  | 79 => ⟨S1x128, .f32⟩
  | 80 => ⟨S128, .f32⟩
  | 81 => ⟨S1x128, .f32⟩
  | 82 => ⟨S40000x128, .f32⟩
  | 83 => ⟨S40000x128, .f32⟩
  | 84 => ⟨S1x128, .f32⟩
  | 85 => ⟨S128, .f32⟩
  | 86 => ⟨S1x128, .f32⟩
  | 87 => ⟨S128, .f32⟩
  | 88 => ⟨S1x128x128, .f32⟩
  | 89 => ⟨S128x128, .f32⟩
  | 90 => ⟨S1x128, .f32⟩
  | 91 => ⟨S128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S128, .f32⟩
  | 98 => ⟨S1x128, .f32⟩
  | 99 => ⟨S128, .f32⟩
  | 100 => ⟨S40000x128, .f32⟩
  | 101 => ⟨S1x128x128, .f32⟩
  | 102 => ⟨S128x128, .f32⟩
  | 103 => ⟨S40000x128, .f32⟩
  | 104 => ⟨S_, .i32⟩
  | 105 => ⟨S640000, .i32⟩
  | 106 => ⟨S640000, .i1⟩
  | 107 => ⟨S_, .i32⟩
  | 108 => ⟨S640000, .i32⟩
  | 109 => ⟨S640000, .i32⟩
  | 110 => ⟨S640000, .i32⟩
  | 111 => ⟨S640000x1, .i32⟩
  | 112 => ⟨S640000x128, .f32⟩
  | 113 => ⟨S640000x1, .f32⟩
  | 114 => ⟨S640000x128, .f32⟩
  | 115 => ⟨S640000x128, .f32⟩
  | 116 => ⟨S_, .f32⟩
  | 117 => ⟨S40000x128, .f32⟩
  | 118 => ⟨S640000x1, .i32⟩
  | 119 => ⟨S40000x128, .f32⟩
  | 120 => ⟨S40000x1, .f32⟩
  | 121 => ⟨S40000x128, .f32⟩
  | 122 => ⟨S40000x128, .f32⟩
  | 123 => ⟨S40000x128, .f32⟩
  | 124 => ⟨S1x128, .f32⟩
  | 125 => ⟨S128, .f32⟩
  | 126 => ⟨S1x128, .f32⟩
  | 127 => ⟨S40000x128, .f32⟩
  | _ => ⟨S40000x128, .f32⟩

abbrev hbmTy0_1 (i : Nat) : BufTy := match i % 128 with
  | 0 => ⟨S40000x128, .f32⟩
  | 1 => ⟨S1x128, .f32⟩
  | 2 => ⟨S128, .f32⟩
  | 3 => ⟨S1x128, .f32⟩
  | 4 => ⟨S128, .f32⟩
  | 5 => ⟨S1x128x128, .f32⟩
  | 6 => ⟨S128x128, .f32⟩
  | 7 => ⟨S1x128, .f32⟩
  | 8 => ⟨S128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S40000x128, .f32⟩
  | 18 => ⟨S1x128x128, .f32⟩
  | 19 => ⟨S128x128, .f32⟩
  | 20 => ⟨S40000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S640000x1, .f32⟩
  | 31 => ⟨S640000x128, .f32⟩
  | 32 => ⟨S640000x128, .f32⟩
  | 33 => ⟨S_, .f32⟩
  | 34 => ⟨S40000x128, .f32⟩
  | 35 => ⟨S640000x1, .i32⟩
  | 36 => ⟨S40000x128, .f32⟩
  | 37 => ⟨S40000x1, .f32⟩
  | 38 => ⟨S40000x128, .f32⟩
  | 39 => ⟨S40000x128, .f32⟩
  | 40 => ⟨S40000x128, .f32⟩
  | 41 => ⟨S1x128, .f32⟩
  | 42 => ⟨S128, .f32⟩
  | 43 => ⟨S1x128, .f32⟩
  | 44 => ⟨S40000x128, .f32⟩
  | 45 => ⟨S40000x128, .f32⟩
  | 46 => ⟨S_, .f32⟩
  | 47 => ⟨S40000, .f32⟩
  | 48 => ⟨S_, .f32⟩
  | 49 => ⟨S64, .f32⟩
  | 50 => ⟨S40000x1, .i32⟩
  | 51 => ⟨S64, .f32⟩
  | 52 => ⟨S_, .f32⟩
  | 53 => ⟨S64x128, .f32⟩
  | 54 => ⟨S40000x1, .i32⟩
  | 55 => ⟨S64x128, .f32⟩
  | 56 => ⟨S_, .f32⟩
  | 57 => ⟨S64, .f32⟩
  | 58 => ⟨S64, .f32⟩
  | 59 => ⟨S64x1, .f32⟩
  | 60 => ⟨S64x128, .f32⟩
  | 61 => ⟨S64x128, .f32⟩
  | 62 => ⟨S64x128, .f32⟩
  | 63 => ⟨S1x128, .f32⟩
  | 64 => ⟨S64x128, .f32⟩
  | 65 => ⟨S64x128, .f32⟩
  | 66 => ⟨S_, .f32⟩
  | 67 => ⟨S64x128, .f32⟩
  | 68 => ⟨S64x128, .f32⟩
  | 69 => ⟨S64x1, .f32⟩
  | 70 => ⟨S1x1, .f32⟩
  | 71 => ⟨S64x1, .f32⟩
  | 72 => ⟨S64x1, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128, .f32⟩
  | .local _ .vmem, ⟨17, _⟩ => ⟨S128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S128x128, .f32⟩
  | .local _ .vmem, ⟨29, _⟩ => ⟨S128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S128, .f32⟩
  | .local _ .vmem, ⟨37, _⟩ => ⟨S128, .f32⟩
  | .local _ .vmem, ⟨38, _⟩ => ⟨S128x128, .f32⟩
  | .local _ .vmem, ⟨39, _⟩ => ⟨S128, .f32⟩
  | .local _ .vmem, ⟨40, _⟩ => ⟨S128x128, .f32⟩
  | .local _ .vmem, ⟨41, _⟩ => ⟨S128, .f32⟩
  | .local _ .vmem, ⟨42, _⟩ => ⟨S128, .f32⟩
  | .local _ .vmem, ⟨43, _⟩ => ⟨S128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S128x128, .f32⟩
  | .local _ .vmem, ⟨49, _⟩ => ⟨S128, .f32⟩
  | .local _ .vmem, ⟨50, _⟩ => ⟨S2000x128, .f32⟩
  | .local _ .vmem, ⟨51, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_5 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_c_6 : Ref sig .tc := ⟨.hbm, 59, rfl⟩
abbrev main_v32 : Ref sig .tc := ⟨.hbm, 60, rfl⟩
abbrev main_v33 : Ref sig .tc := ⟨.hbm, 61, rfl⟩
abbrev main_c_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_9 : Ref sig .tc := ⟨.hbm, 104, rfl⟩
abbrev main_v74 : Ref sig .tc := ⟨.hbm, 105, rfl⟩
abbrev main_v75 : Ref sig .tc := ⟨.hbm, 106, rfl⟩
abbrev main_c_10 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_11 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_c_12 : Ref sig .tc := ⟨.hbm, 149, rfl⟩
abbrev main_v116 : Ref sig .tc := ⟨.hbm, 150, rfl⟩
abbrev main_v117 : Ref sig .tc := ⟨.hbm, 151, rfl⟩
abbrev main_c_13 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_14 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_cst_15 : Ref sig .tc := ⟨.hbm, 174, rfl⟩
abbrev main_v138 : Ref sig .tc := ⟨.hbm, 175, rfl⟩
abbrev main_cst_16 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_cst_17 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_18 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_call0_cst : Ref sig .tc := ⟨.hbm, 194, rfl⟩
abbrev main_call0_v0 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg7_0 : Ref sig .tc := ⟨.vmem, 21, rfl⟩
abbrev cc2_stg8_0 : Ref sig .tc := ⟨.vmem, 22, rfl⟩
abbrev cc2_stg9_0 : Ref sig .tc := ⟨.vmem, 23, rfl⟩
abbrev cc2_stg10_0 : Ref sig .tc := ⟨.vmem, 24, rfl⟩
abbrev cc2_stg10_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg7_0 : Ref sig .tc := ⟨.vmem, 41, rfl⟩
abbrev cc4_stg8_0 : Ref sig .tc := ⟨.vmem, 42, rfl⟩
abbrev cc4_stg9_0 : Ref sig .tc := ⟨.vmem, 43, rfl⟩
abbrev cc4_stg10_0 : Ref sig .tc := ⟨.vmem, 44, rfl⟩
abbrev cc4_stg10_1 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem10_0 : DmaSem sig := 24
abbrev cc2_sem10_1 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem8_0 : DmaSem sig := 42
abbrev cc4_sem9_0 : DmaSem sig := 43
abbrev cc4_sem10_0 : DmaSem sig := 44
abbrev cc4_sem10_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem3_1 : DmaSem sig := 51

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_8 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_9 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2000x128 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  shapeCasts_S128x128_S128x128 : S128x128.ShapeCasts S128x128
  shapeCasts_S128_S128 : S128.ShapeCasts S128
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  reduces_S2000x128_S2000 : S2000x128.Reduces [1] S2000
  shapeCasts_S2000_S2000x1 : S2000.ShapeCasts S2000x1
  broadcasts_S2000x1_S2000x128 : S2000x1.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S2000x128_S128x128_S2000x128_1_0_0_1_n_n_wf : DotDims.WF S2000x128 S128x128 S2000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S40000x128.size a
  hwx0_3 : ∀ i : grid0.Coords, EltTy.bits .f32 = 32 ∨ (Rect.block (s := S40000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S40000x128.size a
  hwx1_3 : ∀ i : grid1.Coords, EltTy.bits .f32 = 32 ∨ (Rect.block (s := S40000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S40000x128.size a
  hwx2_0 : ∀ i : grid2.Coords, EltTy.bits .f32 = 32 ∨ (Rect.block (s := S40000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S40000x128.size a
  hwx2_1 : ∀ i : grid2.Coords, EltTy.bits .f32 = 32 ∨ (Rect.block (s := S40000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128.size a ≤ S128.size a
  hwx2_9 : ∀ i : grid2.Coords, EltTy.bits .f32 = 32 ∨ (Rect.block (s := S128) S128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x128.size a ≤ S40000x128.size a
  hwx2_10 : ∀ i : grid2.Coords, EltTy.bits .f32 = 32 ∨ (Rect.block (s := S40000x128) S2000x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S40000x128.size a
  hwx3_0 : ∀ i : grid3.Coords, EltTy.bits .f32 = 32 ∨ (Rect.block (s := S40000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S40000x128.size a
  hwx3_3 : ∀ i : grid3.Coords, EltTy.bits .f32 = 32 ∨ (Rect.block (s := S40000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S40000x128.size a
  hwx4_0 : ∀ i : grid4.Coords, EltTy.bits .f32 = 32 ∨ (Rect.block (s := S40000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S40000x128.size a
  hwx4_1 : ∀ i : grid4.Coords, EltTy.bits .f32 = 32 ∨ (Rect.block (s := S40000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S128.size a ≤ S128.size a
  hwx4_7 : ∀ i : grid4.Coords, EltTy.bits .f32 = 32 ∨ (Rect.block (s := S128) S128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S128.size a ≤ S128.size a
  hwx4_8 : ∀ i : grid4.Coords, EltTy.bits .f32 = 32 ∨ (Rect.block (s := S128) S128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128.size a ≤ S128.size a
  hwx4_9 : ∀ i : grid4.Coords, EltTy.bits .f32 = 32 ∨ (Rect.block (s := S128) S128.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2000x128.size a ≤ S40000x128.size a
  hwx4_10 : ∀ i : grid4.Coords, EltTy.bits .f32 = 32 ∨ (Rect.block (s := S40000x128) S2000x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S40000x128.size a
  hwx5_0 : ∀ i : grid5.Coords, EltTy.bits .f32 = 32 ∨ (Rect.block (s := S40000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S40000x128.size a
  hwx5_3 : ∀ i : grid5.Coords, EltTy.bits .f32 = 32 ∨ (Rect.block (s := S40000x128) S2000x128.size (cc5_transform_3 i) (hinb5_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v61) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v67) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v69) S128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v70) S2000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v70) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v95) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v97) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v99) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v103) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v105) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v107) S128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v109) S128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v111) S128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v112) S2000x128.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v112) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v114) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v28) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v115) S2000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S1x128x128 : Shape := ⟨3, ![1, 128, 128]⟩
abbrev S640000x128 : Shape := ⟨2, ![640000, 128]⟩
abbrev S40000x1 : Shape := ⟨2, ![40000, 1]⟩
abbrev S64 : Shape := ⟨1, ![64]⟩
abbrev S64x128 : Shape := ⟨2, ![64, 128]⟩
abbrev S64x1 : Shape := ⟨2, ![64, 1]⟩
abbrev S1x1 : Shape := ⟨2, ![1, 1]⟩

abbrev nBuf : Space → Nat
  | .hbm => 408
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x128, .f32⟩
  | 4 => ⟨S128, .f32⟩
  | 5 => ⟨S3x128x128, .f32⟩
  | 6 => ⟨S3x128, .f32⟩
  | 7 => ⟨S3x128, .f32⟩
  | 8 => ⟨S3x128, .f32⟩
  | 9 => ⟨S3x128x128, .f32⟩
  | 10 => ⟨S3x128, .f32⟩
  | 11 => ⟨S3x128x128, .f32⟩
  | 12 => ⟨S3x128, .f32⟩
  | 13 => ⟨S3x128, .f32⟩
  | 14 => ⟨S3x128, .f32⟩
  | 15 => ⟨S128x128, .f32⟩
  | 16 => ⟨S128, .f32⟩
  | 17 => ⟨S128x1, .f32⟩
  | 18 => ⟨S1, .f32⟩
  | 19 => ⟨S1x640000, .i32⟩
  | 20 => ⟨S640000, .i32⟩
  | 21 => ⟨S1x640000, .i32⟩
  | 22 => ⟨S640000, .i32⟩
  | 23 => ⟨S_, .f32⟩
  | 24 => ⟨S640000, .f32⟩
  | 25 => ⟨S_, .f32⟩
  | 26 => ⟨S40000, .f32⟩
  | 27 => ⟨S640000x1, .i32⟩
  | 28 => ⟨S40000, .f32⟩
  | 29 => ⟨S_, .f32⟩
  | 30 => ⟨S40000, .f32⟩
  | 31 => ⟨S40000, .f32⟩
  | 32 => ⟨S40000, .f32⟩
  | 33 => ⟨S_, .i32⟩
  | 34 => ⟨S640000, .i32⟩
  | 35 => ⟨S640000, .i1⟩
  | 36 => ⟨S_, .i32⟩
  | 37 => ⟨S640000, .i32⟩
  | 38 => ⟨S640000, .i32⟩
  | 39 => ⟨S640000, .i32⟩
  | 40 => ⟨S640000x1, .i32⟩
  | 41 => ⟨S640000, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S640000, .f32⟩
  | 51 => ⟨S640000, .f32⟩
  | 52 => ⟨S40000, .f32⟩
  | 53 => ⟨S40000x128, .f32⟩
  | 54 => ⟨S1x128, .f32⟩
  | 55 => ⟨S40000x128, .f32⟩
  | 56 => ⟨S40000x128, .f32⟩
  | 57 => ⟨S1x128x128, .f32⟩
  | 58 => ⟨S128x128, .f32⟩
  | 59 => ⟨S40000x128, .f32⟩
  | 60 => ⟨S_, .i32⟩
  | 61 => ⟨S640000, .i32⟩
  | 62 => ⟨S640000, .i1⟩
  | 63 => ⟨S_, .i32⟩
  | 64 => ⟨S640000, .i32⟩
  | 65 => ⟨S640000, .i32⟩
  | 66 => ⟨S640000, .i32⟩
  | 67 => ⟨S640000x1, .i32⟩
  | 68 => ⟨S640000x128, .f32⟩
  | 69 => ⟨S640000x1, .f32⟩
  | 70 => ⟨S640000x128, .f32⟩
  | 71 => ⟨S640000x128, .f32⟩
  | 72 => ⟨S_, .f32⟩
  | 73 => ⟨S40000x128, .f32⟩
  | 74 => ⟨S640000x1, .i32⟩
  | 75 => ⟨S40000x128, .f32⟩
  | 76 => ⟨S40000x1, .f32⟩
  | 77 => ⟨S40000x128, .f32⟩
  | 78 => ⟨S40000x128, .f32⟩
  | 79 => ⟨S40000x128, .f32⟩
  | 80 => ⟨S1x128, .f32⟩
  | 81 => ⟨S128, .f32⟩
  | 82 => ⟨S1x128, .f32⟩
  | 83 => ⟨S40000x128, .f32⟩
  | 84 => ⟨S40000x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S40000, .f32⟩
  | 91 => ⟨S40000x1, .f32⟩
  | 92 => ⟨S_, .f32⟩
  | 93 => ⟨S40000x1, .f32⟩
  | 94 => ⟨S40000x1, .f32⟩
  | 95 => ⟨S_, .i32⟩
  | 96 => ⟨S_, .f32⟩
  | 97 => ⟨S40000, .f32⟩
  | 98 => ⟨S40000x1, .f32⟩
  | 99 => ⟨S_, .f32⟩
  | 100 => ⟨S40000x1, .f32⟩
  | 101 => ⟨S40000x1, .f32⟩
  | 102 => ⟨S40000x128, .f32⟩
  | 103 => ⟨S40000x128, .f32⟩
  | 104 => ⟨S40000x128, .f32⟩
  | 105 => ⟨S_, .f32⟩
  | 106 => ⟨S_, .f32⟩
  | 107 => ⟨S_, .f32⟩
  | 108 => ⟨S_, .f32⟩
  | 109 => ⟨S40000, .f32⟩
  | 110 => ⟨S40000x1, .f32⟩
  | 111 => ⟨S40000x1, .f32⟩
  | 112 => ⟨S40000x1, .f32⟩
  | 113 => ⟨S_, .f32⟩
  | 114 => ⟨S_, .i1⟩
  | 115 => ⟨S_, .f32⟩
  | 116 => ⟨S_, .f32⟩
  | 117 => ⟨S40000x1, .f32⟩
  | 118 => ⟨S40000x1, .f32⟩
  | 119 => ⟨S40000x128, .f32⟩
  | 120 => ⟨S40000x128, .f32⟩
  | 121 => ⟨S_, .f32⟩
  | 122 => ⟨S40000x1, .f32⟩
  | 123 => ⟨S40000x1, .f32⟩
  | 124 => ⟨S40000x1, .f32⟩
  | 125 => ⟨S40000x128, .f32⟩
  | 126 => ⟨S40000x128, .f32⟩
  | 127 => ⟨S1x128, .f32⟩
  | _ => ⟨S40000x128, .f32⟩

abbrev hbmTy0_1 (i : Nat) : BufTy := match i % 128 with
  | 0 => ⟨S40000x128, .f32⟩
  | 1 => ⟨S40000x128, .f32⟩
  | 2 => ⟨S1x128, .f32⟩
  | 3 => ⟨S40000x128, .f32⟩
  | 4 => ⟨S40000x128, .f32⟩
  | 5 => ⟨S_, .f32⟩
  | 6 => ⟨S40000x128, .f32⟩
  | 7 => ⟨S40000x128, .f32⟩
  | 8 => ⟨S40000x128, .f32⟩
  | 9 => ⟨S1x128x128, .f32⟩
  | 10 => ⟨S128x128, .f32⟩
  | 11 => ⟨S40000x128, .f32⟩
  | 12 => ⟨S1x128, .f32⟩
  | 13 => ⟨S128, .f32⟩
  | 14 => ⟨S1x128, .f32⟩
  | 15 => ⟨S40000x128, .f32⟩
  | 16 => ⟨S40000x128, .f32⟩
  | 17 => ⟨S_, .f32⟩
  | 18 => ⟨S40000x128, .f32⟩
  | 19 => ⟨S40000x128, .f32⟩
  | 20 => ⟨S1x128x128, .f32⟩
  | 21 => ⟨S128x128, .f32⟩
  | 22 => ⟨S40000x128, .f32⟩
  | 23 => ⟨S1x128, .f32⟩
  | 24 => ⟨S128, .f32⟩
  | 25 => ⟨S1x128, .f32⟩
  | 26 => ⟨S40000x128, .f32⟩
  | 27 => ⟨S40000x128, .f32⟩
  | 28 => ⟨S40000x128, .f32⟩
  | 29 => ⟨S1x128, .f32⟩
  | 30 => ⟨S128, .f32⟩
  | 31 => ⟨S1x128, .f32⟩
  | 32 => ⟨S128, .f32⟩
  | 33 => ⟨S_, .f32⟩
  | 34 => ⟨S40000, .f32⟩
  | 35 => ⟨S40000x1, .f32⟩
  | 36 => ⟨S_, .f32⟩
  | 37 => ⟨S40000x1, .f32⟩
  | 38 => ⟨S40000x1, .f32⟩
  | 39 => ⟨S_, .i32⟩
  | 40 => ⟨S_, .f32⟩
  | 41 => ⟨S40000, .f32⟩
  | 42 => ⟨S40000x1, .f32⟩
  | 43 => ⟨S_, .f32⟩
  | 44 => ⟨S40000x1, .f32⟩
  | 45 => ⟨S40000x1, .f32⟩
  | 46 => ⟨S40000x128, .f32⟩
  | 47 => ⟨S40000x128, .f32⟩
  | 48 => ⟨S40000x128, .f32⟩
  | 49 => ⟨S_, .f32⟩
  | 50 => ⟨S_, .f32⟩
  | 51 => ⟨S_, .f32⟩
  | 52 => ⟨S_, .f32⟩
  | 53 => ⟨S40000, .f32⟩
  | 54 => ⟨S40000x1, .f32⟩
  | 55 => ⟨S40000x1, .f32⟩
  | 56 => ⟨S40000x1, .f32⟩
  | 57 => ⟨S_, .f32⟩
  | 58 => ⟨S_, .i1⟩
  | 59 => ⟨S_, .f32⟩
  | 60 => ⟨S_, .f32⟩
  | 61 => ⟨S40000x1, .f32⟩
  | 62 => ⟨S40000x1, .f32⟩
  | 63 => ⟨S40000x128, .f32⟩
  | 64 => ⟨S40000x128, .f32⟩
  | 65 => ⟨S_, .f32⟩
  | 66 => ⟨S40000x1, .f32⟩
  | 67 => ⟨S40000x1, .f32⟩
  | 68 => ⟨S40000x1, .f32⟩
  | 69 => ⟨S40000x128, .f32⟩
  | 70 => ⟨S40000x128, .f32⟩
  | 71 => ⟨S1x128, .f32⟩
  | 72 => ⟨S40000x128, .f32⟩
  | 73 => ⟨S40000x128, .f32⟩
  | 74 => ⟨S1x128, .f32⟩
  | 75 => ⟨S40000x128, .f32⟩
  | 76 => ⟨S40000x128, .f32⟩
  | 77 => ⟨S1x128x128, .f32⟩
  | 78 => ⟨S128x128, .f32⟩
  | 79 => ⟨S40000x128, .f32⟩
  | 80 => ⟨S_, .i32⟩
  | 81 => ⟨S640000, .i32⟩
  | 82 => ⟨S640000, .i1⟩
  | 83 => ⟨S_, .i32⟩
  | 84 => ⟨S640000, .i32⟩
  | 85 => ⟨S640000, .i32⟩
  | 86 => ⟨S640000, .i32⟩
  | 87 => ⟨S640000x1, .i32⟩
  | 88 => ⟨S640000x128, .f32⟩
  | 89 => ⟨S640000x1, .f32⟩
  | 90 => ⟨S640000x128, .f32⟩
  | 91 => ⟨S640000x128, .f32⟩
  | 92 => ⟨S_, .f32⟩
  | 93 => ⟨S40000x128, .f32⟩
  | 94 => ⟨S640000x1, .i32⟩
  | 95 => ⟨S40000x128, .f32⟩
  | 96 => ⟨S40000x1, .f32⟩
  | 97 => ⟨S40000x128, .f32⟩
  | 98 => ⟨S40000x128, .f32⟩
  | 99 => ⟨S40000x128, .f32⟩
  | 100 => ⟨S1x128, .f32⟩
  | 101 => ⟨S128, .f32⟩
  | 102 => ⟨S1x128, .f32⟩
  | 103 => ⟨S40000x128, .f32⟩
  | 104 => ⟨S40000x128, .f32⟩
  | 105 => ⟨S1x128, .f32⟩
  | 106 => ⟨S128, .f32⟩
  | 107 => ⟨S1x128, .f32⟩
  | 108 => ⟨S128, .f32⟩
  | 109 => ⟨S_, .f32⟩
  | 110 => ⟨S40000, .f32⟩
  | 111 => ⟨S40000x1, .f32⟩
  | 112 => ⟨S_, .f32⟩
  | 113 => ⟨S40000x1, .f32⟩
  | 114 => ⟨S40000x1, .f32⟩
  | 115 => ⟨S_, .i32⟩
  | 116 => ⟨S_, .f32⟩
  | 117 => ⟨S40000, .f32⟩
  | 118 => ⟨S40000x1, .f32⟩
  | 119 => ⟨S_, .f32⟩
  | 120 => ⟨S40000x1, .f32⟩
  | 121 => ⟨S40000x1, .f32⟩
  | 122 => ⟨S40000x128, .f32⟩
  | 123 => ⟨S40000x128, .f32⟩
  | 124 => ⟨S40000x128, .f32⟩
  | 125 => ⟨S_, .f32⟩
  | 126 => ⟨S_, .f32⟩
  | 127 => ⟨S_, .f32⟩
  | _ => ⟨S40000x128, .f32⟩

abbrev hbmTy0_2 (i : Nat) : BufTy := match i % 128 with
  | 0 => ⟨S_, .f32⟩
  | 1 => ⟨S40000, .f32⟩
  | 2 => ⟨S40000x1, .f32⟩
  | 3 => ⟨S40000x1, .f32⟩
  | 4 => ⟨S40000x1, .f32⟩
  | 5 => ⟨S_, .f32⟩
  | 6 => ⟨S_, .i1⟩
  | 7 => ⟨S_, .f32⟩
  | 8 => ⟨S_, .f32⟩
  | 9 => ⟨S40000x1, .f32⟩
  | 10 => ⟨S40000x1, .f32⟩
  | 11 => ⟨S40000x128, .f32⟩
  | 12 => ⟨S40000x128, .f32⟩
  | 13 => ⟨S_, .f32⟩
  | 14 => ⟨S40000x1, .f32⟩
  | 15 => ⟨S40000x1, .f32⟩
  | 16 => ⟨S40000x1, .f32⟩
  | 17 => ⟨S40000x128, .f32⟩
  | 18 => ⟨S40000x128, .f32⟩
  | 19 => ⟨S1x128, .f32⟩
  | 20 => ⟨S40000x128, .f32⟩
  | 21 => ⟨S40000x128, .f32⟩
  | 22 => ⟨S1x128, .f32⟩
  | 23 => ⟨S40000x128, .f32⟩
  | 24 => ⟨S40000x128, .f32⟩
  | 25 => ⟨S_, .f32⟩
  | 26 => ⟨S40000x128, .f32⟩
  | 27 => ⟨S40000x128, .f32⟩
  | 28 => ⟨S40000x128, .f32⟩
  | 29 => ⟨S1x128x128, .f32⟩
  | 30 => ⟨S128x128, .f32⟩
  | 31 => ⟨S40000x128, .f32⟩
  | 32 => ⟨S1x128, .f32⟩
  | 33 => ⟨S128, .f32⟩
  | 34 => ⟨S1x128, .f32⟩
  | 35 => ⟨S40000x128, .f32⟩
  | 36 => ⟨S40000x128, .f32⟩
  | 37 => ⟨S_, .f32⟩
  | 38 => ⟨S40000x128, .f32⟩
  | 39 => ⟨S40000x128, .f32⟩
  | 40 => ⟨S1x128x128, .f32⟩
  | 41 => ⟨S128x128, .f32⟩
  | 42 => ⟨S40000x128, .f32⟩
  | 43 => ⟨S1x128, .f32⟩
  | 44 => ⟨S128, .f32⟩
  | 45 => ⟨S1x128, .f32⟩
  | 46 => ⟨S40000x128, .f32⟩
  | 47 => ⟨S40000x128, .f32⟩
  | 48 => ⟨S40000x128, .f32⟩
  | 49 => ⟨S1x128, .f32⟩
  | 50 => ⟨S128, .f32⟩
  | 51 => ⟨S1x128, .f32⟩
  | 52 => ⟨S128, .f32⟩
  | 53 => ⟨S_, .f32⟩
  | 54 => ⟨S40000, .f32⟩
  | 55 => ⟨S40000x1, .f32⟩
  | 56 => ⟨S_, .f32⟩
  | 57 => ⟨S40000x1, .f32⟩
  | 58 => ⟨S40000x1, .f32⟩
  | 59 => ⟨S_, .i32⟩
  | 60 => ⟨S_, .f32⟩
  | 61 => ⟨S40000, .f32⟩
  | 62 => ⟨S40000x1, .f32⟩
  | 63 => ⟨S_, .f32⟩
  | 64 => ⟨S40000x1, .f32⟩
  | 65 => ⟨S40000x1, .f32⟩
  | 66 => ⟨S40000x128, .f32⟩
  | 67 => ⟨S40000x128, .f32⟩
  | 68 => ⟨S40000x128, .f32⟩
  | 69 => ⟨S_, .f32⟩
  | 70 => ⟨S_, .f32⟩
  | 71 => ⟨S_, .f32⟩
  | 72 => ⟨S_, .f32⟩
  | 73 => ⟨S40000, .f32⟩
  | 74 => ⟨S40000x1, .f32⟩
  | 75 => ⟨S40000x1, .f32⟩
  | 76 => ⟨S40000x1, .f32⟩
  | 77 => ⟨S_, .f32⟩
  | 78 => ⟨S_, .i1⟩
  | 79 => ⟨S_, .f32⟩
  | 80 => ⟨S_, .f32⟩
  | 81 => ⟨S40000x1, .f32⟩
  | 82 => ⟨S40000x1, .f32⟩
  | 83 => ⟨S40000x128, .f32⟩
  | 84 => ⟨S40000x128, .f32⟩
  | 85 => ⟨S_, .f32⟩
  | 86 => ⟨S40000x1, .f32⟩
  | 87 => ⟨S40000x1, .f32⟩
  | 88 => ⟨S40000x1, .f32⟩
  | 89 => ⟨S40000x128, .f32⟩
  | 90 => ⟨S40000x128, .f32⟩
  | 91 => ⟨S1x128, .f32⟩
  | 92 => ⟨S40000x128, .f32⟩
  | 93 => ⟨S40000x128, .f32⟩
  | 94 => ⟨S1x128, .f32⟩
  | 95 => ⟨S40000x128, .f32⟩
  | 96 => ⟨S40000x128, .f32⟩
  | 97 => ⟨S1x128x128, .f32⟩
  | 98 => ⟨S128x128, .f32⟩
  | 99 => ⟨S40000x128, .f32⟩
  | 100 => ⟨S_, .i32⟩
  | 101 => ⟨S640000, .i32⟩
  | 102 => ⟨S640000, .i1⟩
  | 103 => ⟨S_, .i32⟩
  | 104 => ⟨S640000, .i32⟩
  | 105 => ⟨S640000, .i32⟩
  | 106 => ⟨S640000, .i32⟩
  | 107 => ⟨S640000x1, .i32⟩
  | 108 => ⟨S640000x128, .f32⟩
  | 109 => ⟨S640000x1, .f32⟩
  | 110 => ⟨S640000x128, .f32⟩
  | 111 => ⟨S640000x128, .f32⟩
  | 112 => ⟨S_, .f32⟩
  | 113 => ⟨S40000x128, .f32⟩
  | 114 => ⟨S640000x1, .i32⟩
  | 115 => ⟨S40000x128, .f32⟩
  | 116 => ⟨S40000x1, .f32⟩
  | 117 => ⟨S40000x128, .f32⟩
  | 118 => ⟨S40000x128, .f32⟩
  | 119 => ⟨S40000x128, .f32⟩
  | 120 => ⟨S1x128, .f32⟩
  | 121 => ⟨S128, .f32⟩
  | 122 => ⟨S1x128, .f32⟩
  | 123 => ⟨S40000x128, .f32⟩
  | 124 => ⟨S40000x128, .f32⟩
  | 125 => ⟨S_, .f32⟩
  | 126 => ⟨S40000, .f32⟩
  | 127 => ⟨S_, .f32⟩
  | _ => ⟨S40000x128, .f32⟩

abbrev hbmTy0_3 (i : Nat) : BufTy := match i % 128 with
  | 0 => ⟨S64, .f32⟩
  | 1 => ⟨S40000x1, .i32⟩
  | 2 => ⟨S64, .f32⟩
  | 3 => ⟨S_, .f32⟩
  | 4 => ⟨S64x128, .f32⟩
  | 5 => ⟨S40000x1, .i32⟩
  | 6 => ⟨S64x128, .f32⟩
  | 7 => ⟨S_, .f32⟩
  | 8 => ⟨S64, .f32⟩
  | 9 => ⟨S64, .f32⟩
  | 10 => ⟨S64x1, .f32⟩
  | 11 => ⟨S64x128, .f32⟩
  | 12 => ⟨S64x128, .f32⟩
  | 13 => ⟨S64x128, .f32⟩
  | 14 => ⟨S1x128, .f32⟩
  | 15 => ⟨S64x128, .f32⟩
  | 16 => ⟨S64x128, .f32⟩
  | 17 => ⟨S_, .f32⟩
  | 18 => ⟨S64x128, .f32⟩
  | 19 => ⟨S64x128, .f32⟩
  | 20 => ⟨S64x1, .f32⟩
  | 21 => ⟨S1x1, .f32⟩
  | 22 => ⟨S64x1, .f32⟩
  | 23 => ⟨S64x1, .f32⟩
  | _ => ⟨S40000x128, .f32⟩

abbrev hbmTy (i : Nat) : BufTy := match i / 128 with
  | 0 => hbmTy0_0 i
  | 1 => hbmTy0_1 i
  | 2 => hbmTy0_2 i
  | 3 => hbmTy0_3 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c : Ref sig .tc := ⟨.hbm, 33, rfl⟩
abbrev main_v11 : Ref sig .tc := ⟨.hbm, 34, rfl⟩
abbrev main_v12 : Ref sig .tc := ⟨.hbm, 35, rfl⟩
abbrev main_c_2 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_8 : Ref sig .tc := ⟨.hbm, 89, rfl⟩
abbrev main_v60 : Ref sig .tc := ⟨.hbm, 90, rfl⟩
abbrev main_v61 : Ref sig .tc := ⟨.hbm, 91, rfl⟩
abbrev main_cst_9 : Ref sig .tc := ⟨.hbm, 92, rfl⟩
abbrev main_v62 : Ref sig .tc := ⟨.hbm, 93, rfl⟩
abbrev main_v63 : Ref sig .tc := ⟨.hbm, 94, rfl⟩
abbrev main_c_10 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_cst_0 : Ref sig .tc := ⟨.hbm, 99, rfl⟩
abbrev main_call0_v2 : Ref sig .tc := ⟨.hbm, 100, rfl⟩
abbrev main_call0_v3 : Ref sig .tc := ⟨.hbm, 101, rfl⟩
abbrev main_call0_v4 : Ref sig .tc := ⟨.hbm, 102, rfl⟩
abbrev main_call0_v5 : Ref sig .tc := ⟨.hbm, 103, rfl⟩
abbrev main_call0_v6 : Ref sig .tc := ⟨.hbm, 104, rfl⟩
abbrev main_call0_v7 : Ref sig .tc := ⟨.hbm, 105, rfl⟩
abbrev main_call0_cst_1 : Ref sig .tc := ⟨.hbm, 106, rfl⟩
abbrev main_call0_v8 : Ref sig .tc := ⟨.hbm, 107, rfl⟩
abbrev main_call0_cst_2 : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_v12 : Ref sig .tc := ⟨.hbm, 112, rfl⟩
abbrev main_call0_cst_3 : Ref sig .tc := ⟨.hbm, 113, rfl⟩
abbrev main_call0_v13 : Ref sig .tc := ⟨.hbm, 114, rfl⟩
abbrev main_call0_cst_4 : Ref sig .tc := ⟨.hbm, 115, rfl⟩
abbrev main_call0_call0_v0 : Ref sig .tc := ⟨.hbm, 116, rfl⟩
abbrev main_call0_call0_v1 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_cst_11 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_call1_cst : Ref sig .tc := ⟨.hbm, 133, rfl⟩
abbrev main_call1_v0 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_call2_cst : Ref sig .tc := ⟨.hbm, 145, rfl⟩
abbrev main_call2_v0 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_cst_12 : Ref sig .tc := ⟨.hbm, 161, rfl⟩
abbrev main_v102 : Ref sig .tc := ⟨.hbm, 162, rfl⟩
abbrev main_v103 : Ref sig .tc := ⟨.hbm, 163, rfl⟩
abbrev main_cst_13 : Ref sig .tc := ⟨.hbm, 164, rfl⟩
abbrev main_v104 : Ref sig .tc := ⟨.hbm, 165, rfl⟩
abbrev main_v105 : Ref sig .tc := ⟨.hbm, 166, rfl⟩
abbrev main_c_14 : Ref sig .tc := ⟨.hbm, 167, rfl⟩
abbrev main_call3_cst : Ref sig .tc := ⟨.hbm, 168, rfl⟩
abbrev main_call3_v0 : Ref sig .tc := ⟨.hbm, 169, rfl⟩
abbrev main_call3_v1 : Ref sig .tc := ⟨.hbm, 170, rfl⟩
abbrev main_call3_cst_0 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_v6 : Ref sig .tc := ⟨.hbm, 176, rfl⟩
abbrev main_call3_v7 : Ref sig .tc := ⟨.hbm, 177, rfl⟩
abbrev main_call3_cst_1 : Ref sig .tc := ⟨.hbm, 178, rfl⟩
abbrev main_call3_v8 : Ref sig .tc := ⟨.hbm, 179, rfl⟩
abbrev main_call3_cst_2 : Ref sig .tc := ⟨.hbm, 180, rfl⟩
abbrev main_call3_v9 : Ref sig .tc := ⟨.hbm, 181, rfl⟩
abbrev main_call3_v10 : Ref sig .tc := ⟨.hbm, 182, rfl⟩
abbrev main_call3_v11 : Ref sig .tc := ⟨.hbm, 183, rfl⟩
abbrev main_call3_v12 : Ref sig .tc := ⟨.hbm, 184, rfl⟩
abbrev main_call3_cst_3 : Ref sig .tc := ⟨.hbm, 185, rfl⟩
abbrev main_call3_v13 : Ref sig .tc := ⟨.hbm, 186, rfl⟩
abbrev main_call3_cst_4 : Ref sig .tc := ⟨.hbm, 187, rfl⟩
abbrev main_call3_call0_v0 : Ref sig .tc := ⟨.hbm, 188, rfl⟩
abbrev main_call3_call0_v1 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_15 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_c_16 : Ref sig .tc := ⟨.hbm, 208, rfl⟩
abbrev main_v123 : Ref sig .tc := ⟨.hbm, 209, rfl⟩
abbrev main_v124 : Ref sig .tc := ⟨.hbm, 210, rfl⟩
abbrev main_c_17 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_v128 : Ref sig .tc := ⟨.hbm, 215, rfl⟩
abbrev main_v129 : Ref sig .tc := ⟨.hbm, 216, rfl⟩
abbrev main_v130 : Ref sig .tc := ⟨.hbm, 217, rfl⟩
abbrev main_v131 : Ref sig .tc := ⟨.hbm, 218, rfl⟩
abbrev main_v132 : Ref sig .tc := ⟨.hbm, 219, rfl⟩
abbrev main_cst_18 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_19 : Ref sig .tc := ⟨.hbm, 237, rfl⟩
abbrev main_v149 : Ref sig .tc := ⟨.hbm, 238, rfl⟩
abbrev main_v150 : Ref sig .tc := ⟨.hbm, 239, rfl⟩
abbrev main_cst_20 : Ref sig .tc := ⟨.hbm, 240, rfl⟩
abbrev main_v151 : Ref sig .tc := ⟨.hbm, 241, rfl⟩
abbrev main_v152 : Ref sig .tc := ⟨.hbm, 242, rfl⟩
abbrev main_c_21 : Ref sig .tc := ⟨.hbm, 243, rfl⟩
abbrev main_call4_cst : Ref sig .tc := ⟨.hbm, 244, rfl⟩
abbrev main_call4_v0 : Ref sig .tc := ⟨.hbm, 245, rfl⟩
abbrev main_call4_v1 : Ref sig .tc := ⟨.hbm, 246, rfl⟩
abbrev main_call4_cst_0 : Ref sig .tc := ⟨.hbm, 247, rfl⟩
abbrev main_call4_v2 : Ref sig .tc := ⟨.hbm, 248, rfl⟩
abbrev main_call4_v3 : Ref sig .tc := ⟨.hbm, 249, rfl⟩
abbrev main_call4_v4 : Ref sig .tc := ⟨.hbm, 250, rfl⟩
abbrev main_call4_v5 : Ref sig .tc := ⟨.hbm, 251, rfl⟩
abbrev main_call4_v6 : Ref sig .tc := ⟨.hbm, 252, rfl⟩
abbrev main_call4_v7 : Ref sig .tc := ⟨.hbm, 253, rfl⟩
abbrev main_call4_cst_1 : Ref sig .tc := ⟨.hbm, 254, rfl⟩
abbrev main_call4_v8 : Ref sig .tc := ⟨.hbm, 255, rfl⟩
abbrev main_call4_cst_2 : Ref sig .tc := ⟨.hbm, 256, rfl⟩
abbrev main_call4_v9 : Ref sig .tc := ⟨.hbm, 257, rfl⟩
abbrev main_call4_v10 : Ref sig .tc := ⟨.hbm, 258, rfl⟩
abbrev main_call4_v11 : Ref sig .tc := ⟨.hbm, 259, rfl⟩
abbrev main_call4_v12 : Ref sig .tc := ⟨.hbm, 260, rfl⟩
abbrev main_call4_cst_3 : Ref sig .tc := ⟨.hbm, 261, rfl⟩
abbrev main_call4_v13 : Ref sig .tc := ⟨.hbm, 262, rfl⟩
abbrev main_call4_cst_4 : Ref sig .tc := ⟨.hbm, 263, rfl⟩
abbrev main_call4_call0_v0 : Ref sig .tc := ⟨.hbm, 264, rfl⟩
abbrev main_call4_call0_v1 : Ref sig .tc := ⟨.hbm, 265, rfl⟩
abbrev main_v153 : Ref sig .tc := ⟨.hbm, 266, rfl⟩
abbrev main_v154 : Ref sig .tc := ⟨.hbm, 267, rfl⟩
abbrev main_v155 : Ref sig .tc := ⟨.hbm, 268, rfl⟩
abbrev main_cst_22 : Ref sig .tc := ⟨.hbm, 269, rfl⟩
abbrev main_v156 : Ref sig .tc := ⟨.hbm, 270, rfl⟩
abbrev main_v157 : Ref sig .tc := ⟨.hbm, 271, rfl⟩
abbrev main_v158 : Ref sig .tc := ⟨.hbm, 272, rfl⟩
abbrev main_v159 : Ref sig .tc := ⟨.hbm, 273, rfl⟩
abbrev main_v160 : Ref sig .tc := ⟨.hbm, 274, rfl⟩
abbrev main_v161 : Ref sig .tc := ⟨.hbm, 275, rfl⟩
abbrev main_v162 : Ref sig .tc := ⟨.hbm, 276, rfl⟩
abbrev main_v163 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_call5_cst : Ref sig .tc := ⟨.hbm, 281, rfl⟩
abbrev main_call5_v0 : Ref sig .tc := ⟨.hbm, 282, rfl⟩
abbrev main_v167 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_v171 : Ref sig .tc := ⟨.hbm, 287, rfl⟩
abbrev main_v172 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_call6_cst : Ref sig .tc := ⟨.hbm, 293, rfl⟩
abbrev main_call6_v0 : Ref sig .tc := ⟨.hbm, 294, rfl⟩
abbrev main_v177 : Ref sig .tc := ⟨.hbm, 295, rfl⟩
abbrev main_v178 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_v185 : Ref sig .tc := ⟨.hbm, 303, rfl⟩
abbrev main_v186 : Ref sig .tc := ⟨.hbm, 304, rfl⟩
abbrev main_v187 : Ref sig .tc := ⟨.hbm, 305, rfl⟩
abbrev main_v188 : Ref sig .tc := ⟨.hbm, 306, rfl⟩
abbrev main_v189 : Ref sig .tc := ⟨.hbm, 307, rfl⟩
abbrev main_v190 : Ref sig .tc := ⟨.hbm, 308, rfl⟩
abbrev main_cst_23 : Ref sig .tc := ⟨.hbm, 309, rfl⟩
abbrev main_v191 : Ref sig .tc := ⟨.hbm, 310, rfl⟩
abbrev main_v192 : Ref sig .tc := ⟨.hbm, 311, rfl⟩
abbrev main_cst_24 : Ref sig .tc := ⟨.hbm, 312, rfl⟩
abbrev main_v193 : Ref sig .tc := ⟨.hbm, 313, rfl⟩
abbrev main_v194 : Ref sig .tc := ⟨.hbm, 314, rfl⟩
abbrev main_c_25 : Ref sig .tc := ⟨.hbm, 315, rfl⟩
abbrev main_call7_cst : Ref sig .tc := ⟨.hbm, 316, rfl⟩
abbrev main_call7_v0 : Ref sig .tc := ⟨.hbm, 317, rfl⟩
abbrev main_call7_v1 : Ref sig .tc := ⟨.hbm, 318, rfl⟩
abbrev main_call7_cst_0 : Ref sig .tc := ⟨.hbm, 319, rfl⟩
abbrev main_call7_v2 : Ref sig .tc := ⟨.hbm, 320, rfl⟩
abbrev main_call7_v3 : Ref sig .tc := ⟨.hbm, 321, rfl⟩
abbrev main_call7_v4 : Ref sig .tc := ⟨.hbm, 322, rfl⟩
abbrev main_call7_v5 : Ref sig .tc := ⟨.hbm, 323, rfl⟩
abbrev main_call7_v6 : Ref sig .tc := ⟨.hbm, 324, rfl⟩
abbrev main_call7_v7 : Ref sig .tc := ⟨.hbm, 325, rfl⟩
abbrev main_call7_cst_1 : Ref sig .tc := ⟨.hbm, 326, rfl⟩
abbrev main_call7_v8 : Ref sig .tc := ⟨.hbm, 327, rfl⟩
abbrev main_call7_cst_2 : Ref sig .tc := ⟨.hbm, 328, rfl⟩
abbrev main_call7_v9 : Ref sig .tc := ⟨.hbm, 329, rfl⟩
abbrev main_call7_v10 : Ref sig .tc := ⟨.hbm, 330, rfl⟩
abbrev main_call7_v11 : Ref sig .tc := ⟨.hbm, 331, rfl⟩
abbrev main_call7_v12 : Ref sig .tc := ⟨.hbm, 332, rfl⟩
abbrev main_call7_cst_3 : Ref sig .tc := ⟨.hbm, 333, rfl⟩
abbrev main_call7_v13 : Ref sig .tc := ⟨.hbm, 334, rfl⟩
abbrev main_call7_cst_4 : Ref sig .tc := ⟨.hbm, 335, rfl⟩
abbrev main_call7_call0_v0 : Ref sig .tc := ⟨.hbm, 336, rfl⟩
abbrev main_call7_call0_v1 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_cst_26 : Ref sig .tc := ⟨.hbm, 341, rfl⟩
abbrev main_v198 : Ref sig .tc := ⟨.hbm, 342, rfl⟩
abbrev main_v199 : Ref sig .tc := ⟨.hbm, 343, rfl⟩
abbrev main_v200 : Ref sig .tc := ⟨.hbm, 344, rfl⟩
abbrev main_v201 : Ref sig .tc := ⟨.hbm, 345, rfl⟩
abbrev main_v202 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_c_27 : Ref sig .tc := ⟨.hbm, 356, rfl⟩
abbrev main_v212 : Ref sig .tc := ⟨.hbm, 357, rfl⟩
abbrev main_v213 : Ref sig .tc := ⟨.hbm, 358, rfl⟩
abbrev main_c_28 : Ref sig .tc := ⟨.hbm, 359, rfl⟩
abbrev main_v214 : Ref sig .tc := ⟨.hbm, 360, rfl⟩
abbrev main_v215 : Ref sig .tc := ⟨.hbm, 361, rfl⟩
abbrev main_v216 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_v220 : Ref sig .tc := ⟨.hbm, 366, rfl⟩
abbrev main_v221 : Ref sig .tc := ⟨.hbm, 367, rfl⟩
abbrev main_cst_29 : Ref sig .tc := ⟨.hbm, 368, rfl⟩
abbrev main_v222 : Ref sig .tc := ⟨.hbm, 369, rfl⟩
abbrev main_v223 : Ref sig .tc := ⟨.hbm, 370, rfl⟩
abbrev main_v224 : Ref sig .tc := ⟨.hbm, 371, rfl⟩
abbrev main_v225 : Ref sig .tc := ⟨.hbm, 372, rfl⟩
abbrev main_v226 : Ref sig .tc := ⟨.hbm, 373, rfl⟩
abbrev main_v227 : Ref sig .tc := ⟨.hbm, 374, rfl⟩
abbrev main_v228 : Ref sig .tc := ⟨.hbm, 375, rfl⟩
abbrev main_v229 : Ref sig .tc := ⟨.hbm, 376, rfl⟩
abbrev main_v230 : Ref sig .tc := ⟨.hbm, 377, rfl⟩
abbrev main_v231 : Ref sig .tc := ⟨.hbm, 378, rfl⟩
abbrev main_v232 : Ref sig .tc := ⟨.hbm, 379, rfl⟩
abbrev main_v233 : Ref sig .tc := ⟨.hbm, 380, rfl⟩
abbrev main_cst_30 : Ref sig .tc := ⟨.hbm, 381, rfl⟩
abbrev main_v234 : Ref sig .tc := ⟨.hbm, 382, rfl⟩
abbrev main_cst_31 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_cst_32 : Ref sig .tc := ⟨.hbm, 387, rfl⟩
abbrev main_v238 : Ref sig .tc := ⟨.hbm, 388, rfl⟩
abbrev main_v239 : Ref sig .tc := ⟨.hbm, 389, rfl⟩
abbrev main_v240 : Ref sig .tc := ⟨.hbm, 390, rfl⟩
abbrev main_cst_33 : Ref sig .tc := ⟨.hbm, 391, rfl⟩
abbrev main_v241 : Ref sig .tc := ⟨.hbm, 392, rfl⟩
abbrev main_v242 : Ref sig .tc := ⟨.hbm, 393, rfl⟩
abbrev main_v243 : Ref sig .tc := ⟨.hbm, 394, rfl⟩
abbrev main_v244 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_call8_cst : Ref sig .tc := ⟨.hbm, 401, rfl⟩
abbrev main_call8_v0 : Ref sig .tc := ⟨.hbm, 402, rfl⟩
abbrev main_v250 : Ref sig .tc := ⟨.hbm, 403, rfl⟩
abbrev main_v251 : Ref sig .tc := ⟨.hbm, 404, rfl⟩
abbrev main_v252 : Ref sig .tc := ⟨.hbm, 405, rfl⟩
abbrev main_v253 : Ref sig .tc := ⟨.hbm, 406, rfl⟩
abbrev main_v254 : Ref sig .tc := ⟨.hbm, 407, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  slices_S3x128x128_S1x128x128_0_0_0 : S3x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  slices_S3x128_S1x128_0_0 : S3x128.Slices ![0, 0] S1x128
  shapeCasts_S1x128_S128 : S1x128.ShapeCasts S128
  reducesTo_S40000x128_S40000_d1 : S40000x128.ReducesTo [1] S40000
  h_S_ : 0 < S_.numel
  bcast_S_S40000x1 : S_.BroadcastsInDim S40000x1 (![] : Fin 0 → Fin S40000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S64_S40000x1_S40000_n_0_0_1_wf : ScatterDims.WF S64 S40000x1 S40000 [] [0] [0] 1
  scatter_S64x128_S40000x1_S40000x128_1_0_0_1_wf : ScatterDims.WF S64x128 S40000x1 S40000x128 [1] [0] [0] 1
  dot_S64x128_S128x128_S64x128_1_0_0_1_n_n_wf : DotDims.WF S64x128 S128x128 S64x128 [1] [0] [0] [1] [] []
  dot_S64x128_S128x1_S64x1_1_0_0_1_n_n_wf : DotDims.WF S64x128 S128x1 S64x1 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.KernelRun.lean ====
/-
  The idealized kernel program's run with its result named.

  @main is six pipelined regions among stretches of host operations.  The contents of the TensorCore's buffers at
  each boundary are a fold from the launch memory: a host stretch applies its operations, a region replaces its
  output array by what its write-backs leave.  Every weakly fair execution terminates, and at the end every
  unscoped buffer holds the last boundary's contents; read at the result buffer this names the program's result,
  and read at the arguments it says they are unchanged.
-/
import proofs.«137925_j52501680226462_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    nineteen arguments as launched. -/
theorem run_value : θ_run defs (onTc (τ := τ) (main (F := F))) ⟨m, fun _ => 0, ρ⟩ (fun r => ∀ c : Dev nD,
      r.2.mem ((c.tc : Thread nD τ).loc main_v158) = W15 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v158 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c)⟩)

end Cert.KernelIdeal.KRun

end
-- ==== Proof.RefRun.lean ====
import proofs.«137925_j52501680226462_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 0, 34 operations: the edge lists, the degree count and its inverse square root, the edge and self weights (%0 … %26). -/
abbrev seg0 : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000,
    StableHlo.nullary main_cst (constant S_ .f32 0x3F800000#32),
    StableHlo.unary main_cst main_v4 (broadcastInDim S640000 ![] bcast_S_S640000 : (⟨S_, .f32⟩ : BufTy).Contents (Elt F) → (⟨S640000, .f32⟩ : BufTy).Contents (Elt F)),
    StableHlo.nullary main_cst_0 (constant S_ .f32 0x00000000#32),
    StableHlo.unary main_cst_0 main_v5 (broadcastInDim S40000 ![] bcast_S_S40000 : (⟨S_, .f32⟩ : BufTy).Contents (Elt F) → (⟨S40000, .f32⟩ : BufTy).Contents (Elt F)),
    StableHlo.unary main_v3 main_v6 (broadcastInDim S640000x1 ![0] bcast_S640000_S640000x1_0 : (⟨S640000, .i32⟩ : BufTy).Contents (Elt F) → (⟨S640000x1, .i32⟩ : BufTy).Contents (Elt F)),
    StableHlo.ternary main_v5 main_v6 main_v4 main_v7 ((fun x i u => Host.scatterAdd scatter_S40000_S640000x1_S640000_n_0_0_1 x i u) : (⟨S40000, .f32⟩ : BufTy).Contents (Elt F) → (⟨S640000x1, .i32⟩ : BufTy).Contents (Elt F) → (⟨S640000, .f32⟩ : BufTy).Contents (Elt F) → (⟨S40000, .f32⟩ : BufTy).Contents (Elt F)),
    StableHlo.nullary main_cst_1 (constant S_ .f32 0x3F800000#32),
    StableHlo.unary main_cst_1 main_v8 (broadcastInDim S40000 ![] bcast_S_S40000 : (⟨S_, .f32⟩ : BufTy).Contents (Elt F) → (⟨S40000, .f32⟩ : BufTy).Contents (Elt F)),
    StableHlo.binary main_v7 main_v8 main_v9 (addf : (⟨S40000, .f32⟩ : BufTy).Contents (Elt F) → (⟨S40000, .f32⟩ : BufTy).Contents (Elt F) → (⟨S40000, .f32⟩ : BufTy).Contents (Elt F)),
    StableHlo.unary main_v9 main_v10 (Host.rsqrt : (⟨S40000, .f32⟩ : BufTy).Contents (Elt F) → (⟨S40000, .f32⟩ : BufTy).Contents (Elt F)),
    StableHlo.nullary main_c (constantI S_ 32 0#32),
    StableHlo.unary main_c main_v11 (broadcastInDim S640000 ![] bcast_S_S640000 : (⟨S_, .i32⟩ : BufTy).Contents (Elt F) → (⟨S640000, .i32⟩ : BufTy).Contents (Elt F)),
    StableHlo.binary main_v1 main_v11 main_v12 (cmpi .slt : (⟨S640000, .i32⟩ : BufTy).Contents (Elt F) → (⟨S640000, .i32⟩ : BufTy).Contents (Elt F) → (⟨S640000, .i1⟩ : BufTy).Contents (Elt F)),
    StableHlo.nullary main_c_2 (constantI S_ 32 40000#32),
    StableHlo.unary main_c_2 main_v13 (broadcastInDim S640000 ![] bcast_S_S640000 : (⟨S_, .i32⟩ : BufTy).Contents (Elt F) → (⟨S640000, .i32⟩ : BufTy).Contents (Elt F)),
    StableHlo.binary main_v1 main_v13 main_v14 (addi : (⟨S640000, .i32⟩ : BufTy).Contents (Elt F) → (⟨S640000, .i32⟩ : BufTy).Contents (Elt F) → (⟨S640000, .i32⟩ : BufTy).Contents (Elt F)),
    StableHlo.ternary main_v12 main_v14 main_v1 main_v15 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v15 main_v16 (broadcastInDim S640000x1 ![0] bcast_S640000_S640000x1_0 : (⟨S640000, .i32⟩ : BufTy).Contents (Elt F) → (⟨S640000x1, .i32⟩ : BufTy).Contents (Elt F)),
    StableHlo.binary main_v10 main_v16 main_v17 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.nullary main_c_3 (constantI S_ 32 0#32),
    StableHlo.unary main_c_3 main_v18 (broadcastInDim S640000 ![] bcast_S_S640000 : (⟨S_, .i32⟩ : BufTy).Contents (Elt F) → (⟨S640000, .i32⟩ : BufTy).Contents (Elt F)),
    StableHlo.binary main_v3 main_v18 main_v19 (cmpi .slt : (⟨S640000, .i32⟩ : BufTy).Contents (Elt F) → (⟨S640000, .i32⟩ : BufTy).Contents (Elt F) → (⟨S640000, .i1⟩ : BufTy).Contents (Elt F)),
    StableHlo.nullary main_c_4 (constantI S_ 32 40000#32),
    StableHlo.unary main_c_4 main_v20 (broadcastInDim S640000 ![] bcast_S_S640000 : (⟨S_, .i32⟩ : BufTy).Contents (Elt F) → (⟨S640000, .i32⟩ : BufTy).Contents (Elt F)),
    StableHlo.binary main_v3 main_v20 main_v21 (addi : (⟨S640000, .i32⟩ : BufTy).Contents (Elt F) → (⟨S640000, .i32⟩ : BufTy).Contents (Elt F) → (⟨S640000, .i32⟩ : BufTy).Contents (Elt F)),
    StableHlo.ternary main_v19 main_v21 main_v3 main_v22 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v22 main_v23 (broadcastInDim S640000x1 ![0] bcast_S640000_S640000x1_0 : (⟨S640000, .i32⟩ : BufTy).Contents (Elt F) → (⟨S640000x1, .i32⟩ : BufTy).Contents (Elt F)),
    StableHlo.binary main_v10 main_v23 main_v24 ((fun x i => Host.gather gather_S40000_S640000x1_S640000_n_0_n_n_0_1_1 x i) : (⟨S40000, .f32⟩ : BufTy).Contents (Elt F) → (⟨S640000x1, .i32⟩ : BufTy).Contents (Elt F) → (⟨S640000, .f32⟩ : BufTy).Contents (Elt F)),
    StableHlo.binary main_v17 main_v24 main_v25 (mulf : (⟨S640000, .f32⟩ : BufTy).Contents (Elt F) → (⟨S640000, .f32⟩ : BufTy).Contents (Elt F) → (⟨S640000, .f32⟩ : BufTy).Contents (Elt F)),
    StableHlo.binary main_v10 main_v10 main_v26 (mulf : (⟨S40000, .f32⟩ : BufTy).Contents (Elt F) → (⟨S40000, .f32⟩ : BufTy).Contents (Elt F) → (⟨S40000, .f32⟩ : BufTy).Contents (Elt F)) ]

/-- Segment 1, 4 operations: the input projection x·W + b (%27 … %30). -/
abbrev seg1 : List (HloOp τ sig (Elt F)) :=
  [ StableHlo.binary main_arg0 main_arg3 main_v27 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg4 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S40000x128 ![0, 1] bcast_S1x128_S40000x128_0_1 : (⟨S1x128, .f32⟩ : BufTy).Contents (Elt F) → (⟨S40000x128, .f32⟩ : BufTy).Contents (Elt F)),
    StableHlo.binary main_v27 main_v29 main_v30 (addf : (⟨S40000x128, .f32⟩ : BufTy).Contents (Elt F) → (⟨S40000x128, .f32⟩ : BufTy).Contents (Elt F) → (⟨S40000x128, .f32⟩ : BufTy).Contents (Elt F)) ]

/-- Segment 2, 3 operations: layer 0: the weight slice and the product with it (%31 … %33). -/
abbrev seg2 : List (HloOp τ sig (Elt F)) :=
  [ StableHlo.unary main_arg5 main_v31 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v31 main_v32 rfl shapeCasts_S1x128x128_S128x128,
    StableHlo.binary main_v30 main_v32 main_v33 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)) ]

/-- Segment 3, 25 operations: layer 0: gather along the edges, weighting, scatter-add, the self term and the bias (%34 … %55). -/
abbrev seg3 : List (HloOp τ sig (Elt F)) :=
  [ StableHlo.nullary main_c_5 (constantI S_ 32 0#32),
    StableHlo.unary main_c_5 main_v34 (broadcastInDim S640000 ![] bcast_S_S640000 : (⟨S_, .i32⟩ : BufTy).Contents (Elt F) → (⟨S640000, .i32⟩ : BufTy).Contents (Elt F)),
    StableHlo.binary main_v1 main_v34 main_v35 (cmpi .slt : (⟨S640000, .i32⟩ : BufTy).Contents (Elt F) → (⟨S640000, .i32⟩ : BufTy).Contents (Elt F) → (⟨S640000, .i1⟩ : BufTy).Contents (Elt F)),
    StableHlo.nullary main_c_6 (constantI S_ 32 40000#32),
    StableHlo.unary main_c_6 main_v36 (broadcastInDim S640000 ![] bcast_S_S640000 : (⟨S_, .i32⟩ : BufTy).Contents (Elt F) → (⟨S640000, .i32⟩ : BufTy).Contents (Elt F)),
    StableHlo.binary main_v1 main_v36 main_v37 (addi : (⟨S640000, .i32⟩ : BufTy).Contents (Elt F) → (⟨S640000, .i32⟩ : BufTy).Contents (Elt F) → (⟨S640000, .i32⟩ : BufTy).Contents (Elt F)),
    StableHlo.ternary main_v35 main_v37 main_v1 main_v38 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v38 main_v39 (broadcastInDim S640000x1 ![0] bcast_S640000_S640000x1_0 : (⟨S640000, .i32⟩ : BufTy).Contents (Elt F) → (⟨S640000x1, .i32⟩ : BufTy).Contents (Elt F)),
    StableHlo.binary main_v33 main_v39 main_v40 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v25 main_v41 (broadcastInDim S640000x1 ![0] bcast_S640000_S640000x1_0 : (⟨S640000, .f32⟩ : BufTy).Contents (Elt F) → (⟨S640000x1, .f32⟩ : BufTy).Contents (Elt F)),
    StableHlo.unary main_v41 main_v42 (broadcastInDim S640000x128 ![0, 1] bcast_S640000x1_S640000x128_0_1 : (⟨S640000x1, .f32⟩ : BufTy).Contents (Elt F) → (⟨S640000x128, .f32⟩ : BufTy).Contents (Elt F)),
    StableHlo.binary main_v40 main_v42 main_v43 (mulf : (⟨S640000x128, .f32⟩ : BufTy).Contents (Elt F) → (⟨S640000x128, .f32⟩ : BufTy).Contents (Elt F) → (⟨S640000x128, .f32⟩ : BufTy).Contents (Elt F)),
    StableHlo.nullary main_cst_7 (constant S_ .f32 0x00000000#32),
    StableHlo.unary main_cst_7 main_v44 (broadcastInDim S40000x128 ![] bcast_S_S40000x128 : (⟨S_, .f32⟩ : BufTy).Contents (Elt F) → (⟨S40000x128, .f32⟩ : BufTy).Contents (Elt F)),
    StableHlo.unary main_v3 main_v45 (broadcastInDim S640000x1 ![0] bcast_S640000_S640000x1_0 : (⟨S640000, .i32⟩ : BufTy).Contents (Elt F) → (⟨S640000x1, .i32⟩ : BufTy).Contents (Elt F)),
    StableHlo.ternary main_v44 main_v45 main_v43 main_v46 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v26 main_v47 (broadcastInDim S40000x1 ![0] bcast_S40000_S40000x1_0 : (⟨S40000, .f32⟩ : BufTy).Contents (Elt F) → (⟨S40000x1, .f32⟩ : BufTy).Contents (Elt F)),
    StableHlo.unary main_v47 main_v48 (broadcastInDim S40000x128 ![0, 1] bcast_S40000x1_S40000x128_0_1 : (⟨S40000x1, .f32⟩ : BufTy).Contents (Elt F) → (⟨S40000x128, .f32⟩ : BufTy).Contents (Elt F)),
    StableHlo.binary main_v33 main_v48 main_v49 (mulf : (⟨S40000x128, .f32⟩ : BufTy).Contents (Elt F) → (⟨S40000x128, .f32⟩ : BufTy).Contents (Elt F) → (⟨S40000x128, .f32⟩ : BufTy).Contents (Elt F)),
    StableHlo.binary main_v46 main_v49 main_v50 (addf : (⟨S40000x128, .f32⟩ : BufTy).Contents (Elt F) → (⟨S40000x128, .f32⟩ : BufTy).Contents (Elt F) → (⟨S40000x128, .f32⟩ : BufTy).Contents (Elt F)),
    StableHlo.unary main_arg6 main_v51 ((extractStridedSlice S1x128 ![0, 0] · slices_S3x128_S1x128_0_0) : (⟨S3x128, .f32⟩ : BufTy).Contents (Elt F) → (⟨S1x128, .f32⟩ : BufTy).Contents (Elt F)),
    StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S40000x128 ![0, 1] bcast_S1x128_S40000x128_0_1 : (⟨S1x128, .f32⟩ : BufTy).Contents (Elt F) → (⟨S40000x128, .f32⟩ : BufTy).Contents (Elt F)),
    StableHlo.binary main_v50 main_v54 main_v55 (addf : (⟨S40000x128, .f32⟩ : BufTy).Contents (Elt F) → (⟨S40000x128, .f32⟩ : BufTy).Contents (Elt F) → (⟨S40000x128, .f32⟩ : BufTy).Contents (Elt F)) ]

/-- Segment 4, 120 operations: layer 0: layer norm, relu, residual, the two-layer feed-forward, residual, layer norm (%56 … %119; the variance and relu functions' operations in place). -/
abbrev seg4 : List (HloOp τ sig (Elt F)) :=
  [ StableHlo.unary main_arg7 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.unary main_arg8 main_v58 ((extractStridedSlice S1x128 ![0, 0] · slices_S3x128_S1x128_0_0) : (⟨S3x128, .f32⟩ : BufTy).Contents (Elt F) → (⟨S1x128, .f32⟩ : BufTy).Contents (Elt F)),
    StableHlo.reshape main_v58 main_v59 rfl shapeCasts_S1x128_S128,
    StableHlo.nullary main_cst_8 (constant S_ .f32 0x00000000#32),
    StableHlo.binary main_v55 main_cst_8 main_v60 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    StableHlo.unary main_v60 main_v61 (broadcastInDim S40000x1 ![0] bcast_S40000_S40000x1_0 : (⟨S40000, .f32⟩ : BufTy).Contents (Elt F) → (⟨S40000x1, .f32⟩ : BufTy).Contents (Elt F)),
    StableHlo.nullary main_cst_9 (constant S_ .f32 0x43000000#32),
    StableHlo.unary main_cst_9 main_v62 (broadcastInDim S40000x1 ![] bcast_S_S40000x1 : (⟨S_, .f32⟩ : BufTy).Contents (Elt F) → (⟨S40000x1, .f32⟩ : BufTy).Contents (Elt F)),
    StableHlo.binary main_v61 main_v62 main_v63 (Host.divf : (⟨S40000x1, .f32⟩ : BufTy).Contents (Elt F) → (⟨S40000x1, .f32⟩ : BufTy).Contents (Elt F) → (⟨S40000x1, .f32⟩ : BufTy).Contents (Elt F)),
    StableHlo.nullary main_c_10 (constantI S_ 32 0#32),
    StableHlo.TRef.nullary main_call0.cst (constant S_ .f32 0x00000000#32),
    StableHlo.TRef.binary (.of main_v55) main_call0.cst main_call0.v0 (fun x v => Host.reduceAdd x v reducesTo_S40000x128_S40000_d1 h_S_),
    StableHlo.TRef.unary main_call0.v0 main_call0.v1 (broadcastInDim S40000x1 ![0] bcast_S40000_S40000x1_0),
    StableHlo.TRef.nullary main_call0.cst_0 (constant S_ .f32 0x43000000#32),
    StableHlo.TRef.unary main_call0.cst_0 main_call0.v2 (broadcastInDim S40000x1 ![] bcast_S_S40000x1),
    StableHlo.TRef.binary main_call0.v1 main_call0.v2 main_call0.v3 Host.divf,
    StableHlo.TRef.unary main_call0.v3 main_call0.v4 (broadcastInDim S40000x128 ![0, 1] bcast_S40000x1_S40000x128_0_1),
    StableHlo.TRef.binary (.of main_v55) main_call0.v4 main_call0.v5 subf,
    StableHlo.TRef.binary main_call0.v5 main_call0.v5 main_call0.v6 mulf,
    StableHlo.TRef.unary (.of main_c_10) main_call0.v7 (sitofp .f32),
    StableHlo.TRef.nullary main_call0.cst_1 (constant S_ .f32 0x43000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S40000x128_S40000_d1 h_S_),
    StableHlo.TRef.unary main_call0.v9 main_call0.v10 (broadcastInDim S40000x1 ![0] bcast_S40000_S40000x1_0),
    StableHlo.TRef.unary main_call0.v8 main_call0.v11 (broadcastInDim S40000x1 ![] bcast_S_S40000x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S40000x1 ![] bcast_S_S40000x1),
    StableHlo.TRef.ternary main_call0.v13 main_call0.v12 main_call0.call0.v1 main_call0.call0.v2 (fun p a b => select (broadcastInDim S40000x1 ![] bcast_S_S40000x1 p) a b),
    StableHlo.unary main_v63 main_v65 (broadcastInDim S40000x128 ![0, 1] bcast_S40000x1_S40000x128_0_1 : (⟨S40000x1, .f32⟩ : BufTy).Contents (Elt F) → (⟨S40000x128, .f32⟩ : BufTy).Contents (Elt F)),
    StableHlo.binary main_v55 main_v65 main_v66 (subf : (⟨S40000x128, .f32⟩ : BufTy).Contents (Elt F) → (⟨S40000x128, .f32⟩ : BufTy).Contents (Elt F) → (⟨S40000x128, .f32⟩ : BufTy).Contents (Elt F)),
    StableHlo.nullary main_cst_11 (constant S_ .f32 0x3727C5AC#32),
    StableHlo.unary main_cst_11 main_v67 (broadcastInDim S40000x1 ![] bcast_S_S40000x1 : (⟨S_, .f32⟩ : BufTy).Contents (Elt F) → (⟨S40000x1, .f32⟩ : BufTy).Contents (Elt F)),
    StableHlo.binary main_v64 main_v67 main_v68 (addf : (⟨S40000x1, .f32⟩ : BufTy).Contents (Elt F) → (⟨S40000x1, .f32⟩ : BufTy).Contents (Elt F) → (⟨S40000x1, .f32⟩ : BufTy).Contents (Elt F)),
    StableHlo.unary main_v68 main_v69 (Host.sqrt : (⟨S40000x1, .f32⟩ : BufTy).Contents (Elt F) → (⟨S40000x1, .f32⟩ : BufTy).Contents (Elt F)),
    StableHlo.unary main_v69 main_v70 (broadcastInDim S40000x128 ![0, 1] bcast_S40000x1_S40000x128_0_1 : (⟨S40000x1, .f32⟩ : BufTy).Contents (Elt F) → (⟨S40000x128, .f32⟩ : BufTy).Contents (Elt F)),
    StableHlo.binary main_v66 main_v70 main_v71 (Host.divf : (⟨S40000x128, .f32⟩ : BufTy).Contents (Elt F) → (⟨S40000x128, .f32⟩ : BufTy).Contents (Elt F) → (⟨S40000x128, .f32⟩ : BufTy).Contents (Elt F)),
    StableHlo.unary main_v57 main_v72 (broadcastInDim S1x128 ![1] bcast_S128_S1x128_1 : (⟨S128, .f32⟩ : BufTy).Contents (Elt F) → (⟨S1x128, .f32⟩ : BufTy).Contents (Elt F)),
    StableHlo.unary main_v72 main_v73 (broadcastInDim S40000x128 ![0, 1] bcast_S1x128_S40000x128_0_1 : (⟨S1x128, .f32⟩ : BufTy).Contents (Elt F) → (⟨S40000x128, .f32⟩ : BufTy).Contents (Elt F)),
    StableHlo.binary main_v71 main_v73 main_v74 (mulf : (⟨S40000x128, .f32⟩ : BufTy).Contents (Elt F) → (⟨S40000x128, .f32⟩ : BufTy).Contents (Elt F) → (⟨S40000x128, .f32⟩ : BufTy).Contents (Elt F)),
    StableHlo.unary main_v59 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S40000x128 ![0, 1] bcast_S1x128_S40000x128_0_1 : (⟨S1x128, .f32⟩ : BufTy).Contents (Elt F) → (⟨S40000x128, .f32⟩ : BufTy).Contents (Elt F)),
    StableHlo.binary main_v74 main_v76 main_v77 (addf : (⟨S40000x128, .f32⟩ : BufTy).Contents (Elt F) → (⟨S40000x128, .f32⟩ : BufTy).Contents (Elt F) → (⟨S40000x128, .f32⟩ : BufTy).Contents (Elt F)),
    StableHlo.TRef.nullary main_call1.cst (constant S_ .f32 0x00000000#32),
    StableHlo.TRef.unary main_call1.cst main_call1.v0 (broadcastInDim S40000x128 ![] bcast_S_S40000x128),
    StableHlo.TRef.binary (.of main_v77) main_call1.v0 main_call1.v1 maximumf,
    StableHlo.binary main_v78 main_v30 main_v79 (addf : (⟨S40000x128, .f32⟩ : BufTy).Contents (Elt F) → (⟨S40000x128, .f32⟩ : BufTy).Contents (Elt F) → (⟨S40000x128, .f32⟩ : BufTy).Contents (Elt F)),
    StableHlo.unary main_arg9 main_v80 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v80 main_v81 rfl shapeCasts_S1x128x128_S128x128,
    StableHlo.binary main_v79 main_v81 main_v82 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v83 ((extractStridedSlice S1x128 ![0, 0] · slices_S3x128_S1x128_0_0) : (⟨S3x128, .f32⟩ : BufTy).Contents (Elt F) → (⟨S1x128, .f32⟩ : BufTy).Contents (Elt F)),
    StableHlo.reshape main_v83 main_v84 rfl shapeCasts_S1x128_S128,
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S40000x128 ![0, 1] bcast_S1x128_S40000x128_0_1 : (⟨S1x128, .f32⟩ : BufTy).Contents (Elt F) → (⟨S40000x128, .f32⟩ : BufTy).Contents (Elt F)),
    StableHlo.binary main_v82 main_v86 main_v87 (addf : (⟨S40000x128, .f32⟩ : BufTy).Contents (Elt F) → (⟨S40000x128, .f32⟩ : BufTy).Contents (Elt F) → (⟨S40000x128, .f32⟩ : BufTy).Contents (Elt F)),
    StableHlo.TRef.nullary main_call2.cst (constant S_ .f32 0x00000000#32),
    StableHlo.TRef.unary main_call2.cst main_call2.v0 (broadcastInDim S40000x128 ![] bcast_S_S40000x128),
    StableHlo.TRef.binary (.of main_v87) main_call2.v0 main_call2.v1 maximumf,
    StableHlo.unary main_arg11 main_v89 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v89 main_v90 rfl shapeCasts_S1x128x128_S128x128,
    StableHlo.binary main_v88 main_v90 main_v91 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg12 main_v92 ((extractStridedSlice S1x128 ![0, 0] · slices_S3x128_S1x128_0_0) : (⟨S3x128, .f32⟩ : BufTy).Contents (Elt F) → (⟨S1x128, .f32⟩ : BufTy).Contents (Elt F)),
    StableHlo.reshape main_v92 main_v93 rfl shapeCasts_S1x128_S128,
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S40000x128 ![0, 1] bcast_S1x128_S40000x128_0_1 : (⟨S1x128, .f32⟩ : BufTy).Contents (Elt F) → (⟨S40000x128, .f32⟩ : BufTy).Contents (Elt F)),
    StableHlo.binary main_v91 main_v95 main_v96 (addf : (⟨S40000x128, .f32⟩ : BufTy).Contents (Elt F) → (⟨S40000x128, .f32⟩ : BufTy).Contents (Elt F) → (⟨S40000x128, .f32⟩ : BufTy).Contents (Elt F)),
    StableHlo.binary main_v96 main_v79 main_v97 (addf : (⟨S40000x128, .f32⟩ : BufTy).Contents (Elt F) → (⟨S40000x128, .f32⟩ : BufTy).Contents (Elt F) → (⟨S40000x128, .f32⟩ : BufTy).Contents (Elt F)),
    StableHlo.unary main_arg13 main_v98 ((extractStridedSlice S1x128 ![0, 0] · slices_S3x128_S1x128_0_0) : (⟨S3x128, .f32⟩ : BufTy).Contents (Elt F) → (⟨S1x128, .f32⟩ : BufTy).Contents (Elt F)),
    StableHlo.reshape main_v98 main_v99 rfl shapeCasts_S1x128_S128,
    StableHlo.unary main_arg14 main_v100 ((extractStridedSlice S1x128 ![0, 0] · slices_S3x128_S1x128_0_0) : (⟨S3x128, .f32⟩ : BufTy).Contents (Elt F) → (⟨S1x128, .f32⟩ : BufTy).Contents (Elt F)),
    StableHlo.reshape main_v100 main_v101 rfl shapeCasts_S1x128_S128,
    StableHlo.nullary main_cst_12 (constant S_ .f32 0x00000000#32),
    StableHlo.binary main_v97 main_cst_12 main_v102 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    StableHlo.unary main_v102 main_v103 (broadcastInDim S40000x1 ![0] bcast_S40000_S40000x1_0 : (⟨S40000, .f32⟩ : BufTy).Contents (Elt F) → (⟨S40000x1, .f32⟩ : BufTy).Contents (Elt F)),
    StableHlo.nullary main_cst_13 (constant S_ .f32 0x43000000#32),
    StableHlo.unary main_cst_13 main_v104 (broadcastInDim S40000x1 ![] bcast_S_S40000x1 : (⟨S_, .f32⟩ : BufTy).Contents (Elt F) → (⟨S40000x1, .f32⟩ : BufTy).Contents (Elt F)),
    StableHlo.binary main_v103 main_v104 main_v105 (Host.divf : (⟨S40000x1, .f32⟩ : BufTy).Contents (Elt F) → (⟨S40000x1, .f32⟩ : BufTy).Contents (Elt F) → (⟨S40000x1, .f32⟩ : BufTy).Contents (Elt F)),
    StableHlo.nullary main_c_14 (constantI S_ 32 0#32),
    StableHlo.TRef.nullary main_call3.cst (constant S_ .f32 0x00000000#32),
    StableHlo.TRef.binary (.of main_v97) main_call3.cst main_call3.v0 (fun x v => Host.reduceAdd x v reducesTo_S40000x128_S40000_d1 h_S_),
    StableHlo.TRef.unary main_call3.v0 main_call3.v1 (broadcastInDim S40000x1 ![0] bcast_S40000_S40000x1_0),
    StableHlo.TRef.nullary main_call3.cst_0 (constant S_ .f32 0x43000000#32),
    StableHlo.TRef.unary main_call3.cst_0 main_call3.v2 (broadcastInDim S40000x1 ![] bcast_S_S40000x1),
    StableHlo.TRef.binary main_call3.v1 main_call3.v2 main_call3.v3 Host.divf,
    StableHlo.TRef.unary main_call3.v3 main_call3.v4 (broadcastInDim S40000x128 ![0, 1] bcast_S40000x1_S40000x128_0_1),
    StableHlo.TRef.binary (.of main_v97) main_call3.v4 main_call3.v5 subf,
    StableHlo.TRef.binary main_call3.v5 main_call3.v5 main_call3.v6 mulf,
    StableHlo.TRef.unary (.of main_c_14) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S40000x128_S40000_d1 h_S_),
    StableHlo.TRef.unary main_call3.v9 main_call3.v10 (broadcastInDim S40000x1 ![0] bcast_S40000_S40000x1_0),
    StableHlo.TRef.unary main_call3.v8 main_call3.v11 (broadcastInDim S40000x1 ![] bcast_S_S40000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S40000x1 ![] bcast_S_S40000x1),
    StableHlo.TRef.ternary main_call3.v13 main_call3.v12 main_call3.call0.v1 main_call3.call0.v2 (fun p a b => select (broadcastInDim S40000x1 ![] bcast_S_S40000x1 p) a b),
    StableHlo.unary main_v105 main_v107 (broadcastInDim S40000x128 ![0, 1] bcast_S40000x1_S40000x128_0_1 : (⟨S40000x1, .f32⟩ : BufTy).Contents (Elt F) → (⟨S40000x128, .f32⟩ : BufTy).Contents (Elt F)),
    StableHlo.binary main_v97 main_v107 main_v108 (subf : (⟨S40000x128, .f32⟩ : BufTy).Contents (Elt F) → (⟨S40000x128, .f32⟩ : BufTy).Contents (Elt F) → (⟨S40000x128, .f32⟩ : BufTy).Contents (Elt F)),
    StableHlo.nullary main_cst_15 (constant S_ .f32 0x3727C5AC#32),
    StableHlo.unary main_cst_15 main_v109 (broadcastInDim S40000x1 ![] bcast_S_S40000x1 : (⟨S_, .f32⟩ : BufTy).Contents (Elt F) → (⟨S40000x1, .f32⟩ : BufTy).Contents (Elt F)),
    StableHlo.binary main_v106 main_v109 main_v110 (addf : (⟨S40000x1, .f32⟩ : BufTy).Contents (Elt F) → (⟨S40000x1, .f32⟩ : BufTy).Contents (Elt F) → (⟨S40000x1, .f32⟩ : BufTy).Contents (Elt F)),
    StableHlo.unary main_v110 main_v111 (Host.sqrt : (⟨S40000x1, .f32⟩ : BufTy).Contents (Elt F) → (⟨S40000x1, .f32⟩ : BufTy).Contents (Elt F)),
    StableHlo.unary main_v111 main_v112 (broadcastInDim S40000x128 ![0, 1] bcast_S40000x1_S40000x128_0_1 : (⟨S40000x1, .f32⟩ : BufTy).Contents (Elt F) → (⟨S40000x128, .f32⟩ : BufTy).Contents (Elt F)),
    StableHlo.binary main_v108 main_v112 main_v113 (Host.divf : (⟨S40000x128, .f32⟩ : BufTy).Contents (Elt F) → (⟨S40000x128, .f32⟩ : BufTy).Contents (Elt F) → (⟨S40000x128, .f32⟩ : BufTy).Contents (Elt F)),
    StableHlo.unary main_v99 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S40000x128 ![0, 1] bcast_S1x128_S40000x128_0_1 : (⟨S1x128, .f32⟩ : BufTy).Contents (Elt F) → (⟨S40000x128, .f32⟩ : BufTy).Contents (Elt F)),
    StableHlo.binary main_v113 main_v115 main_v116 (mulf : (⟨S40000x128, .f32⟩ : BufTy).Contents (Elt F) → (⟨S40000x128, .f32⟩ : BufTy).Contents (Elt F) → (⟨S40000x128, .f32⟩ : BufTy).Contents (Elt F)),
    StableHlo.unary main_v101 main_v117 (broadcastInDim S1x128 ![1] bcast_S128_S1x128_1 : (⟨S128, .f32⟩ : BufTy).Contents (Elt F) → (⟨S1x128, .f32⟩ : BufTy).Contents (Elt F)),
    StableHlo.unary main_v117 main_v118 (broadcastInDim S40000x128 ![0, 1] bcast_S1x128_S40000x128_0_1 : (⟨S1x128, .f32⟩ : BufTy).Contents (Elt F) → (⟨S40000x128, .f32⟩ : BufTy).Contents (Elt F)),
    StableHlo.binary main_v116 main_v118 main_v119 (addf : (⟨S40000x128, .f32⟩ : BufTy).Contents (Elt F) → (⟨S40000x128, .f32⟩ : BufTy).Contents (Elt F) → (⟨S40000x128, .f32⟩ : BufTy).Contents (Elt F)) ]

/-- Segment 5, 3 operations: layer 1: the weight slice and the product with it (%120 … %122). -/
abbrev seg5 : List (HloOp τ sig (Elt F)) :=
  [ StableHlo.unary main_arg5 main_v120 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v120 main_v121 rfl shapeCasts_S1x128x128_S128x128,
    StableHlo.binary main_v119 main_v121 main_v122 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)) ]

/-- Segment 6, 25 operations: layer 1: gather along the edges, weighting, scatter-add, the self term and the bias (%123 … %144). -/
abbrev seg6 : List (HloOp τ sig (Elt F)) :=
  [ StableHlo.nullary main_c_16 (constantI S_ 32 0#32),
    StableHlo.unary main_c_16 main_v123 (broadcastInDim S640000 ![] bcast_S_S640000 : (⟨S_, .i32⟩ : BufTy).Contents (Elt F) → (⟨S640000, .i32⟩ : BufTy).Contents (Elt F)),
    StableHlo.binary main_v1 main_v123 main_v124 (cmpi .slt : (⟨S640000, .i32⟩ : BufTy).Contents (Elt F) → (⟨S640000, .i32⟩ : BufTy).Contents (Elt F) → (⟨S640000, .i1⟩ : BufTy).Contents (Elt F)),
    StableHlo.nullary main_c_17 (constantI S_ 32 40000#32),
    StableHlo.unary main_c_17 main_v125 (broadcastInDim S640000 ![] bcast_S_S640000 : (⟨S_, .i32⟩ : BufTy).Contents (Elt F) → (⟨S640000, .i32⟩ : BufTy).Contents (Elt F)),
    StableHlo.binary main_v1 main_v125 main_v126 (addi : (⟨S640000, .i32⟩ : BufTy).Contents (Elt F) → (⟨S640000, .i32⟩ : BufTy).Contents (Elt F) → (⟨S640000, .i32⟩ : BufTy).Contents (Elt F)),
    StableHlo.ternary main_v124 main_v126 main_v1 main_v127 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v127 main_v128 (broadcastInDim S640000x1 ![0] bcast_S640000_S640000x1_0 : (⟨S640000, .i32⟩ : BufTy).Contents (Elt F) → (⟨S640000x1, .i32⟩ : BufTy).Contents (Elt F)),
    StableHlo.binary main_v122 main_v128 main_v129 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v25 main_v130 (broadcastInDim S640000x1 ![0] bcast_S640000_S640000x1_0 : (⟨S640000, .f32⟩ : BufTy).Contents (Elt F) → (⟨S640000x1, .f32⟩ : BufTy).Contents (Elt F)),
    StableHlo.unary main_v130 main_v131 (broadcastInDim S640000x128 ![0, 1] bcast_S640000x1_S640000x128_0_1 : (⟨S640000x1, .f32⟩ : BufTy).Contents (Elt F) → (⟨S640000x128, .f32⟩ : BufTy).Contents (Elt F)),
    StableHlo.binary main_v129 main_v131 main_v132 (mulf : (⟨S640000x128, .f32⟩ : BufTy).Contents (Elt F) → (⟨S640000x128, .f32⟩ : BufTy).Contents (Elt F) → (⟨S640000x128, .f32⟩ : BufTy).Contents (Elt F)),
    StableHlo.nullary main_cst_18 (constant S_ .f32 0x00000000#32),
    StableHlo.unary main_cst_18 main_v133 (broadcastInDim S40000x128 ![] bcast_S_S40000x128 : (⟨S_, .f32⟩ : BufTy).Contents (Elt F) → (⟨S40000x128, .f32⟩ : BufTy).Contents (Elt F)),
    StableHlo.unary main_v3 main_v134 (broadcastInDim S640000x1 ![0] bcast_S640000_S640000x1_0 : (⟨S640000, .i32⟩ : BufTy).Contents (Elt F) → (⟨S640000x1, .i32⟩ : BufTy).Contents (Elt F)),
    StableHlo.ternary main_v133 main_v134 main_v132 main_v135 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v26 main_v136 (broadcastInDim S40000x1 ![0] bcast_S40000_S40000x1_0 : (⟨S40000, .f32⟩ : BufTy).Contents (Elt F) → (⟨S40000x1, .f32⟩ : BufTy).Contents (Elt F)),
    StableHlo.unary main_v136 main_v137 (broadcastInDim S40000x128 ![0, 1] bcast_S40000x1_S40000x128_0_1 : (⟨S40000x1, .f32⟩ : BufTy).Contents (Elt F) → (⟨S40000x128, .f32⟩ : BufTy).Contents (Elt F)),
    StableHlo.binary main_v122 main_v137 main_v138 (mulf : (⟨S40000x128, .f32⟩ : BufTy).Contents (Elt F) → (⟨S40000x128, .f32⟩ : BufTy).Contents (Elt F) → (⟨S40000x128, .f32⟩ : BufTy).Contents (Elt F)),
    StableHlo.binary main_v135 main_v138 main_v139 (addf : (⟨S40000x128, .f32⟩ : BufTy).Contents (Elt F) → (⟨S40000x128, .f32⟩ : BufTy).Contents (Elt F) → (⟨S40000x128, .f32⟩ : BufTy).Contents (Elt F)),
    StableHlo.unary main_arg6 main_v140 ((extractStridedSlice S1x128 ![1, 0] · slices_S3x128_S1x128_1_0) : (⟨S3x128, .f32⟩ : BufTy).Contents (Elt F) → (⟨S1x128, .f32⟩ : BufTy).Contents (Elt F)),
    StableHlo.reshape main_v140 main_v141 rfl shapeCasts_S1x128_S128,
    StableHlo.unary main_v141 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S40000x128 ![0, 1] bcast_S1x128_S40000x128_0_1 : (⟨S1x128, .f32⟩ : BufTy).Contents (Elt F) → (⟨S40000x128, .f32⟩ : BufTy).Contents (Elt F)),
    StableHlo.binary main_v139 main_v143 main_v144 (addf : (⟨S40000x128, .f32⟩ : BufTy).Contents (Elt F) → (⟨S40000x128, .f32⟩ : BufTy).Contents (Elt F) → (⟨S40000x128, .f32⟩ : BufTy).Contents (Elt F)) ]

/-- Segment 7, 120 operations: layer 1: layer norm, relu, residual, the two-layer feed-forward, residual, layer norm (%145 … %208; the variance and relu functions' operations in place). -/
abbrev seg7 : List (HloOp τ sig (Elt F)) :=
  [ StableHlo.unary main_arg7 main_v145 ((extractStridedSlice S1x128 ![1, 0] · slices_S3x128_S1x128_1_0) : (⟨S3x128, .f32⟩ : BufTy).Contents (Elt F) → (⟨S1x128, .f32⟩ : BufTy).Contents (Elt F)),
    StableHlo.reshape main_v145 main_v146 rfl shapeCasts_S1x128_S128,
    StableHlo.unary main_arg8 main_v147 ((extractStridedSlice S1x128 ![1, 0] · slices_S3x128_S1x128_1_0) : (⟨S3x128, .f32⟩ : BufTy).Contents (Elt F) → (⟨S1x128, .f32⟩ : BufTy).Contents (Elt F)),
    StableHlo.reshape main_v147 main_v148 rfl shapeCasts_S1x128_S128,
    StableHlo.nullary main_cst_19 (constant S_ .f32 0x00000000#32),
    StableHlo.binary main_v144 main_cst_19 main_v149 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    StableHlo.unary main_v149 main_v150 (broadcastInDim S40000x1 ![0] bcast_S40000_S40000x1_0 : (⟨S40000, .f32⟩ : BufTy).Contents (Elt F) → (⟨S40000x1, .f32⟩ : BufTy).Contents (Elt F)),
    StableHlo.nullary main_cst_20 (constant S_ .f32 0x43000000#32),
    StableHlo.unary main_cst_20 main_v151 (broadcastInDim S40000x1 ![] bcast_S_S40000x1 : (⟨S_, .f32⟩ : BufTy).Contents (Elt F) → (⟨S40000x1, .f32⟩ : BufTy).Contents (Elt F)),
    StableHlo.binary main_v150 main_v151 main_v152 (Host.divf : (⟨S40000x1, .f32⟩ : BufTy).Contents (Elt F) → (⟨S40000x1, .f32⟩ : BufTy).Contents (Elt F) → (⟨S40000x1, .f32⟩ : BufTy).Contents (Elt F)),
    StableHlo.nullary main_c_21 (constantI S_ 32 0#32),
    StableHlo.TRef.nullary main_call4.cst (constant S_ .f32 0x00000000#32),
    StableHlo.TRef.binary (.of main_v144) main_call4.cst main_call4.v0 (fun x v => Host.reduceAdd x v reducesTo_S40000x128_S40000_d1 h_S_),
    StableHlo.TRef.unary main_call4.v0 main_call4.v1 (broadcastInDim S40000x1 ![0] bcast_S40000_S40000x1_0),
    StableHlo.TRef.nullary main_call4.cst_0 (constant S_ .f32 0x43000000#32),
    StableHlo.TRef.unary main_call4.cst_0 main_call4.v2 (broadcastInDim S40000x1 ![] bcast_S_S40000x1),
    StableHlo.TRef.binary main_call4.v1 main_call4.v2 main_call4.v3 Host.divf,
    StableHlo.TRef.unary main_call4.v3 main_call4.v4 (broadcastInDim S40000x128 ![0, 1] bcast_S40000x1_S40000x128_0_1),
    StableHlo.TRef.binary (.of main_v144) main_call4.v4 main_call4.v5 subf,
    StableHlo.TRef.binary main_call4.v5 main_call4.v5 main_call4.v6 mulf,
    StableHlo.TRef.unary (.of main_c_21) main_call4.v7 (sitofp .f32),
    StableHlo.TRef.nullary main_call4.cst_1 (constant S_ .f32 0x43000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S40000x128_S40000_d1 h_S_),
    StableHlo.TRef.unary main_call4.v9 main_call4.v10 (broadcastInDim S40000x1 ![0] bcast_S40000_S40000x1_0),
    StableHlo.TRef.unary main_call4.v8 main_call4.v11 (broadcastInDim S40000x1 ![] bcast_S_S40000x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S40000x1 ![] bcast_S_S40000x1),
    StableHlo.TRef.ternary main_call4.v13 main_call4.v12 main_call4.call0.v1 main_call4.call0.v2 (fun p a b => select (broadcastInDim S40000x1 ![] bcast_S_S40000x1 p) a b),
    StableHlo.unary main_v152 main_v154 (broadcastInDim S40000x128 ![0, 1] bcast_S40000x1_S40000x128_0_1 : (⟨S40000x1, .f32⟩ : BufTy).Contents (Elt F) → (⟨S40000x128, .f32⟩ : BufTy).Contents (Elt F)),
    StableHlo.binary main_v144 main_v154 main_v155 (subf : (⟨S40000x128, .f32⟩ : BufTy).Contents (Elt F) → (⟨S40000x128, .f32⟩ : BufTy).Contents (Elt F) → (⟨S40000x128, .f32⟩ : BufTy).Contents (Elt F)),
    StableHlo.nullary main_cst_22 (constant S_ .f32 0x3727C5AC#32),
    StableHlo.unary main_cst_22 main_v156 (broadcastInDim S40000x1 ![] bcast_S_S40000x1 : (⟨S_, .f32⟩ : BufTy).Contents (Elt F) → (⟨S40000x1, .f32⟩ : BufTy).Contents (Elt F)),
    StableHlo.binary main_v153 main_v156 main_v157 (addf : (⟨S40000x1, .f32⟩ : BufTy).Contents (Elt F) → (⟨S40000x1, .f32⟩ : BufTy).Contents (Elt F) → (⟨S40000x1, .f32⟩ : BufTy).Contents (Elt F)),
    StableHlo.unary main_v157 main_v158 (Host.sqrt : (⟨S40000x1, .f32⟩ : BufTy).Contents (Elt F) → (⟨S40000x1, .f32⟩ : BufTy).Contents (Elt F)),
    StableHlo.unary main_v158 main_v159 (broadcastInDim S40000x128 ![0, 1] bcast_S40000x1_S40000x128_0_1 : (⟨S40000x1, .f32⟩ : BufTy).Contents (Elt F) → (⟨S40000x128, .f32⟩ : BufTy).Contents (Elt F)),
    StableHlo.binary main_v155 main_v159 main_v160 (Host.divf : (⟨S40000x128, .f32⟩ : BufTy).Contents (Elt F) → (⟨S40000x128, .f32⟩ : BufTy).Contents (Elt F) → (⟨S40000x128, .f32⟩ : BufTy).Contents (Elt F)),
    StableHlo.unary main_v146 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S40000x128 ![0, 1] bcast_S1x128_S40000x128_0_1 : (⟨S1x128, .f32⟩ : BufTy).Contents (Elt F) → (⟨S40000x128, .f32⟩ : BufTy).Contents (Elt F)),
    StableHlo.binary main_v160 main_v162 main_v163 (mulf : (⟨S40000x128, .f32⟩ : BufTy).Contents (Elt F) → (⟨S40000x128, .f32⟩ : BufTy).Contents (Elt F) → (⟨S40000x128, .f32⟩ : BufTy).Contents (Elt F)),
    StableHlo.unary main_v148 main_v164 (broadcastInDim S1x128 ![1] bcast_S128_S1x128_1 : (⟨S128, .f32⟩ : BufTy).Contents (Elt F) → (⟨S1x128, .f32⟩ : BufTy).Contents (Elt F)),
    StableHlo.unary main_v164 main_v165 (broadcastInDim S40000x128 ![0, 1] bcast_S1x128_S40000x128_0_1 : (⟨S1x128, .f32⟩ : BufTy).Contents (Elt F) → (⟨S40000x128, .f32⟩ : BufTy).Contents (Elt F)),
    StableHlo.binary main_v163 main_v165 main_v166 (addf : (⟨S40000x128, .f32⟩ : BufTy).Contents (Elt F) → (⟨S40000x128, .f32⟩ : BufTy).Contents (Elt F) → (⟨S40000x128, .f32⟩ : BufTy).Contents (Elt F)),
    StableHlo.TRef.nullary main_call5.cst (constant S_ .f32 0x00000000#32),
    StableHlo.TRef.unary main_call5.cst main_call5.v0 (broadcastInDim S40000x128 ![] bcast_S_S40000x128),
    StableHlo.TRef.binary (.of main_v166) main_call5.v0 main_call5.v1 maximumf,
    StableHlo.binary main_v167 main_v119 main_v168 (addf : (⟨S40000x128, .f32⟩ : BufTy).Contents (Elt F) → (⟨S40000x128, .f32⟩ : BufTy).Contents (Elt F) → (⟨S40000x128, .f32⟩ : BufTy).Contents (Elt F)),
    StableHlo.unary main_arg9 main_v169 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v169 main_v170 rfl shapeCasts_S1x128x128_S128x128,
    StableHlo.binary main_v168 main_v170 main_v171 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg10 main_v172 ((extractStridedSlice S1x128 ![1, 0] · slices_S3x128_S1x128_1_0) : (⟨S3x128, .f32⟩ : BufTy).Contents (Elt F) → (⟨S1x128, .f32⟩ : BufTy).Contents (Elt F)),
    StableHlo.reshape main_v172 main_v173 rfl shapeCasts_S1x128_S128,
    StableHlo.unary main_v173 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S40000x128 ![0, 1] bcast_S1x128_S40000x128_0_1 : (⟨S1x128, .f32⟩ : BufTy).Contents (Elt F) → (⟨S40000x128, .f32⟩ : BufTy).Contents (Elt F)),
    StableHlo.binary main_v171 main_v175 main_v176 (addf : (⟨S40000x128, .f32⟩ : BufTy).Contents (Elt F) → (⟨S40000x128, .f32⟩ : BufTy).Contents (Elt F) → (⟨S40000x128, .f32⟩ : BufTy).Contents (Elt F)),
    StableHlo.TRef.nullary main_call6.cst (constant S_ .f32 0x00000000#32),
    StableHlo.TRef.unary main_call6.cst main_call6.v0 (broadcastInDim S40000x128 ![] bcast_S_S40000x128),
    StableHlo.TRef.binary (.of main_v176) main_call6.v0 main_call6.v1 maximumf,
    StableHlo.unary main_arg11 main_v178 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v178 main_v179 rfl shapeCasts_S1x128x128_S128x128,
    StableHlo.binary main_v177 main_v179 main_v180 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)),
    StableHlo.unary main_arg12 main_v181 ((extractStridedSlice S1x128 ![1, 0] · slices_S3x128_S1x128_1_0) : (⟨S3x128, .f32⟩ : BufTy).Contents (Elt F) → (⟨S1x128, .f32⟩ : BufTy).Contents (Elt F)),
    StableHlo.reshape main_v181 main_v182 rfl shapeCasts_S1x128_S128,
    StableHlo.unary main_v182 main_v183 (broadcastInDim S1x128 ![1] bcast_S128_S1x128_1 : (⟨S128, .f32⟩ : BufTy).Contents (Elt F) → (⟨S1x128, .f32⟩ : BufTy).Contents (Elt F)),
    StableHlo.unary main_v183 main_v184 (broadcastInDim S40000x128 ![0, 1] bcast_S1x128_S40000x128_0_1 : (⟨S1x128, .f32⟩ : BufTy).Contents (Elt F) → (⟨S40000x128, .f32⟩ : BufTy).Contents (Elt F)),
    StableHlo.binary main_v180 main_v184 main_v185 (addf : (⟨S40000x128, .f32⟩ : BufTy).Contents (Elt F) → (⟨S40000x128, .f32⟩ : BufTy).Contents (Elt F) → (⟨S40000x128, .f32⟩ : BufTy).Contents (Elt F)),
    StableHlo.binary main_v185 main_v168 main_v186 (addf : (⟨S40000x128, .f32⟩ : BufTy).Contents (Elt F) → (⟨S40000x128, .f32⟩ : BufTy).Contents (Elt F) → (⟨S40000x128, .f32⟩ : BufTy).Contents (Elt F)),
    StableHlo.unary main_arg13 main_v187 ((extractStridedSlice S1x128 ![1, 0] · slices_S3x128_S1x128_1_0) : (⟨S3x128, .f32⟩ : BufTy).Contents (Elt F) → (⟨S1x128, .f32⟩ : BufTy).Contents (Elt F)),
    StableHlo.reshape main_v187 main_v188 rfl shapeCasts_S1x128_S128,
    StableHlo.unary main_arg14 main_v189 ((extractStridedSlice S1x128 ![1, 0] · slices_S3x128_S1x128_1_0) : (⟨S3x128, .f32⟩ : BufTy).Contents (Elt F) → (⟨S1x128, .f32⟩ : BufTy).Contents (Elt F)),
    StableHlo.reshape main_v189 main_v190 rfl shapeCasts_S1x128_S128,
    StableHlo.nullary main_cst_23 (constant S_ .f32 0x00000000#32),
    StableHlo.binary main_v186 main_cst_23 main_v191 ((fun x v => Host.reduceAdd x v reducesTo_S40000x128_S40000_d1 h_S_) : (⟨S40000x128, .f32⟩ : BufTy).Contents (Elt F) → (⟨S_, .f32⟩ : BufTy).Contents (Elt F) → (⟨S40000, .f32⟩ : BufTy).Contents (Elt F)),
    StableHlo.unary main_v191 main_v192 (broadcastInDim S40000x1 ![0] bcast_S40000_S40000x1_0 : (⟨S40000, .f32⟩ : BufTy).Contents (Elt F) → (⟨S40000x1, .f32⟩ : BufTy).Contents (Elt F)),
    StableHlo.nullary main_cst_24 (constant S_ .f32 0x43000000#32),
    StableHlo.unary main_cst_24 main_v193 (broadcastInDim S40000x1 ![] bcast_S_S40000x1 : (⟨S_, .f32⟩ : BufTy).Contents (Elt F) → (⟨S40000x1, .f32⟩ : BufTy).Contents (Elt F)),
    StableHlo.binary main_v192 main_v193 main_v194 (Host.divf : (⟨S40000x1, .f32⟩ : BufTy).Contents (Elt F) → (⟨S40000x1, .f32⟩ : BufTy).Contents (Elt F) → (⟨S40000x1, .f32⟩ : BufTy).Contents (Elt F)),
    StableHlo.nullary main_c_25 (constantI S_ 32 0#32),
    StableHlo.TRef.nullary main_call7.cst (constant S_ .f32 0x00000000#32),
    StableHlo.TRef.binary (.of main_v186) main_call7.cst main_call7.v0 (fun x v => Host.reduceAdd x v reducesTo_S40000x128_S40000_d1 h_S_),
    StableHlo.TRef.unary main_call7.v0 main_call7.v1 (broadcastInDim S40000x1 ![0] bcast_S40000_S40000x1_0),
    StableHlo.TRef.nullary main_call7.cst_0 (constant S_ .f32 0x43000000#32),
    StableHlo.TRef.unary main_call7.cst_0 main_call7.v2 (broadcastInDim S40000x1 ![] bcast_S_S40000x1),
    StableHlo.TRef.binary main_call7.v1 main_call7.v2 main_call7.v3 Host.divf,
    StableHlo.TRef.unary main_call7.v3 main_call7.v4 (broadcastInDim S40000x128 ![0, 1] bcast_S40000x1_S40000x128_0_1),
    StableHlo.TRef.binary (.of main_v186) main_call7.v4 main_call7.v5 subf,
    StableHlo.TRef.binary main_call7.v5 main_call7.v5 main_call7.v6 mulf,
    StableHlo.TRef.unary (.of main_c_25) main_call7.v7 (sitofp .f32),
    StableHlo.TRef.nullary main_call7.cst_1 (constant S_ .f32 0x43000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S40000x128_S40000_d1 h_S_),
    StableHlo.TRef.unary main_call7.v9 main_call7.v10 (broadcastInDim S40000x1 ![0] bcast_S40000_S40000x1_0),
    StableHlo.TRef.unary main_call7.v8 main_call7.v11 (broadcastInDim S40000x1 ![] bcast_S_S40000x1),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S40000x1 ![] bcast_S_S40000x1),
    StableHlo.TRef.ternary main_call7.v13 main_call7.v12 main_call7.call0.v1 main_call7.call0.v2 (fun p a b => select (broadcastInDim S40000x1 ![] bcast_S_S40000x1 p) a b),
    StableHlo.unary main_v194 main_v196 (broadcastInDim S40000x128 ![0, 1] bcast_S40000x1_S40000x128_0_1 : (⟨S40000x1, .f32⟩ : BufTy).Contents (Elt F) → (⟨S40000x128, .f32⟩ : BufTy).Contents (Elt F)),
    StableHlo.binary main_v186 main_v196 main_v197 (subf : (⟨S40000x128, .f32⟩ : BufTy).Contents (Elt F) → (⟨S40000x128, .f32⟩ : BufTy).Contents (Elt F) → (⟨S40000x128, .f32⟩ : BufTy).Contents (Elt F)),
    StableHlo.nullary main_cst_26 (constant S_ .f32 0x3727C5AC#32),
    StableHlo.unary main_cst_26 main_v198 (broadcastInDim S40000x1 ![] bcast_S_S40000x1 : (⟨S_, .f32⟩ : BufTy).Contents (Elt F) → (⟨S40000x1, .f32⟩ : BufTy).Contents (Elt F)),
    StableHlo.binary main_v195 main_v198 main_v199 (addf : (⟨S40000x1, .f32⟩ : BufTy).Contents (Elt F) → (⟨S40000x1, .f32⟩ : BufTy).Contents (Elt F) → (⟨S40000x1, .f32⟩ : BufTy).Contents (Elt F)),
    StableHlo.unary main_v199 main_v200 (Host.sqrt : (⟨S40000x1, .f32⟩ : BufTy).Contents (Elt F) → (⟨S40000x1, .f32⟩ : BufTy).Contents (Elt F)),
    StableHlo.unary main_v200 main_v201 (broadcastInDim S40000x128 ![0, 1] bcast_S40000x1_S40000x128_0_1 : (⟨S40000x1, .f32⟩ : BufTy).Contents (Elt F) → (⟨S40000x128, .f32⟩ : BufTy).Contents (Elt F)),
    StableHlo.binary main_v197 main_v201 main_v202 (Host.divf : (⟨S40000x128, .f32⟩ : BufTy).Contents (Elt F) → (⟨S40000x128, .f32⟩ : BufTy).Contents (Elt F) → (⟨S40000x128, .f32⟩ : BufTy).Contents (Elt F)),
    StableHlo.unary main_v188 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S40000x128 ![0, 1] bcast_S1x128_S40000x128_0_1 : (⟨S1x128, .f32⟩ : BufTy).Contents (Elt F) → (⟨S40000x128, .f32⟩ : BufTy).Contents (Elt F)),
    StableHlo.binary main_v202 main_v204 main_v205 (mulf : (⟨S40000x128, .f32⟩ : BufTy).Contents (Elt F) → (⟨S40000x128, .f32⟩ : BufTy).Contents (Elt F) → (⟨S40000x128, .f32⟩ : BufTy).Contents (Elt F)),
    StableHlo.unary main_v190 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S40000x128 ![0, 1] bcast_S1x128_S40000x128_0_1 : (⟨S1x128, .f32⟩ : BufTy).Contents (Elt F) → (⟨S40000x128, .f32⟩ : BufTy).Contents (Elt F)),
    StableHlo.binary main_v205 main_v207 main_v208 (addf : (⟨S40000x128, .f32⟩ : BufTy).Contents (Elt F) → (⟨S40000x128, .f32⟩ : BufTy).Contents (Elt F) → (⟨S40000x128, .f32⟩ : BufTy).Contents (Elt F)) ]

/-- Segment 8, 3 operations: layer 2: the weight slice and the product with it (%209 … %211). -/
abbrev seg8 : List (HloOp τ sig (Elt F)) :=
  [ StableHlo.unary main_arg5 main_v209 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v209 main_v210 rfl shapeCasts_S1x128x128_S128x128,
    StableHlo.binary main_v208 main_v210 main_v211 ((fun l r => Host.dotGeneral dot_S40000x128_S128x128_S40000x128_1_0_0_1_n_n none l r) : (⟨S40000x128, .f32⟩ : BufTy).Contents (Elt F) → (⟨S128x128, .f32⟩ : BufTy).Contents (Elt F) → (⟨S40000x128, .f32⟩ : BufTy).Contents (Elt F)) ]

/-- Segment 9, 25 operations: layer 2: gather along the edges, weighting, scatter-add, the self term and the bias (%212 … %233). -/
abbrev seg9 : List (HloOp τ sig (Elt F)) :=
  [ StableHlo.nullary main_c_27 (constantI S_ 32 0#32),
    StableHlo.unary main_c_27 main_v212 (broadcastInDim S640000 ![] bcast_S_S640000 : (⟨S_, .i32⟩ : BufTy).Contents (Elt F) → (⟨S640000, .i32⟩ : BufTy).Contents (Elt F)),
    StableHlo.binary main_v1 main_v212 main_v213 (cmpi .slt : (⟨S640000, .i32⟩ : BufTy).Contents (Elt F) → (⟨S640000, .i32⟩ : BufTy).Contents (Elt F) → (⟨S640000, .i1⟩ : BufTy).Contents (Elt F)),
    StableHlo.nullary main_c_28 (constantI S_ 32 40000#32),
    StableHlo.unary main_c_28 main_v214 (broadcastInDim S640000 ![] bcast_S_S640000 : (⟨S_, .i32⟩ : BufTy).Contents (Elt F) → (⟨S640000, .i32⟩ : BufTy).Contents (Elt F)),
    StableHlo.binary main_v1 main_v214 main_v215 (addi : (⟨S640000, .i32⟩ : BufTy).Contents (Elt F) → (⟨S640000, .i32⟩ : BufTy).Contents (Elt F) → (⟨S640000, .i32⟩ : BufTy).Contents (Elt F)),
    StableHlo.ternary main_v213 main_v215 main_v1 main_v216 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v216 main_v217 (broadcastInDim S640000x1 ![0] bcast_S640000_S640000x1_0 : (⟨S640000, .i32⟩ : BufTy).Contents (Elt F) → (⟨S640000x1, .i32⟩ : BufTy).Contents (Elt F)),
    StableHlo.binary main_v211 main_v217 main_v218 ((fun x i => Host.gather gather_S40000x128_S640000x1_S640000x128_1_0_n_n_0_1_1128 x i) : (⟨S40000x128, .f32⟩ : BufTy).Contents (Elt F) → (⟨S640000x1, .i32⟩ : BufTy).Contents (Elt F) → (⟨S640000x128, .f32⟩ : BufTy).Contents (Elt F)),
    StableHlo.unary main_v25 main_v219 (broadcastInDim S640000x1 ![0] bcast_S640000_S640000x1_0 : (⟨S640000, .f32⟩ : BufTy).Contents (Elt F) → (⟨S640000x1, .f32⟩ : BufTy).Contents (Elt F)),
    StableHlo.unary main_v219 main_v220 (broadcastInDim S640000x128 ![0, 1] bcast_S640000x1_S640000x128_0_1 : (⟨S640000x1, .f32⟩ : BufTy).Contents (Elt F) → (⟨S640000x128, .f32⟩ : BufTy).Contents (Elt F)),
    StableHlo.binary main_v218 main_v220 main_v221 (mulf : (⟨S640000x128, .f32⟩ : BufTy).Contents (Elt F) → (⟨S640000x128, .f32⟩ : BufTy).Contents (Elt F) → (⟨S640000x128, .f32⟩ : BufTy).Contents (Elt F)),
    StableHlo.nullary main_cst_29 (constant S_ .f32 0x00000000#32),
    StableHlo.unary main_cst_29 main_v222 (broadcastInDim S40000x128 ![] bcast_S_S40000x128 : (⟨S_, .f32⟩ : BufTy).Contents (Elt F) → (⟨S40000x128, .f32⟩ : BufTy).Contents (Elt F)),
    StableHlo.unary main_v3 main_v223 (broadcastInDim S640000x1 ![0] bcast_S640000_S640000x1_0 : (⟨S640000, .i32⟩ : BufTy).Contents (Elt F) → (⟨S640000x1, .i32⟩ : BufTy).Contents (Elt F)),
    StableHlo.ternary main_v222 main_v223 main_v221 main_v224 ((fun x i u => Host.scatterAdd scatter_S40000x128_S640000x1_S640000x128_1_0_0_1 x i u) : (⟨S40000x128, .f32⟩ : BufTy).Contents (Elt F) → (⟨S640000x1, .i32⟩ : BufTy).Contents (Elt F) → (⟨S640000x128, .f32⟩ : BufTy).Contents (Elt F) → (⟨S40000x128, .f32⟩ : BufTy).Contents (Elt F)),
    StableHlo.unary main_v26 main_v225 (broadcastInDim S40000x1 ![0] bcast_S40000_S40000x1_0 : (⟨S40000, .f32⟩ : BufTy).Contents (Elt F) → (⟨S40000x1, .f32⟩ : BufTy).Contents (Elt F)),
    StableHlo.unary main_v225 main_v226 (broadcastInDim S40000x128 ![0, 1] bcast_S40000x1_S40000x128_0_1 : (⟨S40000x1, .f32⟩ : BufTy).Contents (Elt F) → (⟨S40000x128, .f32⟩ : BufTy).Contents (Elt F)),
    StableHlo.binary main_v211 main_v226 main_v227 (mulf : (⟨S40000x128, .f32⟩ : BufTy).Contents (Elt F) → (⟨S40000x128, .f32⟩ : BufTy).Contents (Elt F) → (⟨S40000x128, .f32⟩ : BufTy).Contents (Elt F)),
    StableHlo.binary main_v224 main_v227 main_v228 (addf : (⟨S40000x128, .f32⟩ : BufTy).Contents (Elt F) → (⟨S40000x128, .f32⟩ : BufTy).Contents (Elt F) → (⟨S40000x128, .f32⟩ : BufTy).Contents (Elt F)),
    StableHlo.unary main_arg6 main_v229 ((extractStridedSlice S1x128 ![2, 0] · slices_S3x128_S1x128_2_0) : (⟨S3x128, .f32⟩ : BufTy).Contents (Elt F) → (⟨S1x128, .f32⟩ : BufTy).Contents (Elt F)),
    StableHlo.reshape main_v229 main_v230 rfl shapeCasts_S1x128_S128,
    StableHlo.unary main_v230 main_v231 (broadcastInDim S1x128 ![1] bcast_S128_S1x128_1 : (⟨S128, .f32⟩ : BufTy).Contents (Elt F) → (⟨S1x128, .f32⟩ : BufTy).Contents (Elt F)),
    StableHlo.unary main_v231 main_v232 (broadcastInDim S40000x128 ![0, 1] bcast_S1x128_S40000x128_0_1 : (⟨S1x128, .f32⟩ : BufTy).Contents (Elt F) → (⟨S40000x128, .f32⟩ : BufTy).Contents (Elt F)),
    StableHlo.binary main_v228 main_v232 main_v233 (addf : (⟨S40000x128, .f32⟩ : BufTy).Contents (Elt F) → (⟨S40000x128, .f32⟩ : BufTy).Contents (Elt F) → (⟨S40000x128, .f32⟩ : BufTy).Contents (Elt F)) ]

/-- Segment 10, 27 operations: the per-graph mean pooling and the two-layer head (%234 … %254; the relu function's operations in place). -/
abbrev seg10 : List (HloOp τ sig (Elt F)) :=
  [ StableHlo.nullary main_cst_30 (constant S_ .f32 0x3F800000#32),
    StableHlo.unary main_cst_30 main_v234 (broadcastInDim S40000 ![] bcast_S_S40000 : (⟨S_, .f32⟩ : BufTy).Contents (Elt F) → (⟨S40000, .f32⟩ : BufTy).Contents (Elt F)),
    StableHlo.nullary main_cst_31 (constant S_ .f32 0x00000000#32),
    StableHlo.unary main_cst_31 main_v235 (broadcastInDim S64 ![] bcast_S_S64 : (⟨S_, .f32⟩ : BufTy).Contents (Elt F) → (⟨S64, .f32⟩ : BufTy).Contents (Elt F)),
    StableHlo.unary main_arg2 main_v236 (broadcastInDim S40000x1 ![0] bcast_S40000_S40000x1_0 : (⟨S40000, .i32⟩ : BufTy).Contents (Elt F) → (⟨S40000x1, .i32⟩ : BufTy).Contents (Elt F)),
    StableHlo.ternary main_v235 main_v236 main_v234 main_v237 ((fun x i u => Host.scatterAdd scatter_S64_S40000x1_S40000_n_0_0_1 x i u) : (⟨S64, .f32⟩ : BufTy).Contents (Elt F) → (⟨S40000x1, .i32⟩ : BufTy).Contents (Elt F) → (⟨S40000, .f32⟩ : BufTy).Contents (Elt F) → (⟨S64, .f32⟩ : BufTy).Contents (Elt F)),
    StableHlo.nullary main_cst_32 (constant S_ .f32 0x00000000#32),
    StableHlo.unary main_cst_32 main_v238 (broadcastInDim S64x128 ![] bcast_S_S64x128 : (⟨S_, .f32⟩ : BufTy).Contents (Elt F) → (⟨S64x128, .f32⟩ : BufTy).Contents (Elt F)),
    StableHlo.unary main_arg2 main_v239 (broadcastInDim S40000x1 ![0] bcast_S40000_S40000x1_0 : (⟨S40000, .i32⟩ : BufTy).Contents (Elt F) → (⟨S40000x1, .i32⟩ : BufTy).Contents (Elt F)),
    StableHlo.ternary main_v238 main_v239 main_v233 main_v240 ((fun x i u => Host.scatterAdd scatter_S64x128_S40000x1_S40000x128_1_0_0_1 x i u) : (⟨S64x128, .f32⟩ : BufTy).Contents (Elt F) → (⟨S40000x1, .i32⟩ : BufTy).Contents (Elt F) → (⟨S40000x128, .f32⟩ : BufTy).Contents (Elt F) → (⟨S64x128, .f32⟩ : BufTy).Contents (Elt F)),
    StableHlo.nullary main_cst_33 (constant S_ .f32 0x3F800000#32),
    StableHlo.unary main_cst_33 main_v241 (broadcastInDim S64 ![] bcast_S_S64 : (⟨S_, .f32⟩ : BufTy).Contents (Elt F) → (⟨S64, .f32⟩ : BufTy).Contents (Elt F)),
    StableHlo.binary main_v237 main_v241 main_v242 (maximumf : (⟨S64, .f32⟩ : BufTy).Contents (Elt F) → (⟨S64, .f32⟩ : BufTy).Contents (Elt F) → (⟨S64, .f32⟩ : BufTy).Contents (Elt F)),
    StableHlo.unary main_v242 main_v243 (broadcastInDim S64x1 ![0] bcast_S64_S64x1_0 : (⟨S64, .f32⟩ : BufTy).Contents (Elt F) → (⟨S64x1, .f32⟩ : BufTy).Contents (Elt F)),
    StableHlo.unary main_v243 main_v244 (broadcastInDim S64x128 ![0, 1] bcast_S64x1_S64x128_0_1 : (⟨S64x1, .f32⟩ : BufTy).Contents (Elt F) → (⟨S64x128, .f32⟩ : BufTy).Contents (Elt F)),
    StableHlo.binary main_v240 main_v244 main_v245 (Host.divf : (⟨S64x128, .f32⟩ : BufTy).Contents (Elt F) → (⟨S64x128, .f32⟩ : BufTy).Contents (Elt F) → (⟨S64x128, .f32⟩ : BufTy).Contents (Elt F)),
    StableHlo.binary main_v245 main_arg15 main_v246 ((fun l r => Host.dotGeneral dot_S64x128_S128x128_S64x128_1_0_0_1_n_n none l r) : (⟨S64x128, .f32⟩ : BufTy).Contents (Elt F) → (⟨S128x128, .f32⟩ : BufTy).Contents (Elt F) → (⟨S64x128, .f32⟩ : BufTy).Contents (Elt F)),
    StableHlo.unary main_arg16 main_v247 (broadcastInDim S1x128 ![1] bcast_S128_S1x128_1 : (⟨S128, .f32⟩ : BufTy).Contents (Elt F) → (⟨S1x128, .f32⟩ : BufTy).Contents (Elt F)),
    StableHlo.unary main_v247 main_v248 (broadcastInDim S64x128 ![0, 1] bcast_S1x128_S64x128_0_1 : (⟨S1x128, .f32⟩ : BufTy).Contents (Elt F) → (⟨S64x128, .f32⟩ : BufTy).Contents (Elt F)),
    StableHlo.binary main_v246 main_v248 main_v249 (addf : (⟨S64x128, .f32⟩ : BufTy).Contents (Elt F) → (⟨S64x128, .f32⟩ : BufTy).Contents (Elt F) → (⟨S64x128, .f32⟩ : BufTy).Contents (Elt F)),
    StableHlo.TRef.nullary main_call8.cst (constant S_ .f32 0x00000000#32),
    StableHlo.TRef.unary main_call8.cst main_call8.v0 (broadcastInDim S64x128 ![] bcast_S_S64x128),
    StableHlo.TRef.binary (.of main_v249) main_call8.v0 main_call8.v1 maximumf,
    StableHlo.binary main_v250 main_arg17 main_v251 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    StableHlo.unary main_arg18 main_v252 (broadcastInDim S1x1 ![1] bcast_S1_S1x1_1 : (⟨S1, .f32⟩ : BufTy).Contents (Elt F) → (⟨S1x1, .f32⟩ : BufTy).Contents (Elt F)),
    StableHlo.unary main_v252 main_v253 (broadcastInDim S64x1 ![0, 1] bcast_S1x1_S64x1_0_1 : (⟨S1x1, .f32⟩ : BufTy).Contents (Elt F) → (⟨S64x1, .f32⟩ : BufTy).Contents (Elt F)),
    StableHlo.binary main_v251 main_v253 main_v254 (addf : (⟨S64x1, .f32⟩ : BufTy).Contents (Elt F) → (⟨S64x1, .f32⟩ : BufTy).Contents (Elt F) → (⟨S64x1, .f32⟩ : BufTy).Contents (Elt F)) ]

/-- @main's 389 operations in order, the calls' bodies in place: the eleven segments appended. -/
abbrev ops : List (HloOp τ sig (Elt F)) :=
  seg0 ++ seg1 ++ seg2 ++ seg3 ++ seg4 ++ seg5 ++ seg6 ++ seg7 ++ seg8 ++ seg9 ++ seg10

/-! ## @main is that straight line -/

set_option maxRecDepth 100000 in
/-- @main is the straight line of `ops`: its five windows in order, each function's body unfolded at its calls and
    each call's record at its fields, are the same chain of steps (sequencing re-associates by computation). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and none allocates -/

theorem seg0_sub : (seg0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub ..⟩

theorem seg1_sub : (seg1 : List (HloOp τ sig (Elt F))).Forall fun op => op.bufs ⊆ tcRefs τ sig :=
  ⟨binary_bufs_sub .., unary_bufs_sub .., unary_bufs_sub .., binary_bufs_sub ..⟩

theorem seg2_sub : (seg2 : List (HloOp τ sig (Elt F))).Forall fun op => op.bufs ⊆ tcRefs τ sig :=
  ⟨unary_bufs_sub .., reshape_bufs_sub .., binary_bufs_sub ..⟩

theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub ..⟩

theorem seg4_sub : (seg4 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem seg5_sub : (seg5 : List (HloOp τ sig (Elt F))).Forall fun op => op.bufs ⊆ tcRefs τ sig :=
  ⟨unary_bufs_sub .., reshape_bufs_sub .., binary_bufs_sub ..⟩

theorem seg6_sub : (seg6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub ..⟩

theorem seg7_sub : (seg7 : List (HloOp τ sig (Elt F))).Forall fun op => op.bufs ⊆ tcRefs τ sig :=
  ⟨unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem seg8_sub : (seg8 : List (HloOp τ sig (Elt F))).Forall fun op => op.bufs ⊆ tcRefs τ sig :=
  ⟨unary_bufs_sub .., reshape_bufs_sub .., binary_bufs_sub ..⟩

theorem seg9_sub : (seg9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., reshape_bufs_sub .., unary_bufs_sub .., unary_bufs_sub .., binary_bufs_sub ..⟩

theorem seg10_sub : (seg10 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem ops_sub : (ops : List (HloOp τ sig (Elt F))).Forall fun op => op.bufs ⊆ tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨seg0_sub, seg1_sub⟩), seg2_sub⟩), seg3_sub⟩), seg4_sub⟩), seg5_sub⟩), seg6_sub⟩), seg7_sub⟩), seg8_sub⟩), seg9_sub⟩), seg10_sub⟩)

theorem seg0_fresh : (seg0 : List (HloOp τ sig (Elt F))).Forall fun op => op.fresh = ∅ := by
  simp only [List.Forall]; repeat' constructor

theorem seg1_fresh : (seg1 : List (HloOp τ sig (Elt F))).Forall fun op => op.fresh = ∅ := by
  simp only [List.Forall]; repeat' constructor

theorem seg2_fresh : (seg2 : List (HloOp τ sig (Elt F))).Forall fun op => op.fresh = ∅ := by
  simp only [List.Forall]; repeat' constructor

theorem seg3_fresh : (seg3 : List (HloOp τ sig (Elt F))).Forall fun op => op.fresh = ∅ := by
  simp only [List.Forall]; repeat' constructor

theorem seg4_fresh : (seg4 : List (HloOp τ sig (Elt F))).Forall fun op => op.fresh = ∅ := by
  simp only [List.Forall]; repeat' constructor

theorem seg5_fresh : (seg5 : List (HloOp τ sig (Elt F))).Forall fun op => op.fresh = ∅ := by
  simp only [List.Forall]; repeat' constructor

theorem seg6_fresh : (seg6 : List (HloOp τ sig (Elt F))).Forall fun op => op.fresh = ∅ := by
  simp only [List.Forall]; repeat' constructor

theorem seg7_fresh : (seg7 : List (HloOp τ sig (Elt F))).Forall fun op => op.fresh = ∅ := by
  simp only [List.Forall]; repeat' constructor

theorem seg8_fresh : (seg8 : List (HloOp τ sig (Elt F))).Forall fun op => op.fresh = ∅ := by
  simp only [List.Forall]; repeat' constructor

theorem seg9_fresh : (seg9 : List (HloOp τ sig (Elt F))).Forall fun op => op.fresh = ∅ := by
  simp only [List.Forall]; repeat' constructor

theorem seg10_fresh : (seg10 : List (HloOp τ sig (Elt F))).Forall fun op => op.fresh = ∅ := by
  simp only [List.Forall]; repeat' constructor

theorem ops_fresh : (ops : List (HloOp τ sig (Elt F))).Forall fun op => op.fresh = ∅ :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨seg0_fresh, seg1_fresh⟩), seg2_fresh⟩), seg3_fresh⟩), seg4_fresh⟩), seg5_fresh⟩), seg6_fresh⟩), seg7_fresh⟩), seg8_fresh⟩), seg9_fresh⟩), seg10_fresh⟩)

/-! ## The run -/

/-- Two lines folded one after the other are their concatenation folded as one. -/
theorem after_append (a b : List (HloOp τ sig (Elt F))) (W : Valuation τ sig (Elt F)) :
    after (a ++ b) W = after b (after a W) := by
  induction a generalizing W with
  | nil => rfl
  | cons op a ih => simp only [List.cons_append, after_cons, ih]

/-- The fold over `ops` is the folds over the eleven segments, in order. -/
theorem after_ops (W : Valuation τ sig (Elt F)) :
    after ops W = after seg10 (after seg9 (after seg8 (after seg7 (after seg6 (after seg5 (after seg4 (after seg3
      (after seg2 (after seg1 (after seg0 W)))))))))) := by
  simp only [ops, after_append]

/-- On every device, for any float values, from any memory with zero counters: every weakly fair execution of @main
    terminates, and every final state has each TensorCore buffer at the fold of `ops` over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ
    (fun _ => List.forall_iff_forall_mem.mp ops_fresh)

end Cert.ReferenceIdeal.RefRun

end
-- ==== Proof.RefFrame.lean ====
import proofs.«137925_j52501680226462_1_alg».proof.Proof.RefRun

noncomputable section

namespace Cert.ReferenceIdeal.RefFrame

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## What each segment writes, and what it leaves -/

/-- One more operation in front, its result buffer in front of the list: the line's writes stay inside the list. -/
theorem writes_cons {op : HloOp τ sig (Elt F)} {l : List (HloOp τ sig (Elt F))} {y : Ref sig .tc} {W : List (Ref sig .tc)}
    (h1 : op.writes = {Proc.devRef .tc y})
    (h2 : l.Forall fun o => o.writes ⊆ (W.map (Proc.devRef (τ := τ) .tc)).toFinset) :
    (op :: l).Forall fun o => o.writes ⊆ ((y :: W).map (Proc.devRef (τ := τ) .tc)).toFinset := by
  refine (List.forall_cons _ _ _).mpr ⟨?_, List.Forall.imp (fun o ho => ho.trans ?_) h2⟩
  · rw [h1, Finset.singleton_subset_iff, List.map_cons, List.toFinset_cons]; exact Finset.mem_insert_self _ _
  · rw [List.map_cons, List.toFinset_cons]; exact Finset.subset_insert _ _

/-- The buffers segment 0 writes: one per operation, in order. -/
abbrev seg0_writes : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26]

theorem seg0_writes_sub : (seg0 : List (HloOp τ sig (Elt F))).Forall fun o =>
    o.writes ⊆ (seg0_writes.map (Proc.devRef (τ := τ) .tc)).toFinset := by
  iterate 34 refine writes_cons rfl ?_
  exact trivial

/-- A buffer segment 0 does not write keeps its contents across it. -/
theorem seg0_keeps (W : Valuation τ sig (Elt F)) {r : Ref sig .tc} (hr : r ∉ seg0_writes) :
    after seg0 W (Proc.devRef .tc r) = W (Proc.devRef .tc r) :=
  after_of_writes_sub seg0 W seg0_writes_sub hr

/-- The buffers segment 1 writes: one per operation, in order. -/
abbrev seg1_writes : List (Ref sig .tc) :=
  [main_v27, main_v28, main_v29, main_v30]

theorem seg1_writes_sub : (seg1 : List (HloOp τ sig (Elt F))).Forall fun o =>
    o.writes ⊆ (seg1_writes.map (Proc.devRef (τ := τ) .tc)).toFinset := by
  iterate 4 refine writes_cons rfl ?_
  exact trivial

/-- A buffer segment 1 does not write keeps its contents across it. -/
theorem seg1_keeps (W : Valuation τ sig (Elt F)) {r : Ref sig .tc} (hr : r ∉ seg1_writes) :
    after seg1 W (Proc.devRef .tc r) = W (Proc.devRef .tc r) :=
  after_of_writes_sub seg1 W seg1_writes_sub hr

/-- The buffers segment 2 writes: one per operation, in order. -/
abbrev seg2_writes : List (Ref sig .tc) :=
  [main_v31, main_v32, main_v33]

theorem seg2_writes_sub : (seg2 : List (HloOp τ sig (Elt F))).Forall fun o =>
    o.writes ⊆ (seg2_writes.map (Proc.devRef (τ := τ) .tc)).toFinset := by
  iterate 3 refine writes_cons rfl ?_
  exact trivial

/-- A buffer segment 2 does not write keeps its contents across it. -/
theorem seg2_keeps (W : Valuation τ sig (Elt F)) {r : Ref sig .tc} (hr : r ∉ seg2_writes) :
    after seg2 W (Proc.devRef .tc r) = W (Proc.devRef .tc r) :=
  after_of_writes_sub seg2 W seg2_writes_sub hr

/-- The buffers segment 3 writes: one per operation, in order. -/
abbrev seg3_writes : List (Ref sig .tc) :=
  [main_c_5, main_v34, main_v35, main_c_6, main_v36, main_v37, main_v38, main_v39, main_v40, main_v41, main_v42, main_v43, main_cst_7, main_v44, main_v45, main_v46, main_v47, main_v48, main_v49, main_v50, main_v51, main_v52, main_v53, main_v54, main_v55]

theorem seg3_writes_sub : (seg3 : List (HloOp τ sig (Elt F))).Forall fun o =>
    o.writes ⊆ (seg3_writes.map (Proc.devRef (τ := τ) .tc)).toFinset := by
  iterate 25 refine writes_cons rfl ?_
  exact trivial

/-- A buffer segment 3 does not write keeps its contents across it. -/
theorem seg3_keeps (W : Valuation τ sig (Elt F)) {r : Ref sig .tc} (hr : r ∉ seg3_writes) :
    after seg3 W (Proc.devRef .tc r) = W (Proc.devRef .tc r) :=
  after_of_writes_sub seg3 W seg3_writes_sub hr

/-- The buffers segment 4 writes: one per operation, in order. -/
abbrev seg4_writes : List (Ref sig .tc) :=
  [main_v56, main_v57, main_v58, main_v59, main_cst_8, main_v60, main_v61, main_cst_9, main_v62, main_v63, main_c_10, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v64, main_v65, main_v66, main_cst_11, main_v67, main_v68, main_v69, main_v70, main_v71, main_v72, main_v73, main_v74, main_v75, main_v76, main_v77, main_call1_cst, main_call1_v0, main_v78, main_v79, main_v80, main_v81, main_v82, main_v83, main_v84, main_v85, main_v86, main_v87, main_call2_cst, main_call2_v0, main_v88, main_v89, main_v90, main_v91, main_v92, main_v93, main_v94, main_v95, main_v96, main_v97, main_v98, main_v99, main_v100, main_v101, main_cst_12, main_v102, main_v103, main_cst_13, main_v104, main_v105, main_c_14, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v106, main_v107, main_v108, main_cst_15, main_v109, main_v110, main_v111, main_v112, main_v113, main_v114, main_v115, main_v116, main_v117, main_v118, main_v119]

theorem seg4_writes_sub : (seg4 : List (HloOp τ sig (Elt F))).Forall fun o =>
    o.writes ⊆ (seg4_writes.map (Proc.devRef (τ := τ) .tc)).toFinset := by
  iterate 120 refine writes_cons rfl ?_
  exact trivial

/-- A buffer segment 4 does not write keeps its contents across it. -/
theorem seg4_keeps (W : Valuation τ sig (Elt F)) {r : Ref sig .tc} (hr : r ∉ seg4_writes) :
    after seg4 W (Proc.devRef .tc r) = W (Proc.devRef .tc r) :=
  after_of_writes_sub seg4 W seg4_writes_sub hr

/-- The buffers segment 5 writes: one per operation, in order. -/
abbrev seg5_writes : List (Ref sig .tc) :=
  [main_v120, main_v121, main_v122]

theorem seg5_writes_sub : (seg5 : List (HloOp τ sig (Elt F))).Forall fun o =>
    o.writes ⊆ (seg5_writes.map (Proc.devRef (τ := τ) .tc)).toFinset := by
  iterate 3 refine writes_cons rfl ?_
  exact trivial

/-- A buffer segment 5 does not write keeps its contents across it. -/
theorem seg5_keeps (W : Valuation τ sig (Elt F)) {r : Ref sig .tc} (hr : r ∉ seg5_writes) :
    after seg5 W (Proc.devRef .tc r) = W (Proc.devRef .tc r) :=
  after_of_writes_sub seg5 W seg5_writes_sub hr

/-- The buffers segment 6 writes: one per operation, in order. -/
abbrev seg6_writes : List (Ref sig .tc) :=
  [main_c_16, main_v123, main_v124, main_c_17, main_v125, main_v126, main_v127, main_v128, main_v129, main_v130, main_v131, main_v132, main_cst_18, main_v133, main_v134, main_v135, main_v136, main_v137, main_v138, main_v139, main_v140, main_v141, main_v142, main_v143, main_v144]

theorem seg6_writes_sub : (seg6 : List (HloOp τ sig (Elt F))).Forall fun o =>
    o.writes ⊆ (seg6_writes.map (Proc.devRef (τ := τ) .tc)).toFinset := by
  iterate 25 refine writes_cons rfl ?_
  exact trivial

/-- A buffer segment 6 does not write keeps its contents across it. -/
theorem seg6_keeps (W : Valuation τ sig (Elt F)) {r : Ref sig .tc} (hr : r ∉ seg6_writes) :
    after seg6 W (Proc.devRef .tc r) = W (Proc.devRef .tc r) :=
  after_of_writes_sub seg6 W seg6_writes_sub hr

/-- The buffers segment 7 writes: one per operation, in order. -/
abbrev seg7_writes : List (Ref sig .tc) :=
  [main_v145, main_v146, main_v147, main_v148, main_cst_19, main_v149, main_v150, main_cst_20, main_v151, main_v152, main_c_21, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v153, main_v154, main_v155, main_cst_22, main_v156, main_v157, main_v158, main_v159, main_v160, main_v161, main_v162, main_v163, main_v164, main_v165, main_v166, main_call5_cst, main_call5_v0, main_v167, main_v168, main_v169, main_v170, main_v171, main_v172, main_v173, main_v174, main_v175, main_v176, main_call6_cst, main_call6_v0, main_v177, main_v178, main_v179, main_v180, main_v181, main_v182, main_v183, main_v184, main_v185, main_v186, main_v187, main_v188, main_v189, main_v190, main_cst_23, main_v191, main_v192, main_cst_24, main_v193, main_v194, main_c_25, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v195, main_v196, main_v197, main_cst_26, main_v198, main_v199, main_v200, main_v201, main_v202, main_v203, main_v204, main_v205, main_v206, main_v207, main_v208]

theorem seg7_writes_sub : (seg7 : List (HloOp τ sig (Elt F))).Forall fun o =>
    o.writes ⊆ (seg7_writes.map (Proc.devRef (τ := τ) .tc)).toFinset := by
  iterate 120 refine writes_cons rfl ?_
  exact trivial

/-- A buffer segment 7 does not write keeps its contents across it. -/
theorem seg7_keeps (W : Valuation τ sig (Elt F)) {r : Ref sig .tc} (hr : r ∉ seg7_writes) :
    after seg7 W (Proc.devRef .tc r) = W (Proc.devRef .tc r) :=
  after_of_writes_sub seg7 W seg7_writes_sub hr

/-- The buffers segment 8 writes: one per operation, in order. -/
abbrev seg8_writes : List (Ref sig .tc) :=
  [main_v209, main_v210, main_v211]

theorem seg8_writes_sub : (seg8 : List (HloOp τ sig (Elt F))).Forall fun o =>
    o.writes ⊆ (seg8_writes.map (Proc.devRef (τ := τ) .tc)).toFinset := by
  iterate 3 refine writes_cons rfl ?_
  exact trivial

/-- A buffer segment 8 does not write keeps its contents across it. -/
theorem seg8_keeps (W : Valuation τ sig (Elt F)) {r : Ref sig .tc} (hr : r ∉ seg8_writes) :
    after seg8 W (Proc.devRef .tc r) = W (Proc.devRef .tc r) :=
  after_of_writes_sub seg8 W seg8_writes_sub hr

/-- The buffers segment 9 writes: one per operation, in order. -/
abbrev seg9_writes : List (Ref sig .tc) :=
  [main_c_27, main_v212, main_v213, main_c_28, main_v214, main_v215, main_v216, main_v217, main_v218, main_v219, main_v220, main_v221, main_cst_29, main_v222, main_v223, main_v224, main_v225, main_v226, main_v227, main_v228, main_v229, main_v230, main_v231, main_v232, main_v233]

theorem seg9_writes_sub : (seg9 : List (HloOp τ sig (Elt F))).Forall fun o =>
    o.writes ⊆ (seg9_writes.map (Proc.devRef (τ := τ) .tc)).toFinset := by
  iterate 25 refine writes_cons rfl ?_
  exact trivial

/-- A buffer segment 9 does not write keeps its contents across it. -/
theorem seg9_keeps (W : Valuation τ sig (Elt F)) {r : Ref sig .tc} (hr : r ∉ seg9_writes) :
    after seg9 W (Proc.devRef .tc r) = W (Proc.devRef .tc r) :=
  after_of_writes_sub seg9 W seg9_writes_sub hr

/-- The buffers segment 10 writes: one per operation, in order. -/
abbrev seg10_writes : List (Ref sig .tc) :=
  [main_cst_30, main_v234, main_cst_31, main_v235, main_v236, main_v237, main_cst_32, main_v238, main_v239, main_v240, main_cst_33, main_v241, main_v242, main_v243, main_v244, main_v245, main_v246, main_v247, main_v248, main_v249, main_call8_cst, main_call8_v0, main_v250, main_v251, main_v252, main_v253, main_v254]

theorem seg10_writes_sub : (seg10 : List (HloOp τ sig (Elt F))).Forall fun o =>
    o.writes ⊆ (seg10_writes.map (Proc.devRef (τ := τ) .tc)).toFinset := by
  iterate 27 refine writes_cons rfl ?_
  exact trivial

/-- A buffer segment 10 does not write keeps its contents across it. -/
theorem seg10_keeps (W : Valuation τ sig (Elt F)) {r : Ref sig .tc} (hr : r ∉ seg10_writes) :
    after seg10 W (Proc.devRef .tc r) = W (Proc.devRef .tc r) :=
  after_of_writes_sub seg10 W seg10_writes_sub hr

/-- A buffer no segment writes keeps its contents across the whole line. -/
theorem ops_keeps (W : Valuation τ sig (Elt F)) {r : Ref sig .tc}
    (h0 : r ∉ seg0_writes) (h1 : r ∉ seg1_writes) (h2 : r ∉ seg2_writes) (h3 : r ∉ seg3_writes) (h4 : r ∉ seg4_writes) (h5 : r ∉ seg5_writes) (h6 : r ∉ seg6_writes) (h7 : r ∉ seg7_writes) (h8 : r ∉ seg8_writes) (h9 : r ∉ seg9_writes) (h10 : r ∉ seg10_writes) :
    after ops W (Proc.devRef .tc r) = W (Proc.devRef .tc r) := by
  rw [after_ops, seg10_keeps _ h10, seg9_keeps _ h9, seg8_keeps _ h8, seg7_keeps _ h7, seg6_keeps _ h6, seg5_keeps _ h5, seg4_keeps _ h4, seg3_keeps _ h3, seg2_keeps _ h2, seg1_keeps _ h1, seg0_keeps _ h0]

/-! ## The arguments end as launched: no operation writes one -/

theorem kept_arg0 (W : Valuation τ sig (Elt F)) :
    after ops W (Proc.devRef .tc main_arg0) = W (Proc.devRef .tc main_arg0) :=
  ops_keeps W (by decide) (by decide) (by decide) (by decide) (by decide) (by decide) (by decide) (by decide) (by decide) (by decide) (by decide)

theorem kept_arg1 (W : Valuation τ sig (Elt F)) :
    after ops W (Proc.devRef .tc main_arg1) = W (Proc.devRef .tc main_arg1) :=
  ops_keeps W (by decide) (by decide) (by decide) (by decide) (by decide) (by decide) (by decide) (by decide) (by decide) (by decide) (by decide)

theorem kept_arg2 (W : Valuation τ sig (Elt F)) :
    after ops W (Proc.devRef .tc main_arg2) = W (Proc.devRef .tc main_arg2) :=
  ops_keeps W (by decide) (by decide) (by decide) (by decide) (by decide) (by decide) (by decide) (by decide) (by decide) (by decide) (by decide)

theorem kept_arg3 (W : Valuation τ sig (Elt F)) :
    after ops W (Proc.devRef .tc main_arg3) = W (Proc.devRef .tc main_arg3) :=
  ops_keeps W (by decide) (by decide) (by decide) (by decide) (by decide) (by decide) (by decide) (by decide) (by decide) (by decide) (by decide)

theorem kept_arg4 (W : Valuation τ sig (Elt F)) :
    after ops W (Proc.devRef .tc main_arg4) = W (Proc.devRef .tc main_arg4) :=
  ops_keeps W (by decide) (by decide) (by decide) (by decide) (by decide) (by decide) (by decide) (by decide) (by decide) (by decide) (by decide)

theorem kept_arg5 (W : Valuation τ sig (Elt F)) :
    after ops W (Proc.devRef .tc main_arg5) = W (Proc.devRef .tc main_arg5) :=
  ops_keeps W (by decide) (by decide) (by decide) (by decide) (by decide) (by decide) (by decide) (by decide) (by decide) (by decide) (by decide)

theorem kept_arg6 (W : Valuation τ sig (Elt F)) :
    after ops W (Proc.devRef .tc main_arg6) = W (Proc.devRef .tc main_arg6) :=
  ops_keeps W (by decide) (by decide) (by decide) (by decide) (by decide) (by decide) (by decide) (by decide) (by decide) (by decide) (by decide)

theorem kept_arg7 (W : Valuation τ sig (Elt F)) :
    after ops W (Proc.devRef .tc main_arg7) = W (Proc.devRef .tc main_arg7) :=
  ops_keeps W (by decide) (by decide) (by decide) (by decide) (by decide) (by decide) (by decide) (by decide) (by decide) (by decide) (by decide)

theorem kept_arg8 (W : Valuation τ sig (Elt F)) :
    after ops W (Proc.devRef .tc main_arg8) = W (Proc.devRef .tc main_arg8) :=
  ops_keeps W (by decide) (by decide) (by decide) (by decide) (by decide) (by decide) (by decide) (by decide) (by decide) (by decide) (by decide)

theorem kept_arg9 (W : Valuation τ sig (Elt F)) :
    after ops W (Proc.devRef .tc main_arg9) = W (Proc.devRef .tc main_arg9) :=
  ops_keeps W (by decide) (by decide) (by decide) (by decide) (by decide) (by decide) (by decide) (by decide) (by decide) (by decide) (by decide)

theorem kept_arg10 (W : Valuation τ sig (Elt F)) :
    after ops W (Proc.devRef .tc main_arg10) = W (Proc.devRef .tc main_arg10) :=
  ops_keeps W (by decide) (by decide) (by decide) (by decide) (by decide) (by decide) (by decide) (by decide) (by decide) (by decide) (by decide)

theorem kept_arg11 (W : Valuation τ sig (Elt F)) :
    after ops W (Proc.devRef .tc main_arg11) = W (Proc.devRef .tc main_arg11) :=
  ops_keeps W (by decide) (by decide) (by decide) (by decide) (by decide) (by decide) (by decide) (by decide) (by decide) (by decide) (by decide)

theorem kept_arg12 (W : Valuation τ sig (Elt F)) :
    after ops W (Proc.devRef .tc main_arg12) = W (Proc.devRef .tc main_arg12) :=
  ops_keeps W (by decide) (by decide) (by decide) (by decide) (by decide) (by decide) (by decide) (by decide) (by decide) (by decide) (by decide)

theorem kept_arg13 (W : Valuation τ sig (Elt F)) :
    after ops W (Proc.devRef .tc main_arg13) = W (Proc.devRef .tc main_arg13) :=
  ops_keeps W (by decide) (by decide) (by decide) (by decide) (by decide) (by decide) (by decide) (by decide) (by decide) (by decide) (by decide)

theorem kept_arg14 (W : Valuation τ sig (Elt F)) :
    after ops W (Proc.devRef .tc main_arg14) = W (Proc.devRef .tc main_arg14) :=
  ops_keeps W (by decide) (by decide) (by decide) (by decide) (by decide) (by decide) (by decide) (by decide) (by decide) (by decide) (by decide)

theorem kept_arg15 (W : Valuation τ sig (Elt F)) :
    after ops W (Proc.devRef .tc main_arg15) = W (Proc.devRef .tc main_arg15) :=
  ops_keeps W (by decide) (by decide) (by decide) (by decide) (by decide) (by decide) (by decide) (by decide) (by decide) (by decide) (by decide)

theorem kept_arg16 (W : Valuation τ sig (Elt F)) :
    after ops W (Proc.devRef .tc main_arg16) = W (Proc.devRef .tc main_arg16) :=
  ops_keeps W (by decide) (by decide) (by decide) (by decide) (by decide) (by decide) (by decide) (by decide) (by decide) (by decide) (by decide)

theorem kept_arg17 (W : Valuation τ sig (Elt F)) :
    after ops W (Proc.devRef .tc main_arg17) = W (Proc.devRef .tc main_arg17) :=
  ops_keeps W (by decide) (by decide) (by decide) (by decide) (by decide) (by decide) (by decide) (by decide) (by decide) (by decide) (by decide)

theorem kept_arg18 (W : Valuation τ sig (Elt F)) :
    after ops W (Proc.devRef .tc main_arg18) = W (Proc.devRef .tc main_arg18) :=
  ops_keeps W (by decide) (by decide) (by decide) (by decide) (by decide) (by decide) (by decide) (by decide) (by decide) (by decide) (by decide)

/-- On every device, for any float values, from any memory with zero counters: every weakly fair execution of @main
    terminates, and the nineteen arguments end unchanged. -/
theorem frame_ref (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _),
      (h c main_arg15).trans (kept_arg15 _),
      (h c main_arg16).trans (kept_arg16 _),
      (h c main_arg17).trans (kept_arg17 _),
      (h c main_arg18).trans (kept_arg18 _)⟩)
    (run_raw m g)

end Cert.ReferenceIdeal.RefFrame

end
-- ==== Proof.RSide.lean ====
/-
  The contents of the reference program's buffers at each cut of its operation list.

  The list is cut where the kernel program has a boundary: after the degree normalisation, after each affine
  stage, each bare product, each aggregation over the edges and each combine stage.  The contents after a cut are
  the operations of the segment before it applied to the contents at the previous cut; at the end they are the
  whole program's.  A buffer a segment does not write passes through it.
-/
import proofs.«137925_j52501680226462_1_alg».proof.Proof.RefFrame
import Idealize.ShloMosaic.PureOps.Ideal

noncomputable section

namespace Cert.ReferenceIdeal.RSide

open Cert.ReferenceIdeal Cert.ReferenceIdeal.RefRun Cert.ReferenceIdeal.RefFrame Idealize.ShloMosaic Idealize.ShloMosaic.TcCoe

variable (m' : (ℓ : Loc nD τ sig) → Buf (Elt Ideal) ℓ) (d : Dev nD)

/-- the buffers at launch -/
def R0 : Valuation τ sig (Elt Ideal) := StableHlo.launchContents m' d
/-- the buffers after segment 0 -/
def R1 : Valuation τ sig (Elt Ideal) := StableHlo.after (seg0 (F := Ideal)) (R0 m' d)
theorem R1_def : R1 m' d = StableHlo.after (seg0 (F := Ideal)) (R0 m' d) := rfl
/-- a buffer segment 0 does not write passes through it -/
theorem keep1 (r : Ref sig .tc) (hr : r ∉ seg0_writes) : R1 m' d (Proc.devRef .tc r) = R0 m' d (Proc.devRef .tc r) :=
  seg0_keeps (F := Ideal) (R0 m' d) hr
/-- the buffers after segment 1 -/
def R2 : Valuation τ sig (Elt Ideal) := StableHlo.after (seg1 (F := Ideal)) (R1 m' d)
theorem R2_def : R2 m' d = StableHlo.after (seg1 (F := Ideal)) (R1 m' d) := rfl
/-- a buffer segment 1 does not write passes through it -/
theorem keep2 (r : Ref sig .tc) (hr : r ∉ seg1_writes) : R2 m' d (Proc.devRef .tc r) = R1 m' d (Proc.devRef .tc r) :=
  seg1_keeps (F := Ideal) (R1 m' d) hr
/-- the buffers after segment 2 -/
def R3 : Valuation τ sig (Elt Ideal) := StableHlo.after (seg2 (F := Ideal)) (R2 m' d)
theorem R3_def : R3 m' d = StableHlo.after (seg2 (F := Ideal)) (R2 m' d) := rfl
/-- a buffer segment 2 does not write passes through it -/
theorem keep3 (r : Ref sig .tc) (hr : r ∉ seg2_writes) : R3 m' d (Proc.devRef .tc r) = R2 m' d (Proc.devRef .tc r) :=
  seg2_keeps (F := Ideal) (R2 m' d) hr
/-- the buffers after segment 3 -/
def R4 : Valuation τ sig (Elt Ideal) := StableHlo.after (seg3 (F := Ideal)) (R3 m' d)
theorem R4_def : R4 m' d = StableHlo.after (seg3 (F := Ideal)) (R3 m' d) := rfl
/-- a buffer segment 3 does not write passes through it -/
theorem keep4 (r : Ref sig .tc) (hr : r ∉ seg3_writes) : R4 m' d (Proc.devRef .tc r) = R3 m' d (Proc.devRef .tc r) :=
  seg3_keeps (F := Ideal) (R3 m' d) hr
/-- the buffers after segment 4 -/
def R5 : Valuation τ sig (Elt Ideal) := StableHlo.after (seg4 (F := Ideal)) (R4 m' d)
theorem R5_def : R5 m' d = StableHlo.after (seg4 (F := Ideal)) (R4 m' d) := rfl
/-- a buffer segment 4 does not write passes through it -/
theorem keep5 (r : Ref sig .tc) (hr : r ∉ seg4_writes) : R5 m' d (Proc.devRef .tc r) = R4 m' d (Proc.devRef .tc r) :=
  seg4_keeps (F := Ideal) (R4 m' d) hr
/-- the buffers after segment 5 -/
def R6 : Valuation τ sig (Elt Ideal) := StableHlo.after (seg5 (F := Ideal)) (R5 m' d)
theorem R6_def : R6 m' d = StableHlo.after (seg5 (F := Ideal)) (R5 m' d) := rfl
/-- a buffer segment 5 does not write passes through it -/
theorem keep6 (r : Ref sig .tc) (hr : r ∉ seg5_writes) : R6 m' d (Proc.devRef .tc r) = R5 m' d (Proc.devRef .tc r) :=
  seg5_keeps (F := Ideal) (R5 m' d) hr
/-- the buffers after segment 6 -/
def R7 : Valuation τ sig (Elt Ideal) := StableHlo.after (seg6 (F := Ideal)) (R6 m' d)
theorem R7_def : R7 m' d = StableHlo.after (seg6 (F := Ideal)) (R6 m' d) := rfl
/-- a buffer segment 6 does not write passes through it -/
theorem keep7 (r : Ref sig .tc) (hr : r ∉ seg6_writes) : R7 m' d (Proc.devRef .tc r) = R6 m' d (Proc.devRef .tc r) :=
  seg6_keeps (F := Ideal) (R6 m' d) hr
/-- the buffers after segment 7 -/
def R8 : Valuation τ sig (Elt Ideal) := StableHlo.after (seg7 (F := Ideal)) (R7 m' d)
theorem R8_def : R8 m' d = StableHlo.after (seg7 (F := Ideal)) (R7 m' d) := rfl
/-- a buffer segment 7 does not write passes through it -/
theorem keep8 (r : Ref sig .tc) (hr : r ∉ seg7_writes) : R8 m' d (Proc.devRef .tc r) = R7 m' d (Proc.devRef .tc r) :=
  seg7_keeps (F := Ideal) (R7 m' d) hr
/-- the buffers after segment 8 -/
def R9 : Valuation τ sig (Elt Ideal) := StableHlo.after (seg8 (F := Ideal)) (R8 m' d)
theorem R9_def : R9 m' d = StableHlo.after (seg8 (F := Ideal)) (R8 m' d) := rfl
/-- a buffer segment 8 does not write passes through it -/
theorem keep9 (r : Ref sig .tc) (hr : r ∉ seg8_writes) : R9 m' d (Proc.devRef .tc r) = R8 m' d (Proc.devRef .tc r) :=
  seg8_keeps (F := Ideal) (R8 m' d) hr
/-- the buffers after segment 9 -/
def R10 : Valuation τ sig (Elt Ideal) := StableHlo.after (seg9 (F := Ideal)) (R9 m' d)
theorem R10_def : R10 m' d = StableHlo.after (seg9 (F := Ideal)) (R9 m' d) := rfl
/-- a buffer segment 9 does not write passes through it -/
theorem keep10 (r : Ref sig .tc) (hr : r ∉ seg9_writes) : R10 m' d (Proc.devRef .tc r) = R9 m' d (Proc.devRef .tc r) :=
  seg9_keeps (F := Ideal) (R9 m' d) hr
/-- the buffers after segment 10 -/
def R11 : Valuation τ sig (Elt Ideal) := StableHlo.after (seg10 (F := Ideal)) (R10 m' d)
theorem R11_def : R11 m' d = StableHlo.after (seg10 (F := Ideal)) (R10 m' d) := rfl
/-- a buffer segment 10 does not write passes through it -/
theorem keep11 (r : Ref sig .tc) (hr : r ∉ seg10_writes) : R11 m' d (Proc.devRef .tc r) = R10 m' d (Proc.devRef .tc r) :=
  seg10_keeps (F := Ideal) (R10 m' d) hr

/-- the whole program's operations from the launch contents end at the last cut's contents -/
theorem final_eq : StableHlo.after (ops (F := Ideal)) (StableHlo.launchContents m' d) = R11 m' d := after_ops _

end Cert.ReferenceIdeal.RSide

end
-- ==== Proof.KPass.lean ====
/-
  Which buffers each stretch of the kernel program leaves alone.

  Every host operation writes one buffer of its own and every region writes its output array only, so a buffer's
  contents at a boundary are its contents at the previous boundary unless the stretch between them defines it.
  For each host stretch the buffers it writes are listed once; a buffer outside the list passes through.  A region
  leaves every buffer that is not one of its arrays as it found it, and its input arrays too.
-/
import proofs.«137925_j52501680226462_1_alg».proof.Proof.Gen.KernelIdeal.Frame

set_option maxRecDepth 16384

noncomputable section

namespace Cert.KernelIdeal.KPass

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg) (c : Dev nD)

/-- a buffer written by an operation is in a list that names it -/
theorem single_sub {y : Ref sig .tc} {l : List (Ref sig .tc)} (h : y ∈ l) :
    ({Proc.devRef (τ := τ) .tc y} : Finset (DevRef τ sig)) ⊆ (l.map (Proc.devRef (τ := τ) .tc)).toFinset :=
  Finset.singleton_subset_iff.mpr (List.mem_toFinset.mpr (List.mem_map.mpr ⟨y, h, rfl⟩))

/-- the buffers `hostOps0` writes -/
abbrev wl0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26]
theorem hW0 : (hostOps0 : List (HloOp τ sig (Elt F))).Forall fun op => op.writes ⊆ ((wl0).map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact single_sub (by decide)
/-- a buffer `hostOps0` does not write passes through it -/
theorem host1 (r : Ref sig .tc) (hr : r ∉ wl0) : W1 m ρ c (Proc.devRef .tc r) = W0 m ρ c (Proc.devRef .tc r) :=
  StableHlo.after_of_writes_sub _ _ hW0 hr

/-- the buffers `hostOps1` writes -/
abbrev wl1 : List (Ref sig .tc) := [main_cst_5, main_v28, main_v29, main_v30]
theorem hW1 : (hostOps1 : List (HloOp τ sig (Elt F))).Forall fun op => op.writes ⊆ ((wl1).map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact single_sub (by decide)
/-- a buffer `hostOps1` does not write passes through it -/
theorem host3 (r : Ref sig .tc) (hr : r ∉ wl1) : W3 m ρ c (Proc.devRef .tc r) = W2 m ρ c (Proc.devRef .tc r) :=
  StableHlo.after_of_writes_sub _ _ hW1 hr

/-- the buffers `hostOps2` writes -/
abbrev wl2 : List (Ref sig .tc) := [main_c_6, main_v32, main_v33, main_c_7, main_v34, main_v35, main_v36, main_v37, main_v38, main_v39, main_v40, main_v41, main_cst_8, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69]
theorem hW2 : (hostOps2 : List (HloOp τ sig (Elt F))).Forall fun op => op.writes ⊆ ((wl2).map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact single_sub (by decide)
/-- a buffer `hostOps2` does not write passes through it -/
theorem host5 (r : Ref sig .tc) (hr : r ∉ wl2) : W5 m ρ c (Proc.devRef .tc r) = W4 m ρ c (Proc.devRef .tc r) :=
  StableHlo.after_of_writes_sub _ _ hW2 hr

/-- the buffers `hostOps3` writes -/
abbrev wl3 : List (Ref sig .tc) := [main_v71, main_v72]
theorem hW3 : (hostOps3 : List (HloOp τ sig (Elt F))).Forall fun op => op.writes ⊆ ((wl3).map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact single_sub (by decide)
/-- a buffer `hostOps3` does not write passes through it -/
theorem host7 (r : Ref sig .tc) (hr : r ∉ wl3) : W7 m ρ c (Proc.devRef .tc r) = W6 m ρ c (Proc.devRef .tc r) :=
  StableHlo.after_of_writes_sub _ _ hW3 hr

/-- the buffers `hostOps4` writes -/
abbrev wl4 : List (Ref sig .tc) := [main_c_9, main_v74, main_v75, main_c_10, main_v76, main_v77, main_v78, main_v79, main_v80, main_v81, main_v82, main_v83, main_cst_11, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111]
theorem hW4 : (hostOps4 : List (HloOp τ sig (Elt F))).Forall fun op => op.writes ⊆ ((wl4).map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact single_sub (by decide)
/-- a buffer `hostOps4` does not write passes through it -/
theorem host9 (r : Ref sig .tc) (hr : r ∉ wl4) : W9 m ρ c (Proc.devRef .tc r) = W8 m ρ c (Proc.devRef .tc r) :=
  StableHlo.after_of_writes_sub _ _ hW4 hr

/-- the buffers `hostOps5` writes -/
abbrev wl5 : List (Ref sig .tc) := [main_v113, main_v114]
theorem hW5 : (hostOps5 : List (HloOp τ sig (Elt F))).Forall fun op => op.writes ⊆ ((wl5).map (Proc.devRef (τ := τ) .tc)).toFinset := by
  simp only [hostOps5, List.Forall, StableHlo.nullary_writes, StableHlo.unary_writes, StableHlo.binary_writes, StableHlo.ternary_writes, StableHlo.reshape_writes]
  repeat' apply And.intro
  all_goals exact single_sub (by decide)
/-- a buffer `hostOps5` does not write passes through it -/
theorem host11 (r : Ref sig .tc) (hr : r ∉ wl5) : W11 m ρ c (Proc.devRef .tc r) = W10 m ρ c (Proc.devRef .tc r) :=
  StableHlo.after_of_writes_sub _ _ hW5 hr

/-- the buffers `hostOps6` writes -/
abbrev wl6 : List (Ref sig .tc) := [main_c_12, main_v116, main_v117, main_c_13, main_v118, main_v119, main_v120, main_v121, main_v122, main_v123, main_v124, main_v125, main_cst_14, main_v126, main_v127, main_v128, main_v129, main_v130, main_v131, main_v132, main_v133, main_v134, main_v135, main_v136, main_v137, main_cst_15, main_v138, main_cst_16, main_v139, main_v140, main_v141, main_cst_17, main_v142, main_v143, main_v144, main_cst_18, main_v145, main_v146, main_v147, main_v148, main_v149, main_v150, main_v151, main_v152, main_v153]
theorem hW6 : (hostOps6 : List (HloOp τ sig (Elt F))).Forall fun op => op.writes ⊆ ((wl6).map (Proc.devRef (τ := τ) .tc)).toFinset := by
  simp only [hostOps6, List.Forall, StableHlo.nullary_writes, StableHlo.unary_writes, StableHlo.binary_writes, StableHlo.ternary_writes, StableHlo.reshape_writes]
  repeat' apply And.intro
  all_goals exact single_sub (by decide)
/-- a buffer `hostOps6` does not write passes through it -/
theorem host13 (r : Ref sig .tc) (hr : r ∉ wl6) : W13 m ρ c (Proc.devRef .tc r) = W12 m ρ c (Proc.devRef .tc r) :=
  StableHlo.after_of_writes_sub _ _ hW6 hr

/-- the buffers `hostOps6_1` writes -/
abbrev wl6_1 : List (Ref sig .tc) := [main_call0_cst, main_call0_v0, main_v154]
theorem hW6_1 : (hostOps6_1 : List (HloOp τ sig (Elt F))).Forall fun op => op.writes ⊆ ((wl6_1).map (Proc.devRef (τ := τ) .tc)).toFinset := by
  simp only [hostOps6_1, List.Forall, StableHlo.nullary_writes, StableHlo.unary_writes, StableHlo.binary_writes, StableHlo.ternary_writes, StableHlo.reshape_writes]
  repeat' apply And.intro
  all_goals exact single_sub (by decide)
/-- a buffer `hostOps6_1` does not write passes through it -/
theorem host14 (r : Ref sig .tc) (hr : r ∉ wl6_1) : W14 m ρ c (Proc.devRef .tc r) = W13 m ρ c (Proc.devRef .tc r) :=
  StableHlo.after_of_writes_sub _ _ hW6_1 hr

/-- the buffers `hostOps6_2` writes -/
abbrev wl6_2 : List (Ref sig .tc) := [main_v155, main_v156, main_v157, main_v158]
theorem hW6_2 : (hostOps6_2 : List (HloOp τ sig (Elt F))).Forall fun op => op.writes ⊆ ((wl6_2).map (Proc.devRef (τ := τ) .tc)).toFinset := by
  simp only [hostOps6_2, List.Forall, StableHlo.nullary_writes, StableHlo.unary_writes, StableHlo.binary_writes, StableHlo.ternary_writes, StableHlo.reshape_writes]
  repeat' apply And.intro
  all_goals exact single_sub (by decide)
/-- a buffer `hostOps6_2` does not write passes through it -/
theorem host15 (r : Ref sig .tc) (hr : r ∉ wl6_2) : W15 m ρ c (Proc.devRef .tc r) = W14 m ρ c (Proc.devRef .tc r) :=
  StableHlo.after_of_writes_sub _ _ hW6_2 hr

/-- region 0 leaves every buffer that is not one of its arrays as it found it -/
theorem reg2 (r : Ref sig .tc) (hr : ∀ w, Pipeline.arrRef spec0 w ≠ r) : W2 m ρ c (Proc.devRef .tc r) = W1 m ρ c (Proc.devRef .tc r) :=
  W2_of_ne m ρ c r hr

/-- region 1 leaves every buffer that is not one of its arrays as it found it -/
theorem reg4 (r : Ref sig .tc) (hr : ∀ w, Pipeline.arrRef spec1 w ≠ r) : W4 m ρ c (Proc.devRef .tc r) = W3 m ρ c (Proc.devRef .tc r) :=
  W4_of_ne m ρ c r hr

/-- region 2 leaves every buffer that is not one of its arrays as it found it -/
theorem reg6 (r : Ref sig .tc) (hr : ∀ w, Pipeline.arrRef spec2 w ≠ r) : W6 m ρ c (Proc.devRef .tc r) = W5 m ρ c (Proc.devRef .tc r) :=
  W6_of_ne m ρ c r hr

/-- region 3 leaves every buffer that is not one of its arrays as it found it -/
theorem reg8 (r : Ref sig .tc) (hr : ∀ w, Pipeline.arrRef spec3 w ≠ r) : W8 m ρ c (Proc.devRef .tc r) = W7 m ρ c (Proc.devRef .tc r) :=
  W8_of_ne m ρ c r hr

/-- region 4 leaves every buffer that is not one of its arrays as it found it -/
theorem reg10 (r : Ref sig .tc) (hr : ∀ w, Pipeline.arrRef spec4 w ≠ r) : W10 m ρ c (Proc.devRef .tc r) = W9 m ρ c (Proc.devRef .tc r) :=
  W10_of_ne m ρ c r hr

/-- region 5 leaves every buffer that is not one of its arrays as it found it -/
theorem reg12 (r : Ref sig .tc) (hr : ∀ w, Pipeline.arrRef spec5 w ≠ r) : W12 m ρ c (Proc.devRef .tc r) = W11 m ρ c (Proc.devRef .tc r) :=
  W12_of_ne m ρ c r hr

/-- a region's input array is as the region found it -/
theorem regIn4_v27 : W4 m ρ c (Proc.devRef .tc main_v27) = W3 m ρ c (Proc.devRef .tc main_v27) :=
  (W4_arr m ρ c 0).trans (((dat1 (V3 m ρ) c).arrAt_in 0 rfl _).trans (A_eq1 (V3 m ρ) c 0))
theorem regIn4_v28 : W4 m ρ c (Proc.devRef .tc main_v28) = W3 m ρ c (Proc.devRef .tc main_v28) :=
  (W4_arr m ρ c 2).trans (((dat1 (V3 m ρ) c).arrAt_in 2 rfl _).trans (A_eq1 (V3 m ρ) c 2))
theorem regIn8_v28 : W8 m ρ c (Proc.devRef .tc main_v28) = W7 m ρ c (Proc.devRef .tc main_v28) :=
  (W8_arr m ρ c 2).trans (((dat3 (V7 m ρ) c).arrAt_in 2 rfl _).trans (A_eq3 (V7 m ρ) c 2))
theorem regIn8_v70 : W8 m ρ c (Proc.devRef .tc main_v70) = W7 m ρ c (Proc.devRef .tc main_v70) :=
  (W8_arr m ρ c 0).trans (((dat3 (V7 m ρ) c).arrAt_in 0 rfl _).trans (A_eq3 (V7 m ρ) c 0))

end Cert.KernelIdeal.KPass

end
-- ==== Proof.BridgeBase.lean ====
/-
  The common ground of the comparison: one device, the two programs' memories, and the hypothesis that they agree
  on the nineteen arguments.
-/
import proofs.«137925_j52501680226462_1_alg».proof.Proof.KPass
import proofs.«137925_j52501680226462_1_alg».proof.Proof.RSide

noncomputable section

namespace Cert.Bridge

open Idealize.ShloMosaic Idealize.ShloMosaic.TcCoe

/-- a buffer of the kernel program, as a device reference -/
abbrev kb (r : Ref Cert.KernelIdeal.sig .tc) : DevRef Cert.KernelIdeal.τ Cert.KernelIdeal.sig := Proc.devRef .tc r
/-- a buffer of the reference program, as a device reference -/
abbrev rb (r : Ref Cert.ReferenceIdeal.sig .tc) : DevRef Cert.ReferenceIdeal.τ Cert.ReferenceIdeal.sig := Proc.devRef .tc r

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

set_option maxHeartbeats 4000000 in
/-- the two launch memories hold the same nineteen arguments -/
structure Agree : Prop where
  a0 : Cert.KernelIdeal.Gen.W0 m ρ c (kb Cert.KernelIdeal.main_arg0) = Cert.ReferenceIdeal.RSide.R0 m' c (rb Cert.ReferenceIdeal.main_arg0)
  a1 : Cert.KernelIdeal.Gen.W0 m ρ c (kb Cert.KernelIdeal.main_arg1) = Cert.ReferenceIdeal.RSide.R0 m' c (rb Cert.ReferenceIdeal.main_arg1)
  a2 : Cert.KernelIdeal.Gen.W0 m ρ c (kb Cert.KernelIdeal.main_arg2) = Cert.ReferenceIdeal.RSide.R0 m' c (rb Cert.ReferenceIdeal.main_arg2)
  a3 : Cert.KernelIdeal.Gen.W0 m ρ c (kb Cert.KernelIdeal.main_arg3) = Cert.ReferenceIdeal.RSide.R0 m' c (rb Cert.ReferenceIdeal.main_arg3)
  a4 : Cert.KernelIdeal.Gen.W0 m ρ c (kb Cert.KernelIdeal.main_arg4) = Cert.ReferenceIdeal.RSide.R0 m' c (rb Cert.ReferenceIdeal.main_arg4)
  a5 : Cert.KernelIdeal.Gen.W0 m ρ c (kb Cert.KernelIdeal.main_arg5) = Cert.ReferenceIdeal.RSide.R0 m' c (rb Cert.ReferenceIdeal.main_arg5)
  a6 : Cert.KernelIdeal.Gen.W0 m ρ c (kb Cert.KernelIdeal.main_arg6) = Cert.ReferenceIdeal.RSide.R0 m' c (rb Cert.ReferenceIdeal.main_arg6)
  a7 : Cert.KernelIdeal.Gen.W0 m ρ c (kb Cert.KernelIdeal.main_arg7) = Cert.ReferenceIdeal.RSide.R0 m' c (rb Cert.ReferenceIdeal.main_arg7)
  a8 : Cert.KernelIdeal.Gen.W0 m ρ c (kb Cert.KernelIdeal.main_arg8) = Cert.ReferenceIdeal.RSide.R0 m' c (rb Cert.ReferenceIdeal.main_arg8)
  a9 : Cert.KernelIdeal.Gen.W0 m ρ c (kb Cert.KernelIdeal.main_arg9) = Cert.ReferenceIdeal.RSide.R0 m' c (rb Cert.ReferenceIdeal.main_arg9)
  a10 : Cert.KernelIdeal.Gen.W0 m ρ c (kb Cert.KernelIdeal.main_arg10) = Cert.ReferenceIdeal.RSide.R0 m' c (rb Cert.ReferenceIdeal.main_arg10)
  a11 : Cert.KernelIdeal.Gen.W0 m ρ c (kb Cert.KernelIdeal.main_arg11) = Cert.ReferenceIdeal.RSide.R0 m' c (rb Cert.ReferenceIdeal.main_arg11)
  a12 : Cert.KernelIdeal.Gen.W0 m ρ c (kb Cert.KernelIdeal.main_arg12) = Cert.ReferenceIdeal.RSide.R0 m' c (rb Cert.ReferenceIdeal.main_arg12)
  a13 : Cert.KernelIdeal.Gen.W0 m ρ c (kb Cert.KernelIdeal.main_arg13) = Cert.ReferenceIdeal.RSide.R0 m' c (rb Cert.ReferenceIdeal.main_arg13)
  a14 : Cert.KernelIdeal.Gen.W0 m ρ c (kb Cert.KernelIdeal.main_arg14) = Cert.ReferenceIdeal.RSide.R0 m' c (rb Cert.ReferenceIdeal.main_arg14)
  a15 : Cert.KernelIdeal.Gen.W0 m ρ c (kb Cert.KernelIdeal.main_arg15) = Cert.ReferenceIdeal.RSide.R0 m' c (rb Cert.ReferenceIdeal.main_arg15)
  a16 : Cert.KernelIdeal.Gen.W0 m ρ c (kb Cert.KernelIdeal.main_arg16) = Cert.ReferenceIdeal.RSide.R0 m' c (rb Cert.ReferenceIdeal.main_arg16)
  a17 : Cert.KernelIdeal.Gen.W0 m ρ c (kb Cert.KernelIdeal.main_arg17) = Cert.ReferenceIdeal.RSide.R0 m' c (rb Cert.ReferenceIdeal.main_arg17)
  a18 : Cert.KernelIdeal.Gen.W0 m ρ c (kb Cert.KernelIdeal.main_arg18) = Cert.ReferenceIdeal.RSide.R0 m' c (rb Cert.ReferenceIdeal.main_arg18)

end Cert.Bridge

end
-- ==== Proof.RowSpec.lean ====
/-
  One row of the network, as functions on the extended reals.

  Every dense stage of the graph network acts on the 128 features of one node at a time: an affine map
  `x ↦ x·W + b`, and the combine stage, which normalises a row (subtract the mean, divide by the root of the
  variance plus ε), applies the gain and offset, clips at zero, adds the residual, runs a two-layer
  feed-forward block with a second residual and normalises again.  The two programs differ in one place only:
  one multiplies the centred row by the reciprocal root `(v + ε)^(-1/2)`, the other divides it by `√(v + ε)`.
  The variance of a row is a sum of squares over 128, so `v + ε` is positive (possibly `+∞`), and on positive
  arguments the two spellings are one function of the extended reals — no finiteness is needed.
-/
import Idealize.ShloMosaic.PureOps.Ideal
import Mathlib.Algebra.BigOperators.Fin
import Mathlib.Analysis.Real.Sqrt

noncomputable section

open Idealize.ShloMosaic

namespace Cert.RowSpec

/-- the features of one node -/
abbrev Row := Fin 128 → EReal
/-- a weight matrix, input feature first -/
abbrev Mat := Fin 128 → Fin 128 → EReal

/-- the literal 128 (the feature count the means divide by) -/
def c128 : EReal := Ideal.ofBits .f32 0x43000000#32
/-- the literal ε the variance is shifted by -/
def ceps : EReal := Ideal.ofBits .f32 0x3727C5AC#32
/-- the literal zero the clipping compares with -/
def czero : EReal := Ideal.ofBits .f32 0x00000000#32

/-- the mean of a row -/
def mu (x : Row) : EReal := Ideal.div (∑ k, x k) c128
/-- a row minus its mean -/
def ctr (x : Row) : Row := fun q => x q - mu x
/-- the variance of a row: the mean of the squares of the centred row -/
def var (x : Row) : EReal := Ideal.div (∑ k, ctr x k * ctr x k) c128
/-- normalisation spelt with the reciprocal root -/
def lnK (x g b : Row) : Row := fun q => ctr x q * Ideal.rsqrt (var x + ceps) * g q + b q
/-- normalisation spelt with a quotient by the root -/
def lnR (x g b : Row) : Row := fun q => Ideal.div (ctr x q) (Ideal.sqrt (var x + ceps)) * g q + b q
/-- a row times a matrix -/
def mm (x : Row) (w : Mat) : Row := fun q => ∑ k, x k * w k q
/-- the affine map of one row -/
def lin (x : Row) (w : Mat) (b : Row) : Row := fun q => mm x w q + b q
/-- the combine stage of one row, over either spelling `ln` of the normalisation -/
def comb (ln : Row → Row → Row → Row) (hpre layerin g b : Row) (w1 : Mat) (b1 : Row) (w2 : Mat) (b2 g2 bb2 : Row) : Row :=
  ln (fun q => lin (fun q => max (lin (fun q => max (ln hpre g b q) czero + layerin q) w1 b1 q) czero) w2 b2 q
        + (max (ln hpre g b q) czero + layerin q)) g2 bb2

theorem c128_eq : c128 = ((128 : ℝ) : EReal) := by
  unfold c128; simp [Ideal.ofBits, Ideal.ieee, -EReal.coe_mul]; norm_num

theorem ceps_pos : 0 < ceps := by
  unfold ceps; simp [Ideal.ofBits, Ideal.ieee, -EReal.coe_mul]

theorem czero_eq : czero = 0 := by
  unfold czero; simp [Ideal.ofBits, Ideal.ieee]

/-- a square is nonnegative on the extended reals, infinities included -/
theorem mul_self_nonneg' (a : EReal) : 0 ≤ a * a := by
  induction a using EReal.rec with
  | bot => simp
  | top => simp
  | coe r => rw [← EReal.coe_mul]; exact_mod_cast mul_self_nonneg r

theorem var_nonneg (x : Row) : 0 ≤ var x := by
  unfold var
  rw [c128_eq, Ideal.div_coe (by norm_num)]
  exact mul_nonneg (Finset.sum_nonneg fun k _ => mul_self_nonneg' _) (by exact_mod_cast (by norm_num : (0:ℝ) ≤ 1 / 128))

theorem var_eps_pos (x : Row) : 0 < var x + ceps :=
  lt_of_lt_of_le ceps_pos (le_add_of_nonneg_left (var_nonneg x))

/-- on a positive argument, multiplying by the reciprocal root is dividing by the root -/
theorem mul_rsqrt_eq_div_sqrt (d s : EReal) (hs : 0 < s) : d * Ideal.rsqrt s = Ideal.div d (Ideal.sqrt s) := by
  induction s using EReal.rec with
  | bot => exact absurd hs (by simp)
  | top => simp [Ideal.div]
  | coe r =>
    have hr : 0 < r := by exact_mod_cast hs
    have hsq : 0 < Real.sqrt r := Real.sqrt_pos.mpr hr
    rw [Ideal.rsqrt_coe, Ideal.sqrt_coe, if_neg (not_lt.mpr hr.le), if_neg hr.ne', if_neg (not_lt.mpr hr.le)]
    rw [Ideal.div_coe hsq.ne', one_div]

theorem lnK_eq_lnR : lnK = lnR := by
  funext x g b q
  unfold lnK lnR
  rw [mul_rsqrt_eq_div_sqrt _ _ (var_eps_pos x)]

theorem comb_lnK_eq_lnR : comb lnK = comb lnR := by rw [lnK_eq_lnR]

end Cert.RowSpec

end
-- ==== Proof.ArraySpec.lean ====
/-
  The dense stages on whole arrays: node `p`'s output row is the row function of node `p`'s input rows.

  An array of node features has shape [A, 128]; a weight matrix [128, 128]; a bias, gain or offset [128].
  `linArr` is the affine stage and `combArr` the combine stage applied to every node, written at an index
  `(p, q)`: feature `q` of the row function at node `p`'s rows.  The node count `A` is a parameter, so the
  same definition describes one block of rows and the whole array.
-/
import Idealize.ShloMosaic.Lib.ValueIdx
import proofs.«137925_j52501680226462_1_alg».proof.Proof.RowSpec

noncomputable section

open Idealize.ShloMosaic Idealize.ShloMosaic.ValueIdx

namespace Cert.ArraySpec

open Cert.RowSpec

/-- node `p`'s row of a feature array -/
def rowOf {A : Nat} (X : (⟨2, ![A, 128]⟩ : Shape).Idx → EReal) (p : Fin A) : Row := fun k => X (ix2 p k)
/-- a [128, 128] array as a matrix, input feature first -/
def matOf (W : (⟨2, ![128, 128]⟩ : Shape).Idx → EReal) : Mat := fun k q => W (ix2 k q)
/-- a [128] array as a row -/
def vecOf (b : (⟨1, ![128]⟩ : Shape).Idx → EReal) : Row := fun q => b (ix1 q)

/-- the affine stage on every node -/
def linArr {A : Nat} (X : (⟨2, ![A, 128]⟩ : Shape).Idx → EReal) (W : (⟨2, ![128, 128]⟩ : Shape).Idx → EReal)
    (b : (⟨1, ![128]⟩ : Shape).Idx → EReal) : (⟨2, ![A, 128]⟩ : Shape).Idx → EReal :=
  fun i => lin (rowOf X (i 0)) (matOf W) (vecOf b) (i 1)

/-- the combine stage on every node, over either spelling `ln` of the normalisation -/
def combArr (ln : Row → Row → Row → Row) {A : Nat} (hpre layerin : (⟨2, ![A, 128]⟩ : Shape).Idx → EReal)
    (g b : (⟨1, ![128]⟩ : Shape).Idx → EReal) (w1 : (⟨2, ![128, 128]⟩ : Shape).Idx → EReal) (b1 : (⟨1, ![128]⟩ : Shape).Idx → EReal)
    (w2 : (⟨2, ![128, 128]⟩ : Shape).Idx → EReal) (b2 g2 bb2 : (⟨1, ![128]⟩ : Shape).Idx → EReal) :
    (⟨2, ![A, 128]⟩ : Shape).Idx → EReal :=
  fun i => comb ln (rowOf hpre (i 0)) (rowOf layerin (i 0)) (vecOf g) (vecOf b) (matOf w1) (vecOf b1) (matOf w2) (vecOf b2)
    (vecOf g2) (vecOf bb2) (i 1)

theorem combArr_lnK_eq_lnR {A : Nat} : @combArr lnK A = @combArr lnR A := by rw [lnK_eq_lnR]

end Cert.ArraySpec

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.KLin.lean ====
/-
  The four linear stages of the kernel, array by array.

  A linear stage takes a [40000, 128] array of node features, a [128, 128] weight matrix and a [128] bias, and is run
  over 20 points; point t loads rows 2000 t … 2000 t + 1999 of the features and the whole weights and bias, and stores,
  into rows 2000 t … 2000 t + 1999 of the output array, the block  x · W + b.  Over the extended reals the changes of
  format are the identity, the matrix product accumulated into the zero block is at (r, q) the sum over k of
  x(r, k) · W(k, q), and the bias laid as one row and repeated over the rows adds b(q).  So each stored block is the
  block of ONE function of the three arrays, the affine stage on every node, and since the 20 blocks tile the output
  array, the output array ends holding that function.
-/
import proofs.«137925_j52501680226462_1_alg».proof.Proof.Gen.KernelIdeal.Frame
import proofs.«137925_j52501680226462_1_alg».proof.Proof.ArraySpec
import proofs.«137925_j52501680226462_1_alg».proof.Proof.LibMatmulPlain
import Idealize.ShloMosaic.Lib.ValueLayout

noncomputable section

open scoped BigOperators

namespace Cert.KernelIdeal.KLin

open Idealize.ShloMosaic Idealize.ShloMosaic.ValueIdx Idealize.ShloMosaic.TcCoe
open Idealize.ShloMosaic.Pipeline (Dat)
open Cert.KernelIdeal Cert.KernelIdeal.Gen
open Cert.RowSpec Cert.ArraySpec

/-! ## One block: the stored value at an entry -/

/-- a bias vector laid as one row and repeated over the rows reads, at any row, its entry at the column -/
theorem biasRow_apply (x2 : Vec Ideal S128 .f32) (r : Fin 2000) (q : Fin 128) :
    broadcastTo S2000x128 (shapeCast S1x128 x2 shapeCasts_S128_S1x128) broadcasts_S1x128_S2000x128 (ix2 r q) = x2 (ix1 q) :=
  (broadcastTo_1b_ab_apply _ _ r q).trans (shapeCast_a_1a_apply x2 _ 0 q)

/-- the first linear stage's stored value at an entry: the affine map of the row -/
theorem pay0_apply (x0 : Vec Ideal S2000x128 .f32) (x1 : Vec Ideal S128x128 .f32) (x2 : Vec Ideal S128 .f32)
    (r : Fin 2000) (q : Fin 128) :
    k0_pay1 (F := Ideal) x0 x1 x2 (ix2 r q)
      = lin (fun k => x0 (ix2 r k)) (fun k q' => x1 (ix2 k q')) (fun q' => x2 (ix1 q')) q := by
  unfold k0_pay1
  refine (addf_apply _ _ _).trans ?_
  unfold lin mm
  refine congrArg₂ (· + ·) ?_ (biasRow_apply x2 r q)
  exact Cert.LibMatmulPlain.matmul_plain_zero_apply (M := 2000) (K := 128) (N := 128) _ rfl none _ _ r q

/-- the later linear stages store the same value: their extra casts are between equal shapes -/
theorem pay1_eq : k1_pay1 (F := Ideal) = k0_pay1 := by
  funext x0 x1 x2; unfold k1_pay1 k0_pay1; simp only [shapeCast_self]
theorem pay3_eq : k3_pay1 (F := Ideal) = k0_pay1 := by
  funext x0 x1 x2; unfold k3_pay1 k0_pay1; simp only [shapeCast_self]
theorem pay5_eq : k5_pay1 (F := Ideal) = k0_pay1 := by
  funext x0 x1 x2; unfold k5_pay1 k0_pay1; simp only [shapeCast_self]

theorem zeros2 : (![0, 0] : Fin 2 → Nat) = fun _ => 0 := funext fun a => by fin_cases a <;> rfl
theorem zeros1 : (![0] : Fin 1 → Nat) = fun _ => 0 := funext fun a => by fin_cases a; rfl

/-- what the first linear stage leaves in its output block, at an entry: the affine map of the row -/
theorem out0_apply (x0 : Vec Ideal S2000x128 .f32) (x1 : Vec Ideal S128x128 .f32) (x2 : Vec Ideal S128 .f32)
    (r : Fin 2000) (q : Fin 128) :
    out0_3 (F := Ideal) x0 x1 x2 (ix2 r q)
      = lin (fun k => x0 (ix2 r k)) (fun k q' => x1 (ix2 k q')) (fun q' => x2 (ix1 q')) q := by
  unfold out0_3
  rw [View.canon_unit_zero zeros2]
  simp only [View.ld_unit_zero (S := S2000x128) zeros2, View.ld_unit_zero (S := S128x128) zeros2,
    View.ld_unit_zero (S := S128) zeros1]
  exact pay0_apply x0 x1 x2 r q

/-- the later linear stages leave the same block -/
theorem out1_eq : out1_3 (F := Ideal) = out0_3 := by
  funext x0 x1 x2; unfold out1_3 out0_3; rw [pay1_eq]
theorem out3_eq : out3_3 (F := Ideal) = out0_3 := by
  funext x0 x1 x2; unfold out3_3 out0_3; rw [pay3_eq]
theorem out5_eq : out5_3 (F := Ideal) = out0_3 := by
  funext x0 x1 x2; unfold out5_3 out0_3; rw [pay5_eq]

/-- the output block of a linear stage at an entry, when the row block holds rows of a feature array and the weight and
    bias blocks hold the whole weight and bias arrays: the affine stage of the arrays at that row -/
theorem out0_blk (A0 : S40000x128.Idx → EReal) (A1 : S128x128.Idx → EReal) (A2 : S128.Idx → EReal)
    (x0 : Vec Ideal S2000x128 .f32) (x1 : Vec Ideal S128x128 .f32) (x2 : Vec Ideal S128 .f32)
    (r : Fin 2000) (q : Fin 128) (i : S40000x128.Idx)
    (h0 : ∀ k : Fin 128, x0 (ix2 r k) = A0 (ix2 (i 0) k))
    (h1 : ∀ k q' : Fin 128, x1 (ix2 k q') = A1 (ix2 k q'))
    (h2 : ∀ q' : Fin 128, x2 (ix1 q') = A2 (ix1 q'))
    (hq : (i 1).val = q.val) :
    out0_3 (F := Ideal) x0 x1 x2 (ix2 r q) = linArr A0 A1 A2 i := by
  rw [out0_apply]
  show _ = lin (fun k => A0 (ix2 (i 0) k)) (fun k q' => A1 (ix2 k q')) (fun q' => A2 (ix1 q')) (i 1)
  have e : (i 1 : Fin 128) = q := Fin.ext hq
  rw [e, funext h0, funext fun k => funext (h1 k), funext h2]

/-! ## From the blocks to the array, stage by stage -/

variable (V : (c : Dev nD) → (b : Ref sig .tc) → Buf (Elt Ideal) ((c : Thread nD τ).loc b))

/-! ### The first linear stage -/

/-- the block maps of the first linear stage: the row blocks move with the point, the weights and the bias stay -/
theorem blocks0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- WHAT POINT t WRITES BACK in the first linear stage: its block of the affine stage of the arrays as found -/
theorem flushed0_eq (c : Dev nD) (t : Fin cfg0.N) :
    (dat0 (F := Ideal) V c).flushed 3 t
      = ((cfg0.win 3).blk t).view.read (Elt Ideal)
          (linArr (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨e00, e01, e10, e11, e20, e30, e31⟩ := blocks0 t
  refine funext fun (j : S2000x128.Idx) => ?_
  obtain ⟨r, q, rfl⟩ : ∃ (r : Fin 2000) (q : Fin 128), j = ix2 r q := ⟨j 0, j 1, eq_ix2 j⟩
  refine out0_blk _ _ _ _ _ _ r q _ (fun k => ?_) (fun k q' => ?_) (fun q' => ?_) ?_
  · show V c (Pipeline.arrRef spec0 0) (((cfg0.win 0).blk t).view.emb (ix2 r k)) = _
    refine congrArg _ (funext fun a => Fin.ext ?_)
    match a with
    | ⟨0, _⟩ => show win0_0.index t (0 : Fin 2) * 2000 + 1 * r.val = win0_3.index t (0 : Fin 2) * 2000 + 1 * r.val; omega
    | ⟨1, _⟩ => show win0_0.index t (1 : Fin 2) * 128 + 1 * k.val = k.val; omega
  · show V c (Pipeline.arrRef spec0 1) (((cfg0.win 1).blk t).view.emb (ix2 k q')) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q'.val = q'.val; omega
  · show V c (Pipeline.arrRef spec0 2) (((cfg0.win 2).blk t).view.emb (ix1 q')) = _
    refine congrArg _ (funext fun a => Fin.ext ?_)
    match a with
    | ⟨0, _⟩ => show win0_2.index t (0 : Fin 1) * 128 + 1 * q'.val = q'.val; omega
  · show win0_3.index t (1 : Fin 2) * 128 + 1 * q.val = q.val; omega

/-- an entry of the output array is in point t's block iff each coordinate is in the block's range on its axis -/
theorem mem_blk0 (t : Fin cfg0.N) (i : S40000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v27).slice (win0_3.rect t)).set ↔ _
  rw [View.set_slice_whole, Rect.mem_set_unit]
  exact Iff.rfl

/-- every row of the output array is written: row r by the point r / 2000 -/
theorem cover0 (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have hN : cfg0.N = 20 := N_0
  have hlt : (i 0).val / 2000 < cfg0.N := by rw [hN]; omega
  obtain ⟨-, -, -, -, -, e30, e31⟩ := blocks0 ⟨(i 0).val / 2000, hlt⟩
  refine ⟨⟨(i 0).val / 2000, hlt⟩, flush0_3 _, ?_⟩
  rw [mem_blk0]
  intro a
  match a with
  | ⟨0, _⟩ =>
    show win0_3.index ⟨(i 0).val / 2000, hlt⟩ (0 : Fin 2) * 2000 ≤ (i 0).val
      ∧ (i 0).val < win0_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win0_3.index ⟨(i 0).val / 2000, hlt⟩ (1 : Fin 2) * 128 ≤ (i 1).val
      ∧ (i 1).val < win0_3.index ⟨(i 0).val / 2000, hlt⟩ (1 : Fin 2) * 128 + 128
    rw [e31]
    omega

/-- THE ARRAY the first linear stage leaves: the affine stage of the arrays as the stage finds them -/
theorem lin_arr0 (c : Dev nD) (i : S40000x128.Idx) :
    (dat0 (F := Ideal) V c).arrAt 3 cfg0.N i
      = linArr (V c (Pipeline.arrRef spec0 0)) (V c (Pipeline.arrRef spec0 1)) (V c (Pipeline.arrRef spec0 2)) i :=
  congrFun ((dat0 (F := Ideal) V c).arrAt_eq_of_cover 3 _ (fun t _ => flushed0_eq V c t) cover0) i

/-! ### The second linear stage -/

/-- the block maps of the second linear stage: the row blocks move with the point, the weights and the bias stay -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- WHAT POINT t WRITES BACK in the second linear stage: its block of the affine stage of the arrays as found -/
theorem flushed1_eq (c : Dev nD) (t : Fin cfg1.N) :
    (dat1 (F := Ideal) V c).flushed 3 t
      = ((cfg1.win 3).blk t).view.read (Elt Ideal)
          (linArr (V c (Pipeline.arrRef spec1 0)) (V c (Pipeline.arrRef spec1 1)) (V c (Pipeline.arrRef spec1 2))) := by
  show (cfg1.win 3).cut (grid1.coords t) ((dat1 V c).after 3 t) = _
  rw [after1_3, out1_eq]
  obtain ⟨e00, e01, e10, e11, e20, e30, e31⟩ := blocks1 t
  refine funext fun (j : S2000x128.Idx) => ?_
  obtain ⟨r, q, rfl⟩ : ∃ (r : Fin 2000) (q : Fin 128), j = ix2 r q := ⟨j 0, j 1, eq_ix2 j⟩
  refine out0_blk _ _ _ _ _ _ r q _ (fun k => ?_) (fun k q' => ?_) (fun q' => ?_) ?_
  · show V c (Pipeline.arrRef spec1 0) (((cfg1.win 0).blk t).view.emb (ix2 r k)) = _
    refine congrArg _ (funext fun a => Fin.ext ?_)
    match a with
    | ⟨0, _⟩ => show win1_0.index t (0 : Fin 2) * 2000 + 1 * r.val = win1_3.index t (0 : Fin 2) * 2000 + 1 * r.val; omega
    | ⟨1, _⟩ => show win1_0.index t (1 : Fin 2) * 128 + 1 * k.val = k.val; omega
  · show V c (Pipeline.arrRef spec1 1) (((cfg1.win 1).blk t).view.emb (ix2 k q')) = _
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * q'.val = q'.val; omega
  · show V c (Pipeline.arrRef spec1 2) (((cfg1.win 2).blk t).view.emb (ix1 q')) = _
    refine congrArg _ (funext fun a => Fin.ext ?_)
    match a with
    | ⟨0, _⟩ => show win1_2.index t (0 : Fin 1) * 128 + 1 * q'.val = q'.val; omega
  · show win1_3.index t (1 : Fin 2) * 128 + 1 * q.val = q.val; omega

/-- an entry of the output array is in point t's block iff each coordinate is in the block's range on its axis -/
theorem mem_blk1 (t : Fin cfg1.N) (i : S40000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v31).slice (win1_3.rect t)).set ↔ _
  rw [View.set_slice_whole, Rect.mem_set_unit]
  exact Iff.rfl

/-- every row of the output array is written: row r by the point r / 2000 -/
theorem cover1 (i : S40000x128.Idx) :
    ∃ t : Fin cfg1.N, (cfg1.win 3).flush t = true ∧ i ∈ ((cfg1.win 3).blk t).view.set := by
  have hi0 : (i 0).val < 40000 := (i 0).isLt
  have hi1 : (i 1).val < 128 := (i 1).isLt
  have hN : cfg1.N = 20 := N_1
  have hlt : (i 0).val / 2000 < cfg1.N := by rw [hN]; omega
  obtain ⟨-, -, -, -, -, e30, e31⟩ := blocks1 ⟨(i 0).val / 2000, hlt⟩
  refine ⟨⟨(i 0).val / 2000, hlt⟩, flush1_3 _, ?_⟩
  rw [mem_blk1]
  intro a
  match a with
  | ⟨0, _⟩ =>
    show win1_3.index ⟨(i 0).val / 2000, hlt⟩ (0 : Fin 2) * 2000 ≤ (i 0).val
      ∧ (i 0).val < win1_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win1_3.index ⟨(i 0).val / 2000, hlt⟩ (1 : Fin 2) * 128 ≤ (i 1).val
      ∧ (i 1).val < win1_3.index ⟨(i 0).val / 2000, hlt⟩ (1 : Fin 2) * 128 + 128
    rw [e31]
    omega

/-- THE ARRAY the second linear stage leaves: the affine stage of the arrays as the stage finds them -/
theorem lin_arr1 (c : Dev nD) (i : S40000x128.Idx) :
    (dat1 (F := Ideal) V c).arrAt 3 cfg1.N i
      = linArr (V c (Pipeline.arrRef spec1 0)) (V c (Pipeline.arrRef spec1 1)) (V c (Pipeline.arrRef spec1 2)) i :=
  congrFun ((dat1 (F := Ideal) V c).arrAt_eq_of_cover 3 _ (fun t _ => flushed1_eq V c t) cover1) i

/-! ### The third linear stage -/

/-- the block maps of the third linear stage: the row blocks move with the point, the weights and the bias stay -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- WHAT POINT t WRITES BACK in the third linear stage: its block of the affine stage of the arrays as found -/
theorem flushed3_eq (c : Dev nD) (t : Fin cfg3.N) :
    (dat3 (F := Ideal) V c).flushed 3 t
      = ((cfg3.win 3).blk t).view.read (Elt Ideal)
          (linArr (V c (Pipeline.arrRef spec3 0)) (V c (Pipeline.arrRef spec3 1)) (V c (Pipeline.arrRef spec3 2))) := by
  show (cfg3.win 3).cut (grid3.coords t) ((dat3 V c).after 3 t) = _
  rw [after3_3, out3_eq]
  obtain ⟨e00, e01, e10, e11, e20, e30, e31⟩ := blocks3 t
  refine funext fun (j : S2000x128.Idx) => ?_
  obtain ⟨r, q, rfl⟩ : ∃ (r : Fin 2000) (q : Fin 128), j = ix2 r q := ⟨j 0, j 1, eq_ix2 j⟩
  refine out0_blk _ _ _ _ _ _ r q _ (fun k => ?_) (fun k q' => ?_) (fun q' => ?_) ?_
  · show V c (Pipeline.arrRef spec3 0) (((cfg3.win 0).blk t).view.emb (ix2 r k)) = _
    refine congrArg _ (funext fun a => Fin.ext ?_)
    match a with
    | ⟨0, _⟩ => show win3_0.index t (0 : Fin 2) * 2000 + 1 * r.val = win3_3.index t (0 : Fin 2) * 2000 + 1 * r.val; omega
    | ⟨1, _⟩ => show win3_0.index t (1 : Fin 2) * 128 + 1 * k.val = k.val; omega
  · show V c (Pipeline.arrRef spec3 1) (((cfg3.win 1).blk t).view.emb (ix2 k q')) = _
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q'.val = q'.val; omega
  · show V c (Pipeline.arrRef spec3 2) (((cfg3.win 2).blk t).view.emb (ix1 q')) = _
    refine congrArg _ (funext fun a => Fin.ext ?_)
    match a with
    | ⟨0, _⟩ => show win3_2.index t (0 : Fin 1) * 128 + 1 * q'.val = q'.val; omega
  · show win3_3.index t (1 : Fin 2) * 128 + 1 * q.val = q.val; omega

/-- an entry of the output array is in point t's block iff each coordinate is in the block's range on its axis -/
theorem mem_blk3 (t : Fin cfg3.N) (i : S40000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v73).slice (win3_3.rect t)).set ↔ _
  rw [View.set_slice_whole, Rect.mem_set_unit]
  exact Iff.rfl

/-- every row of the output array is written: row r by the point r / 2000 -/
theorem cover3 (i : S40000x128.Idx) :
    ∃ t : Fin cfg3.N, (cfg3.win 3).flush t = true ∧ i ∈ ((cfg3.win 3).blk t).view.set := by
  have hi0 : (i 0).val < 40000 := (i 0).isLt
  have hi1 : (i 1).val < 128 := (i 1).isLt
  have hN : cfg3.N = 20 := N_3
  have hlt : (i 0).val / 2000 < cfg3.N := by rw [hN]; omega
  obtain ⟨-, -, -, -, -, e30, e31⟩ := blocks3 ⟨(i 0).val / 2000, hlt⟩
  refine ⟨⟨(i 0).val / 2000, hlt⟩, flush3_3 _, ?_⟩
  rw [mem_blk3]
  intro a
  match a with
  | ⟨0, _⟩ =>
    show win3_3.index ⟨(i 0).val / 2000, hlt⟩ (0 : Fin 2) * 2000 ≤ (i 0).val
      ∧ (i 0).val < win3_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win3_3.index ⟨(i 0).val / 2000, hlt⟩ (1 : Fin 2) * 128 ≤ (i 1).val
      ∧ (i 1).val < win3_3.index ⟨(i 0).val / 2000, hlt⟩ (1 : Fin 2) * 128 + 128
    rw [e31]
    omega

/-- THE ARRAY the third linear stage leaves: the affine stage of the arrays as the stage finds them -/
theorem lin_arr3 (c : Dev nD) (i : S40000x128.Idx) :
    (dat3 (F := Ideal) V c).arrAt 3 cfg3.N i
      = linArr (V c (Pipeline.arrRef spec3 0)) (V c (Pipeline.arrRef spec3 1)) (V c (Pipeline.arrRef spec3 2)) i :=
  congrFun ((dat3 (F := Ideal) V c).arrAt_eq_of_cover 3 _ (fun t _ => flushed3_eq V c t) cover3) i

/-! ### The fourth linear stage -/

/-- the block maps of the fourth linear stage: the row blocks move with the point, the weights and the bias stay -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

/-- WHAT POINT t WRITES BACK in the fourth linear stage: its block of the affine stage of the arrays as found -/
theorem flushed5_eq (c : Dev nD) (t : Fin cfg5.N) :
    (dat5 (F := Ideal) V c).flushed 3 t
      = ((cfg5.win 3).blk t).view.read (Elt Ideal)
          (linArr (V c (Pipeline.arrRef spec5 0)) (V c (Pipeline.arrRef spec5 1)) (V c (Pipeline.arrRef spec5 2))) := by
  show (cfg5.win 3).cut (grid5.coords t) ((dat5 V c).after 3 t) = _
  rw [after5_3, out5_eq]
  obtain ⟨e00, e01, e10, e11, e20, e30, e31⟩ := blocks5 t
  refine funext fun (j : S2000x128.Idx) => ?_
  obtain ⟨r, q, rfl⟩ : ∃ (r : Fin 2000) (q : Fin 128), j = ix2 r q := ⟨j 0, j 1, eq_ix2 j⟩
  refine out0_blk _ _ _ _ _ _ r q _ (fun k => ?_) (fun k q' => ?_) (fun q' => ?_) ?_
  · show V c (Pipeline.arrRef spec5 0) (((cfg5.win 0).blk t).view.emb (ix2 r k)) = _
    refine congrArg _ (funext fun a => Fin.ext ?_)
    match a with
    | ⟨0, _⟩ => show win5_0.index t (0 : Fin 2) * 2000 + 1 * r.val = win5_3.index t (0 : Fin 2) * 2000 + 1 * r.val; omega
    | ⟨1, _⟩ => show win5_0.index t (1 : Fin 2) * 128 + 1 * k.val = k.val; omega
  · show V c (Pipeline.arrRef spec5 1) (((cfg5.win 1).blk t).view.emb (ix2 k q')) = _
    refine congrArg _ (funext fun a => Fin.ext ?_)
    match a with
    | ⟨0, _⟩ => show win5_1.index t (0 : Fin 2) * 128 + 1 * k.val = k.val; omega
    | ⟨1, _⟩ => show win5_1.index t (1 : Fin 2) * 128 + 1 * q'.val = q'.val; omega
  · show V c (Pipeline.arrRef spec5 2) (((cfg5.win 2).blk t).view.emb (ix1 q')) = _
    refine congrArg _ (funext fun a => Fin.ext ?_)
    match a with
    | ⟨0, _⟩ => show win5_2.index t (0 : Fin 1) * 128 + 1 * q'.val = q'.val; omega
  · show win5_3.index t (1 : Fin 2) * 128 + 1 * q.val = q.val; omega

/-- an entry of the output array is in point t's block iff each coordinate is in the block's range on its axis -/
theorem mem_blk5 (t : Fin cfg5.N) (i : S40000x128.Idx) :
    i ∈ ((cfg5.win 3).blk t).view.set ↔ ∀ a : Fin 2, win5_3.index t a * S2000x128.size a ≤ (i a).val
      ∧ (i a).val < win5_3.index t a * S2000x128.size a + S2000x128.size a := by
  show i ∈ ((View.whole main_v115).slice (win5_3.rect t)).set ↔ _
  rw [View.set_slice_whole, Rect.mem_set_unit]
  exact Iff.rfl

/-- every row of the output array is written: row r by the point r / 2000 -/
theorem cover5 (i : S40000x128.Idx) :
    ∃ t : Fin cfg5.N, (cfg5.win 3).flush t = true ∧ i ∈ ((cfg5.win 3).blk t).view.set := by
  have hi0 : (i 0).val < 40000 := (i 0).isLt
  have hi1 : (i 1).val < 128 := (i 1).isLt
  have hN : cfg5.N = 20 := N_5
  have hlt : (i 0).val / 2000 < cfg5.N := by rw [hN]; omega
  obtain ⟨-, -, -, -, -, e30, e31⟩ := blocks5 ⟨(i 0).val / 2000, hlt⟩
  refine ⟨⟨(i 0).val / 2000, hlt⟩, flush5_3 _, ?_⟩
  rw [mem_blk5]
  intro a
  match a with
  | ⟨0, _⟩ =>
    show win5_3.index ⟨(i 0).val / 2000, hlt⟩ (0 : Fin 2) * 2000 ≤ (i 0).val
      ∧ (i 0).val < win5_3.index ⟨(i 0).val / 2000, hlt⟩ (0 : Fin 2) * 2000 + 2000
    rw [e30]
    show (i 0).val / 2000 * 2000 ≤ (i 0).val ∧ (i 0).val < (i 0).val / 2000 * 2000 + 2000
    omega
  | ⟨1, _⟩ =>
    show win5_3.index ⟨(i 0).val / 2000, hlt⟩ (1 : Fin 2) * 128 ≤ (i 1).val
      ∧ (i 1).val < win5_3.index ⟨(i 0).val / 2000, hlt⟩ (1 : Fin 2) * 128 + 128
    rw [e31]
    omega

/-- THE ARRAY the fourth linear stage leaves: the affine stage of the arrays as the stage finds them -/
theorem lin_arr5 (c : Dev nD) (i : S40000x128.Idx) :
    (dat5 (F := Ideal) V c).arrAt 3 cfg5.N i
      = linArr (V c (Pipeline.arrRef spec5 0)) (V c (Pipeline.arrRef spec5 1)) (V c (Pipeline.arrRef spec5 2)) i :=
  congrFun ((dat5 (F := Ideal) V c).arrAt_eq_of_cover 3 _ (fun t _ => flushed5_eq V c t) cover5) i

end Cert.KernelIdeal.KLin

end
-- ==== Proof.KStagesLin.lean ====
/-
  What each region of the kernel program leaves in its output array, in terms of the contents of earlier buffers.

  Region 0, 1, 3 and 5 are the affine stage and regions 2 and 4 the combine stage, applied to every node (the
  blocks of 2000 rows tile the 40000 nodes).  Their operands are read where they were defined: an argument at the
  launch contents, a stage's output at the boundary right after that stage, a parameter slice at the boundary right
  after the host stretch that cut it.
-/
import proofs.«137925_j52501680226462_1_alg».proof.Proof.KPass
import proofs.«137925_j52501680226462_1_alg».proof.Proof.KLin

set_option maxRecDepth 16384

noncomputable section

namespace Cert.KernelIdeal.KStages

open Cert.KernelIdeal Cert.KernelIdeal.Gen Cert.KernelIdeal.KPass Cert.ArraySpec Cert.RowSpec
open Idealize.ShloMosaic Idealize.ShloMosaic.TcCoe Idealize.ShloMosaic.ValueIdx

variable (m : (ℓ : Loc nD τ sig) → Buf (Elt Ideal) ℓ) (ρ : Dev nD → PrngReg) (c : Dev nD)

/-- the zero bias vector the bare products are given, as the host stretch before region 1 builds it -/
theorem zero_bias : (W3 m ρ c (Proc.devRef .tc main_v28)) = broadcastInDim S128 ![] bcast_S_S128 (constant (F := Ideal) S_ .f32 0x00000000#32) := by
  show StableHlo.after hostOps1 (W2 m ρ c) _ = _
  simp only [hostOps1]
  after_results

theorem zero_bias_apply (q : Fin 128) : (W3 m ρ c (Proc.devRef .tc main_v28)) (ix1 q) = (0 : EReal) := by
  rw [zero_bias]
  exact Cert.RowSpec.czero_eq

/-- the zero bias vector is still there when regions 3 and 5 read it -/
theorem v28_at7 : (W7 m ρ c (Proc.devRef .tc main_v28)) = (W3 m ρ c (Proc.devRef .tc main_v28)) :=
  (host7 m ρ c main_v28 (by decide)).trans ((reg6 m ρ c main_v28 (by decide)).trans
    ((host5 m ρ c main_v28 (by decide)).trans (regIn4_v28 m ρ c)))
theorem v28_at11 : (W11 m ρ c (Proc.devRef .tc main_v28)) = (W3 m ρ c (Proc.devRef .tc main_v28)) :=
  (host11 m ρ c main_v28 (by decide)).trans ((reg10 m ρ c main_v28 (by decide)).trans
    ((host9 m ρ c main_v28 (by decide)).trans ((regIn8_v28 m ρ c).trans (v28_at7 m ρ c))))

/-- region 0: the pre-scaler -/
theorem st_lin0 (i : S40000x128.Idx) :
    (W2 m ρ c (Proc.devRef .tc main_v27)) i = linArr (W0 m ρ c (Proc.devRef .tc main_arg0)) (W0 m ρ c (Proc.devRef .tc main_arg3)) (W0 m ρ c (Proc.devRef .tc main_arg4)) i := by
  have h : (W2 m ρ c (Proc.devRef .tc main_v27)) = (dat0 (F := Ideal) (V1 m ρ) c).arrAt 3 cfg0.N := W2_arr m ρ c 3
  have e0 : V1 m ρ c (Pipeline.arrRef spec0 0) = (W0 m ρ c (Proc.devRef .tc main_arg0)) := host1 m ρ c main_arg0 (by decide)
  have e1 : V1 m ρ c (Pipeline.arrRef spec0 1) = (W0 m ρ c (Proc.devRef .tc main_arg3)) := host1 m ρ c main_arg3 (by decide)
  have e2 : V1 m ρ c (Pipeline.arrRef spec0 2) = (W0 m ρ c (Proc.devRef .tc main_arg4)) := host1 m ρ c main_arg4 (by decide)
  rw [h, KLin.lin_arr0 (V1 m ρ) c i, e0, e1, e2]

/-- region 1: layer 0's weight product -/
theorem st_lin1 (i : S40000x128.Idx) :
    (W4 m ρ c (Proc.devRef .tc main_v31)) i = linArr (W2 m ρ c (Proc.devRef .tc main_v27)) (W3 m ρ c (Proc.devRef .tc main_v30)) (W3 m ρ c (Proc.devRef .tc main_v28)) i := by
  have h : (W4 m ρ c (Proc.devRef .tc main_v31)) = (dat1 (F := Ideal) (V3 m ρ) c).arrAt 3 cfg1.N := W4_arr m ρ c 3
  have e0 : V3 m ρ c (Pipeline.arrRef spec1 0) = (W2 m ρ c (Proc.devRef .tc main_v27)) := host3 m ρ c main_v27 (by decide)
  have e1 : V3 m ρ c (Pipeline.arrRef spec1 1) = (W3 m ρ c (Proc.devRef .tc main_v30)) := rfl
  have e2 : V3 m ρ c (Pipeline.arrRef spec1 2) = (W3 m ρ c (Proc.devRef .tc main_v28)) := rfl
  rw [h, KLin.lin_arr1 (V3 m ρ) c i, e0, e1, e2]

/-- region 3: layer 1's weight product -/
theorem st_lin3 (i : S40000x128.Idx) :
    (W8 m ρ c (Proc.devRef .tc main_v73)) i = linArr (W6 m ρ c (Proc.devRef .tc main_v70)) (W7 m ρ c (Proc.devRef .tc main_v72)) (W3 m ρ c (Proc.devRef .tc main_v28)) i := by
  have h : (W8 m ρ c (Proc.devRef .tc main_v73)) = (dat3 (F := Ideal) (V7 m ρ) c).arrAt 3 cfg3.N := W8_arr m ρ c 3
  have e0 : V7 m ρ c (Pipeline.arrRef spec3 0) = (W6 m ρ c (Proc.devRef .tc main_v70)) := host7 m ρ c main_v70 (by decide)
  have e1 : V7 m ρ c (Pipeline.arrRef spec3 1) = (W7 m ρ c (Proc.devRef .tc main_v72)) := rfl
  have e2 : V7 m ρ c (Pipeline.arrRef spec3 2) = (W3 m ρ c (Proc.devRef .tc main_v28)) := v28_at7 m ρ c
  rw [h, KLin.lin_arr3 (V7 m ρ) c i, e0, e1, e2]

/-- region 5: layer 2's weight product -/
theorem st_lin5 (i : S40000x128.Idx) :
    (W12 m ρ c (Proc.devRef .tc main_v115)) i = linArr (W10 m ρ c (Proc.devRef .tc main_v112)) (W11 m ρ c (Proc.devRef .tc main_v114)) (W3 m ρ c (Proc.devRef .tc main_v28)) i := by
  have h : (W12 m ρ c (Proc.devRef .tc main_v115)) = (dat5 (F := Ideal) (V11 m ρ) c).arrAt 3 cfg5.N := W12_arr m ρ c 3
  have e0 : V11 m ρ c (Pipeline.arrRef spec5 0) = (W10 m ρ c (Proc.devRef .tc main_v112)) := host11 m ρ c main_v112 (by decide)
  have e1 : V11 m ρ c (Pipeline.arrRef spec5 1) = (W11 m ρ c (Proc.devRef .tc main_v114)) := rfl
  have e2 : V11 m ρ c (Pipeline.arrRef spec5 2) = (W3 m ρ c (Proc.devRef .tc main_v28)) := v28_at11 m ρ c
  rw [h, KLin.lin_arr5 (V11 m ρ) c i, e0, e1, e2]

end Cert.KernelIdeal.KStages

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«137925_j52501680226462_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibHostAffine.lean ====
/-
  An affine layer of a host program read at an entry, over the extended reals.

  The layer is  x ↦ x·W + b  on every row of an M×K array: the host's matrix product with plain dimension numbers,
  plus the bias vector [N] placed as the row [1, N] and spread over the M rows. At row `p` and column `q` it is
    Σ_{k < K} x(p, k) · W(k, q)  +  b(q).
  Generic in M, K, N; the two broadcasts' axis maps are passed with their values, the product's dimension numbers as
  any record equal to the plain ones.
-/
import proofs.«137925_j52501680226462_1_alg».proof.Proof.LibDotGeneralPlain
import proofs.«137925_j52501680226462_1_alg».proof.Proof.LibHostBroadcast

noncomputable section

open scoped BigOperators

namespace Cert.LibHostAffine

open Idealize.ShloMosaic Idealize.ShloMosaic.ValueIdx

variable {M K N : Nat}

/-- THE AFFINE LAYER AT AN ENTRY: the product's entry plus the bias's. -/
theorem affine_apply (D : DotDims ⟨2, ![M, K]⟩ ⟨2, ![K, N]⟩ ⟨2, ![M, N]⟩) (hD : D = DotDims.plain M K N)
    (prec : Option ContractPrecision)
    (d1 : Fin (⟨1, ![N]⟩ : Shape).rank → Fin (⟨2, ![1, N]⟩ : Shape).rank)
    (hd1 : d1 ⟨0, Nat.one_pos⟩ = ⟨1, Nat.lt_succ_self 1⟩)
    (h1 : (⟨1, ![N]⟩ : Shape).BroadcastsInDim ⟨2, ![1, N]⟩ d1)
    (d2 : Fin (⟨2, ![1, N]⟩ : Shape).rank → Fin (⟨2, ![M, N]⟩ : Shape).rank)
    (hd2 : d2 ⟨1, Nat.lt_succ_self 1⟩ = ⟨1, Nat.lt_succ_self 1⟩)
    (h2 : (⟨2, ![1, N]⟩ : Shape).BroadcastsInDim ⟨2, ![M, N]⟩ d2)
    (x : FVec Ideal ⟨2, ![M, K]⟩ .f32) (w : FVec Ideal ⟨2, ![K, N]⟩ .f32) (b : FVec Ideal ⟨1, ![N]⟩ .f32)
    (p : Fin M) (q : Fin N) :
    addf (Host.dotGeneral D prec x w)
        (broadcastInDim ⟨2, ![M, N]⟩ d2 h2 (broadcastInDim ⟨2, ![1, N]⟩ d1 h1 b)) (ix2 p q)
      = (∑ k : Fin K, x (ix2 p k) * w (ix2 k q)) + b (ix1 q) := by
  show FloatOps.dotGeneral D prec .single x w (ix2 p q)
      + broadcastInDim ⟨2, ![M, N]⟩ d2 h2 (broadcastInDim ⟨2, ![1, N]⟩ d1 h1 b) (ix2 p q) = _
  rw [Cert.LibDotGeneralPlain.dotGeneral_plain_apply D hD, Cert.LibHostBroadcast.bcast_1b_ab_apply d2 hd2 h2,
    Cert.LibHostBroadcast.bcast_b_1b_apply d1 hd1 h1]

end Cert.LibHostAffine

end
-- ==== Proof.RefLin.lean ====
/-
  The reference's affine stages as the affine map of every node.

  `x @ W + b` on the host is a product with plain dimension numbers plus the bias placed as a row and spread
  over the nodes: at node `p`, feature `q` it is the sum over `k` of `x[p,k]·W[k,q]`, plus `b[q]`.  The bare
  product `x @ W` is the same with the zero vector as its bias, since adding zero changes nothing.
-/
import proofs.«137925_j52501680226462_1_alg».proof.ReferenceIdeal
import proofs.«137925_j52501680226462_1_alg».proof.Proof.ArraySpec
import proofs.«137925_j52501680226462_1_alg».proof.Proof.LibHostAffine

noncomputable section

open Idealize.ShloMosaic Idealize.ShloMosaic.ValueIdx

namespace Cert.ReferenceIdeal.RefLin

open Cert.ReferenceIdeal Cert.RowSpec Cert.ArraySpec

variable [Facts₀]
open Facts₀

/-- the product plus the spread bias is the affine map of every node -/
theorem ref_lin (x : FVec Ideal S40000x128 .f32) (w : FVec Ideal S128x128 .f32) (b : FVec Ideal S128 .f32) :
    addf (Host.dotGeneral (F := Ideal) dot_S40000x128_S128x128_S40000x128_1_0_0_1_n_n none x w)
        (broadcastInDim S40000x128 ![0, 1] bcast_S1x128_S40000x128_0_1 (broadcastInDim S1x128 ![1] bcast_S128_S1x128_1 b))
      = linArr x w b := by
  funext i
  obtain ⟨p, q, rfl⟩ : ∃ (p : Fin 40000) (q : Fin 128), i = ix2 p q := ⟨i 0, i 1, eq_ix2 i⟩
  exact Cert.LibHostAffine.affine_apply _ rfl none ![1] rfl bcast_S128_S1x128_1 ![0, 1] rfl bcast_S1x128_S40000x128_0_1 x w b p q

/-- the bare product is the affine map with any bias that is zero at every entry -/
theorem ref_dot (x : FVec Ideal S40000x128 .f32) (w : FVec Ideal S128x128 .f32) (z : FVec Ideal S128 .f32)
    (hz : ∀ q : Fin 128, z (ix1 q) = 0) :
    Host.dotGeneral (F := Ideal) dot_S40000x128_S128x128_S40000x128_1_0_0_1_n_n none x w = linArr x w z := by
  funext i
  obtain ⟨p, q, rfl⟩ : ∃ (p : Fin 40000) (q : Fin 128), i = ix2 p q := ⟨i 0, i 1, eq_ix2 i⟩
  show FloatOps.dotGeneral _ none .single x w (ix2 p q) = lin (rowOf x p) (matOf w) (vecOf z) q
  refine (Cert.LibDotGeneralPlain.dotGeneral_plain_apply dot_S40000x128_S128x128_S40000x128_1_0_0_1_n_n rfl none .single x w p q).trans ?_
  unfold lin vecOf
  rw [hz, add_zero]
  rfl

end Cert.ReferenceIdeal.RefLin

end
-- ==== Proof.BridgeLin.lean ====
/-
  The affine stages of the two programs compared.

  Both programs first cut the two edge lists out of the edge array and turn the node degrees into a weight per edge
  and a weight per node, by the same operations on the same argument.  The pre-scaler is the affine stage
  x · W + b of the same three arguments in both: in the kernel program as a tiled stage over blocks of rows, in the
  reference as a product plus the bias spread over the rows.  Each layer's bare product x · W_l is, in the kernel
  program, the tiled affine stage with a zero bias vector and, in the reference, the product alone; W_l is the
  same slice of the stacked weights, cut out by the same operations.
-/
import proofs.«137925_j52501680226462_1_alg».proof.Proof.BridgeBase
import proofs.«137925_j52501680226462_1_alg».proof.Proof.KStagesLin
import proofs.«137925_j52501680226462_1_alg».proof.Proof.RefLin
import Idealize.ShloMosaic.Lib.StableHlo.Run
import Idealize.ShloMosaic.PureOps.Ideal

set_option maxRecDepth 16384

noncomputable section

namespace Cert.Bridge

open Idealize.ShloMosaic Idealize.ShloMosaic.TcCoe Idealize.ShloMosaic.ValueIdx Idealize.ShloMosaic.StableHlo
open Cert.ArraySpec

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-! ## The degree normalisation -/

set_option maxHeartbeats 4000000 in
/-- the edges' source list: the same operations on the edge array in both programs -/
theorem prep_v1 (hA : Agree m ρ c m') :
    Cert.KernelIdeal.Gen.W1 m ρ c (kb Cert.KernelIdeal.main_v1) = Cert.ReferenceIdeal.RSide.R1 m' c (rb Cert.ReferenceIdeal.main_v1) := by
  rw [Cert.ReferenceIdeal.RSide.R1_def]
  show StableHlo.after Cert.KernelIdeal.Gen.hostOps0 (Cert.KernelIdeal.Gen.W0 m ρ c) _ = _
  simp only [Cert.KernelIdeal.Gen.hostOps0, Cert.ReferenceIdeal.RefRun.seg0]
  after_results_simp
  rw [hA.a1]
  rfl

set_option maxHeartbeats 4000000 in
/-- the edges' target list: the same operations on the edge array in both programs -/
theorem prep_v3 (hA : Agree m ρ c m') :
    Cert.KernelIdeal.Gen.W1 m ρ c (kb Cert.KernelIdeal.main_v3) = Cert.ReferenceIdeal.RSide.R1 m' c (rb Cert.ReferenceIdeal.main_v3) := by
  rw [Cert.ReferenceIdeal.RSide.R1_def]
  show StableHlo.after Cert.KernelIdeal.Gen.hostOps0 (Cert.KernelIdeal.Gen.W0 m ρ c) _ = _
  simp only [Cert.KernelIdeal.Gen.hostOps0, Cert.ReferenceIdeal.RefRun.seg0]
  after_results_simp
  rw [hA.a1]
  rfl

set_option maxHeartbeats 4000000 in
/-- the weight of every edge: the same operations on the edge array in both programs -/
theorem prep_v25 (hA : Agree m ρ c m') :
    Cert.KernelIdeal.Gen.W1 m ρ c (kb Cert.KernelIdeal.main_v25) = Cert.ReferenceIdeal.RSide.R1 m' c (rb Cert.ReferenceIdeal.main_v25) := by
  rw [Cert.ReferenceIdeal.RSide.R1_def]
  show StableHlo.after Cert.KernelIdeal.Gen.hostOps0 (Cert.KernelIdeal.Gen.W0 m ρ c) _ = _
  simp only [Cert.KernelIdeal.Gen.hostOps0, Cert.ReferenceIdeal.RefRun.seg0]
  after_results_simp
  rw [hA.a1]
  rfl

set_option maxHeartbeats 4000000 in
/-- the weight of every node's own term: the same operations on the edge array in both programs -/
theorem prep_v26 (hA : Agree m ρ c m') :
    Cert.KernelIdeal.Gen.W1 m ρ c (kb Cert.KernelIdeal.main_v26) = Cert.ReferenceIdeal.RSide.R1 m' c (rb Cert.ReferenceIdeal.main_v26) := by
  rw [Cert.ReferenceIdeal.RSide.R1_def]
  show StableHlo.after Cert.KernelIdeal.Gen.hostOps0 (Cert.KernelIdeal.Gen.W0 m ρ c) _ = _
  simp only [Cert.KernelIdeal.Gen.hostOps0, Cert.ReferenceIdeal.RefRun.seg0]
  after_results_simp
  rw [hA.a1]
  rfl

/-! ## The pre-scaler -/

set_option maxHeartbeats 4000000 in
/-- the reference's pre-scaler, as the affine stage of the arguments at the first cut -/
theorem ref_pre :
    Cert.ReferenceIdeal.RSide.R2 m' c (rb Cert.ReferenceIdeal.main_v30)
      = linArr (Cert.ReferenceIdeal.RSide.R1 m' c (rb Cert.ReferenceIdeal.main_arg0)) (Cert.ReferenceIdeal.RSide.R1 m' c (rb Cert.ReferenceIdeal.main_arg3))
          (Cert.ReferenceIdeal.RSide.R1 m' c (rb Cert.ReferenceIdeal.main_arg4)) := by
  rw [Cert.ReferenceIdeal.RSide.R2_def]
  simp only [Cert.ReferenceIdeal.RefRun.seg1]
  after_results_simp
  exact Cert.ReferenceIdeal.RefLin.ref_lin _ _ _

set_option maxHeartbeats 4000000 in
/-- the pre-scaler: both programs apply the affine stage to the same three arguments -/
theorem lin_pre (hA : Agree m ρ c m') :
    Cert.KernelIdeal.Gen.W2 m ρ c (kb Cert.KernelIdeal.main_v27) = Cert.ReferenceIdeal.RSide.R2 m' c (rb Cert.ReferenceIdeal.main_v30) := by
  have hL : Cert.KernelIdeal.Gen.W2 m ρ c (kb Cert.KernelIdeal.main_v27)
      = linArr (Cert.KernelIdeal.Gen.W0 m ρ c (kb Cert.KernelIdeal.main_arg0)) (Cert.KernelIdeal.Gen.W0 m ρ c (kb Cert.KernelIdeal.main_arg3))
          (Cert.KernelIdeal.Gen.W0 m ρ c (kb Cert.KernelIdeal.main_arg4)) :=
    funext (Cert.KernelIdeal.KStages.st_lin0 m ρ c)
  rw [hL, ref_pre, Cert.ReferenceIdeal.RSide.keep1 m' c Cert.ReferenceIdeal.main_arg0 (by decide),
    Cert.ReferenceIdeal.RSide.keep1 m' c Cert.ReferenceIdeal.main_arg3 (by decide),
    Cert.ReferenceIdeal.RSide.keep1 m' c Cert.ReferenceIdeal.main_arg4 (by decide), hA.a0, hA.a3, hA.a4]

/-! ## The three bare products -/

/-- the stacked layer weights reach every boundary of the kernel program unchanged -/
theorem kw_at2 : Cert.KernelIdeal.Gen.W2 m ρ c (kb Cert.KernelIdeal.main_arg5) = Cert.KernelIdeal.Gen.W0 m ρ c (kb Cert.KernelIdeal.main_arg5) :=
  (Cert.KernelIdeal.KPass.reg2 m ρ c Cert.KernelIdeal.main_arg5 (by decide)).trans (Cert.KernelIdeal.KPass.host1 m ρ c Cert.KernelIdeal.main_arg5 (by decide))
theorem kw_at6 : Cert.KernelIdeal.Gen.W6 m ρ c (kb Cert.KernelIdeal.main_arg5) = Cert.KernelIdeal.Gen.W0 m ρ c (kb Cert.KernelIdeal.main_arg5) :=
  (Cert.KernelIdeal.KPass.reg6 m ρ c Cert.KernelIdeal.main_arg5 (by decide)).trans ((Cert.KernelIdeal.KPass.host5 m ρ c Cert.KernelIdeal.main_arg5 (by decide)).trans
    ((Cert.KernelIdeal.KPass.reg4 m ρ c Cert.KernelIdeal.main_arg5 (by decide)).trans ((Cert.KernelIdeal.KPass.host3 m ρ c Cert.KernelIdeal.main_arg5 (by decide)).trans
      (kw_at2 m ρ c))))
theorem kw_at10 : Cert.KernelIdeal.Gen.W10 m ρ c (kb Cert.KernelIdeal.main_arg5) = Cert.KernelIdeal.Gen.W0 m ρ c (kb Cert.KernelIdeal.main_arg5) :=
  (Cert.KernelIdeal.KPass.reg10 m ρ c Cert.KernelIdeal.main_arg5 (by decide)).trans ((Cert.KernelIdeal.KPass.host9 m ρ c Cert.KernelIdeal.main_arg5 (by decide)).trans
    ((Cert.KernelIdeal.KPass.reg8 m ρ c Cert.KernelIdeal.main_arg5 (by decide)).trans ((Cert.KernelIdeal.KPass.host7 m ρ c Cert.KernelIdeal.main_arg5 (by decide)).trans
      (kw_at6 m ρ c))))

/-- and every cut of the reference program -/
theorem rw_at2 : Cert.ReferenceIdeal.RSide.R2 m' c (rb Cert.ReferenceIdeal.main_arg5) = Cert.ReferenceIdeal.RSide.R0 m' c (rb Cert.ReferenceIdeal.main_arg5) :=
  (Cert.ReferenceIdeal.RSide.keep2 m' c Cert.ReferenceIdeal.main_arg5 (by decide)).trans (Cert.ReferenceIdeal.RSide.keep1 m' c Cert.ReferenceIdeal.main_arg5 (by decide))
theorem rw_at5 : Cert.ReferenceIdeal.RSide.R5 m' c (rb Cert.ReferenceIdeal.main_arg5) = Cert.ReferenceIdeal.RSide.R0 m' c (rb Cert.ReferenceIdeal.main_arg5) :=
  (Cert.ReferenceIdeal.RSide.keep5 m' c Cert.ReferenceIdeal.main_arg5 (by decide)).trans ((Cert.ReferenceIdeal.RSide.keep4 m' c Cert.ReferenceIdeal.main_arg5 (by decide)).trans
    ((Cert.ReferenceIdeal.RSide.keep3 m' c Cert.ReferenceIdeal.main_arg5 (by decide)).trans (rw_at2 c m')))
theorem rw_at8 : Cert.ReferenceIdeal.RSide.R8 m' c (rb Cert.ReferenceIdeal.main_arg5) = Cert.ReferenceIdeal.RSide.R0 m' c (rb Cert.ReferenceIdeal.main_arg5) :=
  (Cert.ReferenceIdeal.RSide.keep8 m' c Cert.ReferenceIdeal.main_arg5 (by decide)).trans ((Cert.ReferenceIdeal.RSide.keep7 m' c Cert.ReferenceIdeal.main_arg5 (by decide)).trans
    ((Cert.ReferenceIdeal.RSide.keep6 m' c Cert.ReferenceIdeal.main_arg5 (by decide)).trans (rw_at5 c m')))

set_option maxHeartbeats 4000000 in
/-- layer 0's product: both programs multiply the same array by the same slice of the stacked weights -/
theorem dot0 (hA : Agree m ρ c m')
    (h : Cert.KernelIdeal.Gen.W2 m ρ c (kb Cert.KernelIdeal.main_v27) = Cert.ReferenceIdeal.RSide.R2 m' c (rb Cert.ReferenceIdeal.main_v30)) :
    Cert.KernelIdeal.Gen.W4 m ρ c (kb Cert.KernelIdeal.main_v31) = Cert.ReferenceIdeal.RSide.R3 m' c (rb Cert.ReferenceIdeal.main_v33) := by
  have hL : Cert.KernelIdeal.Gen.W4 m ρ c (kb Cert.KernelIdeal.main_v31)
      = linArr (Cert.KernelIdeal.Gen.W2 m ρ c (kb Cert.KernelIdeal.main_v27)) (Cert.KernelIdeal.Gen.W3 m ρ c (kb Cert.KernelIdeal.main_v30))
          (Cert.KernelIdeal.Gen.W3 m ρ c (kb Cert.KernelIdeal.main_v28)) :=
    funext (Cert.KernelIdeal.KStages.st_lin1 m ρ c)
  have h5 : Cert.KernelIdeal.Gen.W2 m ρ c (kb Cert.KernelIdeal.main_arg5) = Cert.ReferenceIdeal.RSide.R2 m' c (rb Cert.ReferenceIdeal.main_arg5) :=
    (kw_at2 m ρ c).trans (hA.a5.trans (rw_at2 c m').symm)
  rw [hL, ← Cert.ReferenceIdeal.RefLin.ref_dot _ _ _ (Cert.KernelIdeal.KStages.zero_bias_apply m ρ c), Cert.ReferenceIdeal.RSide.R3_def]
  show Host.dotGeneral (F := Ideal) Cert.ReferenceIdeal.dot_S40000x128_S128x128_S40000x128_1_0_0_1_n_n none _
      (StableHlo.after Cert.KernelIdeal.Gen.hostOps1 (Cert.KernelIdeal.Gen.W2 m ρ c) (kb Cert.KernelIdeal.main_v30)) = _
  simp only [Cert.KernelIdeal.Gen.hostOps1, Cert.ReferenceIdeal.RefRun.seg2]
  after_results_simp
  rw [h, h5]
  rfl

set_option maxHeartbeats 4000000 in
/-- layer 1's product: both programs multiply the same array by the same slice of the stacked weights -/
theorem dot1 (hA : Agree m ρ c m')
    (h : Cert.KernelIdeal.Gen.W6 m ρ c (kb Cert.KernelIdeal.main_v70) = Cert.ReferenceIdeal.RSide.R5 m' c (rb Cert.ReferenceIdeal.main_v119)) :
    Cert.KernelIdeal.Gen.W8 m ρ c (kb Cert.KernelIdeal.main_v73) = Cert.ReferenceIdeal.RSide.R6 m' c (rb Cert.ReferenceIdeal.main_v122) := by
  have hL : Cert.KernelIdeal.Gen.W8 m ρ c (kb Cert.KernelIdeal.main_v73)
      = linArr (Cert.KernelIdeal.Gen.W6 m ρ c (kb Cert.KernelIdeal.main_v70)) (Cert.KernelIdeal.Gen.W7 m ρ c (kb Cert.KernelIdeal.main_v72))
          (Cert.KernelIdeal.Gen.W3 m ρ c (kb Cert.KernelIdeal.main_v28)) :=
    funext (Cert.KernelIdeal.KStages.st_lin3 m ρ c)
  have h5 : Cert.KernelIdeal.Gen.W6 m ρ c (kb Cert.KernelIdeal.main_arg5) = Cert.ReferenceIdeal.RSide.R5 m' c (rb Cert.ReferenceIdeal.main_arg5) :=
    (kw_at6 m ρ c).trans (hA.a5.trans (rw_at5 c m').symm)
  rw [hL, ← Cert.ReferenceIdeal.RefLin.ref_dot _ _ _ (Cert.KernelIdeal.KStages.zero_bias_apply m ρ c), Cert.ReferenceIdeal.RSide.R6_def]
  show Host.dotGeneral (F := Ideal) Cert.ReferenceIdeal.dot_S40000x128_S128x128_S40000x128_1_0_0_1_n_n none _
      (StableHlo.after Cert.KernelIdeal.Gen.hostOps3 (Cert.KernelIdeal.Gen.W6 m ρ c) (kb Cert.KernelIdeal.main_v72)) = _
  simp only [Cert.KernelIdeal.Gen.hostOps3, Cert.ReferenceIdeal.RefRun.seg5]
  after_results_simp
  rw [h, h5]
  rfl

set_option maxHeartbeats 4000000 in
/-- layer 2's product: both programs multiply the same array by the same slice of the stacked weights -/
theorem dot2 (hA : Agree m ρ c m')
    (h : Cert.KernelIdeal.Gen.W10 m ρ c (kb Cert.KernelIdeal.main_v112) = Cert.ReferenceIdeal.RSide.R8 m' c (rb Cert.ReferenceIdeal.main_v208)) :
    Cert.KernelIdeal.Gen.W12 m ρ c (kb Cert.KernelIdeal.main_v115) = Cert.ReferenceIdeal.RSide.R9 m' c (rb Cert.ReferenceIdeal.main_v211) := by
  have hL : Cert.KernelIdeal.Gen.W12 m ρ c (kb Cert.KernelIdeal.main_v115)
      = linArr (Cert.KernelIdeal.Gen.W10 m ρ c (kb Cert.KernelIdeal.main_v112)) (Cert.KernelIdeal.Gen.W11 m ρ c (kb Cert.KernelIdeal.main_v114))
          (Cert.KernelIdeal.Gen.W3 m ρ c (kb Cert.KernelIdeal.main_v28)) :=
    funext (Cert.KernelIdeal.KStages.st_lin5 m ρ c)
  have h5 : Cert.KernelIdeal.Gen.W10 m ρ c (kb Cert.KernelIdeal.main_arg5) = Cert.ReferenceIdeal.RSide.R8 m' c (rb Cert.ReferenceIdeal.main_arg5) :=
    (kw_at10 m ρ c).trans (hA.a5.trans (rw_at8 c m').symm)
  rw [hL, ← Cert.ReferenceIdeal.RefLin.ref_dot _ _ _ (Cert.KernelIdeal.KStages.zero_bias_apply m ρ c), Cert.ReferenceIdeal.RSide.R9_def]
  show Host.dotGeneral (F := Ideal) Cert.ReferenceIdeal.dot_S40000x128_S128x128_S40000x128_1_0_0_1_n_n none _
      (StableHlo.after Cert.KernelIdeal.Gen.hostOps5 (Cert.KernelIdeal.Gen.W10 m ρ c) (kb Cert.KernelIdeal.main_v114)) = _
  simp only [Cert.KernelIdeal.Gen.hostOps5, Cert.ReferenceIdeal.RefRun.seg8]
  after_results_simp
  rw [h, h5]
  rfl

end Cert.Bridge

end
-- ==== Proof.BridgeAgg.lean ====
/-
  The host stretches that are the same operations in both programs: each layer's aggregation over the edges
  (gather along the edges, scaling by the edge norm, scatter-add onto the nodes, the self-loop term, the bias), and
  the tail (the last aggregation, the pooling over the graphs and the classifier).  Equal inputs give equal results.
-/
import proofs.«137925_j52501680226462_1_alg».proof.Proof.BridgeBase
import Idealize.ShloMosaic.Lib.StableHlo.Run
import Idealize.ShloMosaic.PureOps.Ideal

set_option maxRecDepth 16384

noncomputable section

namespace Cert.Bridge

open Idealize.ShloMosaic Idealize.ShloMosaic.TcCoe
open Cert.KernelIdeal.Gen Cert.KernelIdeal.KPass Cert.ReferenceIdeal.RSide Cert.ReferenceIdeal.RefRun

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

/-! ## Inputs pass through to where they are read -/
/-- the kernel's main_v1 is untouched from boundary 1 to boundary 4 -/
theorem k4_v1 : W4 m ρ c (kb Cert.KernelIdeal.main_v1) = W1 m ρ c (kb Cert.KernelIdeal.main_v1) := by
  rw [
    reg4 m ρ c Cert.KernelIdeal.main_v1 (by decide), host3 m ρ c Cert.KernelIdeal.main_v1 (by decide),
    reg2 m ρ c Cert.KernelIdeal.main_v1 (by decide)]
/-- the kernel's main_v1 is untouched from boundary 1 to boundary 8 -/
theorem k8_v1 : W8 m ρ c (kb Cert.KernelIdeal.main_v1) = W1 m ρ c (kb Cert.KernelIdeal.main_v1) := by
  rw [
    reg8 m ρ c Cert.KernelIdeal.main_v1 (by decide), host7 m ρ c Cert.KernelIdeal.main_v1 (by decide),
    reg6 m ρ c Cert.KernelIdeal.main_v1 (by decide), host5 m ρ c Cert.KernelIdeal.main_v1 (by decide),
    k4_v1]
/-- the kernel's main_v1 is untouched from boundary 1 to boundary 12 -/
theorem k12_v1 : W12 m ρ c (kb Cert.KernelIdeal.main_v1) = W1 m ρ c (kb Cert.KernelIdeal.main_v1) := by
  rw [
    reg12 m ρ c Cert.KernelIdeal.main_v1 (by decide), host11 m ρ c Cert.KernelIdeal.main_v1 (by decide),
    reg10 m ρ c Cert.KernelIdeal.main_v1 (by decide), host9 m ρ c Cert.KernelIdeal.main_v1 (by decide),
    k8_v1]
/-- the reference's main_v1 is untouched from cut 1 to cut 3 -/
theorem r3_v1 : R3 m' c (rb Cert.ReferenceIdeal.main_v1) = R1 m' c (rb Cert.ReferenceIdeal.main_v1) := by
  rw [
    keep3 m' c Cert.ReferenceIdeal.main_v1 (by decide), keep2 m' c Cert.ReferenceIdeal.main_v1 (by decide)]
/-- the reference's main_v1 is untouched from cut 1 to cut 6 -/
theorem r6_v1 : R6 m' c (rb Cert.ReferenceIdeal.main_v1) = R1 m' c (rb Cert.ReferenceIdeal.main_v1) := by
  rw [
    keep6 m' c Cert.ReferenceIdeal.main_v1 (by decide), keep5 m' c Cert.ReferenceIdeal.main_v1 (by decide),
    keep4 m' c Cert.ReferenceIdeal.main_v1 (by decide),
    r3_v1]
/-- the reference's main_v1 is untouched from cut 1 to cut 9 -/
theorem r9_v1 : R9 m' c (rb Cert.ReferenceIdeal.main_v1) = R1 m' c (rb Cert.ReferenceIdeal.main_v1) := by
  rw [
    keep9 m' c Cert.ReferenceIdeal.main_v1 (by decide), keep8 m' c Cert.ReferenceIdeal.main_v1 (by decide),
    keep7 m' c Cert.ReferenceIdeal.main_v1 (by decide),
    r6_v1]
/-- the kernel's main_v3 is untouched from boundary 1 to boundary 4 -/
theorem k4_v3 : W4 m ρ c (kb Cert.KernelIdeal.main_v3) = W1 m ρ c (kb Cert.KernelIdeal.main_v3) := by
  rw [
    reg4 m ρ c Cert.KernelIdeal.main_v3 (by decide), host3 m ρ c Cert.KernelIdeal.main_v3 (by decide),
    reg2 m ρ c Cert.KernelIdeal.main_v3 (by decide)]
/-- the kernel's main_v3 is untouched from boundary 1 to boundary 8 -/
theorem k8_v3 : W8 m ρ c (kb Cert.KernelIdeal.main_v3) = W1 m ρ c (kb Cert.KernelIdeal.main_v3) := by
  rw [
    reg8 m ρ c Cert.KernelIdeal.main_v3 (by decide), host7 m ρ c Cert.KernelIdeal.main_v3 (by decide),
    reg6 m ρ c Cert.KernelIdeal.main_v3 (by decide), host5 m ρ c Cert.KernelIdeal.main_v3 (by decide),
    k4_v3]
/-- the kernel's main_v3 is untouched from boundary 1 to boundary 12 -/
theorem k12_v3 : W12 m ρ c (kb Cert.KernelIdeal.main_v3) = W1 m ρ c (kb Cert.KernelIdeal.main_v3) := by
  rw [
    reg12 m ρ c Cert.KernelIdeal.main_v3 (by decide), host11 m ρ c Cert.KernelIdeal.main_v3 (by decide),
    reg10 m ρ c Cert.KernelIdeal.main_v3 (by decide), host9 m ρ c Cert.KernelIdeal.main_v3 (by decide),
    k8_v3]
/-- the reference's main_v3 is untouched from cut 1 to cut 3 -/
theorem r3_v3 : R3 m' c (rb Cert.ReferenceIdeal.main_v3) = R1 m' c (rb Cert.ReferenceIdeal.main_v3) := by
  rw [
    keep3 m' c Cert.ReferenceIdeal.main_v3 (by decide), keep2 m' c Cert.ReferenceIdeal.main_v3 (by decide)]
/-- the reference's main_v3 is untouched from cut 1 to cut 6 -/
theorem r6_v3 : R6 m' c (rb Cert.ReferenceIdeal.main_v3) = R1 m' c (rb Cert.ReferenceIdeal.main_v3) := by
  rw [
    keep6 m' c Cert.ReferenceIdeal.main_v3 (by decide), keep5 m' c Cert.ReferenceIdeal.main_v3 (by decide),
    keep4 m' c Cert.ReferenceIdeal.main_v3 (by decide),
    r3_v3]
/-- the reference's main_v3 is untouched from cut 1 to cut 9 -/
theorem r9_v3 : R9 m' c (rb Cert.ReferenceIdeal.main_v3) = R1 m' c (rb Cert.ReferenceIdeal.main_v3) := by
  rw [
    keep9 m' c Cert.ReferenceIdeal.main_v3 (by decide), keep8 m' c Cert.ReferenceIdeal.main_v3 (by decide),
    keep7 m' c Cert.ReferenceIdeal.main_v3 (by decide),
    r6_v3]
/-- the kernel's main_v25 is untouched from boundary 1 to boundary 4 -/
theorem k4_v25 : W4 m ρ c (kb Cert.KernelIdeal.main_v25) = W1 m ρ c (kb Cert.KernelIdeal.main_v25) := by
  rw [
    reg4 m ρ c Cert.KernelIdeal.main_v25 (by decide), host3 m ρ c Cert.KernelIdeal.main_v25 (by decide),
    reg2 m ρ c Cert.KernelIdeal.main_v25 (by decide)]
/-- the kernel's main_v25 is untouched from boundary 1 to boundary 8 -/
theorem k8_v25 : W8 m ρ c (kb Cert.KernelIdeal.main_v25) = W1 m ρ c (kb Cert.KernelIdeal.main_v25) := by
  rw [
    reg8 m ρ c Cert.KernelIdeal.main_v25 (by decide), host7 m ρ c Cert.KernelIdeal.main_v25 (by decide),
    reg6 m ρ c Cert.KernelIdeal.main_v25 (by decide), host5 m ρ c Cert.KernelIdeal.main_v25 (by decide),
    k4_v25]
/-- the kernel's main_v25 is untouched from boundary 1 to boundary 12 -/
theorem k12_v25 : W12 m ρ c (kb Cert.KernelIdeal.main_v25) = W1 m ρ c (kb Cert.KernelIdeal.main_v25) := by
  rw [
    reg12 m ρ c Cert.KernelIdeal.main_v25 (by decide), host11 m ρ c Cert.KernelIdeal.main_v25 (by decide),
    reg10 m ρ c Cert.KernelIdeal.main_v25 (by decide), host9 m ρ c Cert.KernelIdeal.main_v25 (by decide),
    k8_v25]
/-- the reference's main_v25 is untouched from cut 1 to cut 3 -/
theorem r3_v25 : R3 m' c (rb Cert.ReferenceIdeal.main_v25) = R1 m' c (rb Cert.ReferenceIdeal.main_v25) := by
  rw [
    keep3 m' c Cert.ReferenceIdeal.main_v25 (by decide), keep2 m' c Cert.ReferenceIdeal.main_v25 (by decide)]
/-- the reference's main_v25 is untouched from cut 1 to cut 6 -/
theorem r6_v25 : R6 m' c (rb Cert.ReferenceIdeal.main_v25) = R1 m' c (rb Cert.ReferenceIdeal.main_v25) := by
  rw [
    keep6 m' c Cert.ReferenceIdeal.main_v25 (by decide), keep5 m' c Cert.ReferenceIdeal.main_v25 (by decide),
    keep4 m' c Cert.ReferenceIdeal.main_v25 (by decide),
    r3_v25]
/-- the reference's main_v25 is untouched from cut 1 to cut 9 -/
theorem r9_v25 : R9 m' c (rb Cert.ReferenceIdeal.main_v25) = R1 m' c (rb Cert.ReferenceIdeal.main_v25) := by
  rw [
    keep9 m' c Cert.ReferenceIdeal.main_v25 (by decide), keep8 m' c Cert.ReferenceIdeal.main_v25 (by decide),
    keep7 m' c Cert.ReferenceIdeal.main_v25 (by decide),
    r6_v25]
/-- the kernel's main_v26 is untouched from boundary 1 to boundary 4 -/
theorem k4_v26 : W4 m ρ c (kb Cert.KernelIdeal.main_v26) = W1 m ρ c (kb Cert.KernelIdeal.main_v26) := by
  rw [
    reg4 m ρ c Cert.KernelIdeal.main_v26 (by decide), host3 m ρ c Cert.KernelIdeal.main_v26 (by decide),
    reg2 m ρ c Cert.KernelIdeal.main_v26 (by decide)]
/-- the kernel's main_v26 is untouched from boundary 1 to boundary 8 -/
theorem k8_v26 : W8 m ρ c (kb Cert.KernelIdeal.main_v26) = W1 m ρ c (kb Cert.KernelIdeal.main_v26) := by
  rw [
    reg8 m ρ c Cert.KernelIdeal.main_v26 (by decide), host7 m ρ c Cert.KernelIdeal.main_v26 (by decide),
    reg6 m ρ c Cert.KernelIdeal.main_v26 (by decide), host5 m ρ c Cert.KernelIdeal.main_v26 (by decide),
    k4_v26]
/-- the kernel's main_v26 is untouched from boundary 1 to boundary 12 -/
theorem k12_v26 : W12 m ρ c (kb Cert.KernelIdeal.main_v26) = W1 m ρ c (kb Cert.KernelIdeal.main_v26) := by
  rw [
    reg12 m ρ c Cert.KernelIdeal.main_v26 (by decide), host11 m ρ c Cert.KernelIdeal.main_v26 (by decide),
    reg10 m ρ c Cert.KernelIdeal.main_v26 (by decide), host9 m ρ c Cert.KernelIdeal.main_v26 (by decide),
    k8_v26]
/-- the reference's main_v26 is untouched from cut 1 to cut 3 -/
theorem r3_v26 : R3 m' c (rb Cert.ReferenceIdeal.main_v26) = R1 m' c (rb Cert.ReferenceIdeal.main_v26) := by
  rw [
    keep3 m' c Cert.ReferenceIdeal.main_v26 (by decide), keep2 m' c Cert.ReferenceIdeal.main_v26 (by decide)]
/-- the reference's main_v26 is untouched from cut 1 to cut 6 -/
theorem r6_v26 : R6 m' c (rb Cert.ReferenceIdeal.main_v26) = R1 m' c (rb Cert.ReferenceIdeal.main_v26) := by
  rw [
    keep6 m' c Cert.ReferenceIdeal.main_v26 (by decide), keep5 m' c Cert.ReferenceIdeal.main_v26 (by decide),
    keep4 m' c Cert.ReferenceIdeal.main_v26 (by decide),
    r3_v26]
/-- the reference's main_v26 is untouched from cut 1 to cut 9 -/
theorem r9_v26 : R9 m' c (rb Cert.ReferenceIdeal.main_v26) = R1 m' c (rb Cert.ReferenceIdeal.main_v26) := by
  rw [
    keep9 m' c Cert.ReferenceIdeal.main_v26 (by decide), keep8 m' c Cert.ReferenceIdeal.main_v26 (by decide),
    keep7 m' c Cert.ReferenceIdeal.main_v26 (by decide),
    r6_v26]
/-- the kernel's main_arg6 is untouched from boundary 0 to boundary 4 -/
theorem k4_arg6 : W4 m ρ c (kb Cert.KernelIdeal.main_arg6) = W0 m ρ c (kb Cert.KernelIdeal.main_arg6) := by
  rw [
    reg4 m ρ c Cert.KernelIdeal.main_arg6 (by decide), host3 m ρ c Cert.KernelIdeal.main_arg6 (by decide),
    reg2 m ρ c Cert.KernelIdeal.main_arg6 (by decide), host1 m ρ c Cert.KernelIdeal.main_arg6 (by decide)]
/-- the kernel's main_arg6 is untouched from boundary 0 to boundary 8 -/
theorem k8_arg6 : W8 m ρ c (kb Cert.KernelIdeal.main_arg6) = W0 m ρ c (kb Cert.KernelIdeal.main_arg6) := by
  rw [
    reg8 m ρ c Cert.KernelIdeal.main_arg6 (by decide), host7 m ρ c Cert.KernelIdeal.main_arg6 (by decide),
    reg6 m ρ c Cert.KernelIdeal.main_arg6 (by decide), host5 m ρ c Cert.KernelIdeal.main_arg6 (by decide),
    k4_arg6]
/-- the kernel's main_arg6 is untouched from boundary 0 to boundary 12 -/
theorem k12_arg6 : W12 m ρ c (kb Cert.KernelIdeal.main_arg6) = W0 m ρ c (kb Cert.KernelIdeal.main_arg6) := by
  rw [
    reg12 m ρ c Cert.KernelIdeal.main_arg6 (by decide), host11 m ρ c Cert.KernelIdeal.main_arg6 (by decide),
    reg10 m ρ c Cert.KernelIdeal.main_arg6 (by decide), host9 m ρ c Cert.KernelIdeal.main_arg6 (by decide),
    k8_arg6]
/-- the reference's main_arg6 is untouched from cut 0 to cut 3 -/
theorem r3_arg6 : R3 m' c (rb Cert.ReferenceIdeal.main_arg6) = R0 m' c (rb Cert.ReferenceIdeal.main_arg6) := by
  rw [
    keep3 m' c Cert.ReferenceIdeal.main_arg6 (by decide), keep2 m' c Cert.ReferenceIdeal.main_arg6 (by decide),
    keep1 m' c Cert.ReferenceIdeal.main_arg6 (by decide)]
/-- the reference's main_arg6 is untouched from cut 0 to cut 6 -/
theorem r6_arg6 : R6 m' c (rb Cert.ReferenceIdeal.main_arg6) = R0 m' c (rb Cert.ReferenceIdeal.main_arg6) := by
  rw [
    keep6 m' c Cert.ReferenceIdeal.main_arg6 (by decide), keep5 m' c Cert.ReferenceIdeal.main_arg6 (by decide),
    keep4 m' c Cert.ReferenceIdeal.main_arg6 (by decide),
    r3_arg6]
/-- the reference's main_arg6 is untouched from cut 0 to cut 9 -/
theorem r9_arg6 : R9 m' c (rb Cert.ReferenceIdeal.main_arg6) = R0 m' c (rb Cert.ReferenceIdeal.main_arg6) := by
  rw [
    keep9 m' c Cert.ReferenceIdeal.main_arg6 (by decide), keep8 m' c Cert.ReferenceIdeal.main_arg6 (by decide),
    keep7 m' c Cert.ReferenceIdeal.main_arg6 (by decide),
    r6_arg6]
/-- the kernel's main_arg2 is untouched from boundary 0 to boundary 12 -/
theorem k12_arg2 : W12 m ρ c (kb Cert.KernelIdeal.main_arg2) = W0 m ρ c (kb Cert.KernelIdeal.main_arg2) := by
  rw [
    reg12 m ρ c Cert.KernelIdeal.main_arg2 (by decide), host11 m ρ c Cert.KernelIdeal.main_arg2 (by decide),
    reg10 m ρ c Cert.KernelIdeal.main_arg2 (by decide), host9 m ρ c Cert.KernelIdeal.main_arg2 (by decide),
    reg8 m ρ c Cert.KernelIdeal.main_arg2 (by decide), host7 m ρ c Cert.KernelIdeal.main_arg2 (by decide),
    reg6 m ρ c Cert.KernelIdeal.main_arg2 (by decide), host5 m ρ c Cert.KernelIdeal.main_arg2 (by decide),
    reg4 m ρ c Cert.KernelIdeal.main_arg2 (by decide), host3 m ρ c Cert.KernelIdeal.main_arg2 (by decide),
    reg2 m ρ c Cert.KernelIdeal.main_arg2 (by decide), host1 m ρ c Cert.KernelIdeal.main_arg2 (by decide)]
/-- the reference's main_arg2 is untouched from cut 0 to cut 10 -/
theorem r10_arg2 : R10 m' c (rb Cert.ReferenceIdeal.main_arg2) = R0 m' c (rb Cert.ReferenceIdeal.main_arg2) := by
  rw [
    keep10 m' c Cert.ReferenceIdeal.main_arg2 (by decide), keep9 m' c Cert.ReferenceIdeal.main_arg2 (by decide),
    keep8 m' c Cert.ReferenceIdeal.main_arg2 (by decide), keep7 m' c Cert.ReferenceIdeal.main_arg2 (by decide),
    keep6 m' c Cert.ReferenceIdeal.main_arg2 (by decide), keep5 m' c Cert.ReferenceIdeal.main_arg2 (by decide),
    keep4 m' c Cert.ReferenceIdeal.main_arg2 (by decide), keep3 m' c Cert.ReferenceIdeal.main_arg2 (by decide),
    keep2 m' c Cert.ReferenceIdeal.main_arg2 (by decide), keep1 m' c Cert.ReferenceIdeal.main_arg2 (by decide)]
/-- the kernel's main_arg15 is untouched from boundary 0 to boundary 12 -/
theorem k12_arg15 : W12 m ρ c (kb Cert.KernelIdeal.main_arg15) = W0 m ρ c (kb Cert.KernelIdeal.main_arg15) := by
  rw [
    reg12 m ρ c Cert.KernelIdeal.main_arg15 (by decide), host11 m ρ c Cert.KernelIdeal.main_arg15 (by decide),
    reg10 m ρ c Cert.KernelIdeal.main_arg15 (by decide), host9 m ρ c Cert.KernelIdeal.main_arg15 (by decide),
    reg8 m ρ c Cert.KernelIdeal.main_arg15 (by decide), host7 m ρ c Cert.KernelIdeal.main_arg15 (by decide),
    reg6 m ρ c Cert.KernelIdeal.main_arg15 (by decide), host5 m ρ c Cert.KernelIdeal.main_arg15 (by decide),
    reg4 m ρ c Cert.KernelIdeal.main_arg15 (by decide), host3 m ρ c Cert.KernelIdeal.main_arg15 (by decide),
    reg2 m ρ c Cert.KernelIdeal.main_arg15 (by decide), host1 m ρ c Cert.KernelIdeal.main_arg15 (by decide)]
/-- the reference's main_arg15 is untouched from cut 0 to cut 10 -/
theorem r10_arg15 : R10 m' c (rb Cert.ReferenceIdeal.main_arg15) = R0 m' c (rb Cert.ReferenceIdeal.main_arg15) := by
  rw [
    keep10 m' c Cert.ReferenceIdeal.main_arg15 (by decide), keep9 m' c Cert.ReferenceIdeal.main_arg15 (by decide),
    keep8 m' c Cert.ReferenceIdeal.main_arg15 (by decide), keep7 m' c Cert.ReferenceIdeal.main_arg15 (by decide),
    keep6 m' c Cert.ReferenceIdeal.main_arg15 (by decide), keep5 m' c Cert.ReferenceIdeal.main_arg15 (by decide),
    keep4 m' c Cert.ReferenceIdeal.main_arg15 (by decide), keep3 m' c Cert.ReferenceIdeal.main_arg15 (by decide),
    keep2 m' c Cert.ReferenceIdeal.main_arg15 (by decide), keep1 m' c Cert.ReferenceIdeal.main_arg15 (by decide)]
/-- the kernel's main_arg16 is untouched from boundary 0 to boundary 12 -/
theorem k12_arg16 : W12 m ρ c (kb Cert.KernelIdeal.main_arg16) = W0 m ρ c (kb Cert.KernelIdeal.main_arg16) := by
  rw [
    reg12 m ρ c Cert.KernelIdeal.main_arg16 (by decide), host11 m ρ c Cert.KernelIdeal.main_arg16 (by decide),
    reg10 m ρ c Cert.KernelIdeal.main_arg16 (by decide), host9 m ρ c Cert.KernelIdeal.main_arg16 (by decide),
    reg8 m ρ c Cert.KernelIdeal.main_arg16 (by decide), host7 m ρ c Cert.KernelIdeal.main_arg16 (by decide),
    reg6 m ρ c Cert.KernelIdeal.main_arg16 (by decide), host5 m ρ c Cert.KernelIdeal.main_arg16 (by decide),
    reg4 m ρ c Cert.KernelIdeal.main_arg16 (by decide), host3 m ρ c Cert.KernelIdeal.main_arg16 (by decide),
    reg2 m ρ c Cert.KernelIdeal.main_arg16 (by decide), host1 m ρ c Cert.KernelIdeal.main_arg16 (by decide)]
/-- the reference's main_arg16 is untouched from cut 0 to cut 10 -/
theorem r10_arg16 : R10 m' c (rb Cert.ReferenceIdeal.main_arg16) = R0 m' c (rb Cert.ReferenceIdeal.main_arg16) := by
  rw [
    keep10 m' c Cert.ReferenceIdeal.main_arg16 (by decide), keep9 m' c Cert.ReferenceIdeal.main_arg16 (by decide),
    keep8 m' c Cert.ReferenceIdeal.main_arg16 (by decide), keep7 m' c Cert.ReferenceIdeal.main_arg16 (by decide),
    keep6 m' c Cert.ReferenceIdeal.main_arg16 (by decide), keep5 m' c Cert.ReferenceIdeal.main_arg16 (by decide),
    keep4 m' c Cert.ReferenceIdeal.main_arg16 (by decide), keep3 m' c Cert.ReferenceIdeal.main_arg16 (by decide),
    keep2 m' c Cert.ReferenceIdeal.main_arg16 (by decide), keep1 m' c Cert.ReferenceIdeal.main_arg16 (by decide)]
/-- the kernel's main_arg17 is untouched from boundary 0 to boundary 12 -/
theorem k12_arg17 : W12 m ρ c (kb Cert.KernelIdeal.main_arg17) = W0 m ρ c (kb Cert.KernelIdeal.main_arg17) := by
  rw [
    reg12 m ρ c Cert.KernelIdeal.main_arg17 (by decide), host11 m ρ c Cert.KernelIdeal.main_arg17 (by decide),
    reg10 m ρ c Cert.KernelIdeal.main_arg17 (by decide), host9 m ρ c Cert.KernelIdeal.main_arg17 (by decide),
    reg8 m ρ c Cert.KernelIdeal.main_arg17 (by decide), host7 m ρ c Cert.KernelIdeal.main_arg17 (by decide),
    reg6 m ρ c Cert.KernelIdeal.main_arg17 (by decide), host5 m ρ c Cert.KernelIdeal.main_arg17 (by decide),
    reg4 m ρ c Cert.KernelIdeal.main_arg17 (by decide), host3 m ρ c Cert.KernelIdeal.main_arg17 (by decide),
    reg2 m ρ c Cert.KernelIdeal.main_arg17 (by decide), host1 m ρ c Cert.KernelIdeal.main_arg17 (by decide)]
/-- the reference's main_arg17 is untouched from cut 0 to cut 10 -/
theorem r10_arg17 : R10 m' c (rb Cert.ReferenceIdeal.main_arg17) = R0 m' c (rb Cert.ReferenceIdeal.main_arg17) := by
  rw [
    keep10 m' c Cert.ReferenceIdeal.main_arg17 (by decide), keep9 m' c Cert.ReferenceIdeal.main_arg17 (by decide),
    keep8 m' c Cert.ReferenceIdeal.main_arg17 (by decide), keep7 m' c Cert.ReferenceIdeal.main_arg17 (by decide),
    keep6 m' c Cert.ReferenceIdeal.main_arg17 (by decide), keep5 m' c Cert.ReferenceIdeal.main_arg17 (by decide),
    keep4 m' c Cert.ReferenceIdeal.main_arg17 (by decide), keep3 m' c Cert.ReferenceIdeal.main_arg17 (by decide),
    keep2 m' c Cert.ReferenceIdeal.main_arg17 (by decide), keep1 m' c Cert.ReferenceIdeal.main_arg17 (by decide)]
/-- the kernel's main_arg18 is untouched from boundary 0 to boundary 12 -/
theorem k12_arg18 : W12 m ρ c (kb Cert.KernelIdeal.main_arg18) = W0 m ρ c (kb Cert.KernelIdeal.main_arg18) := by
  rw [
    reg12 m ρ c Cert.KernelIdeal.main_arg18 (by decide), host11 m ρ c Cert.KernelIdeal.main_arg18 (by decide),
    reg10 m ρ c Cert.KernelIdeal.main_arg18 (by decide), host9 m ρ c Cert.KernelIdeal.main_arg18 (by decide),
    reg8 m ρ c Cert.KernelIdeal.main_arg18 (by decide), host7 m ρ c Cert.KernelIdeal.main_arg18 (by decide),
    reg6 m ρ c Cert.KernelIdeal.main_arg18 (by decide), host5 m ρ c Cert.KernelIdeal.main_arg18 (by decide),
    reg4 m ρ c Cert.KernelIdeal.main_arg18 (by decide), host3 m ρ c Cert.KernelIdeal.main_arg18 (by decide),
    reg2 m ρ c Cert.KernelIdeal.main_arg18 (by decide), host1 m ρ c Cert.KernelIdeal.main_arg18 (by decide)]
/-- the reference's main_arg18 is untouched from cut 0 to cut 10 -/
theorem r10_arg18 : R10 m' c (rb Cert.ReferenceIdeal.main_arg18) = R0 m' c (rb Cert.ReferenceIdeal.main_arg18) := by
  rw [
    keep10 m' c Cert.ReferenceIdeal.main_arg18 (by decide), keep9 m' c Cert.ReferenceIdeal.main_arg18 (by decide),
    keep8 m' c Cert.ReferenceIdeal.main_arg18 (by decide), keep7 m' c Cert.ReferenceIdeal.main_arg18 (by decide),
    keep6 m' c Cert.ReferenceIdeal.main_arg18 (by decide), keep5 m' c Cert.ReferenceIdeal.main_arg18 (by decide),
    keep4 m' c Cert.ReferenceIdeal.main_arg18 (by decide), keep3 m' c Cert.ReferenceIdeal.main_arg18 (by decide),
    keep2 m' c Cert.ReferenceIdeal.main_arg18 (by decide), keep1 m' c Cert.ReferenceIdeal.main_arg18 (by decide)]

/-! ## The aggregations and the tail -/

set_option maxHeartbeats 4000000 in
/-- layer 0's aggregation: equal sources, targets, norms and products give equal aggregates -/
theorem agg0 (hA : Agree m ρ c m')
    (h1 : W1 m ρ c (kb Cert.KernelIdeal.main_v1) = R1 m' c (rb Cert.ReferenceIdeal.main_v1))
    (h3 : W1 m ρ c (kb Cert.KernelIdeal.main_v3) = R1 m' c (rb Cert.ReferenceIdeal.main_v3))
    (h25 : W1 m ρ c (kb Cert.KernelIdeal.main_v25) = R1 m' c (rb Cert.ReferenceIdeal.main_v25))
    (h26 : W1 m ρ c (kb Cert.KernelIdeal.main_v26) = R1 m' c (rb Cert.ReferenceIdeal.main_v26))
    (h : W4 m ρ c (kb Cert.KernelIdeal.main_v31) = R3 m' c (rb Cert.ReferenceIdeal.main_v33)) :
    W5 m ρ c (kb Cert.KernelIdeal.main_v53) = R4 m' c (rb Cert.ReferenceIdeal.main_v55) := by
  rw [R4_def]
  show StableHlo.after hostOps2 (W4 m ρ c) _ = _
  simp only [hostOps2, seg3]
  after_results_simp
  rw [k4_v1, k4_v3, k4_v25, k4_v26, k4_arg6, r3_v1, r3_v3, r3_v25, r3_v26, r3_arg6,
    h1, h3, h25, h26, h, hA.a6]
  rfl

set_option maxHeartbeats 4000000 in
/-- layer 1's aggregation: equal sources, targets, norms and products give equal aggregates -/
theorem agg1 (hA : Agree m ρ c m')
    (h1 : W1 m ρ c (kb Cert.KernelIdeal.main_v1) = R1 m' c (rb Cert.ReferenceIdeal.main_v1))
    (h3 : W1 m ρ c (kb Cert.KernelIdeal.main_v3) = R1 m' c (rb Cert.ReferenceIdeal.main_v3))
    (h25 : W1 m ρ c (kb Cert.KernelIdeal.main_v25) = R1 m' c (rb Cert.ReferenceIdeal.main_v25))
    (h26 : W1 m ρ c (kb Cert.KernelIdeal.main_v26) = R1 m' c (rb Cert.ReferenceIdeal.main_v26))
    (h : W8 m ρ c (kb Cert.KernelIdeal.main_v73) = R6 m' c (rb Cert.ReferenceIdeal.main_v122)) :
    W9 m ρ c (kb Cert.KernelIdeal.main_v95) = R7 m' c (rb Cert.ReferenceIdeal.main_v144) := by
  rw [R7_def]
  show StableHlo.after hostOps4 (W8 m ρ c) _ = _
  simp only [hostOps4, seg6]
  after_results_simp
  rw [k8_v1, k8_v3, k8_v25, k8_v26, k8_arg6, r6_v1, r6_v3, r6_v25, r6_v26, r6_arg6,
    h1, h3, h25, h26, h, hA.a6]
  rfl

set_option maxHeartbeats 4000000 in
/-- the tail: layer 2's aggregation, the mean over each graph's nodes and the two-layer head -/
theorem tail (hA : Agree m ρ c m')
    (h1 : W1 m ρ c (kb Cert.KernelIdeal.main_v1) = R1 m' c (rb Cert.ReferenceIdeal.main_v1))
    (h3 : W1 m ρ c (kb Cert.KernelIdeal.main_v3) = R1 m' c (rb Cert.ReferenceIdeal.main_v3))
    (h25 : W1 m ρ c (kb Cert.KernelIdeal.main_v25) = R1 m' c (rb Cert.ReferenceIdeal.main_v25))
    (h26 : W1 m ρ c (kb Cert.KernelIdeal.main_v26) = R1 m' c (rb Cert.ReferenceIdeal.main_v26))
    (h : W12 m ρ c (kb Cert.KernelIdeal.main_v115) = R9 m' c (rb Cert.ReferenceIdeal.main_v211)) :
    W15 m ρ c (kb Cert.KernelIdeal.main_v158) = R11 m' c (rb Cert.ReferenceIdeal.main_v254) := by
  rw [R11_def]
  show StableHlo.after hostOps6_2 (StableHlo.after hostOps6_1 (StableHlo.after hostOps6 (W12 m ρ c))) _ = _
  simp only [hostOps6_2, hostOps6_1, hostOps6, seg10]
  after_results_simp
  rw [r10_arg2, r10_arg15, r10_arg16, r10_arg17, r10_arg18, R10_def]
  simp only [seg9]
  after_results_simp
  rw [k12_v1, k12_v3, k12_v25, k12_v26, k12_arg6, k12_arg2, k12_arg15, k12_arg16, k12_arg17, k12_arg18,
    r9_v1, r9_v3, r9_v25, r9_v26, r9_arg6,
    h1, h3, h25, h26, h, hA.a6, hA.a2, hA.a15, hA.a16, hA.a17, hA.a18]
  rfl

end Cert.Bridge

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.KCombPayload.lean ====
/-
  The combine stage's body read at one entry, over the extended reals.

  The body of a combine stage works on a block of 2000 rows of 128 features. Its operations are of four kinds:
  entrywise arithmetic; a vector of 128 entries repeated over the rows; a row's sum kept as a column and repeated
  over the 128 entries; a product with a 128 by 128 matrix accumulated into the zero block. Below, the body's
  three payloads are first regrouped into the stage's mathematical steps (the mean column, the centred block, the
  reciprocal root column, the normalised block, the affine map, the clipping at zero), and each step is then read
  at the entry (r, q) as the corresponding operation of row r alone: the normalisation of the row, the affine map of
  the row, and so the whole combine stage of the row.
-/
import proofs.«137925_j52501680226462_1_alg».proof.Proof.Gen.KernelIdeal.Skeleton
import proofs.«137925_j52501680226462_1_alg».proof.Proof.ArraySpec
import proofs.«137925_j52501680226462_1_alg».proof.Proof.LibMatmulPlain
import proofs.«137925_j52501680226462_1_alg».proof.Proof.LibRows
import Idealize.ShloMosaic.Lib.ValueLayout

noncomputable section

open scoped BigOperators

namespace Cert.KernelIdeal.KComb

open Idealize.ShloMosaic Idealize.ShloMosaic.ValueIdx
open Cert.KernelIdeal Cert.KernelIdeal.Gen
open Cert.RowSpec

/-! ## The steps of the stage on a block -/

/-- the rows' sums divided by 128, kept as a column -/
def meanCol (z : FVec Ideal S2000x128 .f32) : FVec Ideal S2000x1 .f32 :=
  divf (shapeCast S2000x1 (multiReduction (F := Ideal) .add [1] S2000 z 0x00000000#32 reduces_S2000x128_S2000 (.inl rfl) rfl)
      shapeCasts_S2000_S2000x1)
    (broadcast S2000x1 (Scalar.ofBits (F := Ideal) .f32 0x43000000#32))

/-- every row minus its mean -/
def cen (z : FVec Ideal S2000x128 .f32) : FVec Ideal S2000x128 .f32 :=
  subf z (broadcastTo S2000x128 (meanCol z) broadcasts_S2000x1_S2000x128)

/-- the reciprocal root of every row's shifted variance, kept as a column -/
def rstdCol (z : FVec Ideal S2000x128 .f32) : FVec Ideal S2000x1 .f32 :=
  rsqrt (addf (meanCol (mulf (cen z) (cen z))) (broadcast S2000x1 (Scalar.ofBits (F := Ideal) .f32 0x3727C5AC#32)))

/-- a vector of 128 entries repeated over the 2000 rows -/
def rowB (v : Vec Ideal S128 .f32) : FVec Ideal S2000x128 .f32 :=
  broadcastTo S2000x128 (shapeCast S1x128 v shapeCasts_S128_S1x128) broadcasts_S1x128_S2000x128

/-- every row normalised, scaled by the gain and shifted by the offset -/
def lnv (z : FVec Ideal S2000x128 .f32) (g b : Vec Ideal S128 .f32) : FVec Ideal S2000x128 .f32 :=
  addf (mulf (mulf (cen z) (broadcastTo S2000x128 (rstdCol z) broadcasts_S2000x1_S2000x128)) (rowB g)) (rowB b)

/-- the affine map of every row -/
def linv (x : FVec Ideal S2000x128 .f32) (w : Vec Ideal S128x128 .f32) (b : Vec Ideal S128 .f32) : FVec Ideal S2000x128 .f32 :=
  addf (matmul dot_S2000x128_S128x128_S2000x128_1_0_0_1_n_n none (truncf .bf16 x bitsLt_bf16_f32)
      (truncf .bf16 (show FVec Ideal S128x128 .f32 from w) bitsLt_bf16_f32) (constant S2000x128 .f32 0x00000000#32)) (rowB b)

/-- every entry clipped below at zero -/
def relu (x : FVec Ideal S2000x128 .f32) : FVec Ideal S2000x128 .f32 :=
  maximumf x (broadcast S2000x128 (Scalar.ofBits (F := Ideal) .f32 0x00000000#32))

/-- the first half of the stage: normalise, clip, add the layer's input -/
def hmidv (x0 : Vec Ideal S2000x128 .f32) (g b : Vec Ideal S128 .f32) (x1 : Vec Ideal S2000x128 .f32) : FVec Ideal S2000x128 .f32 :=
  addf (relu (lnv x0 g b)) x1

/-- the whole stage on a block -/
def combv (x0 x1 : Vec Ideal S2000x128 .f32) (x2 x3 : Vec Ideal S128 .f32) (x4 : Vec Ideal S128x128 .f32) (x5 : Vec Ideal S128 .f32)
    (x6 : Vec Ideal S128x128 .f32) (x7 x8 x9 : Vec Ideal S128 .f32) : FVec Ideal S2000x128 .f32 :=
  lnv (addf (linv (relu (linv (hmidv x0 x2 x3 x1) x4 x5)) x6 x7) (hmidv x0 x2 x3 x1)) x8 x9

/-! ## Each step read at an entry -/

/-- a repeated vector reads the vector's entry -/
theorem rowB_apply (v : Vec Ideal S128 .f32) (r : Fin 2000) (q : Fin 128) : rowB v (ix2 r q) = v (ix1 q) :=
  (broadcastTo_1b_ab_apply _ _ r q).trans (shapeCast_a_1a_apply v _ 0 q)

/-- the mean column reads the row's mean -/
theorem meanCol_apply (z : FVec Ideal S2000x128 .f32) (r : Fin 2000) (u : Fin 1) :
    meanCol z (ix2 r u) = mu (fun k => z (ix2 r k)) := by
  have h : shapeCast S2000x1 (multiReduction (F := Ideal) .add [1] S2000 z 0x00000000#32 reduces_S2000x128_S2000 (.inl rfl) rfl)
      shapeCasts_S2000_S2000x1 (ix2 r u) = ∑ k : Fin 128, z (ix2 r k) :=
    (Cert.LibRows.col_cast_apply _ _ r u).trans (Cert.LibRows.lane_sum_last_apply z _ _ _ r)
  exact congrArg (fun s => Ideal.div s c128) h

/-- the centred block reads the centred row -/
theorem cen_apply (z : FVec Ideal S2000x128 .f32) (r : Fin 2000) (q : Fin 128) :
    cen z (ix2 r q) = ctr (fun k => z (ix2 r k)) q := by
  have h : broadcastTo S2000x128 (meanCol z) broadcasts_S2000x1_S2000x128 (ix2 r q) = mu (fun k => z (ix2 r k)) :=
    (Cert.LibRows.bcast_col_apply _ _ r q).trans (meanCol_apply z r 0)
  exact congrArg (fun s => z (ix2 r q) - s) h

/-- the reciprocal root column reads the reciprocal root of the row's shifted variance -/
theorem rstdCol_apply (z : FVec Ideal S2000x128 .f32) (r : Fin 2000) (u : Fin 1) :
    rstdCol z (ix2 r u) = Ideal.rsqrt (var (fun k => z (ix2 r k)) + ceps) := by
  have h : meanCol (mulf (cen z) (cen z)) (ix2 r u) = var (fun k => z (ix2 r k)) := by
    refine (meanCol_apply _ r u).trans ?_
    show Ideal.div (∑ k : Fin 128, cen z (ix2 r k) * cen z (ix2 r k)) c128
      = Ideal.div (∑ k : Fin 128, ctr (fun k => z (ix2 r k)) k * ctr (fun k => z (ix2 r k)) k) c128
    exact congrArg (fun s => Ideal.div s c128) (Finset.sum_congr rfl fun k _ => by rw [cen_apply])
  exact congrArg (fun s => Ideal.rsqrt (s + ceps)) h

/-- the normalised block reads the normalised row -/
theorem lnv_apply (z : FVec Ideal S2000x128 .f32) (g b : Vec Ideal S128 .f32) (r : Fin 2000) (q : Fin 128) :
    lnv z g b (ix2 r q) = lnK (fun k => z (ix2 r k)) (fun q' => g (ix1 q')) (fun q' => b (ix1 q')) q := by
  show cen z (ix2 r q) * broadcastTo S2000x128 (rstdCol z) broadcasts_S2000x1_S2000x128 (ix2 r q) * rowB g (ix2 r q) + rowB b (ix2 r q) = _
  rw [cen_apply, Cert.LibRows.bcast_col_apply, rstdCol_apply, rowB_apply, rowB_apply]
  rfl

/-- the affine map of the block reads the affine map of the row -/
theorem linv_apply (x : FVec Ideal S2000x128 .f32) (w : Vec Ideal S128x128 .f32) (b : Vec Ideal S128 .f32) (r : Fin 2000) (q : Fin 128) :
    linv x w b (ix2 r q) = lin (fun k => x (ix2 r k)) (fun k q' => w (ix2 k q')) (fun q' => b (ix1 q')) q := by
  have h := Cert.LibMatmulPlain.matmul_plain_zero_apply (M := 2000) (K := 128) (N := 128) dot_S2000x128_S128x128_S2000x128_1_0_0_1_n_n rfl none
    (truncf .bf16 x bitsLt_bf16_f32) (truncf .bf16 (show FVec Ideal S128x128 .f32 from w) bitsLt_bf16_f32) r q
  exact congrArg₂ (· + ·) h (rowB_apply b r q)

/-- the clipped block reads the clipped entry -/
theorem relu_apply (x : FVec Ideal S2000x128 .f32) (i : S2000x128.Idx) : relu x i = max (x i) czero := rfl

/-- the first half of the stage reads the first half of the row's stage -/
theorem hmidv_apply (x0 : Vec Ideal S2000x128 .f32) (g b : Vec Ideal S128 .f32) (x1 : Vec Ideal S2000x128 .f32) (r : Fin 2000) (q : Fin 128) :
    hmidv x0 g b x1 (ix2 r q)
      = max (lnK (fun k => x0 (ix2 r k)) (fun q' => g (ix1 q')) (fun q' => b (ix1 q')) q) czero + x1 (ix2 r q) := by
  show max (lnv x0 g b (ix2 r q)) czero + x1 (ix2 r q) = _
  rw [lnv_apply]

/-- THE STAGE AT AN ENTRY: the block's result at (r, q) is the combine stage of row r, at q. -/
theorem combv_apply (x0 x1 : Vec Ideal S2000x128 .f32) (x2 x3 : Vec Ideal S128 .f32) (x4 : Vec Ideal S128x128 .f32) (x5 : Vec Ideal S128 .f32)
    (x6 : Vec Ideal S128x128 .f32) (x7 x8 x9 : Vec Ideal S128 .f32) (r : Fin 2000) (q : Fin 128) :
    combv x0 x1 x2 x3 x4 x5 x6 x7 x8 x9 (ix2 r q)
      = comb lnK (fun k => x0 (ix2 r k)) (fun k => x1 (ix2 r k)) (fun q' => x2 (ix1 q')) (fun q' => x3 (ix1 q'))
          (fun k q' => x4 (ix2 k q')) (fun q' => x5 (ix1 q')) (fun k q' => x6 (ix2 k q')) (fun q' => x7 (ix1 q'))
          (fun q' => x8 (ix1 q')) (fun q' => x9 (ix1 q')) q := by
  have hH : (fun k => hmidv x0 x2 x3 x1 (ix2 r k))
      = fun k => max (lnK (fun k => x0 (ix2 r k)) (fun q' => x2 (ix1 q')) (fun q' => x3 (ix1 q')) k) czero + x1 (ix2 r k) :=
    funext fun k => hmidv_apply x0 x2 x3 x1 r k
  have hY : (fun k => relu (linv (hmidv x0 x2 x3 x1) x4 x5) (ix2 r k))
      = fun k => max (lin (fun k => max (lnK (fun k => x0 (ix2 r k)) (fun q' => x2 (ix1 q')) (fun q' => x3 (ix1 q')) k) czero + x1 (ix2 r k))
          (fun k q' => x4 (ix2 k q')) (fun q' => x5 (ix1 q')) k) czero :=
    funext fun k => by rw [relu_apply, linv_apply, hH]
  refine (lnv_apply _ x8 x9 r q).trans ?_
  unfold comb
  refine congrArg (fun z => lnK z (fun q' => x8 (ix1 q')) (fun q' => x9 (ix1 q')) q) (funext fun k => ?_)
  show linv (relu (linv (hmidv x0 x2 x3 x1) x4 x5)) x6 x7 (ix2 r k) + hmidv x0 x2 x3 x1 (ix2 r k) = _
  rw [linv_apply, hY, hmidv_apply]

/-! ## The payloads of region 2 are these steps -/

theorem pay2_2_eq (v0 : Vec Ideal S2000x128 .f32) (v18 v23 : Vec Ideal S128 .f32) (v30 : Vec Ideal S2000x128 .f32) :
    k2_pay2 (F := Ideal) v0 v18 v23 v30 = hmidv v0 v18 v23 v30 := by
  unfold k2_pay2
  simp only [shapeCast_self]
  rfl

theorem pay2_3_eq (v0 : Vec Ideal S2000x128 .f32) (v18 v23 : Vec Ideal S128 .f32) (v30 : Vec Ideal S2000x128 .f32)
    (v33 : Vec Ideal S128x128 .f32) (v38 : Vec Ideal S128 .f32) :
    k2_pay3 (F := Ideal) v0 v18 v23 v30 v33 v38 = linv (k2_pay2 (F := Ideal) v0 v18 v23 v30) v33 v38 := by
  unfold k2_pay3
  simp only [shapeCast_self]
  rfl

theorem pay2_1_eq (v32 v42 : FVec Ideal S2000x128 .f32) (v45 : Vec Ideal S128x128 .f32) (v50 v72 v77 : Vec Ideal S128 .f32) :
    k2_pay1 (F := Ideal) v32 v42 v45 v50 v72 v77 = lnv (addf (linv (relu v42) v45 v50) v32) v72 v77 := by
  unfold k2_pay1
  simp only [shapeCast_self]
  rfl

/-- the three payloads composed as the body composes them -/
theorem pay2_eq (x0 x1 : Vec Ideal S2000x128 .f32) (x2 x3 : Vec Ideal S128 .f32) (x4 : Vec Ideal S128x128 .f32) (x5 : Vec Ideal S128 .f32)
    (x6 : Vec Ideal S128x128 .f32) (x7 x8 x9 : Vec Ideal S128 .f32) :
    k2_pay1 (F := Ideal) (k2_pay2 x0 x2 x3 x1) (k2_pay3 x0 x2 x3 x1 x4 x5) x6 x7 x8 x9 = combv x0 x1 x2 x3 x4 x5 x6 x7 x8 x9 := by
  rw [pay2_1_eq, pay2_3_eq, pay2_2_eq]
  rfl

/-! ## The payloads of region 4 are these steps -/

theorem pay4_2_eq (v0 : Vec Ideal S2000x128 .f32) (v18 v23 : Vec Ideal S128 .f32) (v30 : Vec Ideal S2000x128 .f32) :
    k4_pay2 (F := Ideal) v0 v18 v23 v30 = hmidv v0 v18 v23 v30 := by
  unfold k4_pay2
  simp only [shapeCast_self]
  rfl

theorem pay4_3_eq (v0 : Vec Ideal S2000x128 .f32) (v18 v23 : Vec Ideal S128 .f32) (v30 : Vec Ideal S2000x128 .f32)
    (v33 : Vec Ideal S128x128 .f32) (v38 : Vec Ideal S128 .f32) :
    k4_pay3 (F := Ideal) v0 v18 v23 v30 v33 v38 = linv (k4_pay2 (F := Ideal) v0 v18 v23 v30) v33 v38 := by
  unfold k4_pay3
  simp only [shapeCast_self]
  rfl

theorem pay4_1_eq (v32 v42 : FVec Ideal S2000x128 .f32) (v45 : Vec Ideal S128x128 .f32) (v50 v72 v77 : Vec Ideal S128 .f32) :
    k4_pay1 (F := Ideal) v32 v42 v45 v50 v72 v77 = lnv (addf (linv (relu v42) v45 v50) v32) v72 v77 := by
  unfold k4_pay1
  simp only [shapeCast_self]
  rfl

/-- the three payloads composed as the body composes them -/
theorem pay4_eq (x0 x1 : Vec Ideal S2000x128 .f32) (x2 x3 : Vec Ideal S128 .f32) (x4 : Vec Ideal S128x128 .f32) (x5 : Vec Ideal S128 .f32)
    (x6 : Vec Ideal S128x128 .f32) (x7 x8 x9 : Vec Ideal S128 .f32) :
    k4_pay1 (F := Ideal) (k4_pay2 x0 x2 x3 x1) (k4_pay3 x0 x2 x3 x1 x4 x5) x6 x7 x8 x9 = combv x0 x1 x2 x3 x4 x5 x6 x7 x8 x9 := by
  rw [pay4_1_eq, pay4_3_eq, pay4_2_eq]
  rfl

end Cert.KernelIdeal.KComb

end
-- ==== Proof.KCombBlocks.lean ====
/-
  The windows of the two combine regions, read against their arrays.

  A combine region runs over 20 points. Its two feature windows and its result window move with the point: at point t
  their block is rows 2000·t … 2000·t + 1999 of the array, all 128 columns. Its eight parameter windows do not move:
  at every point the block is the whole array. Here, per region: the block indices at a point, decided over the grid;
  each staged block's entry as an entry of its array; and the cover of the result array by the result window's blocks
  (row R lies in the block of point R / 2000).
-/
import proofs.«137925_j52501680226462_1_alg».proof.Proof.Gen.KernelIdeal.Frame
import Idealize.ShloMosaic.Lib.Pipeline.Value
import Idealize.ShloMosaic.Lib.ValueIdx

noncomputable section

namespace Cert.KernelIdeal.KComb

open Idealize.ShloMosaic Idealize.ShloMosaic.TcCoe Idealize.ShloMosaic.ValueIdx Idealize.SL.Sem
open Idealize.ShloMosaic.Pipeline (Dat)
open Cert.KernelIdeal Cert.KernelIdeal.Gen

/-! ### Region 2: the windows' block indices at a point, and each staged block as entries of its array -/

theorem idx2_0 : ∀ t : Fin cfg2.N, win2_0.index t (0 : Fin 2) = t.val ∧ win2_0.index t (1 : Fin 2) = 0 :=
  (by decide +kernel : ∀ t : Fin grid2.N, _)

theorem idx2_1 : ∀ t : Fin cfg2.N, win2_1.index t (0 : Fin 2) = t.val ∧ win2_1.index t (1 : Fin 2) = 0 :=
  (by decide +kernel : ∀ t : Fin grid2.N, _)

theorem idx2_10 : ∀ t : Fin cfg2.N, win2_10.index t (0 : Fin 2) = t.val ∧ win2_10.index t (1 : Fin 2) = 0 :=
  (by decide +kernel : ∀ t : Fin grid2.N, _)

theorem idx2_2 : ∀ t : Fin cfg2.N, win2_2.index t (0 : Fin 1) = 0 :=
  (by decide +kernel : ∀ t : Fin grid2.N, _)

theorem idx2_3 : ∀ t : Fin cfg2.N, win2_3.index t (0 : Fin 1) = 0 :=
  (by decide +kernel : ∀ t : Fin grid2.N, _)

theorem idx2_5 : ∀ t : Fin cfg2.N, win2_5.index t (0 : Fin 1) = 0 :=
  (by decide +kernel : ∀ t : Fin grid2.N, _)

theorem idx2_7 : ∀ t : Fin cfg2.N, win2_7.index t (0 : Fin 1) = 0 :=
  (by decide +kernel : ∀ t : Fin grid2.N, _)

theorem idx2_8 : ∀ t : Fin cfg2.N, win2_8.index t (0 : Fin 1) = 0 :=
  (by decide +kernel : ∀ t : Fin grid2.N, _)

theorem idx2_9 : ∀ t : Fin cfg2.N, win2_9.index t (0 : Fin 1) = 0 :=
  (by decide +kernel : ∀ t : Fin grid2.N, _)

theorem idx2_4 : ∀ t : Fin cfg2.N, win2_4.index t (0 : Fin 2) = 0 ∧ win2_4.index t (1 : Fin 2) = 0 :=
  (by decide +kernel : ∀ t : Fin grid2.N, _)

theorem idx2_6 : ∀ t : Fin cfg2.N, win2_6.index t (0 : Fin 2) = 0 ∧ win2_6.index t (1 : Fin 2) = 0 :=
  (by decide +kernel : ∀ t : Fin grid2.N, _)

/-- window 0's block at point t holds rows 2000·t … of its array -/
theorem blk2_0 (V : (c : Dev nD) → (b : Ref sig .tc) → Buf (Elt Ideal) ((c : Thread nD τ).loc b)) (c : Dev nD) (t : Fin cfg2.N) (p : Fin 2000) (k : Fin 128)
    (R : Fin 40000) (hR : R.val = t.val * 2000 + p.val) :
    iblk2 (F := Ideal) V c 0 t (ix2 p k) = V c (Pipeline.arrRef spec2 0) (ix2 R k) := by
  obtain ⟨e0, e1⟩ := idx2_0 t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = R.val; omega
  | ⟨1, _⟩ => show win2_0.index t (1 : Fin 2) * 128 + 1 * k.val = k.val; omega

/-- window 1's block at point t holds rows 2000·t … of its array -/
theorem blk2_1 (V : (c : Dev nD) → (b : Ref sig .tc) → Buf (Elt Ideal) ((c : Thread nD τ).loc b)) (c : Dev nD) (t : Fin cfg2.N) (p : Fin 2000) (k : Fin 128)
    (R : Fin 40000) (hR : R.val = t.val * 2000 + p.val) :
    iblk2 (F := Ideal) V c 1 t (ix2 p k) = V c (Pipeline.arrRef spec2 1) (ix2 R k) := by
  obtain ⟨e0, e1⟩ := idx2_1 t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2000 + 1 * p.val = R.val; omega
  | ⟨1, _⟩ => show win2_1.index t (1 : Fin 2) * 128 + 1 * k.val = k.val; omega

/-- window 2's block at any point is its whole array -/
theorem blk2_2 (V : (c : Dev nD) → (b : Ref sig .tc) → Buf (Elt Ideal) ((c : Thread nD τ).loc b)) (c : Dev nD) (t : Fin cfg2.N) (k : Fin 128) :
    iblk2 (F := Ideal) V c 2 t (ix1 k) = V c (Pipeline.arrRef spec2 2) (ix1 k) := by
  have e0 := idx2_2 t
  show V c (Pipeline.arrRef spec2 2) (((cfg2.win 2).blk t).view.emb (ix1 k)) = _
  refine congrArg (V c (Pipeline.arrRef spec2 2)) (funext fun a => Fin.ext ?_)
  match a with
  | ⟨0, _⟩ => show win2_2.index t (0 : Fin 1) * 128 + 1 * k.val = k.val; omega

/-- window 3's block at any point is its whole array -/
theorem blk2_3 (V : (c : Dev nD) → (b : Ref sig .tc) → Buf (Elt Ideal) ((c : Thread nD τ).loc b)) (c : Dev nD) (t : Fin cfg2.N) (k : Fin 128) :
    iblk2 (F := Ideal) V c 3 t (ix1 k) = V c (Pipeline.arrRef spec2 3) (ix1 k) := by
  have e0 := idx2_3 t
  show V c (Pipeline.arrRef spec2 3) (((cfg2.win 3).blk t).view.emb (ix1 k)) = _
  refine congrArg (V c (Pipeline.arrRef spec2 3)) (funext fun a => Fin.ext ?_)
  match a with
  | ⟨0, _⟩ => show win2_3.index t (0 : Fin 1) * 128 + 1 * k.val = k.val; omega

/-- window 5's block at any point is its whole array -/
theorem blk2_5 (V : (c : Dev nD) → (b : Ref sig .tc) → Buf (Elt Ideal) ((c : Thread nD τ).loc b)) (c : Dev nD) (t : Fin cfg2.N) (k : Fin 128) :
    iblk2 (F := Ideal) V c 5 t (ix1 k) = V c (Pipeline.arrRef spec2 5) (ix1 k) := by
  have e0 := idx2_5 t
  show V c (Pipeline.arrRef spec2 5) (((cfg2.win 5).blk t).view.emb (ix1 k)) = _
  refine congrArg (V c (Pipeline.arrRef spec2 5)) (funext fun a => Fin.ext ?_)
  match a with
  | ⟨0, _⟩ => show win2_5.index t (0 : Fin 1) * 128 + 1 * k.val = k.val; omega

/-- window 7's block at any point is its whole array -/
theorem blk2_7 (V : (c : Dev nD) → (b : Ref sig .tc) → Buf (Elt Ideal) ((c : Thread nD τ).loc b)) (c : Dev nD) (t : Fin cfg2.N) (k : Fin 128) :
    iblk2 (F := Ideal) V c 7 t (ix1 k) = V c (Pipeline.arrRef spec2 7) (ix1 k) := by
  have e0 := idx2_7 t
  show V c (Pipeline.arrRef spec2 7) (((cfg2.win 7).blk t).view.emb (ix1 k)) = _
  refine congrArg (V c (Pipeline.arrRef spec2 7)) (funext fun a => Fin.ext ?_)
  match a with
  | ⟨0, _⟩ => show win2_7.index t (0 : Fin 1) * 128 + 1 * k.val = k.val; omega

/-- window 8's block at any point is its whole array -/
theorem blk2_8 (V : (c : Dev nD) → (b : Ref sig .tc) → Buf (Elt Ideal) ((c : Thread nD τ).loc b)) (c : Dev nD) (t : Fin cfg2.N) (k : Fin 128) :
    iblk2 (F := Ideal) V c 8 t (ix1 k) = V c (Pipeline.arrRef spec2 8) (ix1 k) := by
  have e0 := idx2_8 t
  show V c (Pipeline.arrRef spec2 8) (((cfg2.win 8).blk t).view.emb (ix1 k)) = _
  refine congrArg (V c (Pipeline.arrRef spec2 8)) (funext fun a => Fin.ext ?_)
  match a with
  | ⟨0, _⟩ => show win2_8.index t (0 : Fin 1) * 128 + 1 * k.val = k.val; omega

/-- window 9's block at any point is its whole array -/
theorem blk2_9 (V : (c : Dev nD) → (b : Ref sig .tc) → Buf (Elt Ideal) ((c : Thread nD τ).loc b)) (c : Dev nD) (t : Fin cfg2.N) (k : Fin 128) :
    iblk2 (F := Ideal) V c 9 t (ix1 k) = V c (Pipeline.arrRef spec2 9) (ix1 k) := by
  have e0 := idx2_9 t
  show V c (Pipeline.arrRef spec2 9) (((cfg2.win 9).blk t).view.emb (ix1 k)) = _
  refine congrArg (V c (Pipeline.arrRef spec2 9)) (funext fun a => Fin.ext ?_)
  match a with
  | ⟨0, _⟩ => show win2_9.index t (0 : Fin 1) * 128 + 1 * k.val = k.val; omega

/-- window 4's block at any point is its whole array -/
theorem blk2_4 (V : (c : Dev nD) → (b : Ref sig .tc) → Buf (Elt Ideal) ((c : Thread nD τ).loc b)) (c : Dev nD) (t : Fin cfg2.N) (k q' : Fin 128) :
    iblk2 (F := Ideal) V c 4 t (ix2 k q') = V c (Pipeline.arrRef spec2 4) (ix2 k q') := by
  obtain ⟨e0, e1⟩ := idx2_4 t
  show V c (Pipeline.arrRef spec2 4) (((cfg2.win 4).blk t).view.emb (ix2 k q')) = _
  refine congrArg (V c (Pipeline.arrRef spec2 4)) (funext fun a => Fin.ext ?_)
  match a with
  | ⟨0, _⟩ => show win2_4.index t (0 : Fin 2) * 128 + 1 * k.val = k.val; omega
  | ⟨1, _⟩ => show win2_4.index t (1 : Fin 2) * 128 + 1 * q'.val = q'.val; omega

/-- window 6's block at any point is its whole array -/
theorem blk2_6 (V : (c : Dev nD) → (b : Ref sig .tc) → Buf (Elt Ideal) ((c : Thread nD τ).loc b)) (c : Dev nD) (t : Fin cfg2.N) (k q' : Fin 128) :
    iblk2 (F := Ideal) V c 6 t (ix2 k q') = V c (Pipeline.arrRef spec2 6) (ix2 k q') := by
  obtain ⟨e0, e1⟩ := idx2_6 t
  show V c (Pipeline.arrRef spec2 6) (((cfg2.win 6).blk t).view.emb (ix2 k q')) = _
  refine congrArg (V c (Pipeline.arrRef spec2 6)) (funext fun a => Fin.ext ?_)
  match a with
  | ⟨0, _⟩ => show win2_6.index t (0 : Fin 2) * 128 + 1 * k.val = k.val; omega
  | ⟨1, _⟩ => show win2_6.index t (1 : Fin 2) * 128 + 1 * q'.val = q'.val; omega

/-! ### Region 2: the 20 blocks of the result window cover the result array -/

/-- an index of the result array is in point t's block iff each coordinate is in the block's range -/
theorem mem_blk2 (t : Fin cfg2.N) (i : S40000x128.Idx) :
    i ∈ ((cfg2.win 10).blk t).view.set ↔ ∀ a : Fin 2, win2_10.index t a * S2000x128.size a ≤ (i a).val
      ∧ (i a).val < win2_10.index t a * S2000x128.size a + S2000x128.size a := by
  show i ∈ ((View.whole main_v70).slice (win2_10.rect t)).set ↔ _
  rw [View.set_slice_whole, Rect.mem_set_unit]
  exact Iff.rfl

/-- every row is in the block of the point its number divided by 2000 names -/
theorem cover2 (i : S40000x128.Idx) : ∃ t : Fin cfg2.N, (cfg2.win 10).flush t = true ∧ i ∈ ((cfg2.win 10).blk t).view.set := by
  have hi0 : (i 0).val < 40000 := (i 0).isLt
  have hi1 : (i 1).val < 128 := (i 1).isLt
  have hlt : (i 0).val / 2000 < cfg2.N := lt_of_lt_of_eq (by omega : (i 0).val / 2000 < 20) N_2.symm
  obtain ⟨eo0, eo1⟩ := idx2_10 ⟨(i 0).val / 2000, hlt⟩
  refine ⟨⟨(i 0).val / 2000, hlt⟩, flush2_10 _, ?_⟩
  rw [mem_blk2]
  intro a
  match a with
  | ⟨0, _⟩ =>
    show win2_10.index ⟨(i 0).val / 2000, hlt⟩ (0 : Fin 2) * 2000 ≤ (i 0).val
      ∧ (i 0).val < win2_10.index ⟨(i 0).val / 2000, hlt⟩ (0 : Fin 2) * 2000 + 2000
    rw [eo0]
    show (i 0).val / 2000 * 2000 ≤ (i 0).val ∧ (i 0).val < (i 0).val / 2000 * 2000 + 2000
    omega
  | ⟨1, _⟩ =>
    show win2_10.index ⟨(i 0).val / 2000, hlt⟩ (1 : Fin 2) * 128 ≤ (i 1).val
      ∧ (i 1).val < win2_10.index ⟨(i 0).val / 2000, hlt⟩ (1 : Fin 2) * 128 + 128
    rw [eo1]
    omega

/-! ### Region 4: the windows' block indices at a point, and each staged block as entries of its array -/

theorem idx4_0 : ∀ t : Fin cfg4.N, win4_0.index t (0 : Fin 2) = t.val ∧ win4_0.index t (1 : Fin 2) = 0 :=
  (by decide +kernel : ∀ t : Fin grid4.N, _)

theorem idx4_1 : ∀ t : Fin cfg4.N, win4_1.index t (0 : Fin 2) = t.val ∧ win4_1.index t (1 : Fin 2) = 0 :=
  (by decide +kernel : ∀ t : Fin grid4.N, _)

theorem idx4_10 : ∀ t : Fin cfg4.N, win4_10.index t (0 : Fin 2) = t.val ∧ win4_10.index t (1 : Fin 2) = 0 :=
  (by decide +kernel : ∀ t : Fin grid4.N, _)

theorem idx4_2 : ∀ t : Fin cfg4.N, win4_2.index t (0 : Fin 1) = 0 :=
  (by decide +kernel : ∀ t : Fin grid4.N, _)

theorem idx4_3 : ∀ t : Fin cfg4.N, win4_3.index t (0 : Fin 1) = 0 :=
  (by decide +kernel : ∀ t : Fin grid4.N, _)

theorem idx4_5 : ∀ t : Fin cfg4.N, win4_5.index t (0 : Fin 1) = 0 :=
  (by decide +kernel : ∀ t : Fin grid4.N, _)

theorem idx4_7 : ∀ t : Fin cfg4.N, win4_7.index t (0 : Fin 1) = 0 :=
  (by decide +kernel : ∀ t : Fin grid4.N, _)

theorem idx4_8 : ∀ t : Fin cfg4.N, win4_8.index t (0 : Fin 1) = 0 :=
  (by decide +kernel : ∀ t : Fin grid4.N, _)

theorem idx4_9 : ∀ t : Fin cfg4.N, win4_9.index t (0 : Fin 1) = 0 :=
  (by decide +kernel : ∀ t : Fin grid4.N, _)

theorem idx4_4 : ∀ t : Fin cfg4.N, win4_4.index t (0 : Fin 2) = 0 ∧ win4_4.index t (1 : Fin 2) = 0 :=
  (by decide +kernel : ∀ t : Fin grid4.N, _)

theorem idx4_6 : ∀ t : Fin cfg4.N, win4_6.index t (0 : Fin 2) = 0 ∧ win4_6.index t (1 : Fin 2) = 0 :=
  (by decide +kernel : ∀ t : Fin grid4.N, _)

/-- window 0's block at point t holds rows 2000·t … of its array -/
theorem blk4_0 (V : (c : Dev nD) → (b : Ref sig .tc) → Buf (Elt Ideal) ((c : Thread nD τ).loc b)) (c : Dev nD) (t : Fin cfg4.N) (p : Fin 2000) (k : Fin 128)
    (R : Fin 40000) (hR : R.val = t.val * 2000 + p.val) :
    iblk4 (F := Ideal) V c 0 t (ix2 p k) = V c (Pipeline.arrRef spec4 0) (ix2 R k) := by
  obtain ⟨e0, e1⟩ := idx4_0 t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 2000 + 1 * p.val = R.val; omega
  | ⟨1, _⟩ => show win4_0.index t (1 : Fin 2) * 128 + 1 * k.val = k.val; omega

/-- window 1's block at point t holds rows 2000·t … of its array -/
theorem blk4_1 (V : (c : Dev nD) → (b : Ref sig .tc) → Buf (Elt Ideal) ((c : Thread nD τ).loc b)) (c : Dev nD) (t : Fin cfg4.N) (p : Fin 2000) (k : Fin 128)
    (R : Fin 40000) (hR : R.val = t.val * 2000 + p.val) :
    iblk4 (F := Ideal) V c 1 t (ix2 p k) = V c (Pipeline.arrRef spec4 1) (ix2 R k) := by
  obtain ⟨e0, e1⟩ := idx4_1 t
  show V c (Pipeline.arrRef spec4 1) (((cfg4.win 1).blk t).view.emb (ix2 p k)) = _
  refine congrArg (V c (Pipeline.arrRef spec4 1)) (funext fun a => Fin.ext ?_)
  match a with
  | ⟨0, _⟩ => show win4_1.index t (0 : Fin 2) * 2000 + 1 * p.val = R.val; omega
  | ⟨1, _⟩ => show win4_1.index t (1 : Fin 2) * 128 + 1 * k.val = k.val; omega

/-- window 2's block at any point is its whole array -/
theorem blk4_2 (V : (c : Dev nD) → (b : Ref sig .tc) → Buf (Elt Ideal) ((c : Thread nD τ).loc b)) (c : Dev nD) (t : Fin cfg4.N) (k : Fin 128) :
    iblk4 (F := Ideal) V c 2 t (ix1 k) = V c (Pipeline.arrRef spec4 2) (ix1 k) := by
  have e0 := idx4_2 t
  show V c (Pipeline.arrRef spec4 2) (((cfg4.win 2).blk t).view.emb (ix1 k)) = _
  refine congrArg (V c (Pipeline.arrRef spec4 2)) (funext fun a => Fin.ext ?_)
  match a with
  | ⟨0, _⟩ => show win4_2.index t (0 : Fin 1) * 128 + 1 * k.val = k.val; omega

/-- window 3's block at any point is its whole array -/
theorem blk4_3 (V : (c : Dev nD) → (b : Ref sig .tc) → Buf (Elt Ideal) ((c : Thread nD τ).loc b)) (c : Dev nD) (t : Fin cfg4.N) (k : Fin 128) :
    iblk4 (F := Ideal) V c 3 t (ix1 k) = V c (Pipeline.arrRef spec4 3) (ix1 k) := by
  have e0 := idx4_3 t
  show V c (Pipeline.arrRef spec4 3) (((cfg4.win 3).blk t).view.emb (ix1 k)) = _
  refine congrArg (V c (Pipeline.arrRef spec4 3)) (funext fun a => Fin.ext ?_)
  match a with
  | ⟨0, _⟩ => show win4_3.index t (0 : Fin 1) * 128 + 1 * k.val = k.val; omega

/-- window 5's block at any point is its whole array -/
theorem blk4_5 (V : (c : Dev nD) → (b : Ref sig .tc) → Buf (Elt Ideal) ((c : Thread nD τ).loc b)) (c : Dev nD) (t : Fin cfg4.N) (k : Fin 128) :
    iblk4 (F := Ideal) V c 5 t (ix1 k) = V c (Pipeline.arrRef spec4 5) (ix1 k) := by
  have e0 := idx4_5 t
  show V c (Pipeline.arrRef spec4 5) (((cfg4.win 5).blk t).view.emb (ix1 k)) = _
  refine congrArg (V c (Pipeline.arrRef spec4 5)) (funext fun a => Fin.ext ?_)
  match a with
  | ⟨0, _⟩ => show win4_5.index t (0 : Fin 1) * 128 + 1 * k.val = k.val; omega

/-- window 7's block at any point is its whole array -/
theorem blk4_7 (V : (c : Dev nD) → (b : Ref sig .tc) → Buf (Elt Ideal) ((c : Thread nD τ).loc b)) (c : Dev nD) (t : Fin cfg4.N) (k : Fin 128) :
    iblk4 (F := Ideal) V c 7 t (ix1 k) = V c (Pipeline.arrRef spec4 7) (ix1 k) := by
  have e0 := idx4_7 t
  show V c (Pipeline.arrRef spec4 7) (((cfg4.win 7).blk t).view.emb (ix1 k)) = _
  refine congrArg (V c (Pipeline.arrRef spec4 7)) (funext fun a => Fin.ext ?_)
  match a with
  | ⟨0, _⟩ => show win4_7.index t (0 : Fin 1) * 128 + 1 * k.val = k.val; omega

/-- window 8's block at any point is its whole array -/
theorem blk4_8 (V : (c : Dev nD) → (b : Ref sig .tc) → Buf (Elt Ideal) ((c : Thread nD τ).loc b)) (c : Dev nD) (t : Fin cfg4.N) (k : Fin 128) :
    iblk4 (F := Ideal) V c 8 t (ix1 k) = V c (Pipeline.arrRef spec4 8) (ix1 k) := by
  have e0 := idx4_8 t
  show V c (Pipeline.arrRef spec4 8) (((cfg4.win 8).blk t).view.emb (ix1 k)) = _
  refine congrArg (V c (Pipeline.arrRef spec4 8)) (funext fun a => Fin.ext ?_)
  match a with
  | ⟨0, _⟩ => show win4_8.index t (0 : Fin 1) * 128 + 1 * k.val = k.val; omega

/-- window 9's block at any point is its whole array -/
theorem blk4_9 (V : (c : Dev nD) → (b : Ref sig .tc) → Buf (Elt Ideal) ((c : Thread nD τ).loc b)) (c : Dev nD) (t : Fin cfg4.N) (k : Fin 128) :
    iblk4 (F := Ideal) V c 9 t (ix1 k) = V c (Pipeline.arrRef spec4 9) (ix1 k) := by
  have e0 := idx4_9 t
  show V c (Pipeline.arrRef spec4 9) (((cfg4.win 9).blk t).view.emb (ix1 k)) = _
  refine congrArg (V c (Pipeline.arrRef spec4 9)) (funext fun a => Fin.ext ?_)
  match a with
  | ⟨0, _⟩ => show win4_9.index t (0 : Fin 1) * 128 + 1 * k.val = k.val; omega

/-- window 4's block at any point is its whole array -/
theorem blk4_4 (V : (c : Dev nD) → (b : Ref sig .tc) → Buf (Elt Ideal) ((c : Thread nD τ).loc b)) (c : Dev nD) (t : Fin cfg4.N) (k q' : Fin 128) :
    iblk4 (F := Ideal) V c 4 t (ix2 k q') = V c (Pipeline.arrRef spec4 4) (ix2 k q') := by
  obtain ⟨e0, e1⟩ := idx4_4 t
  show V c (Pipeline.arrRef spec4 4) (((cfg4.win 4).blk t).view.emb (ix2 k q')) = _
  refine congrArg (V c (Pipeline.arrRef spec4 4)) (funext fun a => Fin.ext ?_)
  match a with
  | ⟨0, _⟩ => show win4_4.index t (0 : Fin 2) * 128 + 1 * k.val = k.val; omega
  | ⟨1, _⟩ => show win4_4.index t (1 : Fin 2) * 128 + 1 * q'.val = q'.val; omega

/-- window 6's block at any point is its whole array -/
theorem blk4_6 (V : (c : Dev nD) → (b : Ref sig .tc) → Buf (Elt Ideal) ((c : Thread nD τ).loc b)) (c : Dev nD) (t : Fin cfg4.N) (k q' : Fin 128) :
    iblk4 (F := Ideal) V c 6 t (ix2 k q') = V c (Pipeline.arrRef spec4 6) (ix2 k q') := by
  obtain ⟨e0, e1⟩ := idx4_6 t
  show V c (Pipeline.arrRef spec4 6) (((cfg4.win 6).blk t).view.emb (ix2 k q')) = _
  refine congrArg (V c (Pipeline.arrRef spec4 6)) (funext fun a => Fin.ext ?_)
  match a with
  | ⟨0, _⟩ => show win4_6.index t (0 : Fin 2) * 128 + 1 * k.val = k.val; omega
  | ⟨1, _⟩ => show win4_6.index t (1 : Fin 2) * 128 + 1 * q'.val = q'.val; omega

/-! ### Region 4: the 20 blocks of the result window cover the result array -/

/-- an index of the result array is in point t's block iff each coordinate is in the block's range -/
theorem mem_blk4 (t : Fin cfg4.N) (i : S40000x128.Idx) :
    i ∈ ((cfg4.win 10).blk t).view.set ↔ ∀ a : Fin 2, win4_10.index t a * S2000x128.size a ≤ (i a).val
      ∧ (i a).val < win4_10.index t a * S2000x128.size a + S2000x128.size a := by
  show i ∈ ((View.whole main_v112).slice (win4_10.rect t)).set ↔ _
  rw [View.set_slice_whole, Rect.mem_set_unit]
  exact Iff.rfl

/-- every row is in the block of the point its number divided by 2000 names -/
theorem cover4 (i : S40000x128.Idx) : ∃ t : Fin cfg4.N, (cfg4.win 10).flush t = true ∧ i ∈ ((cfg4.win 10).blk t).view.set := by
  have hi0 : (i 0).val < 40000 := (i 0).isLt
  have hi1 : (i 1).val < 128 := (i 1).isLt
  have hlt : (i 0).val / 2000 < cfg4.N := lt_of_lt_of_eq (by omega : (i 0).val / 2000 < 20) N_4.symm
  obtain ⟨eo0, eo1⟩ := idx4_10 ⟨(i 0).val / 2000, hlt⟩
  refine ⟨⟨(i 0).val / 2000, hlt⟩, flush4_10 _, ?_⟩
  rw [mem_blk4]
  intro a
  match a with
  | ⟨0, _⟩ =>
    show win4_10.index ⟨(i 0).val / 2000, hlt⟩ (0 : Fin 2) * 2000 ≤ (i 0).val
      ∧ (i 0).val < win4_10.index ⟨(i 0).val / 2000, hlt⟩ (0 : Fin 2) * 2000 + 2000
    rw [eo0]
    show (i 0).val / 2000 * 2000 ≤ (i 0).val ∧ (i 0).val < (i 0).val / 2000 * 2000 + 2000
    omega
  | ⟨1, _⟩ =>
    show win4_10.index ⟨(i 0).val / 2000, hlt⟩ (1 : Fin 2) * 128 ≤ (i 1).val
      ∧ (i 1).val < win4_10.index ⟨(i 0).val / 2000, hlt⟩ (1 : Fin 2) * 128 + 128
    rw [eo1]
    omega

end Cert.KernelIdeal.KComb

end
-- ==== Proof.KComb.lean ====
/-
  The two combine regions of the kernel, read as the combine stage on every node.

  A combine region runs over 20 points; point t stages rows 2000·t … 2000·t + 1999 of the two feature arrays, the
  eight parameter arrays whole, and writes back the same rows of the result. The body's result on a staged block
  is, entry by entry, the combine stage of the entry's row (shown beforehand for a block on its own). The staged blocks are the arrays'
  rows: a block's entry (p, k) sits at row 2000·t + p, column k of its array, a whole parameter array's entry at
  itself. So what point t writes back is the block of rows of "the combine stage on every node", the 20 blocks cover
  the 40000 rows (row R is in the block of point R / 2000), and the result array ends holding the combine stage on
  every node.
-/
import proofs.«137925_j52501680226462_1_alg».proof.Proof.Gen.KernelIdeal.Frame
import proofs.«137925_j52501680226462_1_alg».proof.Proof.ArraySpec
import proofs.«137925_j52501680226462_1_alg».proof.Proof.KCombPayload
import proofs.«137925_j52501680226462_1_alg».proof.Proof.KCombBlocks
import Idealize.ShloMosaic.Lib.Pipeline.Value

noncomputable section

open scoped BigOperators

namespace Cert.KernelIdeal.KComb

open Idealize.ShloMosaic Idealize.ShloMosaic.TcCoe Idealize.ShloMosaic.ValueIdx Idealize.SL.Sem
open Idealize.ShloMosaic.Pipeline (Dat)
open Cert.KernelIdeal Cert.KernelIdeal.Gen
open Cert.RowSpec Cert.ArraySpec

theorem zeros2 : (![0, 0] : Fin 2 → Nat) = fun _ => 0 := funext fun a => by fin_cases a <;> rfl
theorem zeros1 : (![0] : Fin 1 → Nat) = fun _ => 0 := funext fun a => by fin_cases a; rfl

/-- the combine stage on every node, at the node R and the feature q -/
theorem combArr_at (A0 A1 : S40000x128.Idx → EReal) (A2 A3 : S128.Idx → EReal) (A4 : S128x128.Idx → EReal) (A5 : S128.Idx → EReal)
    (A6 : S128x128.Idx → EReal) (A7 A8 A9 : S128.Idx → EReal) (i : S40000x128.Idx) (R : Fin 40000) (q : Fin 128) (hi : i = ix2 R q) :
    combArr lnK A0 A1 A2 A3 A4 A5 A6 A7 A8 A9 i
      = comb lnK (fun k => A0 (ix2 R k)) (fun k => A1 (ix2 R k)) (fun q' => A2 (ix1 q')) (fun q' => A3 (ix1 q'))
          (fun k q' => A4 (ix2 k q')) (fun q' => A5 (ix1 q')) (fun k q' => A6 (ix2 k q')) (fun q' => A7 (ix1 q'))
          (fun q' => A8 (ix1 q')) (fun q' => A9 (ix1 q')) q := by
  subst hi; rfl

/-- the combine stage of one row depends on its ten arguments entry by entry -/
theorem comb_congr {a0 a0' a1 a1' a2 a2' a3 a3' : Row} {a4 a4' : Mat} {a5 a5' : Row} {a6 a6' : Mat} {a7 a7' a8 a8' a9 a9' : Row} (q : Fin 128)
    (h0 : ∀ k, a0 k = a0' k) (h1 : ∀ k, a1 k = a1' k) (h2 : ∀ k, a2 k = a2' k) (h3 : ∀ k, a3 k = a3' k)
    (h4 : ∀ k q', a4 k q' = a4' k q') (h5 : ∀ k, a5 k = a5' k) (h6 : ∀ k q', a6 k q' = a6' k q') (h7 : ∀ k, a7 k = a7' k)
    (h8 : ∀ k, a8 k = a8' k) (h9 : ∀ k, a9 k = a9' k) :
    comb lnK a0 a1 a2 a3 a4 a5 a6 a7 a8 a9 q = comb lnK a0' a1' a2' a3' a4' a5' a6' a7' a8' a9' q := by
  obtain rfl : a0 = a0' := funext h0
  obtain rfl : a1 = a1' := funext h1
  obtain rfl : a2 = a2' := funext h2
  obtain rfl : a3 = a3' := funext h3
  obtain rfl : a4 = a4' := funext fun k => funext (h4 k)
  obtain rfl : a5 = a5' := funext h5
  obtain rfl : a6 = a6' := funext fun k => funext (h6 k)
  obtain rfl : a7 = a7' := funext h7
  obtain rfl : a8 = a8' := funext h8
  obtain rfl : a9 = a9' := funext h9
  rfl

/-! ## Region 2 -/

/-- the body's result on staged blocks is the combine stage on the block -/
theorem out2_eq (x0 x1 : Vec Ideal S2000x128 .f32) (x2 x3 : Vec Ideal S128 .f32) (x4 : Vec Ideal S128x128 .f32) (x5 : Vec Ideal S128 .f32)
    (x6 : Vec Ideal S128x128 .f32) (x7 x8 x9 : Vec Ideal S128 .f32) :
    out2_10 (F := Ideal) x0 x1 x2 x3 x4 x5 x6 x7 x8 x9 = combv x0 x1 x2 x3 x4 x5 x6 x7 x8 x9 := by
  unfold out2_10
  rw [View.canon_unit_zero zeros2]
  simp only [View.ld_unit_zero (S := S2000x128) zeros2, View.ld_unit_zero (S := S128) zeros1, View.ld_unit_zero (S := S128x128) zeros2]
  exact pay2_eq x0 x1 x2 x3 x4 x5 x6 x7 x8 x9

set_option maxHeartbeats 400000 in
/-- WHAT POINT t WRITES BACK is the block of rows 2000·t … of the combine stage on every node, of the arrays as the
    region finds them (the ten arrays named, with the equations that say which they are). -/
theorem flushed2 (V : (c : Dev nD) → (b : Ref sig .tc) → Buf (Elt Ideal) ((c : Thread nD τ).loc b)) (c : Dev nD) (t : Fin cfg2.N)
    (A0 A1 : S40000x128.Idx → EReal) (A2 A3 : S128.Idx → EReal) (A4 : S128x128.Idx → EReal) (A5 : S128.Idx → EReal)
    (A6 : S128x128.Idx → EReal) (A7 A8 A9 : S128.Idx → EReal)
    (h0 : A0 = V c (Pipeline.arrRef spec2 0)) (h1 : A1 = V c (Pipeline.arrRef spec2 1)) (h2 : A2 = V c (Pipeline.arrRef spec2 2))
    (h3 : A3 = V c (Pipeline.arrRef spec2 3)) (h4 : A4 = V c (Pipeline.arrRef spec2 4)) (h5 : A5 = V c (Pipeline.arrRef spec2 5))
    (h6 : A6 = V c (Pipeline.arrRef spec2 6)) (h7 : A7 = V c (Pipeline.arrRef spec2 7)) (h8 : A8 = V c (Pipeline.arrRef spec2 8))
    (h9 : A9 = V c (Pipeline.arrRef spec2 9)) :
    (dat2 (F := Ideal) V c).flushed 10 t
      = ((cfg2.win 10).blk t).view.read (Elt Ideal) (combArr lnK A0 A1 A2 A3 A4 A5 A6 A7 A8 A9) := by
  show (cfg2.win 10).cut (grid2.coords t) ((dat2 (F := Ideal) V c).after 10 t) = _
  rw [after2_10, out2_eq]
  obtain ⟨eo0, eo1⟩ := idx2_10 t
  have ht : t.val < 20 := lt_of_lt_of_eq t.isLt N_2
  funext j
  obtain ⟨p, q, rfl⟩ : ∃ (p : Fin 2000) (q : Fin 128), j = ix2 p q := ⟨j 0, j 1, eq_ix2 j⟩
  refine (combv_apply (iblk2 V c 0 t) (iblk2 V c 1 t) (iblk2 V c 2 t) (iblk2 V c 3 t) (iblk2 V c 4 t) (iblk2 V c 5 t)
    (iblk2 V c 6 t) (iblk2 V c 7 t) (iblk2 V c 8 t) (iblk2 V c 9 t) p q).trans ?_
  have hp : p.val < 2000 := p.isLt
  refine Eq.trans ?_ (combArr_at A0 A1 A2 A3 A4 A5 A6 A7 A8 A9 _ ⟨t.val * 2000 + p.val, by omega⟩ q ?_).symm
  · refine comb_congr q (fun k => ?_) (fun k => ?_) (fun k => ?_) (fun k => ?_) (fun k q' => ?_) (fun k => ?_) (fun k q' => ?_)
      (fun k => ?_) (fun k => ?_) (fun k => ?_)
    · rw [h0]; exact blk2_0 V c t p k _ rfl
    · rw [h1]; exact blk2_1 V c t p k _ rfl
    · rw [h2]; exact blk2_2 V c t k
    · rw [h3]; exact blk2_3 V c t k
    · rw [h4]; exact blk2_4 V c t k q'
    · rw [h5]; exact blk2_5 V c t k
    · rw [h6]; exact blk2_6 V c t k q'
    · rw [h7]; exact blk2_7 V c t k
    · rw [h8]; exact blk2_8 V c t k
    · rw [h9]; exact blk2_9 V c t k
  · refine funext fun a => Fin.ext ?_
    match a with
    | ⟨0, _⟩ => show win2_10.index t (0 : Fin 2) * 2000 + 1 * p.val = t.val * 2000 + p.val; omega
    | ⟨1, _⟩ => show win2_10.index t (1 : Fin 2) * 128 + 1 * q.val = q.val; omega

/-- THE RESULT ARRAY of region 2, after its 20 points, is the combine stage on every node, of the arrays as the region
    finds them. -/
theorem comb_arr2 (V : (c : Dev nD) → (b : Ref sig .tc) → Buf (Elt Ideal) ((c : Thread nD τ).loc b)) (c : Dev nD) (i : S40000x128.Idx) :
    (dat2 (F := Ideal) V c).arrAt 10 cfg2.N i
      = Cert.ArraySpec.combArr Cert.RowSpec.lnK (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)) (V c (Pipeline.arrRef spec2 6)) (V c (Pipeline.arrRef spec2 7))
          (V c (Pipeline.arrRef spec2 8)) (V c (Pipeline.arrRef spec2 9)) i :=
  congrFun ((dat2 (F := Ideal) V c).arrAt_eq_of_cover 10 _
    (fun t _ => flushed2 V c t _ _ _ _ _ _ _ _ _ _ rfl rfl rfl rfl rfl rfl rfl rfl rfl rfl) cover2) i

/-! ## Region 4 -/

/-- the body's result on staged blocks is the combine stage on the block -/
theorem out4_eq (x0 x1 : Vec Ideal S2000x128 .f32) (x2 x3 : Vec Ideal S128 .f32) (x4 : Vec Ideal S128x128 .f32) (x5 : Vec Ideal S128 .f32)
    (x6 : Vec Ideal S128x128 .f32) (x7 x8 x9 : Vec Ideal S128 .f32) :
    out4_10 (F := Ideal) x0 x1 x2 x3 x4 x5 x6 x7 x8 x9 = combv x0 x1 x2 x3 x4 x5 x6 x7 x8 x9 := by
  unfold out4_10
  rw [View.canon_unit_zero zeros2]
  simp only [View.ld_unit_zero (S := S2000x128) zeros2, View.ld_unit_zero (S := S128) zeros1, View.ld_unit_zero (S := S128x128) zeros2]
  exact pay4_eq x0 x1 x2 x3 x4 x5 x6 x7 x8 x9

set_option maxHeartbeats 400000 in
/-- WHAT POINT t WRITES BACK is the block of rows 2000·t … of the combine stage on every node, of the arrays as the
    region finds them (the ten arrays named, with the equations that say which they are). -/
theorem flushed4 (V : (c : Dev nD) → (b : Ref sig .tc) → Buf (Elt Ideal) ((c : Thread nD τ).loc b)) (c : Dev nD) (t : Fin cfg4.N)
    (A0 A1 : S40000x128.Idx → EReal) (A2 A3 : S128.Idx → EReal) (A4 : S128x128.Idx → EReal) (A5 : S128.Idx → EReal)
    (A6 : S128x128.Idx → EReal) (A7 A8 A9 : S128.Idx → EReal)
    (h0 : A0 = V c (Pipeline.arrRef spec4 0)) (h1 : A1 = V c (Pipeline.arrRef spec4 1)) (h2 : A2 = V c (Pipeline.arrRef spec4 2))
    (h3 : A3 = V c (Pipeline.arrRef spec4 3)) (h4 : A4 = V c (Pipeline.arrRef spec4 4)) (h5 : A5 = V c (Pipeline.arrRef spec4 5))
    (h6 : A6 = V c (Pipeline.arrRef spec4 6)) (h7 : A7 = V c (Pipeline.arrRef spec4 7)) (h8 : A8 = V c (Pipeline.arrRef spec4 8))
    (h9 : A9 = V c (Pipeline.arrRef spec4 9)) :
    (dat4 (F := Ideal) V c).flushed 10 t
      = ((cfg4.win 10).blk t).view.read (Elt Ideal) (combArr lnK A0 A1 A2 A3 A4 A5 A6 A7 A8 A9) := by
  show (cfg4.win 10).cut (grid4.coords t) ((dat4 (F := Ideal) V c).after 10 t) = _
  rw [after4_10, out4_eq]
  obtain ⟨eo0, eo1⟩ := idx4_10 t
  have ht : t.val < 20 := lt_of_lt_of_eq t.isLt N_4
  funext j
  obtain ⟨p, q, rfl⟩ : ∃ (p : Fin 2000) (q : Fin 128), j = ix2 p q := ⟨j 0, j 1, eq_ix2 j⟩
  refine (combv_apply (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) p q).trans ?_
  have hp : p.val < 2000 := p.isLt
  refine Eq.trans ?_ (combArr_at A0 A1 A2 A3 A4 A5 A6 A7 A8 A9 _ ⟨t.val * 2000 + p.val, by omega⟩ q ?_).symm
  · refine comb_congr q (fun k => ?_) (fun k => ?_) (fun k => ?_) (fun k => ?_) (fun k q' => ?_) (fun k => ?_) (fun k q' => ?_)
      (fun k => ?_) (fun k => ?_) (fun k => ?_)
    · rw [h0]; exact blk4_0 V c t p k _ rfl
    · rw [h1]; exact blk4_1 V c t p k _ rfl
    · rw [h2]; exact blk4_2 V c t k
    · rw [h3]; exact blk4_3 V c t k
    · rw [h4]; exact blk4_4 V c t k q'
    · rw [h5]; exact blk4_5 V c t k
    · rw [h6]; exact blk4_6 V c t k q'
    · rw [h7]; exact blk4_7 V c t k
    · rw [h8]; exact blk4_8 V c t k
    · rw [h9]; exact blk4_9 V c t k
  · refine funext fun a => Fin.ext ?_
    match a with
    | ⟨0, _⟩ => show win4_10.index t (0 : Fin 2) * 2000 + 1 * p.val = t.val * 2000 + p.val; omega
    | ⟨1, _⟩ => show win4_10.index t (1 : Fin 2) * 128 + 1 * q.val = q.val; omega

/-- THE RESULT ARRAY of region 4, after its 20 points, is the combine stage on every node, of the arrays as the region
    finds them. -/
theorem comb_arr4 (V : (c : Dev nD) → (b : Ref sig .tc) → Buf (Elt Ideal) ((c : Thread nD τ).loc b)) (c : Dev nD) (i : S40000x128.Idx) :
    (dat4 (F := Ideal) V c).arrAt 10 cfg4.N i
      = Cert.ArraySpec.combArr Cert.RowSpec.lnK (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)) (V c (Pipeline.arrRef spec4 6)) (V c (Pipeline.arrRef spec4 7))
          (V c (Pipeline.arrRef spec4 8)) (V c (Pipeline.arrRef spec4 9)) i :=
  congrFun ((dat4 (F := Ideal) V c).arrAt_eq_of_cover 10 _
    (fun t _ => flushed4 V c t _ _ _ _ _ _ _ _ _ _ rfl rfl rfl rfl rfl rfl rfl rfl rfl rfl) cover4) i

end Cert.KernelIdeal.KComb

end
-- ==== Proof.KStagesComb.lean ====
/-
  What the two combine regions of the kernel program leave in their output arrays, in terms of the contents of
  earlier buffers: the combine stage applied to every node, its layer input read at the boundary right after the
  stage that produced it.
-/
import proofs.«137925_j52501680226462_1_alg».proof.Proof.KPass
import proofs.«137925_j52501680226462_1_alg».proof.Proof.KComb

set_option maxRecDepth 16384

noncomputable section

namespace Cert.KernelIdeal.KStages

open Cert.KernelIdeal Cert.KernelIdeal.Gen Cert.KernelIdeal.KPass Cert.ArraySpec Cert.RowSpec
open Idealize.ShloMosaic Idealize.ShloMosaic.TcCoe Idealize.ShloMosaic.ValueIdx

variable (m : (ℓ : Loc nD τ sig) → Buf (Elt Ideal) ℓ) (ρ : Dev nD → PrngReg) (c : Dev nD)

/-- the layer input of the first combine stage is region 0's output -/
theorem v27_at5 : (W5 m ρ c (Proc.devRef .tc main_v27)) = (W2 m ρ c (Proc.devRef .tc main_v27)) :=
  (host5 m ρ c main_v27 (by decide)).trans ((regIn4_v27 m ρ c).trans (host3 m ρ c main_v27 (by decide)))

/-- the layer input of the second combine stage is region 2's output -/
theorem v70_at9 : (W9 m ρ c (Proc.devRef .tc main_v70)) = (W6 m ρ c (Proc.devRef .tc main_v70)) :=
  (host9 m ρ c main_v70 (by decide)).trans ((regIn8_v70 m ρ c).trans (host7 m ρ c main_v70 (by decide)))

/-- region 2: layer 0's combine stage -/
theorem st_comb2 (i : S40000x128.Idx) :
    (W6 m ρ c (Proc.devRef .tc main_v70)) i = combArr lnK (W5 m ρ c (Proc.devRef .tc main_v53)) (W2 m ρ c (Proc.devRef .tc main_v27)) (W5 m ρ c (Proc.devRef .tc main_v55)) (W5 m ρ c (Proc.devRef .tc main_v57)) (W5 m ρ c (Proc.devRef .tc main_v59))
      (W5 m ρ c (Proc.devRef .tc main_v61)) (W5 m ρ c (Proc.devRef .tc main_v63)) (W5 m ρ c (Proc.devRef .tc main_v65)) (W5 m ρ c (Proc.devRef .tc main_v67)) (W5 m ρ c (Proc.devRef .tc main_v69)) i := by
  have h : (W6 m ρ c (Proc.devRef .tc main_v70)) = (dat2 (F := Ideal) (V5 m ρ) c).arrAt 10 cfg2.N := W6_arr m ρ c 10
  have e1 : V5 m ρ c (Pipeline.arrRef spec2 1) = (W2 m ρ c (Proc.devRef .tc main_v27)) := v27_at5 m ρ c
  rw [h, KComb.comb_arr2 (V5 m ρ) c i, e1]

/-- region 4: layer 1's combine stage -/
theorem st_comb4 (i : S40000x128.Idx) :
    (W10 m ρ c (Proc.devRef .tc main_v112)) i = combArr lnK (W9 m ρ c (Proc.devRef .tc main_v95)) (W6 m ρ c (Proc.devRef .tc main_v70)) (W9 m ρ c (Proc.devRef .tc main_v97)) (W9 m ρ c (Proc.devRef .tc main_v99)) (W9 m ρ c (Proc.devRef .tc main_v101))
      (W9 m ρ c (Proc.devRef .tc main_v103)) (W9 m ρ c (Proc.devRef .tc main_v105)) (W9 m ρ c (Proc.devRef .tc main_v107)) (W9 m ρ c (Proc.devRef .tc main_v109)) (W9 m ρ c (Proc.devRef .tc main_v111)) i := by
  have h : (W10 m ρ c (Proc.devRef .tc main_v112)) = (dat4 (F := Ideal) (V9 m ρ) c).arrAt 10 cfg4.N := W10_arr m ρ c 10
  have e1 : V9 m ρ c (Pipeline.arrRef spec4 1) = (W6 m ρ c (Proc.devRef .tc main_v70)) := v70_at9 m ρ c
  rw [h, KComb.comb_arr4 (V9 m ρ) c i, e1]

end Cert.KernelIdeal.KStages

end
-- ==== Proof.RefComb.lean ====
/-
  The reference's combine stage as one function of its inputs, read at an index.

  The stage takes the pre-activation h_pre [40000, 128] and the layer's input [40000, 128] and, on every node's row:
  normalises h_pre (mean and variance over the 128 features, a quotient by the root of the shifted variance, gain
  and offset), clips at zero, adds the layer's input, applies two affine layers with a clip between them, adds the
  sum back, and normalises again.  `refComb` is the composition of the program's operations for it, each spelt as the
  program spells it; `refComb_eq` says that at node p and feature q it is the row function `comb lnR` of node p's rows.

  The variance is the program's outlined function: the mean of the squares of the centred array, over 128 minus an
  integer argument converted to a float, selected against a not-a-number word unless that divisor is positive.  The
  argument is the integer 0, the divisor is 128, and the selection takes the quotient.
-/
import proofs.«137925_j52501680226462_1_alg».proof.ReferenceIdeal
import proofs.«137925_j52501680226462_1_alg».proof.Proof.ArraySpec
import proofs.«137925_j52501680226462_1_alg».proof.Proof.LibHostAffine

noncomputable section

open scoped BigOperators

namespace Cert.ReferenceIdeal.RefComb

open Idealize.ShloMosaic Idealize.ShloMosaic.ValueIdx
open Cert.ReferenceIdeal Cert.ReferenceIdeal.Facts₀
open Cert.RowSpec Cert.ArraySpec

variable [Facts₀]

/-! ## The stage as the composition of the program's operations -/

/-- the mean of every row, kept as a column: the row sums from the zero word, over the literal 128 -/
def refMean (x : FVec Ideal S40000x128 .f32) : FVec Ideal S40000x1 .f32 :=
  Host.divf
    (broadcastInDim S40000x1 ![0] bcast_S40000_S40000x1_0
      (Host.reduceAdd x (constant S_ .f32 0x00000000#32) reducesTo_S40000x128_S40000_d1 h_S_))
    (broadcastInDim S40000x1 ![] bcast_S_S40000x1 (constant S_ .f32 0x43000000#32))

/-- every row minus its mean -/
def refCtr (x : FVec Ideal S40000x128 .f32) : FVec Ideal S40000x128 .f32 :=
  subf x (broadcastInDim S40000x128 ![0, 1] bcast_S40000x1_S40000x128_0_1 (refMean x))

/-- the outlined selection: the column where the scalar condition holds, the scalar word elsewhere -/
def refWhere (c : IVec S_ 1) (a : FVec Ideal S40000x1 .f32) (n : FVec Ideal S_ .f32) : FVec Ideal S40000x1 .f32 :=
  select (broadcastInDim S40000x1 ![] bcast_S_S40000x1 c) a (broadcastInDim S40000x1 ![] bcast_S_S40000x1 (id n))

/-- the divisor of the outlined variance: the literal 128 minus the converted integer argument -/
def refDof (c : IVec S_ 32) : FVec Ideal S_ .f32 :=
  subf (constant S_ .f32 0x43000000#32) (sitofp .f32 c)

/-- the outlined variance of every row, kept as a column -/
def refVar (x : FVec Ideal S40000x128 .f32) (c : IVec S_ 32) : FVec Ideal S40000x1 .f32 :=
  refWhere (cmpf .ogt (refDof c) (constant S_ .f32 0x00000000#32))
    (Host.divf
      (broadcastInDim S40000x1 ![0] bcast_S40000_S40000x1_0
        (Host.reduceAdd (mulf (refCtr x) (refCtr x)) (constant S_ .f32 0x00000000#32)
          reducesTo_S40000x128_S40000_d1 h_S_))
      (broadcastInDim S40000x1 ![] bcast_S_S40000x1 (refDof c)))
    (constant S_ .f32 0x7FC00000#32)

/-- a vector [128] placed as a row and spread over the 40000 rows -/
def refRows (v : FVec Ideal S128 .f32) : FVec Ideal S40000x128 .f32 :=
  broadcastInDim S40000x128 ![0, 1] bcast_S1x128_S40000x128_0_1 (broadcastInDim S1x128 ![1] bcast_S128_S1x128_1 v)

/-- the normalisation of every row: centred, over the root of the variance shifted by ε, times the gain, plus the offset -/
def refNorm (x : FVec Ideal S40000x128 .f32) (g b : FVec Ideal S128 .f32) : FVec Ideal S40000x128 .f32 :=
  addf
    (mulf
      (Host.divf (refCtr x)
        (broadcastInDim S40000x128 ![0, 1] bcast_S40000x1_S40000x128_0_1
          (Host.sqrt
            (addf (refVar x (constantI S_ 32 0#32))
              (broadcastInDim S40000x1 ![] bcast_S_S40000x1 (constant S_ .f32 0x3727C5AC#32))))))
      (refRows g))
    (refRows b)

/-- the outlined clip at zero -/
def refRelu (x : FVec Ideal S40000x128 .f32) : FVec Ideal S40000x128 .f32 :=
  maximumf x (broadcastInDim S40000x128 ![] bcast_S_S40000x128 (constant S_ .f32 0x00000000#32))

/-- an affine layer on every row -/
def refAffine (x : FVec Ideal S40000x128 .f32) (w : FVec Ideal S128x128 .f32) (b : FVec Ideal S128 .f32) :
    FVec Ideal S40000x128 .f32 :=
  addf (Host.dotGeneral dot_S40000x128_S128x128_S40000x128_1_0_0_1_n_n none x w) (refRows b)

/-- the clipped normalised pre-activation plus the layer's input -/
def refMid (hpre layerin : FVec Ideal S40000x128 .f32) (g b : FVec Ideal S128 .f32) : FVec Ideal S40000x128 .f32 :=
  addf (refRelu (refNorm hpre g b)) layerin

/-- THE COMBINE STAGE of the reference, as the composition of its operations -/
def refComb (hpre layerin : FVec Ideal S40000x128 .f32) (g b : FVec Ideal S128 .f32) (w1 : FVec Ideal S128x128 .f32)
    (b1 : FVec Ideal S128 .f32) (w2 : FVec Ideal S128x128 .f32) (b2 g2 bb2 : FVec Ideal S128 .f32) :
    FVec Ideal S40000x128 .f32 :=
  refNorm
    (addf (refAffine (refRelu (refAffine (refMid hpre layerin g b) w1 b1)) w2 b2) (refMid hpre layerin g b))
    g2 bb2

/-! ## The operations read at an index -/

/-- the row sums kept as a column: at (p, u) the sum of row p -/
theorem rowSum_apply (x : FVec Ideal S40000x128 .f32) (p : Fin 40000) (u : Fin 1) :
    broadcastInDim S40000x1 ![0] bcast_S40000_S40000x1_0
        (Host.reduceAdd x (constant S_ .f32 0x00000000#32) reducesTo_S40000x128_S40000_d1 h_S_) (ix2 p u)
      = ∑ k : Fin 128, x (ix2 p k) := by
  rw [Cert.LibHostBroadcast.bcast_a_a1_apply _ rfl]
  have h : S40000x128.Reduces [1] S40000 := by decide
  show Ideal.hostReduceAdd reducesTo_S40000x128_S40000_d1 x (Ideal.ofBits .f32 0x00000000#32) (ix1 p) = _
  rw [Ideal.hostReduceAdd_single reducesTo_S40000x128_S40000_d1 h, Ideal.ofBits_zero_f32, zero_add]
  refine Finset.sum_congr rfl fun k _ => congrArg x ?_
  funext a
  match a with
  | ⟨0, _⟩ => exact Fin.ext rfl
  | ⟨1, _⟩ => exact Fin.ext rfl

/-- the mean column at (p, u) is the mean of row p -/
theorem refMean_apply (x : FVec Ideal S40000x128 .f32) (p : Fin 40000) (u : Fin 1) :
    refMean x (ix2 p u) = mu (rowOf x p) := by
  show Ideal.div (broadcastInDim S40000x1 ![0] bcast_S40000_S40000x1_0
        (Host.reduceAdd x (constant S_ .f32 0x00000000#32) reducesTo_S40000x128_S40000_d1 h_S_) (ix2 p u))
      (broadcastInDim S40000x1 ![] bcast_S_S40000x1 (constant (F := Ideal) S_ .f32 0x43000000#32) (ix2 p u)) = _
  rw [rowSum_apply, Cert.LibHostBroadcast.bcast_scalar_apply]
  rfl

/-- the centred array at (p, q) is the centred row p at q -/
theorem refCtr_apply (x : FVec Ideal S40000x128 .f32) (p : Fin 40000) (q : Fin 128) :
    refCtr x (ix2 p q) = ctr (rowOf x p) q := by
  show x (ix2 p q) - broadcastInDim S40000x128 ![0, 1] bcast_S40000x1_S40000x128_0_1 (refMean x) (ix2 p q) = _
  rw [Cert.LibHostBroadcast.bcast_a1_ab_apply _ rfl, refMean_apply]
  rfl

/-- the divisor of the variance at the integer argument 0 is the literal 128 -/
theorem refDof_zero (j : S_.Idx) : refDof (constantI S_ 32 0#32) j = c128 := by
  show Ideal.ofBits .f32 0x43000000#32 - (((0#32 : BitVec 32).toInt : ℝ) : EReal) = c128
  have h0 : (0#32 : BitVec 32).toInt = 0 := by decide
  rw [h0, Int.cast_zero, EReal.coe_zero, sub_zero]
  rfl

/-- 128 is positive: the comparison gives the true bit -/
theorem refCond_zero (j : S_.Idx) :
    cmpf .ogt (refDof (constantI S_ 32 0#32)) (constant (F := Ideal) S_ .f32 0x00000000#32) j = 1#1 := by
  show Ideal.cmp .ogt (refDof (constantI S_ 32 0#32) j) (Ideal.ofBits .f32 0x00000000#32) = 1#1
  rw [refDof_zero, Ideal.ofBits_zero_f32, c128_eq]
  have h : (0 : EReal) < ((128 : ℝ) : EReal) := by exact_mod_cast (by norm_num : (0 : ℝ) < 128)
  simp [Ideal.cmp, h]

/-- the variance column at (p, u) is the variance of row p: the selection takes the quotient -/
theorem refVar_apply (x : FVec Ideal S40000x128 .f32) (p : Fin 40000) (u : Fin 1) :
    refVar x (constantI S_ 32 0#32) (ix2 p u) = var (rowOf x p) := by
  show Scalar.select
      (broadcastInDim S40000x1 ![] bcast_S_S40000x1
        (cmpf .ogt (refDof (constantI S_ 32 0#32)) (constant (F := Ideal) S_ .f32 0x00000000#32)) (ix2 p u))
      (Ideal.div
        (broadcastInDim S40000x1 ![0] bcast_S40000_S40000x1_0
          (Host.reduceAdd (mulf (refCtr x) (refCtr x)) (constant S_ .f32 0x00000000#32)
            reducesTo_S40000x128_S40000_d1 h_S_) (ix2 p u))
        (broadcastInDim S40000x1 ![] bcast_S_S40000x1 (refDof (constantI S_ 32 0#32)) (ix2 p u)))
      (broadcastInDim S40000x1 ![] bcast_S_S40000x1 (id (constant (F := Ideal) S_ .f32 0x7FC00000#32)) (ix2 p u)) = _
  rw [Cert.LibHostBroadcast.bcast_scalar_apply, refCond_zero, rowSum_apply,
    Cert.LibHostBroadcast.bcast_scalar_apply, refDof_zero]
  show (if (1#1 : BitVec 1) = 1 then _ else _) = _
  refine (if_pos (by decide)).trans ?_
  unfold var
  refine congrArg (fun s => Ideal.div s c128) (Finset.sum_congr rfl fun k _ => ?_)
  show refCtr x (ix2 p k) * refCtr x (ix2 p k) = _
  rw [refCtr_apply]

/-- a vector spread over the rows reads its entry q at (p, q) -/
theorem refRows_apply (v : FVec Ideal S128 .f32) (p : Fin 40000) (q : Fin 128) : refRows v (ix2 p q) = vecOf v q := by
  show broadcastInDim S40000x128 ![0, 1] bcast_S1x128_S40000x128_0_1
      (broadcastInDim S1x128 ![1] bcast_S128_S1x128_1 v) (ix2 p q) = _
  rw [Cert.LibHostBroadcast.bcast_1b_ab_apply _ rfl, Cert.LibHostBroadcast.bcast_b_1b_apply _ rfl]
  rfl

/-- the normalised array at (p, q) is the normalised row p at q, spelt with the quotient by the root -/
theorem refNorm_apply (x : FVec Ideal S40000x128 .f32) (g b : FVec Ideal S128 .f32) (p : Fin 40000) (q : Fin 128) :
    refNorm x g b (ix2 p q) = lnR (rowOf x p) (vecOf g) (vecOf b) q := by
  show Ideal.div (refCtr x (ix2 p q))
        (broadcastInDim S40000x128 ![0, 1] bcast_S40000x1_S40000x128_0_1
          (Host.sqrt
            (addf (refVar x (constantI S_ 32 0#32))
              (broadcastInDim S40000x1 ![] bcast_S_S40000x1 (constant S_ .f32 0x3727C5AC#32)))) (ix2 p q))
      * refRows g (ix2 p q) + refRows b (ix2 p q) = _
  rw [refCtr_apply, Cert.LibHostBroadcast.bcast_a1_ab_apply _ rfl, refRows_apply, refRows_apply]
  show Ideal.div _ (Ideal.sqrt (refVar x (constantI S_ 32 0#32) (ix2 p 0)
      + broadcastInDim S40000x1 ![] bcast_S_S40000x1 (constant (F := Ideal) S_ .f32 0x3727C5AC#32) (ix2 p 0))) * _ + _ = _
  rw [refVar_apply, Cert.LibHostBroadcast.bcast_scalar_apply]
  rfl

/-- the clip at every index -/
theorem refRelu_apply (x : FVec Ideal S40000x128 .f32) (j : S40000x128.Idx) : refRelu x j = max (x j) czero := by
  show max (x j) (broadcastInDim S40000x128 ![] bcast_S_S40000x128 (constant (F := Ideal) S_ .f32 0x00000000#32) j) = _
  rw [Cert.LibHostBroadcast.bcast_scalar_apply]
  rfl

/-- an affine layer at (p, q) is the affine map of row p at q -/
theorem refAffine_apply (x : FVec Ideal S40000x128 .f32) (w : FVec Ideal S128x128 .f32) (b : FVec Ideal S128 .f32)
    (p : Fin 40000) (q : Fin 128) : refAffine x w b (ix2 p q) = lin (rowOf x p) (matOf w) (vecOf b) q :=
  Cert.LibHostAffine.affine_apply dot_S40000x128_S128x128_S40000x128_1_0_0_1_n_n rfl none _ rfl bcast_S128_S1x128_1
    _ rfl bcast_S1x128_S40000x128_0_1 x w b p q

/-- row p of the clipped normalised pre-activation plus the layer's input -/
theorem rowOf_refMid (hpre layerin : FVec Ideal S40000x128 .f32) (g b : FVec Ideal S128 .f32) (p : Fin 40000) :
    rowOf (refMid hpre layerin g b) p
      = fun q => max (lnR (rowOf hpre p) (vecOf g) (vecOf b) q) czero + rowOf layerin p q := by
  funext q
  show refRelu (refNorm hpre g b) (ix2 p q) + layerin (ix2 p q) = _
  rw [refRelu_apply, refNorm_apply]
  rfl

/-- row p of a clipped affine layer -/
theorem rowOf_refRelu_refAffine (x : FVec Ideal S40000x128 .f32) (w : FVec Ideal S128x128 .f32)
    (b : FVec Ideal S128 .f32) (p : Fin 40000) :
    rowOf (refRelu (refAffine x w b)) p = fun q => max (lin (rowOf x p) (matOf w) (vecOf b) q) czero := by
  funext q
  show refRelu (refAffine x w b) (ix2 p q) = _
  rw [refRelu_apply, refAffine_apply]

/-! ## The stage is the row function on every node -/

/-- THE COMBINE STAGE AT AN INDEX: feature q of node p is the row function, spelt with the quotient by the root, of
    node p's rows. -/
theorem refComb_eq (hpre layerin : FVec Ideal S40000x128 .f32) (g b : FVec Ideal S128 .f32)
    (w1 : FVec Ideal S128x128 .f32) (b1 : FVec Ideal S128 .f32) (w2 : FVec Ideal S128x128 .f32)
    (b2 g2 bb2 : FVec Ideal S128 .f32) :
    refComb hpre layerin g b w1 b1 w2 b2 g2 bb2 = combArr lnR hpre layerin g b w1 b1 w2 b2 g2 bb2 := by
  funext i
  obtain ⟨p, q, rfl⟩ : ∃ (p : Fin 40000) (q : Fin 128), i = ix2 p q := ⟨i 0, i 1, eq_ix2 i⟩
  show refNorm (addf (refAffine (refRelu (refAffine (refMid hpre layerin g b) w1 b1)) w2 b2) (refMid hpre layerin g b))
        g2 bb2 (ix2 p q)
      = comb lnR (rowOf hpre p) (rowOf layerin p) (vecOf g) (vecOf b) (matOf w1) (vecOf b1) (matOf w2) (vecOf b2)
          (vecOf g2) (vecOf bb2) q
  rw [refNorm_apply]
  unfold comb
  refine congrArg (fun r => lnR r (vecOf g2) (vecOf bb2) q) ?_
  funext k
  show refAffine (refRelu (refAffine (refMid hpre layerin g b) w1 b1)) w2 b2 (ix2 p k)
      + rowOf (refMid hpre layerin g b) p k = _
  rw [refAffine_apply, rowOf_refRelu_refAffine, rowOf_refMid]

/-- the same with the normalisation spelt with the reciprocal root -/
theorem refComb_eq_lnK (hpre layerin : FVec Ideal S40000x128 .f32) (g b : FVec Ideal S128 .f32)
    (w1 : FVec Ideal S128x128 .f32) (b1 : FVec Ideal S128 .f32) (w2 : FVec Ideal S128x128 .f32)
    (b2 g2 bb2 : FVec Ideal S128 .f32) :
    refComb hpre layerin g b w1 b1 w2 b2 g2 bb2 = combArr lnK hpre layerin g b w1 b1 w2 b2 g2 bb2 := by
  rw [refComb_eq, ← combArr_lnK_eq_lnR]

end Cert.ReferenceIdeal.RefComb

end
-- ==== Proof.BridgeComb0.lean ====
/-
  Layer 0's combine stage in the two programs.

  The kernel program's region applies the combine stage to every node with the normalisation spelt with the
  reciprocal root; the reference's segment composes the same stage from host operations, with the normalisation
  spelt as a quotient by the root, and the two spellings are one function.  The eight parameters of the stage are
  the same slices of the same arguments in both programs, cut in the kernel program by the host stretch before the
  region and in the reference inside the segment.
-/
import proofs.«137925_j52501680226462_1_alg».proof.Proof.BridgeBase
import proofs.«137925_j52501680226462_1_alg».proof.Proof.KStagesComb
import proofs.«137925_j52501680226462_1_alg».proof.Proof.RefComb
import Idealize.ShloMosaic.Lib.StableHlo.Run

set_option maxRecDepth 16384

noncomputable section

namespace Cert.Bridge

open Idealize.ShloMosaic Idealize.ShloMosaic.TcCoe Idealize.ShloMosaic.StableHlo
open Cert.ArraySpec Cert.RowSpec

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

set_option maxHeartbeats 8000000 in
/-- the reference's segment, read at its result: the combine stage of the segment's inputs and parameter slices -/
theorem seg4_comb (W : Valuation Cert.ReferenceIdeal.τ Cert.ReferenceIdeal.sig (Elt Ideal)) :
    StableHlo.after (Cert.ReferenceIdeal.RefRun.seg4 (F := Ideal)) W (rb Cert.ReferenceIdeal.main_v119)
      = Cert.ReferenceIdeal.RefComb.refComb (W (rb Cert.ReferenceIdeal.main_v55)) (W (rb Cert.ReferenceIdeal.main_v30))
          (StableHlo.after (Cert.ReferenceIdeal.RefRun.seg4 (F := Ideal)) W (rb Cert.ReferenceIdeal.main_v57))
          (StableHlo.after (Cert.ReferenceIdeal.RefRun.seg4 (F := Ideal)) W (rb Cert.ReferenceIdeal.main_v59))
          (StableHlo.after (Cert.ReferenceIdeal.RefRun.seg4 (F := Ideal)) W (rb Cert.ReferenceIdeal.main_v81))
          (StableHlo.after (Cert.ReferenceIdeal.RefRun.seg4 (F := Ideal)) W (rb Cert.ReferenceIdeal.main_v84))
          (StableHlo.after (Cert.ReferenceIdeal.RefRun.seg4 (F := Ideal)) W (rb Cert.ReferenceIdeal.main_v90))
          (StableHlo.after (Cert.ReferenceIdeal.RefRun.seg4 (F := Ideal)) W (rb Cert.ReferenceIdeal.main_v93))
          (StableHlo.after (Cert.ReferenceIdeal.RefRun.seg4 (F := Ideal)) W (rb Cert.ReferenceIdeal.main_v99))
          (StableHlo.after (Cert.ReferenceIdeal.RefRun.seg4 (F := Ideal)) W (rb Cert.ReferenceIdeal.main_v101)) := by
  simp only [Cert.ReferenceIdeal.RefRun.seg4]
  after_results_simp
  rfl

set_option maxHeartbeats 8000000 in
/-- the stage's gain is the same slice of the same argument in both programs -/
theorem par0_gain (hA : Agree m ρ c m') :
    Cert.KernelIdeal.Gen.W5 m ρ c (kb Cert.KernelIdeal.main_v55)
      = StableHlo.after (Cert.ReferenceIdeal.RefRun.seg4 (F := Ideal)) (Cert.ReferenceIdeal.RSide.R4 m' c) (rb Cert.ReferenceIdeal.main_v57) := by
  have ek : Cert.KernelIdeal.Gen.W4 m ρ c (kb Cert.KernelIdeal.main_arg7) = Cert.KernelIdeal.Gen.W0 m ρ c (kb Cert.KernelIdeal.main_arg7) :=
    (Cert.KernelIdeal.KPass.reg4 m ρ c Cert.KernelIdeal.main_arg7 (by decide)).trans ((Cert.KernelIdeal.KPass.host3 m ρ c Cert.KernelIdeal.main_arg7 (by decide)).trans ((Cert.KernelIdeal.KPass.reg2 m ρ c Cert.KernelIdeal.main_arg7 (by decide)).trans (Cert.KernelIdeal.KPass.host1 m ρ c Cert.KernelIdeal.main_arg7 (by decide))))
  have er : Cert.ReferenceIdeal.RSide.R4 m' c (rb Cert.ReferenceIdeal.main_arg7) = Cert.ReferenceIdeal.RSide.R0 m' c (rb Cert.ReferenceIdeal.main_arg7) :=
    (Cert.ReferenceIdeal.RSide.keep4 m' c Cert.ReferenceIdeal.main_arg7 (by decide)).trans ((Cert.ReferenceIdeal.RSide.keep3 m' c Cert.ReferenceIdeal.main_arg7 (by decide)).trans ((Cert.ReferenceIdeal.RSide.keep2 m' c Cert.ReferenceIdeal.main_arg7 (by decide)).trans (Cert.ReferenceIdeal.RSide.keep1 m' c Cert.ReferenceIdeal.main_arg7 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a7]
  rfl

set_option maxHeartbeats 8000000 in
/-- the stage's offset is the same slice of the same argument in both programs -/
theorem par0_offset (hA : Agree m ρ c m') :
    Cert.KernelIdeal.Gen.W5 m ρ c (kb Cert.KernelIdeal.main_v57)
      = StableHlo.after (Cert.ReferenceIdeal.RefRun.seg4 (F := Ideal)) (Cert.ReferenceIdeal.RSide.R4 m' c) (rb Cert.ReferenceIdeal.main_v59) := by
  have ek : Cert.KernelIdeal.Gen.W4 m ρ c (kb Cert.KernelIdeal.main_arg8) = Cert.KernelIdeal.Gen.W0 m ρ c (kb Cert.KernelIdeal.main_arg8) :=
    (Cert.KernelIdeal.KPass.reg4 m ρ c Cert.KernelIdeal.main_arg8 (by decide)).trans ((Cert.KernelIdeal.KPass.host3 m ρ c Cert.KernelIdeal.main_arg8 (by decide)).trans ((Cert.KernelIdeal.KPass.reg2 m ρ c Cert.KernelIdeal.main_arg8 (by decide)).trans (Cert.KernelIdeal.KPass.host1 m ρ c Cert.KernelIdeal.main_arg8 (by decide))))
  have er : Cert.ReferenceIdeal.RSide.R4 m' c (rb Cert.ReferenceIdeal.main_arg8) = Cert.ReferenceIdeal.RSide.R0 m' c (rb Cert.ReferenceIdeal.main_arg8) :=
    (Cert.ReferenceIdeal.RSide.keep4 m' c Cert.ReferenceIdeal.main_arg8 (by decide)).trans ((Cert.ReferenceIdeal.RSide.keep3 m' c Cert.ReferenceIdeal.main_arg8 (by decide)).trans ((Cert.ReferenceIdeal.RSide.keep2 m' c Cert.ReferenceIdeal.main_arg8 (by decide)).trans (Cert.ReferenceIdeal.RSide.keep1 m' c Cert.ReferenceIdeal.main_arg8 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a8]
  rfl

set_option maxHeartbeats 8000000 in
/-- the stage's w1 is the same slice of the same argument in both programs -/
theorem par0_w1 (hA : Agree m ρ c m') :
    Cert.KernelIdeal.Gen.W5 m ρ c (kb Cert.KernelIdeal.main_v59)
      = StableHlo.after (Cert.ReferenceIdeal.RefRun.seg4 (F := Ideal)) (Cert.ReferenceIdeal.RSide.R4 m' c) (rb Cert.ReferenceIdeal.main_v81) := by
  have ek : Cert.KernelIdeal.Gen.W4 m ρ c (kb Cert.KernelIdeal.main_arg9) = Cert.KernelIdeal.Gen.W0 m ρ c (kb Cert.KernelIdeal.main_arg9) :=
    (Cert.KernelIdeal.KPass.reg4 m ρ c Cert.KernelIdeal.main_arg9 (by decide)).trans ((Cert.KernelIdeal.KPass.host3 m ρ c Cert.KernelIdeal.main_arg9 (by decide)).trans ((Cert.KernelIdeal.KPass.reg2 m ρ c Cert.KernelIdeal.main_arg9 (by decide)).trans (Cert.KernelIdeal.KPass.host1 m ρ c Cert.KernelIdeal.main_arg9 (by decide))))
  have er : Cert.ReferenceIdeal.RSide.R4 m' c (rb Cert.ReferenceIdeal.main_arg9) = Cert.ReferenceIdeal.RSide.R0 m' c (rb Cert.ReferenceIdeal.main_arg9) :=
    (Cert.ReferenceIdeal.RSide.keep4 m' c Cert.ReferenceIdeal.main_arg9 (by decide)).trans ((Cert.ReferenceIdeal.RSide.keep3 m' c Cert.ReferenceIdeal.main_arg9 (by decide)).trans ((Cert.ReferenceIdeal.RSide.keep2 m' c Cert.ReferenceIdeal.main_arg9 (by decide)).trans (Cert.ReferenceIdeal.RSide.keep1 m' c Cert.ReferenceIdeal.main_arg9 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a9]
  rfl

set_option maxHeartbeats 8000000 in
/-- the stage's b1 is the same slice of the same argument in both programs -/
theorem par0_b1 (hA : Agree m ρ c m') :
    Cert.KernelIdeal.Gen.W5 m ρ c (kb Cert.KernelIdeal.main_v61)
      = StableHlo.after (Cert.ReferenceIdeal.RefRun.seg4 (F := Ideal)) (Cert.ReferenceIdeal.RSide.R4 m' c) (rb Cert.ReferenceIdeal.main_v84) := by
  have ek : Cert.KernelIdeal.Gen.W4 m ρ c (kb Cert.KernelIdeal.main_arg10) = Cert.KernelIdeal.Gen.W0 m ρ c (kb Cert.KernelIdeal.main_arg10) :=
    (Cert.KernelIdeal.KPass.reg4 m ρ c Cert.KernelIdeal.main_arg10 (by decide)).trans ((Cert.KernelIdeal.KPass.host3 m ρ c Cert.KernelIdeal.main_arg10 (by decide)).trans ((Cert.KernelIdeal.KPass.reg2 m ρ c Cert.KernelIdeal.main_arg10 (by decide)).trans (Cert.KernelIdeal.KPass.host1 m ρ c Cert.KernelIdeal.main_arg10 (by decide))))
  have er : Cert.ReferenceIdeal.RSide.R4 m' c (rb Cert.ReferenceIdeal.main_arg10) = Cert.ReferenceIdeal.RSide.R0 m' c (rb Cert.ReferenceIdeal.main_arg10) :=
    (Cert.ReferenceIdeal.RSide.keep4 m' c Cert.ReferenceIdeal.main_arg10 (by decide)).trans ((Cert.ReferenceIdeal.RSide.keep3 m' c Cert.ReferenceIdeal.main_arg10 (by decide)).trans ((Cert.ReferenceIdeal.RSide.keep2 m' c Cert.ReferenceIdeal.main_arg10 (by decide)).trans (Cert.ReferenceIdeal.RSide.keep1 m' c Cert.ReferenceIdeal.main_arg10 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a10]
  rfl

set_option maxHeartbeats 8000000 in
/-- the stage's w2 is the same slice of the same argument in both programs -/
theorem par0_w2 (hA : Agree m ρ c m') :
    Cert.KernelIdeal.Gen.W5 m ρ c (kb Cert.KernelIdeal.main_v63)
      = StableHlo.after (Cert.ReferenceIdeal.RefRun.seg4 (F := Ideal)) (Cert.ReferenceIdeal.RSide.R4 m' c) (rb Cert.ReferenceIdeal.main_v90) := by
  have ek : Cert.KernelIdeal.Gen.W4 m ρ c (kb Cert.KernelIdeal.main_arg11) = Cert.KernelIdeal.Gen.W0 m ρ c (kb Cert.KernelIdeal.main_arg11) :=
    (Cert.KernelIdeal.KPass.reg4 m ρ c Cert.KernelIdeal.main_arg11 (by decide)).trans ((Cert.KernelIdeal.KPass.host3 m ρ c Cert.KernelIdeal.main_arg11 (by decide)).trans ((Cert.KernelIdeal.KPass.reg2 m ρ c Cert.KernelIdeal.main_arg11 (by decide)).trans (Cert.KernelIdeal.KPass.host1 m ρ c Cert.KernelIdeal.main_arg11 (by decide))))
  have er : Cert.ReferenceIdeal.RSide.R4 m' c (rb Cert.ReferenceIdeal.main_arg11) = Cert.ReferenceIdeal.RSide.R0 m' c (rb Cert.ReferenceIdeal.main_arg11) :=
    (Cert.ReferenceIdeal.RSide.keep4 m' c Cert.ReferenceIdeal.main_arg11 (by decide)).trans ((Cert.ReferenceIdeal.RSide.keep3 m' c Cert.ReferenceIdeal.main_arg11 (by decide)).trans ((Cert.ReferenceIdeal.RSide.keep2 m' c Cert.ReferenceIdeal.main_arg11 (by decide)).trans (Cert.ReferenceIdeal.RSide.keep1 m' c Cert.ReferenceIdeal.main_arg11 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a11]
  rfl

set_option maxHeartbeats 8000000 in
/-- the stage's b2 is the same slice of the same argument in both programs -/
theorem par0_b2 (hA : Agree m ρ c m') :
    Cert.KernelIdeal.Gen.W5 m ρ c (kb Cert.KernelIdeal.main_v65)
      = StableHlo.after (Cert.ReferenceIdeal.RefRun.seg4 (F := Ideal)) (Cert.ReferenceIdeal.RSide.R4 m' c) (rb Cert.ReferenceIdeal.main_v93) := by
  have ek : Cert.KernelIdeal.Gen.W4 m ρ c (kb Cert.KernelIdeal.main_arg12) = Cert.KernelIdeal.Gen.W0 m ρ c (kb Cert.KernelIdeal.main_arg12) :=
    (Cert.KernelIdeal.KPass.reg4 m ρ c Cert.KernelIdeal.main_arg12 (by decide)).trans ((Cert.KernelIdeal.KPass.host3 m ρ c Cert.KernelIdeal.main_arg12 (by decide)).trans ((Cert.KernelIdeal.KPass.reg2 m ρ c Cert.KernelIdeal.main_arg12 (by decide)).trans (Cert.KernelIdeal.KPass.host1 m ρ c Cert.KernelIdeal.main_arg12 (by decide))))
  have er : Cert.ReferenceIdeal.RSide.R4 m' c (rb Cert.ReferenceIdeal.main_arg12) = Cert.ReferenceIdeal.RSide.R0 m' c (rb Cert.ReferenceIdeal.main_arg12) :=
    (Cert.ReferenceIdeal.RSide.keep4 m' c Cert.ReferenceIdeal.main_arg12 (by decide)).trans ((Cert.ReferenceIdeal.RSide.keep3 m' c Cert.ReferenceIdeal.main_arg12 (by decide)).trans ((Cert.ReferenceIdeal.RSide.keep2 m' c Cert.ReferenceIdeal.main_arg12 (by decide)).trans (Cert.ReferenceIdeal.RSide.keep1 m' c Cert.ReferenceIdeal.main_arg12 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a12]
  rfl

set_option maxHeartbeats 8000000 in
/-- the stage's gain2 is the same slice of the same argument in both programs -/
theorem par0_gain2 (hA : Agree m ρ c m') :
    Cert.KernelIdeal.Gen.W5 m ρ c (kb Cert.KernelIdeal.main_v67)
      = StableHlo.after (Cert.ReferenceIdeal.RefRun.seg4 (F := Ideal)) (Cert.ReferenceIdeal.RSide.R4 m' c) (rb Cert.ReferenceIdeal.main_v99) := by
  have ek : Cert.KernelIdeal.Gen.W4 m ρ c (kb Cert.KernelIdeal.main_arg13) = Cert.KernelIdeal.Gen.W0 m ρ c (kb Cert.KernelIdeal.main_arg13) :=
    (Cert.KernelIdeal.KPass.reg4 m ρ c Cert.KernelIdeal.main_arg13 (by decide)).trans ((Cert.KernelIdeal.KPass.host3 m ρ c Cert.KernelIdeal.main_arg13 (by decide)).trans ((Cert.KernelIdeal.KPass.reg2 m ρ c Cert.KernelIdeal.main_arg13 (by decide)).trans (Cert.KernelIdeal.KPass.host1 m ρ c Cert.KernelIdeal.main_arg13 (by decide))))
  have er : Cert.ReferenceIdeal.RSide.R4 m' c (rb Cert.ReferenceIdeal.main_arg13) = Cert.ReferenceIdeal.RSide.R0 m' c (rb Cert.ReferenceIdeal.main_arg13) :=
    (Cert.ReferenceIdeal.RSide.keep4 m' c Cert.ReferenceIdeal.main_arg13 (by decide)).trans ((Cert.ReferenceIdeal.RSide.keep3 m' c Cert.ReferenceIdeal.main_arg13 (by decide)).trans ((Cert.ReferenceIdeal.RSide.keep2 m' c Cert.ReferenceIdeal.main_arg13 (by decide)).trans (Cert.ReferenceIdeal.RSide.keep1 m' c Cert.ReferenceIdeal.main_arg13 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a13]
  rfl

set_option maxHeartbeats 8000000 in
/-- the stage's offset2 is the same slice of the same argument in both programs -/
theorem par0_offset2 (hA : Agree m ρ c m') :
    Cert.KernelIdeal.Gen.W5 m ρ c (kb Cert.KernelIdeal.main_v69)
      = StableHlo.after (Cert.ReferenceIdeal.RefRun.seg4 (F := Ideal)) (Cert.ReferenceIdeal.RSide.R4 m' c) (rb Cert.ReferenceIdeal.main_v101) := by
  have ek : Cert.KernelIdeal.Gen.W4 m ρ c (kb Cert.KernelIdeal.main_arg14) = Cert.KernelIdeal.Gen.W0 m ρ c (kb Cert.KernelIdeal.main_arg14) :=
    (Cert.KernelIdeal.KPass.reg4 m ρ c Cert.KernelIdeal.main_arg14 (by decide)).trans ((Cert.KernelIdeal.KPass.host3 m ρ c Cert.KernelIdeal.main_arg14 (by decide)).trans ((Cert.KernelIdeal.KPass.reg2 m ρ c Cert.KernelIdeal.main_arg14 (by decide)).trans (Cert.KernelIdeal.KPass.host1 m ρ c Cert.KernelIdeal.main_arg14 (by decide))))
  have er : Cert.ReferenceIdeal.RSide.R4 m' c (rb Cert.ReferenceIdeal.main_arg14) = Cert.ReferenceIdeal.RSide.R0 m' c (rb Cert.ReferenceIdeal.main_arg14) :=
    (Cert.ReferenceIdeal.RSide.keep4 m' c Cert.ReferenceIdeal.main_arg14 (by decide)).trans ((Cert.ReferenceIdeal.RSide.keep3 m' c Cert.ReferenceIdeal.main_arg14 (by decide)).trans ((Cert.ReferenceIdeal.RSide.keep2 m' c Cert.ReferenceIdeal.main_arg14 (by decide)).trans (Cert.ReferenceIdeal.RSide.keep1 m' c Cert.ReferenceIdeal.main_arg14 (by decide))))
  show StableHlo.after Cert.KernelIdeal.Gen.hostOps2 (Cert.KernelIdeal.Gen.W4 m ρ c) _ = _
  simp only [Cert.KernelIdeal.Gen.hostOps2, Cert.ReferenceIdeal.RefRun.seg4]
  after_results_simp
  rw [ek, er, hA.a14]
  rfl

/-- layer 0's combine stage gives the same array in both programs -/
theorem comb0 (hA : Agree m ρ c m')
    (hpre : Cert.KernelIdeal.Gen.W5 m ρ c (kb Cert.KernelIdeal.main_v53) = Cert.ReferenceIdeal.RSide.R4 m' c (rb Cert.ReferenceIdeal.main_v55))
    (hlin : Cert.KernelIdeal.Gen.W2 m ρ c (kb Cert.KernelIdeal.main_v27) = Cert.ReferenceIdeal.RSide.R2 m' c (rb Cert.ReferenceIdeal.main_v30)) :
    Cert.KernelIdeal.Gen.W6 m ρ c (kb Cert.KernelIdeal.main_v70) = Cert.ReferenceIdeal.RSide.R5 m' c (rb Cert.ReferenceIdeal.main_v119) := by
  have hlin' : Cert.KernelIdeal.Gen.W2 m ρ c (kb Cert.KernelIdeal.main_v27) = Cert.ReferenceIdeal.RSide.R4 m' c (rb Cert.ReferenceIdeal.main_v30) :=
    hlin.trans ((Cert.ReferenceIdeal.RSide.keep4 m' c Cert.ReferenceIdeal.main_v30 (by decide)).trans (Cert.ReferenceIdeal.RSide.keep3 m' c Cert.ReferenceIdeal.main_v30 (by decide))).symm
  funext i
  rw [Cert.KernelIdeal.KStages.st_comb2 m ρ c i, Cert.ReferenceIdeal.RSide.R5_def, seg4_comb, Cert.ReferenceIdeal.RefComb.refComb_eq_lnK, hpre, hlin',
    par0_gain m ρ c m' hA, par0_offset m ρ c m' hA, par0_w1 m ρ c m' hA, par0_b1 m ρ c m' hA, par0_w2 m ρ c m' hA, par0_b2 m ρ c m' hA, par0_gain2 m ρ c m' hA, par0_offset2 m ρ c m' hA]

end Cert.Bridge

end
-- ==== Proof.BridgeComb1.lean ====
/-
  Layer 1's combine stage in the two programs.

  The kernel program's region applies the combine stage to every node with the normalisation spelt with the
  reciprocal root; the reference's segment composes the same stage from host operations, with the normalisation
  spelt as a quotient by the root, and the two spellings are one function.  The eight parameters of the stage are
  the same slices of the same arguments in both programs, cut in the kernel program by the host stretch before the
  region and in the reference inside the segment.
-/
import proofs.«137925_j52501680226462_1_alg».proof.Proof.BridgeBase
import proofs.«137925_j52501680226462_1_alg».proof.Proof.KStagesComb
import proofs.«137925_j52501680226462_1_alg».proof.Proof.RefComb
import Idealize.ShloMosaic.Lib.StableHlo.Run

set_option maxRecDepth 16384

noncomputable section

namespace Cert.Bridge

open Idealize.ShloMosaic Idealize.ShloMosaic.TcCoe Idealize.ShloMosaic.StableHlo
open Cert.ArraySpec Cert.RowSpec

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

set_option maxHeartbeats 8000000 in
/-- the reference's segment, read at its result: the combine stage of the segment's inputs and parameter slices -/
theorem seg7_comb (W : Valuation Cert.ReferenceIdeal.τ Cert.ReferenceIdeal.sig (Elt Ideal)) :
    StableHlo.after (Cert.ReferenceIdeal.RefRun.seg7 (F := Ideal)) W (rb Cert.ReferenceIdeal.main_v208)
      = Cert.ReferenceIdeal.RefComb.refComb (W (rb Cert.ReferenceIdeal.main_v144)) (W (rb Cert.ReferenceIdeal.main_v119))
          (StableHlo.after (Cert.ReferenceIdeal.RefRun.seg7 (F := Ideal)) W (rb Cert.ReferenceIdeal.main_v146))
          (StableHlo.after (Cert.ReferenceIdeal.RefRun.seg7 (F := Ideal)) W (rb Cert.ReferenceIdeal.main_v148))
          (StableHlo.after (Cert.ReferenceIdeal.RefRun.seg7 (F := Ideal)) W (rb Cert.ReferenceIdeal.main_v170))
          (StableHlo.after (Cert.ReferenceIdeal.RefRun.seg7 (F := Ideal)) W (rb Cert.ReferenceIdeal.main_v173))
          (StableHlo.after (Cert.ReferenceIdeal.RefRun.seg7 (F := Ideal)) W (rb Cert.ReferenceIdeal.main_v179))
          (StableHlo.after (Cert.ReferenceIdeal.RefRun.seg7 (F := Ideal)) W (rb Cert.ReferenceIdeal.main_v182))
          (StableHlo.after (Cert.ReferenceIdeal.RefRun.seg7 (F := Ideal)) W (rb Cert.ReferenceIdeal.main_v188))
          (StableHlo.after (Cert.ReferenceIdeal.RefRun.seg7 (F := Ideal)) W (rb Cert.ReferenceIdeal.main_v190)) := by
  simp only [Cert.ReferenceIdeal.RefRun.seg7]
  after_results_simp
  rfl

set_option maxHeartbeats 8000000 in
/-- the stage's gain is the same slice of the same argument in both programs -/
theorem par1_gain (hA : Agree m ρ c m') :
    Cert.KernelIdeal.Gen.W9 m ρ c (kb Cert.KernelIdeal.main_v97)
      = StableHlo.after (Cert.ReferenceIdeal.RefRun.seg7 (F := Ideal)) (Cert.ReferenceIdeal.RSide.R7 m' c) (rb Cert.ReferenceIdeal.main_v146) := by
  have ek : Cert.KernelIdeal.Gen.W8 m ρ c (kb Cert.KernelIdeal.main_arg7) = Cert.KernelIdeal.Gen.W0 m ρ c (kb Cert.KernelIdeal.main_arg7) :=
    (Cert.KernelIdeal.KPass.reg8 m ρ c Cert.KernelIdeal.main_arg7 (by decide)).trans ((Cert.KernelIdeal.KPass.host7 m ρ c Cert.KernelIdeal.main_arg7 (by decide)).trans ((Cert.KernelIdeal.KPass.reg6 m ρ c Cert.KernelIdeal.main_arg7 (by decide)).trans ((Cert.KernelIdeal.KPass.host5 m ρ c Cert.KernelIdeal.main_arg7 (by decide)).trans ((Cert.KernelIdeal.KPass.reg4 m ρ c Cert.KernelIdeal.main_arg7 (by decide)).trans ((Cert.KernelIdeal.KPass.host3 m ρ c Cert.KernelIdeal.main_arg7 (by decide)).trans ((Cert.KernelIdeal.KPass.reg2 m ρ c Cert.KernelIdeal.main_arg7 (by decide)).trans (Cert.KernelIdeal.KPass.host1 m ρ c Cert.KernelIdeal.main_arg7 (by decide))))))))
  have er : Cert.ReferenceIdeal.RSide.R7 m' c (rb Cert.ReferenceIdeal.main_arg7) = Cert.ReferenceIdeal.RSide.R0 m' c (rb Cert.ReferenceIdeal.main_arg7) :=
    (Cert.ReferenceIdeal.RSide.keep7 m' c Cert.ReferenceIdeal.main_arg7 (by decide)).trans ((Cert.ReferenceIdeal.RSide.keep6 m' c Cert.ReferenceIdeal.main_arg7 (by decide)).trans ((Cert.ReferenceIdeal.RSide.keep5 m' c Cert.ReferenceIdeal.main_arg7 (by decide)).trans ((Cert.ReferenceIdeal.RSide.keep4 m' c Cert.ReferenceIdeal.main_arg7 (by decide)).trans ((Cert.ReferenceIdeal.RSide.keep3 m' c Cert.ReferenceIdeal.main_arg7 (by decide)).trans ((Cert.ReferenceIdeal.RSide.keep2 m' c Cert.ReferenceIdeal.main_arg7 (by decide)).trans (Cert.ReferenceIdeal.RSide.keep1 m' c Cert.ReferenceIdeal.main_arg7 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a7]
  rfl

set_option maxHeartbeats 8000000 in
/-- the stage's offset is the same slice of the same argument in both programs -/
theorem par1_offset (hA : Agree m ρ c m') :
    Cert.KernelIdeal.Gen.W9 m ρ c (kb Cert.KernelIdeal.main_v99)
      = StableHlo.after (Cert.ReferenceIdeal.RefRun.seg7 (F := Ideal)) (Cert.ReferenceIdeal.RSide.R7 m' c) (rb Cert.ReferenceIdeal.main_v148) := by
  have ek : Cert.KernelIdeal.Gen.W8 m ρ c (kb Cert.KernelIdeal.main_arg8) = Cert.KernelIdeal.Gen.W0 m ρ c (kb Cert.KernelIdeal.main_arg8) :=
    (Cert.KernelIdeal.KPass.reg8 m ρ c Cert.KernelIdeal.main_arg8 (by decide)).trans ((Cert.KernelIdeal.KPass.host7 m ρ c Cert.KernelIdeal.main_arg8 (by decide)).trans ((Cert.KernelIdeal.KPass.reg6 m ρ c Cert.KernelIdeal.main_arg8 (by decide)).trans ((Cert.KernelIdeal.KPass.host5 m ρ c Cert.KernelIdeal.main_arg8 (by decide)).trans ((Cert.KernelIdeal.KPass.reg4 m ρ c Cert.KernelIdeal.main_arg8 (by decide)).trans ((Cert.KernelIdeal.KPass.host3 m ρ c Cert.KernelIdeal.main_arg8 (by decide)).trans ((Cert.KernelIdeal.KPass.reg2 m ρ c Cert.KernelIdeal.main_arg8 (by decide)).trans (Cert.KernelIdeal.KPass.host1 m ρ c Cert.KernelIdeal.main_arg8 (by decide))))))))
  have er : Cert.ReferenceIdeal.RSide.R7 m' c (rb Cert.ReferenceIdeal.main_arg8) = Cert.ReferenceIdeal.RSide.R0 m' c (rb Cert.ReferenceIdeal.main_arg8) :=
    (Cert.ReferenceIdeal.RSide.keep7 m' c Cert.ReferenceIdeal.main_arg8 (by decide)).trans ((Cert.ReferenceIdeal.RSide.keep6 m' c Cert.ReferenceIdeal.main_arg8 (by decide)).trans ((Cert.ReferenceIdeal.RSide.keep5 m' c Cert.ReferenceIdeal.main_arg8 (by decide)).trans ((Cert.ReferenceIdeal.RSide.keep4 m' c Cert.ReferenceIdeal.main_arg8 (by decide)).trans ((Cert.ReferenceIdeal.RSide.keep3 m' c Cert.ReferenceIdeal.main_arg8 (by decide)).trans ((Cert.ReferenceIdeal.RSide.keep2 m' c Cert.ReferenceIdeal.main_arg8 (by decide)).trans (Cert.ReferenceIdeal.RSide.keep1 m' c Cert.ReferenceIdeal.main_arg8 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a8]
  rfl

set_option maxHeartbeats 8000000 in
/-- the stage's w1 is the same slice of the same argument in both programs -/
theorem par1_w1 (hA : Agree m ρ c m') :
    Cert.KernelIdeal.Gen.W9 m ρ c (kb Cert.KernelIdeal.main_v101)
      = StableHlo.after (Cert.ReferenceIdeal.RefRun.seg7 (F := Ideal)) (Cert.ReferenceIdeal.RSide.R7 m' c) (rb Cert.ReferenceIdeal.main_v170) := by
  have ek : Cert.KernelIdeal.Gen.W8 m ρ c (kb Cert.KernelIdeal.main_arg9) = Cert.KernelIdeal.Gen.W0 m ρ c (kb Cert.KernelIdeal.main_arg9) :=
    (Cert.KernelIdeal.KPass.reg8 m ρ c Cert.KernelIdeal.main_arg9 (by decide)).trans ((Cert.KernelIdeal.KPass.host7 m ρ c Cert.KernelIdeal.main_arg9 (by decide)).trans ((Cert.KernelIdeal.KPass.reg6 m ρ c Cert.KernelIdeal.main_arg9 (by decide)).trans ((Cert.KernelIdeal.KPass.host5 m ρ c Cert.KernelIdeal.main_arg9 (by decide)).trans ((Cert.KernelIdeal.KPass.reg4 m ρ c Cert.KernelIdeal.main_arg9 (by decide)).trans ((Cert.KernelIdeal.KPass.host3 m ρ c Cert.KernelIdeal.main_arg9 (by decide)).trans ((Cert.KernelIdeal.KPass.reg2 m ρ c Cert.KernelIdeal.main_arg9 (by decide)).trans (Cert.KernelIdeal.KPass.host1 m ρ c Cert.KernelIdeal.main_arg9 (by decide))))))))
  have er : Cert.ReferenceIdeal.RSide.R7 m' c (rb Cert.ReferenceIdeal.main_arg9) = Cert.ReferenceIdeal.RSide.R0 m' c (rb Cert.ReferenceIdeal.main_arg9) :=
    (Cert.ReferenceIdeal.RSide.keep7 m' c Cert.ReferenceIdeal.main_arg9 (by decide)).trans ((Cert.ReferenceIdeal.RSide.keep6 m' c Cert.ReferenceIdeal.main_arg9 (by decide)).trans ((Cert.ReferenceIdeal.RSide.keep5 m' c Cert.ReferenceIdeal.main_arg9 (by decide)).trans ((Cert.ReferenceIdeal.RSide.keep4 m' c Cert.ReferenceIdeal.main_arg9 (by decide)).trans ((Cert.ReferenceIdeal.RSide.keep3 m' c Cert.ReferenceIdeal.main_arg9 (by decide)).trans ((Cert.ReferenceIdeal.RSide.keep2 m' c Cert.ReferenceIdeal.main_arg9 (by decide)).trans (Cert.ReferenceIdeal.RSide.keep1 m' c Cert.ReferenceIdeal.main_arg9 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a9]
  rfl

set_option maxHeartbeats 8000000 in
/-- the stage's b1 is the same slice of the same argument in both programs -/
theorem par1_b1 (hA : Agree m ρ c m') :
    Cert.KernelIdeal.Gen.W9 m ρ c (kb Cert.KernelIdeal.main_v103)
      = StableHlo.after (Cert.ReferenceIdeal.RefRun.seg7 (F := Ideal)) (Cert.ReferenceIdeal.RSide.R7 m' c) (rb Cert.ReferenceIdeal.main_v173) := by
  have ek : Cert.KernelIdeal.Gen.W8 m ρ c (kb Cert.KernelIdeal.main_arg10) = Cert.KernelIdeal.Gen.W0 m ρ c (kb Cert.KernelIdeal.main_arg10) :=
    (Cert.KernelIdeal.KPass.reg8 m ρ c Cert.KernelIdeal.main_arg10 (by decide)).trans ((Cert.KernelIdeal.KPass.host7 m ρ c Cert.KernelIdeal.main_arg10 (by decide)).trans ((Cert.KernelIdeal.KPass.reg6 m ρ c Cert.KernelIdeal.main_arg10 (by decide)).trans ((Cert.KernelIdeal.KPass.host5 m ρ c Cert.KernelIdeal.main_arg10 (by decide)).trans ((Cert.KernelIdeal.KPass.reg4 m ρ c Cert.KernelIdeal.main_arg10 (by decide)).trans ((Cert.KernelIdeal.KPass.host3 m ρ c Cert.KernelIdeal.main_arg10 (by decide)).trans ((Cert.KernelIdeal.KPass.reg2 m ρ c Cert.KernelIdeal.main_arg10 (by decide)).trans (Cert.KernelIdeal.KPass.host1 m ρ c Cert.KernelIdeal.main_arg10 (by decide))))))))
  have er : Cert.ReferenceIdeal.RSide.R7 m' c (rb Cert.ReferenceIdeal.main_arg10) = Cert.ReferenceIdeal.RSide.R0 m' c (rb Cert.ReferenceIdeal.main_arg10) :=
    (Cert.ReferenceIdeal.RSide.keep7 m' c Cert.ReferenceIdeal.main_arg10 (by decide)).trans ((Cert.ReferenceIdeal.RSide.keep6 m' c Cert.ReferenceIdeal.main_arg10 (by decide)).trans ((Cert.ReferenceIdeal.RSide.keep5 m' c Cert.ReferenceIdeal.main_arg10 (by decide)).trans ((Cert.ReferenceIdeal.RSide.keep4 m' c Cert.ReferenceIdeal.main_arg10 (by decide)).trans ((Cert.ReferenceIdeal.RSide.keep3 m' c Cert.ReferenceIdeal.main_arg10 (by decide)).trans ((Cert.ReferenceIdeal.RSide.keep2 m' c Cert.ReferenceIdeal.main_arg10 (by decide)).trans (Cert.ReferenceIdeal.RSide.keep1 m' c Cert.ReferenceIdeal.main_arg10 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a10]
  rfl

set_option maxHeartbeats 8000000 in
/-- the stage's w2 is the same slice of the same argument in both programs -/
theorem par1_w2 (hA : Agree m ρ c m') :
    Cert.KernelIdeal.Gen.W9 m ρ c (kb Cert.KernelIdeal.main_v105)
      = StableHlo.after (Cert.ReferenceIdeal.RefRun.seg7 (F := Ideal)) (Cert.ReferenceIdeal.RSide.R7 m' c) (rb Cert.ReferenceIdeal.main_v179) := by
  have ek : Cert.KernelIdeal.Gen.W8 m ρ c (kb Cert.KernelIdeal.main_arg11) = Cert.KernelIdeal.Gen.W0 m ρ c (kb Cert.KernelIdeal.main_arg11) :=
    (Cert.KernelIdeal.KPass.reg8 m ρ c Cert.KernelIdeal.main_arg11 (by decide)).trans ((Cert.KernelIdeal.KPass.host7 m ρ c Cert.KernelIdeal.main_arg11 (by decide)).trans ((Cert.KernelIdeal.KPass.reg6 m ρ c Cert.KernelIdeal.main_arg11 (by decide)).trans ((Cert.KernelIdeal.KPass.host5 m ρ c Cert.KernelIdeal.main_arg11 (by decide)).trans ((Cert.KernelIdeal.KPass.reg4 m ρ c Cert.KernelIdeal.main_arg11 (by decide)).trans ((Cert.KernelIdeal.KPass.host3 m ρ c Cert.KernelIdeal.main_arg11 (by decide)).trans ((Cert.KernelIdeal.KPass.reg2 m ρ c Cert.KernelIdeal.main_arg11 (by decide)).trans (Cert.KernelIdeal.KPass.host1 m ρ c Cert.KernelIdeal.main_arg11 (by decide))))))))
  have er : Cert.ReferenceIdeal.RSide.R7 m' c (rb Cert.ReferenceIdeal.main_arg11) = Cert.ReferenceIdeal.RSide.R0 m' c (rb Cert.ReferenceIdeal.main_arg11) :=
    (Cert.ReferenceIdeal.RSide.keep7 m' c Cert.ReferenceIdeal.main_arg11 (by decide)).trans ((Cert.ReferenceIdeal.RSide.keep6 m' c Cert.ReferenceIdeal.main_arg11 (by decide)).trans ((Cert.ReferenceIdeal.RSide.keep5 m' c Cert.ReferenceIdeal.main_arg11 (by decide)).trans ((Cert.ReferenceIdeal.RSide.keep4 m' c Cert.ReferenceIdeal.main_arg11 (by decide)).trans ((Cert.ReferenceIdeal.RSide.keep3 m' c Cert.ReferenceIdeal.main_arg11 (by decide)).trans ((Cert.ReferenceIdeal.RSide.keep2 m' c Cert.ReferenceIdeal.main_arg11 (by decide)).trans (Cert.ReferenceIdeal.RSide.keep1 m' c Cert.ReferenceIdeal.main_arg11 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a11]
  rfl

set_option maxHeartbeats 8000000 in
/-- the stage's b2 is the same slice of the same argument in both programs -/
theorem par1_b2 (hA : Agree m ρ c m') :
    Cert.KernelIdeal.Gen.W9 m ρ c (kb Cert.KernelIdeal.main_v107)
      = StableHlo.after (Cert.ReferenceIdeal.RefRun.seg7 (F := Ideal)) (Cert.ReferenceIdeal.RSide.R7 m' c) (rb Cert.ReferenceIdeal.main_v182) := by
  have ek : Cert.KernelIdeal.Gen.W8 m ρ c (kb Cert.KernelIdeal.main_arg12) = Cert.KernelIdeal.Gen.W0 m ρ c (kb Cert.KernelIdeal.main_arg12) :=
    (Cert.KernelIdeal.KPass.reg8 m ρ c Cert.KernelIdeal.main_arg12 (by decide)).trans ((Cert.KernelIdeal.KPass.host7 m ρ c Cert.KernelIdeal.main_arg12 (by decide)).trans ((Cert.KernelIdeal.KPass.reg6 m ρ c Cert.KernelIdeal.main_arg12 (by decide)).trans ((Cert.KernelIdeal.KPass.host5 m ρ c Cert.KernelIdeal.main_arg12 (by decide)).trans ((Cert.KernelIdeal.KPass.reg4 m ρ c Cert.KernelIdeal.main_arg12 (by decide)).trans ((Cert.KernelIdeal.KPass.host3 m ρ c Cert.KernelIdeal.main_arg12 (by decide)).trans ((Cert.KernelIdeal.KPass.reg2 m ρ c Cert.KernelIdeal.main_arg12 (by decide)).trans (Cert.KernelIdeal.KPass.host1 m ρ c Cert.KernelIdeal.main_arg12 (by decide))))))))
  have er : Cert.ReferenceIdeal.RSide.R7 m' c (rb Cert.ReferenceIdeal.main_arg12) = Cert.ReferenceIdeal.RSide.R0 m' c (rb Cert.ReferenceIdeal.main_arg12) :=
    (Cert.ReferenceIdeal.RSide.keep7 m' c Cert.ReferenceIdeal.main_arg12 (by decide)).trans ((Cert.ReferenceIdeal.RSide.keep6 m' c Cert.ReferenceIdeal.main_arg12 (by decide)).trans ((Cert.ReferenceIdeal.RSide.keep5 m' c Cert.ReferenceIdeal.main_arg12 (by decide)).trans ((Cert.ReferenceIdeal.RSide.keep4 m' c Cert.ReferenceIdeal.main_arg12 (by decide)).trans ((Cert.ReferenceIdeal.RSide.keep3 m' c Cert.ReferenceIdeal.main_arg12 (by decide)).trans ((Cert.ReferenceIdeal.RSide.keep2 m' c Cert.ReferenceIdeal.main_arg12 (by decide)).trans (Cert.ReferenceIdeal.RSide.keep1 m' c Cert.ReferenceIdeal.main_arg12 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a12]
  rfl

set_option maxHeartbeats 8000000 in
/-- the stage's gain2 is the same slice of the same argument in both programs -/
theorem par1_gain2 (hA : Agree m ρ c m') :
    Cert.KernelIdeal.Gen.W9 m ρ c (kb Cert.KernelIdeal.main_v109)
      = StableHlo.after (Cert.ReferenceIdeal.RefRun.seg7 (F := Ideal)) (Cert.ReferenceIdeal.RSide.R7 m' c) (rb Cert.ReferenceIdeal.main_v188) := by
  have ek : Cert.KernelIdeal.Gen.W8 m ρ c (kb Cert.KernelIdeal.main_arg13) = Cert.KernelIdeal.Gen.W0 m ρ c (kb Cert.KernelIdeal.main_arg13) :=
    (Cert.KernelIdeal.KPass.reg8 m ρ c Cert.KernelIdeal.main_arg13 (by decide)).trans ((Cert.KernelIdeal.KPass.host7 m ρ c Cert.KernelIdeal.main_arg13 (by decide)).trans ((Cert.KernelIdeal.KPass.reg6 m ρ c Cert.KernelIdeal.main_arg13 (by decide)).trans ((Cert.KernelIdeal.KPass.host5 m ρ c Cert.KernelIdeal.main_arg13 (by decide)).trans ((Cert.KernelIdeal.KPass.reg4 m ρ c Cert.KernelIdeal.main_arg13 (by decide)).trans ((Cert.KernelIdeal.KPass.host3 m ρ c Cert.KernelIdeal.main_arg13 (by decide)).trans ((Cert.KernelIdeal.KPass.reg2 m ρ c Cert.KernelIdeal.main_arg13 (by decide)).trans (Cert.KernelIdeal.KPass.host1 m ρ c Cert.KernelIdeal.main_arg13 (by decide))))))))
  have er : Cert.ReferenceIdeal.RSide.R7 m' c (rb Cert.ReferenceIdeal.main_arg13) = Cert.ReferenceIdeal.RSide.R0 m' c (rb Cert.ReferenceIdeal.main_arg13) :=
    (Cert.ReferenceIdeal.RSide.keep7 m' c Cert.ReferenceIdeal.main_arg13 (by decide)).trans ((Cert.ReferenceIdeal.RSide.keep6 m' c Cert.ReferenceIdeal.main_arg13 (by decide)).trans ((Cert.ReferenceIdeal.RSide.keep5 m' c Cert.ReferenceIdeal.main_arg13 (by decide)).trans ((Cert.ReferenceIdeal.RSide.keep4 m' c Cert.ReferenceIdeal.main_arg13 (by decide)).trans ((Cert.ReferenceIdeal.RSide.keep3 m' c Cert.ReferenceIdeal.main_arg13 (by decide)).trans ((Cert.ReferenceIdeal.RSide.keep2 m' c Cert.ReferenceIdeal.main_arg13 (by decide)).trans (Cert.ReferenceIdeal.RSide.keep1 m' c Cert.ReferenceIdeal.main_arg13 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a13]
  rfl

set_option maxHeartbeats 8000000 in
/-- the stage's offset2 is the same slice of the same argument in both programs -/
theorem par1_offset2 (hA : Agree m ρ c m') :
    Cert.KernelIdeal.Gen.W9 m ρ c (kb Cert.KernelIdeal.main_v111)
      = StableHlo.after (Cert.ReferenceIdeal.RefRun.seg7 (F := Ideal)) (Cert.ReferenceIdeal.RSide.R7 m' c) (rb Cert.ReferenceIdeal.main_v190) := by
  have ek : Cert.KernelIdeal.Gen.W8 m ρ c (kb Cert.KernelIdeal.main_arg14) = Cert.KernelIdeal.Gen.W0 m ρ c (kb Cert.KernelIdeal.main_arg14) :=
    (Cert.KernelIdeal.KPass.reg8 m ρ c Cert.KernelIdeal.main_arg14 (by decide)).trans ((Cert.KernelIdeal.KPass.host7 m ρ c Cert.KernelIdeal.main_arg14 (by decide)).trans ((Cert.KernelIdeal.KPass.reg6 m ρ c Cert.KernelIdeal.main_arg14 (by decide)).trans ((Cert.KernelIdeal.KPass.host5 m ρ c Cert.KernelIdeal.main_arg14 (by decide)).trans ((Cert.KernelIdeal.KPass.reg4 m ρ c Cert.KernelIdeal.main_arg14 (by decide)).trans ((Cert.KernelIdeal.KPass.host3 m ρ c Cert.KernelIdeal.main_arg14 (by decide)).trans ((Cert.KernelIdeal.KPass.reg2 m ρ c Cert.KernelIdeal.main_arg14 (by decide)).trans (Cert.KernelIdeal.KPass.host1 m ρ c Cert.KernelIdeal.main_arg14 (by decide))))))))
  have er : Cert.ReferenceIdeal.RSide.R7 m' c (rb Cert.ReferenceIdeal.main_arg14) = Cert.ReferenceIdeal.RSide.R0 m' c (rb Cert.ReferenceIdeal.main_arg14) :=
    (Cert.ReferenceIdeal.RSide.keep7 m' c Cert.ReferenceIdeal.main_arg14 (by decide)).trans ((Cert.ReferenceIdeal.RSide.keep6 m' c Cert.ReferenceIdeal.main_arg14 (by decide)).trans ((Cert.ReferenceIdeal.RSide.keep5 m' c Cert.ReferenceIdeal.main_arg14 (by decide)).trans ((Cert.ReferenceIdeal.RSide.keep4 m' c Cert.ReferenceIdeal.main_arg14 (by decide)).trans ((Cert.ReferenceIdeal.RSide.keep3 m' c Cert.ReferenceIdeal.main_arg14 (by decide)).trans ((Cert.ReferenceIdeal.RSide.keep2 m' c Cert.ReferenceIdeal.main_arg14 (by decide)).trans (Cert.ReferenceIdeal.RSide.keep1 m' c Cert.ReferenceIdeal.main_arg14 (by decide)))))))
  show StableHlo.after Cert.KernelIdeal.Gen.hostOps4 (Cert.KernelIdeal.Gen.W8 m ρ c) _ = _
  simp only [Cert.KernelIdeal.Gen.hostOps4, Cert.ReferenceIdeal.RefRun.seg7]
  after_results_simp
  rw [ek, er, hA.a14]
  rfl

/-- layer 1's combine stage gives the same array in both programs -/
theorem comb1 (hA : Agree m ρ c m')
    (hpre : Cert.KernelIdeal.Gen.W9 m ρ c (kb Cert.KernelIdeal.main_v95) = Cert.ReferenceIdeal.RSide.R7 m' c (rb Cert.ReferenceIdeal.main_v144))
    (hlin : Cert.KernelIdeal.Gen.W6 m ρ c (kb Cert.KernelIdeal.main_v70) = Cert.ReferenceIdeal.RSide.R5 m' c (rb Cert.ReferenceIdeal.main_v119)) :
    Cert.KernelIdeal.Gen.W10 m ρ c (kb Cert.KernelIdeal.main_v112) = Cert.ReferenceIdeal.RSide.R8 m' c (rb Cert.ReferenceIdeal.main_v208) := by
  have hlin' : Cert.KernelIdeal.Gen.W6 m ρ c (kb Cert.KernelIdeal.main_v70) = Cert.ReferenceIdeal.RSide.R7 m' c (rb Cert.ReferenceIdeal.main_v119) :=
    hlin.trans ((Cert.ReferenceIdeal.RSide.keep7 m' c Cert.ReferenceIdeal.main_v119 (by decide)).trans (Cert.ReferenceIdeal.RSide.keep6 m' c Cert.ReferenceIdeal.main_v119 (by decide))).symm
  funext i
  rw [Cert.KernelIdeal.KStages.st_comb4 m ρ c i, Cert.ReferenceIdeal.RSide.R8_def, seg7_comb, Cert.ReferenceIdeal.RefComb.refComb_eq_lnK, hpre, hlin',
    par1_gain m ρ c m' hA, par1_offset m ρ c m' hA, par1_w1 m ρ c m' hA, par1_b1 m ρ c m' hA, par1_w2 m ρ c m' hA, par1_b2 m ρ c m' hA, par1_gain2 m ρ c m' hA, par1_offset2 m ρ c m' hA]

end Cert.Bridge

end
-- ==== Proof.BridgeTotal.lean ====
/-
  The two programs' results are equal.

  Walking the boundaries in order: the degree normalisation is the same host operations on the same edge list; the
  pre-scaler and each layer's weight product are the affine map of every node in both programs; each layer's
  aggregation over the edges is the same host operations on equal inputs; each combine stage is the same function
  of every node's rows, the two spellings of the normalisation being one function; pooling and the classifier are
  the same host operations.  So the kernel program's result buffer and the reference's hold the same array.
-/
import proofs.«137925_j52501680226462_1_alg».proof.Proof.BridgeLin
import proofs.«137925_j52501680226462_1_alg».proof.Proof.BridgeAgg
import proofs.«137925_j52501680226462_1_alg».proof.Proof.BridgeComb0
import proofs.«137925_j52501680226462_1_alg».proof.Proof.BridgeComb1

set_option maxRecDepth 16384

noncomputable section

namespace Cert.Bridge

open Idealize.ShloMosaic Idealize.ShloMosaic.TcCoe

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)
  (m' : (ℓ : Loc Cert.ReferenceIdeal.nD Cert.ReferenceIdeal.τ Cert.ReferenceIdeal.sig) → Buf (Elt Ideal) ℓ)

set_option maxHeartbeats 4000000 in
/-- from memories that agree on the arguments, the two result buffers end equal -/
theorem total (hA : Agree m ρ c m') :
    Cert.KernelIdeal.Gen.W15 m ρ c (kb Cert.KernelIdeal.main_v158) = Cert.ReferenceIdeal.RSide.R11 m' c (rb Cert.ReferenceIdeal.main_v254) := by
  have p1 := prep_v1 m ρ c m' hA
  have p3 := prep_v3 m ρ c m' hA
  have p25 := prep_v25 m ρ c m' hA
  have p26 := prep_v26 m ρ c m' hA
  have s1 := lin_pre m ρ c m' hA
  have s2 := dot0 m ρ c m' hA s1
  have s3 := agg0 m ρ c m' hA p1 p3 p25 p26 s2
  have s4 := comb0 m ρ c m' hA s3 s1
  have s5 := dot1 m ρ c m' hA s4
  have s6 := agg1 m ρ c m' hA p1 p3 p25 p26 s5
  have s7 := comb1 m ρ c m' hA s6 s4
  have s8 := dot2 m ρ c m' hA s7
  exact tail m ρ c m' hA p1 p3 p25 p26 s8

end Cert.Bridge

end
-- ==== Proof.lean ====
/-
  The proof of `Cert.Claim`: the three frames, the idealization ledger (empty), and the algebraic claim — at the ideal
  instance the kernel program and the reference program, from memories that agree on the nineteen arguments, both run,
  leave the arguments unchanged, and end with equal results. The kernel's result is the contents of its result buffer at
  its last segment boundary; the reference's is the fold of its straight line of operations over its launch memory; the
  two are equal by the comparison of the two folds, boundary by boundary (`Cert.Bridge.total`).
-/
import proofs.«137925_j52501680226462_1_alg».proof.Defs
import proofs.«137925_j52501680226462_1_alg».proof.Proof.Gen.Kernel
import proofs.«137925_j52501680226462_1_alg».proof.Proof.Gen.Kernel.Skeleton
import proofs.«137925_j52501680226462_1_alg».proof.Proof.Gen.Kernel.Launch
import proofs.«137925_j52501680226462_1_alg».proof.Proof.Gen.Kernel.Points
import proofs.«137925_j52501680226462_1_alg».proof.Proof.Gen.Kernel.Frame
import proofs.«137925_j52501680226462_1_alg».proof.Proof.Gen.KernelIdeal
import proofs.«137925_j52501680226462_1_alg».proof.Proof.Gen.KernelIdeal.Skeleton
import proofs.«137925_j52501680226462_1_alg».proof.Proof.Gen.KernelIdeal.Launch
import proofs.«137925_j52501680226462_1_alg».proof.Proof.Gen.KernelIdeal.Points
import proofs.«137925_j52501680226462_1_alg».proof.Proof.Gen.KernelIdeal.Frame
import proofs.«137925_j52501680226462_1_alg».proof.Proof.Gen.ReferenceIdeal
import proofs.«137925_j52501680226462_1_alg».proof.Proof.Gen.Pre_finite_inputs
import proofs.«137925_j52501680226462_1_alg».proof.Proof.KernelRun
import proofs.«137925_j52501680226462_1_alg».proof.Proof.RefRun
import proofs.«137925_j52501680226462_1_alg».proof.Proof.RefFrame
import proofs.«137925_j52501680226462_1_alg».proof.Proof.RSide
import proofs.«137925_j52501680226462_1_alg».proof.Proof.BridgeBase
import proofs.«137925_j52501680226462_1_alg».proof.Proof.BridgeTotal
import Idealize.ShloMosaic.Adequacy
import Idealize.ShloMosaic.Init

noncomputable section

open Idealize.ShloMosaic Idealize.ShloMosaic.TcCoe Idealize.SL.Sem

/-! ## The claims -/

namespace Cert.Proof

/-- The algebraic claim's hypothesis on one device is the agreement of the two launch valuations on the nineteen
    arguments: each field is the matching equation read right to left. -/
theorem agree_of (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) :
    Cert.Bridge.Agree m g c m' := by
  obtain ⟨h0, h1, h2, h3, h4, h5, h6, h7, h8, h9, h10, h11, h12, h13, h14, h15, h16, h17, h18⟩ := h
  exact ⟨h0.symm, h1.symm, h2.symm, h3.symm, h4.symm, h5.symm, h6.symm, h7.symm, h8.symm, h9.symm, h10.symm, h11.symm, h12.symm, h13.symm, h14.symm, h15.symm, h16.symm, h17.symm, h18.symm⟩

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m g _ => Cert.ReferenceIdeal.RefFrame.frame_ref (F := Ideal) m g

/-- The idealization rewrote no operation: nothing to preserve. -/
theorem preserves : Cert.preserves_Kernel_KernelIdeal := trivial

/-- At the ideal instance: the kernel's run ends with its result buffer at the last boundary's contents, the
    reference's with its result buffer at the fold of its operations; from memories agreeing on the arguments the two
    are equal, and each run leaves its arguments as launched. -/
theorem algebraic : Cert.algebraic_KernelIdeal_ReferenceIdeal := by
  intro m g m' g' _ hagree
  refine ⟨fun c => Cert.KernelIdeal.Gen.W15 m g c (Proc.devRef .tc Cert.KernelIdeal.main_v158), Cert.KernelIdeal.KRun.run_value (F := Ideal) m g, ?_⟩
  refine (θ_run Cert.ReferenceIdeal.defs _ _).mono (fun _ h c => ⟨?_,
      (h c Cert.ReferenceIdeal.main_arg0).trans (Cert.ReferenceIdeal.RefFrame.kept_arg0 _),
      (h c Cert.ReferenceIdeal.main_arg1).trans (Cert.ReferenceIdeal.RefFrame.kept_arg1 _),
      (h c Cert.ReferenceIdeal.main_arg2).trans (Cert.ReferenceIdeal.RefFrame.kept_arg2 _),
      (h c Cert.ReferenceIdeal.main_arg3).trans (Cert.ReferenceIdeal.RefFrame.kept_arg3 _),
      (h c Cert.ReferenceIdeal.main_arg4).trans (Cert.ReferenceIdeal.RefFrame.kept_arg4 _),
      (h c Cert.ReferenceIdeal.main_arg5).trans (Cert.ReferenceIdeal.RefFrame.kept_arg5 _),
      (h c Cert.ReferenceIdeal.main_arg6).trans (Cert.ReferenceIdeal.RefFrame.kept_arg6 _),
      (h c Cert.ReferenceIdeal.main_arg7).trans (Cert.ReferenceIdeal.RefFrame.kept_arg7 _),
      (h c Cert.ReferenceIdeal.main_arg8).trans (Cert.ReferenceIdeal.RefFrame.kept_arg8 _),
      (h c Cert.ReferenceIdeal.main_arg9).trans (Cert.ReferenceIdeal.RefFrame.kept_arg9 _),
      (h c Cert.ReferenceIdeal.main_arg10).trans (Cert.ReferenceIdeal.RefFrame.kept_arg10 _),
      (h c Cert.ReferenceIdeal.main_arg11).trans (Cert.ReferenceIdeal.RefFrame.kept_arg11 _),
      (h c Cert.ReferenceIdeal.main_arg12).trans (Cert.ReferenceIdeal.RefFrame.kept_arg12 _),
      (h c Cert.ReferenceIdeal.main_arg13).trans (Cert.ReferenceIdeal.RefFrame.kept_arg13 _),
      (h c Cert.ReferenceIdeal.main_arg14).trans (Cert.ReferenceIdeal.RefFrame.kept_arg14 _),
      (h c Cert.ReferenceIdeal.main_arg15).trans (Cert.ReferenceIdeal.RefFrame.kept_arg15 _),
      (h c Cert.ReferenceIdeal.main_arg16).trans (Cert.ReferenceIdeal.RefFrame.kept_arg16 _),
      (h c Cert.ReferenceIdeal.main_arg17).trans (Cert.ReferenceIdeal.RefFrame.kept_arg17 _),
      (h c Cert.ReferenceIdeal.main_arg18).trans (Cert.ReferenceIdeal.RefFrame.kept_arg18 _)⟩)
    (Cert.ReferenceIdeal.RefRun.run_raw (F := Ideal) m' g')
  exact (h c Cert.ReferenceIdeal.main_v254).trans ((congrFun (Cert.ReferenceIdeal.RSide.final_eq m' c) _).trans
    (Cert.Bridge.total m g c m' (agree_of m g m' c (hagree c))).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
